-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x120000 : Shape := ⟨2, ![512, 120000]⟩
abbrev S2x7200000 : Shape := ⟨2, ![2, 7200000]⟩
abbrev S7200000 : Shape := ⟨1, ![7200000]⟩
abbrev S600 : Shape := ⟨1, ![600]⟩
abbrev S2x36000 : Shape := ⟨2, ![2, 36000]⟩
abbrev S36000 : Shape := ⟨1, ![36000]⟩
abbrev S2x18000 : Shape := ⟨2, ![2, 18000]⟩
abbrev S18000 : Shape := ⟨1, ![18000]⟩
abbrev S300 : Shape := ⟨1, ![300]⟩
abbrev S2x6000 : Shape := ⟨2, ![2, 6000]⟩
abbrev S6000 : Shape := ⟨1, ![6000]⟩
abbrev S200 : Shape := ⟨1, ![200]⟩
abbrev S2x4000 : Shape := ⟨2, ![2, 4000]⟩
abbrev S4000 : Shape := ⟨1, ![4000]⟩
abbrev S_ : Shape := ⟨0, ![]⟩
abbrev S1x7200000 : Shape := ⟨2, ![1, 7200000]⟩
abbrev S1x36000 : Shape := ⟨2, ![1, 36000]⟩
abbrev S1x18000 : Shape := ⟨2, ![1, 18000]⟩
abbrev S1x6000 : Shape := ⟨2, ![1, 6000]⟩
abbrev S1x4000 : Shape := ⟨2, ![1, 4000]⟩

class Facts : Prop where
  bcast_S_S512x120000 : S_.BroadcastsInDim S512x120000 (![] : Fin 0 → Fin S512x120000.rank)
  reducesTo_S512x120000_S_d0_1 : S512x120000.ReducesTo [0, 1] S_
  h_S_ : 0 < S_.numel
  bcast_S_S7200000 : S_.BroadcastsInDim S7200000 (![] : Fin 0 → Fin S7200000.rank)
  reducesTo_S7200000_S_d0 : S7200000.ReducesTo [0] S_
  bcast_S_S600 : S_.BroadcastsInDim S600 (![] : Fin 0 → Fin S600.rank)
  reducesTo_S600_S_d0 : S600.ReducesTo [0] S_
  bcast_S_S36000 : S_.BroadcastsInDim S36000 (![] : Fin 0 → Fin S36000.rank)
  reducesTo_S36000_S_d0 : S36000.ReducesTo [0] S_
  bcast_S_S18000 : S_.BroadcastsInDim S18000 (![] : Fin 0 → Fin S18000.rank)
  reducesTo_S18000_S_d0 : S18000.ReducesTo [0] S_
  bcast_S_S300 : S_.BroadcastsInDim S300 (![] : Fin 0 → Fin S300.rank)
  reducesTo_S300_S_d0 : S300.ReducesTo [0] S_
  bcast_S_S6000 : S_.BroadcastsInDim S6000 (![] : Fin 0 → Fin S6000.rank)
  reducesTo_S6000_S_d0 : S6000.ReducesTo [0] S_
  bcast_S_S200 : S_.BroadcastsInDim S200 (![] : Fin 0 → Fin S200.rank)
  reducesTo_S200_S_d0 : S200.ReducesTo [0] S_
  bcast_S_S4000 : S_.BroadcastsInDim S4000 (![] : Fin 0 → Fin S4000.rank)
  reducesTo_S4000_S_d0 : S4000.ReducesTo [0] S_
  slices_S2x7200000_S1x7200000_0_0 : S2x7200000.Slices ![0, 0] S1x7200000
  shapeCasts_S1x7200000_S7200000 : S1x7200000.ShapeCasts S7200000
  slices_S2x7200000_S1x7200000_1_0 : S2x7200000.Slices ![1, 0] S1x7200000
  slices_S2x36000_S1x36000_0_0 : S2x36000.Slices ![0, 0] S1x36000
  shapeCasts_S1x36000_S36000 : S1x36000.ShapeCasts S36000
  slices_S2x36000_S1x36000_1_0 : S2x36000.Slices ![1, 0] S1x36000
  slices_S2x18000_S1x18000_0_0 : S2x18000.Slices ![0, 0] S1x18000
  shapeCasts_S1x18000_S18000 : S1x18000.ShapeCasts S18000
  slices_S2x18000_S1x18000_1_0 : S2x18000.Slices ![1, 0] S1x18000
  slices_S2x6000_S1x6000_0_0 : S2x6000.Slices ![0, 0] S1x6000
  shapeCasts_S1x6000_S6000 : S1x6000.ShapeCasts S6000
  slices_S2x6000_S1x6000_1_0 : S2x6000.Slices ![1, 0] S1x6000
  slices_S2x4000_S1x4000_0_0 : S2x4000.Slices ![0, 0] S1x4000
  shapeCasts_S1x4000_S4000 : S1x4000.ShapeCasts S4000
  slices_S2x4000_S1x4000_1_0 : S2x4000.Slices ![1, 0] S1x4000

variable [Facts]

def fn_part10 {F : FTy → Type} [FloatOps F] (main_v167 : IVec S_ 1) (main_v181 : IVec S4000 1) (main_v182 : IVec S1x4000 32) : IVec S_ 1 :=
  let main_v183 : IVec S4000 32 := shapeCast S4000 main_v182 shapeCasts_S1x4000_S4000
  let main_c_55 : IVec S_ 32 := constantI S_ 32 200#32
  let main_v184 : IVec S4000 32 := broadcastInDim S4000 ![] bcast_S_S4000 main_c_55
  let main_v185 : IVec S4000 1 := cmpi .slt main_v183 main_v184
  let main_v186 : IVec S4000 1 := andi main_v181 main_v185
  let main_c_56 : IVec S_ 1 := constantI S_ 1 1#1
  let main_v187 : IVec S_ 1 := (fun x v => Host.reduce IntOp.andi x v reducesTo_S4000_S_d0 h_S_) main_v186 main_c_56
  let main_v188 : IVec S_ 1 := andi main_v167 main_v187
  main_v188

def fn_part9 {F : FTy → Type} [FloatOps F] (main_arg13 : IVec S2x4000 32) (main_v146 : IVec S_ 1) (main_v160 : IVec S6000 1) (main_v162 : IVec S6000 32) (main_c_50 : IVec S_ 32) : IVec S_ 1 :=
  let main_v163 : IVec S6000 32 := broadcastInDim S6000 ![] bcast_S_S6000 main_c_50
  let main_v164 : IVec S6000 1 := cmpi .slt main_v162 main_v163
  let main_v165 : IVec S6000 1 := andi main_v160 main_v164
  let main_c_51 : IVec S_ 1 := constantI S_ 1 1#1
  let main_v166 : IVec S_ 1 := (fun x v => Host.reduce IntOp.andi x v reducesTo_S6000_S_d0 h_S_) main_v165 main_c_51
  let main_v167 : IVec S_ 1 := andi main_v146 main_v166
  let main_v168 : IVec S1x4000 32 := (extractStridedSlice S1x4000 ![0, 0] · slices_S2x4000_S1x4000_0_0) main_arg13
  let main_v169 : IVec S4000 32 := shapeCast S4000 main_v168 shapeCasts_S1x4000_S4000
  let main_c_52 : IVec S_ 32 := constantI S_ 32 0#32
  let main_v170 : IVec S4000 32 := broadcastInDim S4000 ![] bcast_S_S4000 main_c_52
  let main_v171 : IVec S4000 1 := cmpi .sge main_v169 main_v170
  let main_v172 : IVec S1x4000 32 := (extractStridedSlice S1x4000 ![0, 0] · slices_S2x4000_S1x4000_0_0) main_arg13
  let main_v173 : IVec S4000 32 := shapeCast S4000 main_v172 shapeCasts_S1x4000_S4000
  let main_c_53 : IVec S_ 32 := constantI S_ 32 200#32
  let main_v174 : IVec S4000 32 := broadcastInDim S4000 ![] bcast_S_S4000 main_c_53
  let main_v175 : IVec S4000 1 := cmpi .slt main_v173 main_v174
  let main_v176 : IVec S4000 1 := andi main_v171 main_v175
  let main_v177 : IVec S1x4000 32 := (extractStridedSlice S1x4000 ![1, 0] · slices_S2x4000_S1x4000_1_0) main_arg13
  let main_v178 : IVec S4000 32 := shapeCast S4000 main_v177 shapeCasts_S1x4000_S4000
  let main_c_54 : IVec S_ 32 := constantI S_ 32 0#32
  let main_v179 : IVec S4000 32 := broadcastInDim S4000 ![] bcast_S_S4000 main_c_54
  let main_v180 : IVec S4000 1 := cmpi .sge main_v178 main_v179
  let main_v181 : IVec S4000 1 := andi main_v176 main_v180
  let main_v182 : IVec S1x4000 32 := (extractStridedSlice S1x4000 ![1, 0] · slices_S2x4000_S1x4000_1_0) main_arg13
  fn_part10 (F := F) main_v167 main_v181 main_v182

def fn_part8 {F : FTy → Type} [FloatOps F] (main_arg10 : IVec S2x6000 32) (main_arg13 : IVec S2x4000 32) (main_v125 : IVec S_ 1) (main_v139 : IVec S18000 1) (main_v143 : IVec S18000 1) : IVec S_ 1 :=
  let main_v144 : IVec S18000 1 := andi main_v139 main_v143
  let main_c_46 : IVec S_ 1 := constantI S_ 1 1#1
  let main_v145 : IVec S_ 1 := (fun x v => Host.reduce IntOp.andi x v reducesTo_S18000_S_d0 h_S_) main_v144 main_c_46
  let main_v146 : IVec S_ 1 := andi main_v125 main_v145
  let main_v147 : IVec S1x6000 32 := (extractStridedSlice S1x6000 ![0, 0] · slices_S2x6000_S1x6000_0_0) main_arg10
  let main_v148 : IVec S6000 32 := shapeCast S6000 main_v147 shapeCasts_S1x6000_S6000
  let main_c_47 : IVec S_ 32 := constantI S_ 32 0#32
  let main_v149 : IVec S6000 32 := broadcastInDim S6000 ![] bcast_S_S6000 main_c_47
  let main_v150 : IVec S6000 1 := cmpi .sge main_v148 main_v149
  let main_v151 : IVec S1x6000 32 := (extractStridedSlice S1x6000 ![0, 0] · slices_S2x6000_S1x6000_0_0) main_arg10
  let main_v152 : IVec S6000 32 := shapeCast S6000 main_v151 shapeCasts_S1x6000_S6000
  let main_c_48 : IVec S_ 32 := constantI S_ 32 200#32
  let main_v153 : IVec S6000 32 := broadcastInDim S6000 ![] bcast_S_S6000 main_c_48
  let main_v154 : IVec S6000 1 := cmpi .slt main_v152 main_v153
  let main_v155 : IVec S6000 1 := andi main_v150 main_v154
  let main_v156 : IVec S1x6000 32 := (extractStridedSlice S1x6000 ![1, 0] · slices_S2x6000_S1x6000_1_0) main_arg10
  let main_v157 : IVec S6000 32 := shapeCast S6000 main_v156 shapeCasts_S1x6000_S6000
  let main_c_49 : IVec S_ 32 := constantI S_ 32 0#32
  let main_v158 : IVec S6000 32 := broadcastInDim S6000 ![] bcast_S_S6000 main_c_49
  let main_v159 : IVec S6000 1 := cmpi .sge main_v157 main_v158
  let main_v160 : IVec S6000 1 := andi main_v155 main_v159
  let main_v161 : IVec S1x6000 32 := (extractStridedSlice S1x6000 ![1, 0] · slices_S2x6000_S1x6000_1_0) main_arg10
  let main_v162 : IVec S6000 32 := shapeCast S6000 main_v161 shapeCasts_S1x6000_S6000
  let main_c_50 : IVec S_ 32 := constantI S_ 32 300#32
  fn_part9 (F := F) main_arg13 main_v146 main_v160 main_v162 main_c_50

def fn_part7 {F : FTy → Type} [FloatOps F] (main_arg7 : IVec S2x18000 32) (main_arg10 : IVec S2x6000 32) (main_arg13 : IVec S2x4000 32) (main_v104 : IVec S_ 1) (main_v123 : IVec S36000 1) (main_c_41 : IVec S_ 1) : IVec S_ 1 :=
  let main_v124 : IVec S_ 1 := (fun x v => Host.reduce IntOp.andi x v reducesTo_S36000_S_d0 h_S_) main_v123 main_c_41
  let main_v125 : IVec S_ 1 := andi main_v104 main_v124
  let main_v126 : IVec S1x18000 32 := (extractStridedSlice S1x18000 ![0, 0] · slices_S2x18000_S1x18000_0_0) main_arg7
  let main_v127 : IVec S18000 32 := shapeCast S18000 main_v126 shapeCasts_S1x18000_S18000
  let main_c_42 : IVec S_ 32 := constantI S_ 32 0#32
  let main_v128 : IVec S18000 32 := broadcastInDim S18000 ![] bcast_S_S18000 main_c_42
  let main_v129 : IVec S18000 1 := cmpi .sge main_v127 main_v128
  let main_v130 : IVec S1x18000 32 := (extractStridedSlice S1x18000 ![0, 0] · slices_S2x18000_S1x18000_0_0) main_arg7
  let main_v131 : IVec S18000 32 := shapeCast S18000 main_v130 shapeCasts_S1x18000_S18000
  let main_c_43 : IVec S_ 32 := constantI S_ 32 300#32
  let main_v132 : IVec S18000 32 := broadcastInDim S18000 ![] bcast_S_S18000 main_c_43
  let main_v133 : IVec S18000 1 := cmpi .slt main_v131 main_v132
  let main_v134 : IVec S18000 1 := andi main_v129 main_v133
  let main_v135 : IVec S1x18000 32 := (extractStridedSlice S1x18000 ![1, 0] · slices_S2x18000_S1x18000_1_0) main_arg7
  let main_v136 : IVec S18000 32 := shapeCast S18000 main_v135 shapeCasts_S1x18000_S18000
  let main_c_44 : IVec S_ 32 := constantI S_ 32 0#32
  let main_v137 : IVec S18000 32 := broadcastInDim S18000 ![] bcast_S_S18000 main_c_44
  let main_v138 : IVec S18000 1 := cmpi .sge main_v136 main_v137
  let main_v139 : IVec S18000 1 := andi main_v134 main_v138
  let main_v140 : IVec S1x18000 32 := (extractStridedSlice S1x18000 ![1, 0] · slices_S2x18000_S1x18000_1_0) main_arg7
  let main_v141 : IVec S18000 32 := shapeCast S18000 main_v140 shapeCasts_S1x18000_S18000
  let main_c_45 : IVec S_ 32 := constantI S_ 32 600#32
  let main_v142 : IVec S18000 32 := broadcastInDim S18000 ![] bcast_S_S18000 main_c_45
  let main_v143 : IVec S18000 1 := cmpi .slt main_v141 main_v142
  fn_part8 (F := F) main_arg10 main_arg13 main_v125 main_v139 main_v143

def fn_part6 {F : FTy → Type} [FloatOps F] (main_arg4 : IVec S2x36000 32) (main_arg7 : IVec S2x18000 32) (main_arg10 : IVec S2x6000 32) (main_arg13 : IVec S2x4000 32) (main_v104 : IVec S_ 1) : IVec S_ 1 :=
  let main_v105 : IVec S1x36000 32 := (extractStridedSlice S1x36000 ![0, 0] · slices_S2x36000_S1x36000_0_0) main_arg4
  let main_v106 : IVec S36000 32 := shapeCast S36000 main_v105 shapeCasts_S1x36000_S36000
  let main_c_37 : IVec S_ 32 := constantI S_ 32 0#32
  let main_v107 : IVec S36000 32 := broadcastInDim S36000 ![] bcast_S_S36000 main_c_37
  let main_v108 : IVec S36000 1 := cmpi .sge main_v106 main_v107
  let main_v109 : IVec S1x36000 32 := (extractStridedSlice S1x36000 ![0, 0] · slices_S2x36000_S1x36000_0_0) main_arg4
  let main_v110 : IVec S36000 32 := shapeCast S36000 main_v109 shapeCasts_S1x36000_S36000
  let main_c_38 : IVec S_ 32 := constantI S_ 32 600#32
  let main_v111 : IVec S36000 32 := broadcastInDim S36000 ![] bcast_S_S36000 main_c_38
  let main_v112 : IVec S36000 1 := cmpi .slt main_v110 main_v111
  let main_v113 : IVec S36000 1 := andi main_v108 main_v112
  let main_v114 : IVec S1x36000 32 := (extractStridedSlice S1x36000 ![1, 0] · slices_S2x36000_S1x36000_1_0) main_arg4
  let main_v115 : IVec S36000 32 := shapeCast S36000 main_v114 shapeCasts_S1x36000_S36000
  let main_c_39 : IVec S_ 32 := constantI S_ 32 0#32
  let main_v116 : IVec S36000 32 := broadcastInDim S36000 ![] bcast_S_S36000 main_c_39
  let main_v117 : IVec S36000 1 := cmpi .sge main_v115 main_v116
  let main_v118 : IVec S36000 1 := andi main_v113 main_v117
  let main_v119 : IVec S1x36000 32 := (extractStridedSlice S1x36000 ![1, 0] · slices_S2x36000_S1x36000_1_0) main_arg4
  let main_v120 : IVec S36000 32 := shapeCast S36000 main_v119 shapeCasts_S1x36000_S36000
  let main_c_40 : IVec S_ 32 := constantI S_ 32 600#32
  let main_v121 : IVec S36000 32 := broadcastInDim S36000 ![] bcast_S_S36000 main_c_40
  let main_v122 : IVec S36000 1 := cmpi .slt main_v120 main_v121
  let main_v123 : IVec S36000 1 := andi main_v118 main_v122
  let main_c_41 : IVec S_ 1 := constantI S_ 1 1#1
  fn_part7 (F := F) main_arg7 main_arg10 main_arg13 main_v104 main_v123 main_c_41

def fn_part5 {F : FTy → Type} [FloatOps F] (main_arg1 : IVec S2x7200000 32) (main_arg4 : IVec S2x36000 32) (main_arg7 : IVec S2x18000 32) (main_arg10 : IVec S2x6000 32) (main_arg13 : IVec S2x4000 32) (main_v83 : IVec S_ 1) (main_v85 : IVec S7200000 32) : IVec S_ 1 :=
  let main_c_32 : IVec S_ 32 := constantI S_ 32 0#32
  let main_v86 : IVec S7200000 32 := broadcastInDim S7200000 ![] bcast_S_S7200000 main_c_32
  let main_v87 : IVec S7200000 1 := cmpi .sge main_v85 main_v86
  let main_v88 : IVec S1x7200000 32 := (extractStridedSlice S1x7200000 ![0, 0] · slices_S2x7200000_S1x7200000_0_0) main_arg1
  let main_v89 : IVec S7200000 32 := shapeCast S7200000 main_v88 shapeCasts_S1x7200000_S7200000
  let main_c_33 : IVec S_ 32 := constantI S_ 32 600#32
  let main_v90 : IVec S7200000 32 := broadcastInDim S7200000 ![] bcast_S_S7200000 main_c_33
  let main_v91 : IVec S7200000 1 := cmpi .slt main_v89 main_v90
  let main_v92 : IVec S7200000 1 := andi main_v87 main_v91
  let main_v93 : IVec S1x7200000 32 := (extractStridedSlice S1x7200000 ![1, 0] · slices_S2x7200000_S1x7200000_1_0) main_arg1
  let main_v94 : IVec S7200000 32 := shapeCast S7200000 main_v93 shapeCasts_S1x7200000_S7200000
  let main_c_34 : IVec S_ 32 := constantI S_ 32 0#32
  let main_v95 : IVec S7200000 32 := broadcastInDim S7200000 ![] bcast_S_S7200000 main_c_34
  let main_v96 : IVec S7200000 1 := cmpi .sge main_v94 main_v95
  let main_v97 : IVec S7200000 1 := andi main_v92 main_v96
  let main_v98 : IVec S1x7200000 32 := (extractStridedSlice S1x7200000 ![1, 0] · slices_S2x7200000_S1x7200000_1_0) main_arg1
  let main_v99 : IVec S7200000 32 := shapeCast S7200000 main_v98 shapeCasts_S1x7200000_S7200000
  let main_c_35 : IVec S_ 32 := constantI S_ 32 120000#32
  let main_v100 : IVec S7200000 32 := broadcastInDim S7200000 ![] bcast_S_S7200000 main_c_35
  let main_v101 : IVec S7200000 1 := cmpi .slt main_v99 main_v100
  let main_v102 : IVec S7200000 1 := andi main_v97 main_v101
  let main_c_36 : IVec S_ 1 := constantI S_ 1 1#1
  let main_v103 : IVec S_ 1 := (fun x v => Host.reduce IntOp.andi x v reducesTo_S7200000_S_d0 h_S_) main_v102 main_c_36
  let main_v104 : IVec S_ 1 := andi main_v83 main_v103
  fn_part6 (F := F) main_arg4 main_arg7 main_arg10 main_arg13 main_v104

def fn_part4 {F : FTy → Type} [FloatOps F] (main_arg1 : IVec S2x7200000 32) (main_arg4 : IVec S2x36000 32) (main_arg7 : IVec S2x18000 32) (main_arg10 : IVec S2x6000 32) (main_arg13 : IVec S2x4000 32) (main_arg19 : FVec F S300 .f32) (main_arg20 : FVec F S200 .f32) (main_arg21 : FVec F S200 .f32) (main_v63 : IVec S_ 1) (main_v67 : IVec S_ 1) : IVec S_ 1 :=
  let main_v68 : IVec S_ 1 := andi main_v63 main_v67
  let main_v69 : FVec F S300 .f32 := Host.absf main_arg19
  let main_cst_26 : FVec F S_ .f32 := constant S_ .f32 0x7F800000#32
  let main_v70 : FVec F S300 .f32 := broadcastInDim S300 ![] bcast_S_S300 main_cst_26
  let main_v71 : IVec S300 1 := cmpf .olt main_v69 main_v70
  let main_c_27 : IVec S_ 1 := constantI S_ 1 1#1
  let main_v72 : IVec S_ 1 := (fun x v => Host.reduce IntOp.andi x v reducesTo_S300_S_d0 h_S_) main_v71 main_c_27
  let main_v73 : IVec S_ 1 := andi main_v68 main_v72
  let main_v74 : FVec F S200 .f32 := Host.absf main_arg20
  let main_cst_28 : FVec F S_ .f32 := constant S_ .f32 0x7F800000#32
  let main_v75 : FVec F S200 .f32 := broadcastInDim S200 ![] bcast_S_S200 main_cst_28
  let main_v76 : IVec S200 1 := cmpf .olt main_v74 main_v75
  let main_c_29 : IVec S_ 1 := constantI S_ 1 1#1
  let main_v77 : IVec S_ 1 := (fun x v => Host.reduce IntOp.andi x v reducesTo_S200_S_d0 h_S_) main_v76 main_c_29
  let main_v78 : IVec S_ 1 := andi main_v73 main_v77
  let main_v79 : FVec F S200 .f32 := Host.absf main_arg21
  let main_cst_30 : FVec F S_ .f32 := constant S_ .f32 0x7F800000#32
  let main_v80 : FVec F S200 .f32 := broadcastInDim S200 ![] bcast_S_S200 main_cst_30
  let main_v81 : IVec S200 1 := cmpf .olt main_v79 main_v80
  let main_c_31 : IVec S_ 1 := constantI S_ 1 1#1
  let main_v82 : IVec S_ 1 := (fun x v => Host.reduce IntOp.andi x v reducesTo_S200_S_d0 h_S_) main_v81 main_c_31
  let main_v83 : IVec S_ 1 := andi main_v78 main_v82
  let main_v84 : IVec S1x7200000 32 := (extractStridedSlice S1x7200000 ![0, 0] · slices_S2x7200000_S1x7200000_0_0) main_arg1
  let main_v85 : IVec S7200000 32 := shapeCast S7200000 main_v84 shapeCasts_S1x7200000_S7200000
  fn_part5 (F := F) main_arg1 main_arg4 main_arg7 main_arg10 main_arg13 main_v83 main_v85

def fn_part3 {F : FTy → Type} [FloatOps F] (main_arg1 : IVec S2x7200000 32) (main_arg4 : IVec S2x36000 32) (main_arg7 : IVec S2x18000 32) (main_arg10 : IVec S2x6000 32) (main_arg13 : IVec S2x4000 32) (main_arg16 : FVec F S600 .f32) (main_arg17 : FVec F S600 .f32) (main_arg18 : FVec F S300 .f32) (main_arg19 : FVec F S300 .f32) (main_arg20 : FVec F S200 .f32) (main_arg21 : FVec F S200 .f32) (main_v48 : IVec S_ 1) (main_v49 : FVec F S200 .f32) (main_v50 : FVec F S200 .f32) : IVec S_ 1 :=
  let main_v51 : IVec S200 1 := cmpf .olt main_v49 main_v50
  let main_c_19 : IVec S_ 1 := constantI S_ 1 1#1
  let main_v52 : IVec S_ 1 := (fun x v => Host.reduce IntOp.andi x v reducesTo_S200_S_d0 h_S_) main_v51 main_c_19
  let main_v53 : IVec S_ 1 := andi main_v48 main_v52
  let main_v54 : FVec F S600 .f32 := Host.absf main_arg16
  let main_cst_20 : FVec F S_ .f32 := constant S_ .f32 0x7F800000#32
  let main_v55 : FVec F S600 .f32 := broadcastInDim S600 ![] bcast_S_S600 main_cst_20
  let main_v56 : IVec S600 1 := cmpf .olt main_v54 main_v55
  let main_c_21 : IVec S_ 1 := constantI S_ 1 1#1
  let main_v57 : IVec S_ 1 := (fun x v => Host.reduce IntOp.andi x v reducesTo_S600_S_d0 h_S_) main_v56 main_c_21
  let main_v58 : IVec S_ 1 := andi main_v53 main_v57
  let main_v59 : FVec F S600 .f32 := Host.absf main_arg17
  let main_cst_22 : FVec F S_ .f32 := constant S_ .f32 0x7F800000#32
  let main_v60 : FVec F S600 .f32 := broadcastInDim S600 ![] bcast_S_S600 main_cst_22
  let main_v61 : IVec S600 1 := cmpf .olt main_v59 main_v60
  let main_c_23 : IVec S_ 1 := constantI S_ 1 1#1
  let main_v62 : IVec S_ 1 := (fun x v => Host.reduce IntOp.andi x v reducesTo_S600_S_d0 h_S_) main_v61 main_c_23
  let main_v63 : IVec S_ 1 := andi main_v58 main_v62
  let main_v64 : FVec F S300 .f32 := Host.absf main_arg18
  let main_cst_24 : FVec F S_ .f32 := constant S_ .f32 0x7F800000#32
  let main_v65 : FVec F S300 .f32 := broadcastInDim S300 ![] bcast_S_S300 main_cst_24
  let main_v66 : IVec S300 1 := cmpf .olt main_v64 main_v65
  let main_c_25 : IVec S_ 1 := constantI S_ 1 1#1
  let main_v67 : IVec S_ 1 := (fun x v => Host.reduce IntOp.andi x v reducesTo_S300_S_d0 h_S_) main_v66 main_c_25
  fn_part4 (F := F) main_arg1 main_arg4 main_arg7 main_arg10 main_arg13 main_arg19 main_arg20 main_arg21 main_v63 main_v67

def fn_part2 {F : FTy → Type} [FloatOps F] (main_arg1 : IVec S2x7200000 32) (main_arg4 : IVec S2x36000 32) (main_arg7 : IVec S2x18000 32) (main_arg10 : IVec S2x6000 32) (main_arg11 : FVec F S6000 .f32) (main_arg12 : FVec F S200 .f32) (main_arg13 : IVec S2x4000 32) (main_arg14 : FVec F S4000 .f32) (main_arg15 : FVec F S200 .f32) (main_arg16 : FVec F S600 .f32) (main_arg17 : FVec F S600 .f32) (main_arg18 : FVec F S300 .f32) (main_arg19 : FVec F S300 .f32) (main_arg20 : FVec F S200 .f32) (main_arg21 : FVec F S200 .f32) (main_v33 : IVec S_ 1) : IVec S_ 1 :=
  let main_v34 : FVec F S6000 .f32 := Host.absf main_arg11
  let main_cst_12 : FVec F S_ .f32 := constant S_ .f32 0x7F800000#32
  let main_v35 : FVec F S6000 .f32 := broadcastInDim S6000 ![] bcast_S_S6000 main_cst_12
  let main_v36 : IVec S6000 1 := cmpf .olt main_v34 main_v35
  let main_c_13 : IVec S_ 1 := constantI S_ 1 1#1
  let main_v37 : IVec S_ 1 := (fun x v => Host.reduce IntOp.andi x v reducesTo_S6000_S_d0 h_S_) main_v36 main_c_13
  let main_v38 : IVec S_ 1 := andi main_v33 main_v37
  let main_v39 : FVec F S200 .f32 := Host.absf main_arg12
  let main_cst_14 : FVec F S_ .f32 := constant S_ .f32 0x7F800000#32
  let main_v40 : FVec F S200 .f32 := broadcastInDim S200 ![] bcast_S_S200 main_cst_14
  let main_v41 : IVec S200 1 := cmpf .olt main_v39 main_v40
  let main_c_15 : IVec S_ 1 := constantI S_ 1 1#1
  let main_v42 : IVec S_ 1 := (fun x v => Host.reduce IntOp.andi x v reducesTo_S200_S_d0 h_S_) main_v41 main_c_15
  let main_v43 : IVec S_ 1 := andi main_v38 main_v42
  let main_v44 : FVec F S4000 .f32 := Host.absf main_arg14
  let main_cst_16 : FVec F S_ .f32 := constant S_ .f32 0x7F800000#32
  let main_v45 : FVec F S4000 .f32 := broadcastInDim S4000 ![] bcast_S_S4000 main_cst_16
  let main_v46 : IVec S4000 1 := cmpf .olt main_v44 main_v45
  let main_c_17 : IVec S_ 1 := constantI S_ 1 1#1
  let main_v47 : IVec S_ 1 := (fun x v => Host.reduce IntOp.andi x v reducesTo_S4000_S_d0 h_S_) main_v46 main_c_17
  let main_v48 : IVec S_ 1 := andi main_v43 main_v47
  let main_v49 : FVec F S200 .f32 := Host.absf main_arg15
  let main_cst_18 : FVec F S_ .f32 := constant S_ .f32 0x7F800000#32
  let main_v50 : FVec F S200 .f32 := broadcastInDim S200 ![] bcast_S_S200 main_cst_18
  fn_part3 (F := F) main_arg1 main_arg4 main_arg7 main_arg10 main_arg13 main_arg16 main_arg17 main_arg18 main_arg19 main_arg20 main_arg21 main_v48 main_v49 main_v50

def fn_part1 {F : FTy → Type} [FloatOps F] (main_arg1 : IVec S2x7200000 32) (main_arg4 : IVec S2x36000 32) (main_arg6 : FVec F S600 .f32) (main_arg7 : IVec S2x18000 32) (main_arg8 : FVec F S18000 .f32) (main_arg9 : FVec F S300 .f32) (main_arg10 : IVec S2x6000 32) (main_arg11 : FVec F S6000 .f32) (main_arg12 : FVec F S200 .f32) (main_arg13 : IVec S2x4000 32) (main_arg14 : FVec F S4000 .f32) (main_arg15 : FVec F S200 .f32) (main_arg16 : FVec F S600 .f32) (main_arg17 : FVec F S600 .f32) (main_arg18 : FVec F S300 .f32) (main_arg19 : FVec F S300 .f32) (main_arg20 : FVec F S200 .f32) (main_arg21 : FVec F S200 .f32) (main_v13 : IVec S_ 1) (main_v16 : IVec S36000 1) : IVec S_ 1 :=
  let main_c_5 : IVec S_ 1 := constantI S_ 1 1#1
  let main_v17 : IVec S_ 1 := (fun x v => Host.reduce IntOp.andi x v reducesTo_S36000_S_d0 h_S_) main_v16 main_c_5
  let main_v18 : IVec S_ 1 := andi main_v13 main_v17
  let main_v19 : FVec F S600 .f32 := Host.absf main_arg6
  let main_cst_6 : FVec F S_ .f32 := constant S_ .f32 0x7F800000#32
  let main_v20 : FVec F S600 .f32 := broadcastInDim S600 ![] bcast_S_S600 main_cst_6
  let main_v21 : IVec S600 1 := cmpf .olt main_v19 main_v20
  let main_c_7 : IVec S_ 1 := constantI S_ 1 1#1
  let main_v22 : IVec S_ 1 := (fun x v => Host.reduce IntOp.andi x v reducesTo_S600_S_d0 h_S_) main_v21 main_c_7
  let main_v23 : IVec S_ 1 := andi main_v18 main_v22
  let main_v24 : FVec F S18000 .f32 := Host.absf main_arg8
  let main_cst_8 : FVec F S_ .f32 := constant S_ .f32 0x7F800000#32
  let main_v25 : FVec F S18000 .f32 := broadcastInDim S18000 ![] bcast_S_S18000 main_cst_8
  let main_v26 : IVec S18000 1 := cmpf .olt main_v24 main_v25
  let main_c_9 : IVec S_ 1 := constantI S_ 1 1#1
  let main_v27 : IVec S_ 1 := (fun x v => Host.reduce IntOp.andi x v reducesTo_S18000_S_d0 h_S_) main_v26 main_c_9
  let main_v28 : IVec S_ 1 := andi main_v23 main_v27
  let main_v29 : FVec F S300 .f32 := Host.absf main_arg9
  let main_cst_10 : FVec F S_ .f32 := constant S_ .f32 0x7F800000#32
  let main_v30 : FVec F S300 .f32 := broadcastInDim S300 ![] bcast_S_S300 main_cst_10
  let main_v31 : IVec S300 1 := cmpf .olt main_v29 main_v30
  let main_c_11 : IVec S_ 1 := constantI S_ 1 1#1
  let main_v32 : IVec S_ 1 := (fun x v => Host.reduce IntOp.andi x v reducesTo_S300_S_d0 h_S_) main_v31 main_c_11
  let main_v33 : IVec S_ 1 := andi main_v28 main_v32
  fn_part2 (F := F) main_arg1 main_arg4 main_arg7 main_arg10 main_arg11 main_arg12 main_arg13 main_arg14 main_arg15 main_arg16 main_arg17 main_arg18 main_arg19 main_arg20 main_arg21 main_v33

def fn {F : FTy → Type} [FloatOps F] (main_arg0 : FVec F S512x120000 .f32) (main_arg1 : IVec S2x7200000 32) (main_arg2 : FVec F S7200000 .f32) (main_arg3 : FVec F S600 .f32) (main_arg4 : IVec S2x36000 32) (main_arg5 : FVec F S36000 .f32) (main_arg6 : FVec F S600 .f32) (main_arg7 : IVec S2x18000 32) (main_arg8 : FVec F S18000 .f32) (main_arg9 : FVec F S300 .f32) (main_arg10 : IVec S2x6000 32) (main_arg11 : FVec F S6000 .f32) (main_arg12 : FVec F S200 .f32) (main_arg13 : IVec S2x4000 32) (main_arg14 : FVec F S4000 .f32) (main_arg15 : FVec F S200 .f32) (main_arg16 : FVec F S600 .f32) (main_arg17 : FVec F S600 .f32) (main_arg18 : FVec F S300 .f32) (main_arg19 : FVec F S300 .f32) (main_arg20 : FVec F S200 .f32) (main_arg21 : FVec F S200 .f32) : IVec S_ 1 :=
  let main_v0 : FVec F S512x120000 .f32 := Host.absf main_arg0
  let main_cst : FVec F S_ .f32 := constant S_ .f32 0x7F800000#32
  let main_v1 : FVec F S512x120000 .f32 := broadcastInDim S512x120000 ![] bcast_S_S512x120000 main_cst
  let main_v2 : IVec S512x120000 1 := cmpf .olt main_v0 main_v1
  let main_c : IVec S_ 1 := constantI S_ 1 1#1
  let main_v3 : IVec S_ 1 := (fun x v => Host.reduce IntOp.andi x v reducesTo_S512x120000_S_d0_1 h_S_) main_v2 main_c
  let main_v4 : FVec F S7200000 .f32 := Host.absf main_arg2
  let main_cst_0 : FVec F S_ .f32 := constant S_ .f32 0x7F800000#32
  let main_v5 : FVec F S7200000 .f32 := broadcastInDim S7200000 ![] bcast_S_S7200000 main_cst_0
  let main_v6 : IVec S7200000 1 := cmpf .olt main_v4 main_v5
  let main_c_1 : IVec S_ 1 := constantI S_ 1 1#1
  let main_v7 : IVec S_ 1 := (fun x v => Host.reduce IntOp.andi x v reducesTo_S7200000_S_d0 h_S_) main_v6 main_c_1
  let main_v8 : IVec S_ 1 := andi main_v3 main_v7
  let main_v9 : FVec F S600 .f32 := Host.absf main_arg3
  let main_cst_2 : FVec F S_ .f32 := constant S_ .f32 0x7F800000#32
  let main_v10 : FVec F S600 .f32 := broadcastInDim S600 ![] bcast_S_S600 main_cst_2
  let main_v11 : IVec S600 1 := cmpf .olt main_v9 main_v10
  let main_c_3 : IVec S_ 1 := constantI S_ 1 1#1
  let main_v12 : IVec S_ 1 := (fun x v => Host.reduce IntOp.andi x v reducesTo_S600_S_d0 h_S_) main_v11 main_c_3
  let main_v13 : IVec S_ 1 := andi main_v8 main_v12
  let main_v14 : FVec F S36000 .f32 := Host.absf main_arg5
  let main_cst_4 : FVec F S_ .f32 := constant S_ .f32 0x7F800000#32
  let main_v15 : FVec F S36000 .f32 := broadcastInDim S36000 ![] bcast_S_S36000 main_cst_4
  let main_v16 : IVec S36000 1 := cmpf .olt main_v14 main_v15
  fn_part1 (F := F) main_arg1 main_arg4 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S512x120000 : Shape := ⟨2, ![512, 120000]⟩
abbrev S2x7200000 : Shape := ⟨2, ![2, 7200000]⟩
abbrev S7200000 : Shape := ⟨1, ![7200000]⟩
abbrev S600 : Shape := ⟨1, ![600]⟩
abbrev S2x36000 : Shape := ⟨2, ![2, 36000]⟩
abbrev S36000 : Shape := ⟨1, ![36000]⟩
abbrev S2x18000 : Shape := ⟨2, ![2, 18000]⟩
abbrev S18000 : Shape := ⟨1, ![18000]⟩
abbrev S300 : Shape := ⟨1, ![300]⟩
abbrev S2x6000 : Shape := ⟨2, ![2, 6000]⟩
abbrev S6000 : Shape := ⟨1, ![6000]⟩
abbrev S200 : Shape := ⟨1, ![200]⟩
abbrev S2x4000 : Shape := ⟨2, ![2, 4000]⟩
abbrev S4000 : Shape := ⟨1, ![4000]⟩
abbrev S_ : Shape := ⟨0, ![]⟩
abbrev S512x122880 : Shape := ⟨2, ![512, 122880]⟩
abbrev S122880x768 : Shape := ⟨2, ![122880, 768]⟩
abbrev S1x7200000 : Shape := ⟨2, ![1, 7200000]⟩
abbrev S7200000x1 : Shape := ⟨2, ![7200000, 1]⟩
abbrev S7200000x2 : Shape := ⟨2, ![7200000, 2]⟩
abbrev S768 : Shape := ⟨1, ![768]⟩
abbrev S1x768 : Shape := ⟨2, ![1, 768]⟩
abbrev S512x768 : Shape := ⟨2, ![512, 768]⟩
abbrev S512x8192 : Shape := ⟨2, ![512, 8192]⟩
abbrev S8192x384 : Shape := ⟨2, ![8192, 384]⟩
abbrev S1x384 : Shape := ⟨2, ![1, 384]⟩
abbrev S512x384 : Shape := ⟨2, ![512, 384]⟩
abbrev S384 : Shape := ⟨1, ![384]⟩
abbrev S768x768 : Shape := ⟨2, ![768, 768]⟩
abbrev S1x36000 : Shape := ⟨2, ![1, 36000]⟩
abbrev S36000x1 : Shape := ⟨2, ![36000, 1]⟩
abbrev S36000x2 : Shape := ⟨2, ![36000, 2]⟩
abbrev S768x384 : Shape := ⟨2, ![768, 384]⟩
abbrev S1x18000 : Shape := ⟨2, ![1, 18000]⟩
abbrev S18000x1 : Shape := ⟨2, ![18000, 1]⟩
abbrev S18000x2 : Shape := ⟨2, ![18000, 2]⟩
abbrev S384x256 : Shape := ⟨2, ![384, 256]⟩
abbrev S1x6000 : Shape := ⟨2, ![1, 6000]⟩
abbrev S6000x1 : Shape := ⟨2, ![6000, 1]⟩
abbrev S6000x2 : Shape := ⟨2, ![6000, 2]⟩
abbrev S256x256 : Shape := ⟨2, ![256, 256]⟩
abbrev S1x4000 : Shape := ⟨2, ![1, 4000]⟩
abbrev S4000x1 : Shape := ⟨2, ![4000, 1]⟩
abbrev S4000x2 : Shape := ⟨2, ![4000, 2]⟩
abbrev S256 : Shape := ⟨1, ![256]⟩
abbrev S1x256 : Shape := ⟨2, ![1, 256]⟩
abbrev S512x256 : Shape := ⟨2, ![512, 256]⟩
abbrev S512x200 : Shape := ⟨2, ![512, 200]⟩

abbrev nBuf : Space → Nat
  | .hbm => 199
  | .vmem => 27
  | .smem => 0
  | _ => 0

abbrev hbmTy0_0 (i : Nat) : BufTy := match i % 128 with
  | 0 => ⟨S512x120000, .f32⟩
  | 1 => ⟨S2x7200000, .i32⟩
  | 2 => ⟨S7200000, .f32⟩
  | 3 => ⟨S600, .f32⟩
  | 4 => ⟨S2x36000, .i32⟩
  | 5 => ⟨S36000, .f32⟩
  | 6 => ⟨S600, .f32⟩
  | 7 => ⟨S2x18000, .i32⟩
  | 8 => ⟨S18000, .f32⟩
  | 9 => ⟨S300, .f32⟩
  | 10 => ⟨S2x6000, .i32⟩
  | 11 => ⟨S6000, .f32⟩
  | 12 => ⟨S200, .f32⟩
  | 13 => ⟨S2x4000, .i32⟩
  | 14 => ⟨S4000, .f32⟩
  | 15 => ⟨S200, .f32⟩
  | 16 => ⟨S600, .f32⟩
  | 17 => ⟨S600, .f32⟩
  | 18 => ⟨S300, .f32⟩
  | 19 => ⟨S300, .f32⟩
  | 20 => ⟨S200, .f32⟩
  | 21 => ⟨S200, .f32⟩
  | 22 => ⟨S512x120000, .bf16⟩
  | 23 => ⟨S_, .i32⟩
  | 24 => ⟨S_, .bf16⟩
  | 25 => ⟨S512x122880, .bf16⟩
  | 26 => ⟨S_, .f32⟩
  | 27 => ⟨S122880x768, .f32⟩
  | 28 => ⟨S1x7200000, .i32⟩
  | 29 => ⟨S7200000, .i32⟩
  | 30 => ⟨S1x7200000, .i32⟩
  | 31 => ⟨S7200000, .i32⟩
  | 32 => ⟨S_, .i32⟩
  | 33 => ⟨S7200000, .i32⟩
  | 34 => ⟨S7200000, .i1⟩
  | 35 => ⟨S_, .i32⟩
  | 36 => ⟨S7200000, .i32⟩
  | 37 => ⟨S7200000, .i32⟩
  | 38 => ⟨S7200000, .i32⟩
  | 39 => ⟨S_, .i32⟩
  | 40 => ⟨S7200000, .i32⟩
  | 41 => ⟨S7200000, .i1⟩
  | 42 => ⟨S_, .i32⟩
  | 43 => ⟨S7200000, .i32⟩
  | 44 => ⟨S7200000, .i32⟩
  | 45 => ⟨S7200000, .i32⟩
  | 46 => ⟨S7200000x1, .i32⟩
  | 47 => ⟨S7200000x1, .i32⟩
  | 48 => ⟨S7200000x2, .i32⟩
  | 49 => ⟨S122880x768, .f32⟩
  | 50 => ⟨S122880x768, .bf16⟩
  | 51 => ⟨S_, .i32⟩
  | 52 => ⟨S_, .f32⟩
  | 53 => ⟨S768, .f32⟩
  | 54 => ⟨S_, .i32⟩
  | 55 => ⟨S_, .f32⟩
  | 56 => ⟨S768, .f32⟩
  | 57 => ⟨S_, .i32⟩
  | 58 => ⟨S_, .f32⟩
  | 59 => ⟨S768, .f32⟩
  | 60 => ⟨S1x768, .f32⟩
  | 61 => ⟨S1x768, .f32⟩
  | 62 => ⟨S1x768, .f32⟩
  | 63 => ⟨S512x768, .f32⟩
  | 64 => ⟨S512x768, .bf16⟩
  | 65 => ⟨S_, .f32⟩
  | 66 => ⟨S768x768, .f32⟩
  | 67 => ⟨S1x36000, .i32⟩
  | 68 => ⟨S36000, .i32⟩
  | 69 => ⟨S1x36000, .i32⟩
  | 70 => ⟨S36000, .i32⟩
  | 71 => ⟨S_, .i32⟩
  | 72 => ⟨S36000, .i32⟩
  | 73 => ⟨S36000, .i1⟩
  | 74 => ⟨S_, .i32⟩
  | 75 => ⟨S36000, .i32⟩
  | 76 => ⟨S36000, .i32⟩
  | 77 => ⟨S36000, .i32⟩
  | 78 => ⟨S_, .i32⟩
  | 79 => ⟨S36000, .i32⟩
  | 80 => ⟨S36000, .i1⟩
  | 81 => ⟨S_, .i32⟩
  | 82 => ⟨S36000, .i32⟩
  | 83 => ⟨S36000, .i32⟩
  | 84 => ⟨S36000, .i32⟩
  | 85 => ⟨S36000x1, .i32⟩
  | 86 => ⟨S36000x1, .i32⟩
  | 87 => ⟨S36000x2, .i32⟩
  | 88 => ⟨S768x768, .f32⟩
  | 89 => ⟨S768x768, .bf16⟩
  | 90 => ⟨S_, .f32⟩
  | 91 => ⟨S768x384, .f32⟩
  | 92 => ⟨S1x18000, .i32⟩
  | 93 => ⟨S18000, .i32⟩
  | 94 => ⟨S1x18000, .i32⟩
  | 95 => ⟨S18000, .i32⟩
  | 96 => ⟨S_, .i32⟩
  | 97 => ⟨S18000, .i32⟩
  | 98 => ⟨S18000, .i1⟩
  | 99 => ⟨S_, .i32⟩
  | 100 => ⟨S18000, .i32⟩
  | 101 => ⟨S18000, .i32⟩
  | 102 => ⟨S18000, .i32⟩
  | 103 => ⟨S_, .i32⟩
  | 104 => ⟨S18000, .i32⟩
  | 105 => ⟨S18000, .i1⟩
  | 106 => ⟨S_, .i32⟩
  | 107 => ⟨S18000, .i32⟩
  | 108 => ⟨S18000, .i32⟩
  | 109 => ⟨S18000, .i32⟩
  | 110 => ⟨S18000x1, .i32⟩
  | 111 => ⟨S18000x1, .i32⟩
  | 112 => ⟨S18000x2, .i32⟩
  | 113 => ⟨S768x384, .f32⟩
  | 114 => ⟨S768x384, .bf16⟩
  | 115 => ⟨S_, .f32⟩
  | 116 => ⟨S384x256, .f32⟩
  | 117 => ⟨S1x6000, .i32⟩
  | 118 => ⟨S6000, .i32⟩
  | 119 => ⟨S1x6000, .i32⟩
  | 120 => ⟨S6000, .i32⟩
  | 121 => ⟨S_, .i32⟩
  | 122 => ⟨S6000, .i32⟩
  | 123 => ⟨S6000, .i1⟩
  | 124 => ⟨S_, .i32⟩
  | 125 => ⟨S6000, .i32⟩
  | 126 => ⟨S6000, .i32⟩
  | 127 => ⟨S6000, .i32⟩
  | _ => ⟨S512x120000, .f32⟩

abbrev hbmTy0_1 (i : Nat) : BufTy := match i % 128 with
  | 0 => ⟨S_, .i32⟩
  | 1 => ⟨S6000, .i32⟩
  | 2 => ⟨S6000, .i1⟩
  | 3 => ⟨S_, .i32⟩
  | 4 => ⟨S6000, .i32⟩
  | 5 => ⟨S6000, .i32⟩
  | 6 => ⟨S6000, .i32⟩
  | 7 => ⟨S6000x1, .i32⟩
  | 8 => ⟨S6000x1, .i32⟩
  | 9 => ⟨S6000x2, .i32⟩
  | 10 => ⟨S384x256, .f32⟩
  | 11 => ⟨S384x256, .bf16⟩
  | 12 => ⟨S_, .f32⟩
  | 13 => ⟨S256x256, .f32⟩
  | 14 => ⟨S1x4000, .i32⟩
  | 15 => ⟨S4000, .i32⟩
  | 16 => ⟨S1x4000, .i32⟩
  | 17 => ⟨S4000, .i32⟩
  | 18 => ⟨S_, .i32⟩
  | 19 => ⟨S4000, .i32⟩
  | 20 => ⟨S4000, .i1⟩
  | 21 => ⟨S_, .i32⟩
  | 22 => ⟨S4000, .i32⟩
  | 23 => ⟨S4000, .i32⟩
  | 24 => ⟨S4000, .i32⟩
  | 25 => ⟨S_, .i32⟩
  | 26 => ⟨S4000, .i32⟩
  | 27 => ⟨S4000, .i1⟩
  | 28 => ⟨S_, .i32⟩
  | 29 => ⟨S4000, .i32⟩
  | 30 => ⟨S4000, .i32⟩
  | 31 => ⟨S4000, .i32⟩
  | 32 => ⟨S4000x1, .i32⟩
  | 33 => ⟨S4000x1, .i32⟩
  | 34 => ⟨S4000x2, .i32⟩
  | 35 => ⟨S256x256, .f32⟩
  | 36 => ⟨S256x256, .bf16⟩
  | 37 => ⟨S_, .i32⟩
  | 38 => ⟨S_, .f32⟩
  | 39 => ⟨S768, .f32⟩
  | 40 => ⟨S_, .i32⟩
  | 41 => ⟨S_, .f32⟩
  | 42 => ⟨S384, .f32⟩
  | 43 => ⟨S_, .i32⟩
  | 44 => ⟨S_, .f32⟩
  | 45 => ⟨S384, .f32⟩
  | 46 => ⟨S_, .i32⟩
  | 47 => ⟨S_, .f32⟩
  | 48 => ⟨S384, .f32⟩
  | 49 => ⟨S_, .i32⟩
  | 50 => ⟨S_, .f32⟩
  | 51 => ⟨S256, .f32⟩
  | 52 => ⟨S_, .i32⟩
  | 53 => ⟨S_, .f32⟩
  | 54 => ⟨S256, .f32⟩
  | 55 => ⟨S_, .i32⟩
  | 56 => ⟨S_, .f32⟩
  | 57 => ⟨S256, .f32⟩
  | 58 => ⟨S_, .i32⟩
  | 59 => ⟨S_, .f32⟩
  | 60 => ⟨S256, .f32⟩
  | 61 => ⟨S1x768, .f32⟩
  | 62 => ⟨S1x384, .f32⟩
  | 63 => ⟨S1x384, .f32⟩
  | 64 => ⟨S1x384, .f32⟩
  | 65 => ⟨S1x256, .f32⟩
  | 66 => ⟨S1x256, .f32⟩
  | 67 => ⟨S1x256, .f32⟩
  | 68 => ⟨S1x256, .f32⟩
  | 69 => ⟨S512x256, .f32⟩
  | 70 => ⟨S512x200, .f32⟩
  | _ => ⟨S512x120000, .f32⟩

abbrev hbmTy (i : Nat) : BufTy := match i / 128 with
  | 0 => hbmTy0_0 i
  | 1 => hbmTy0_1 i
  | _ => ⟨S512x120000, .f32⟩

abbrev bufTy : (tb : Table) → Fin (tcTables nBuf tb) → BufTy
  | .hbm, ⟨i, _⟩ => hbmTy i
  | .local _ .vmem, ⟨0, _⟩ => ⟨S512x8192, .bf16⟩
  | .local _ .vmem, ⟨1, _⟩ => ⟨S512x8192, .bf16⟩
  | .local _ .vmem, ⟨2, _⟩ => ⟨S8192x384, .bf16⟩
  | .local _ .vmem, ⟨3, _⟩ => ⟨S8192x384, .bf16⟩
  | .local _ .vmem, ⟨4, _⟩ => ⟨S1x384, .f32⟩
  | .local _ .vmem, ⟨5, _⟩ => ⟨S1x384, .f32⟩
  | .local _ .vmem, ⟨6, _⟩ => ⟨S1x384, .f32⟩
  | .local _ .vmem, ⟨7, _⟩ => ⟨S1x384, .f32⟩
  | .local _ .vmem, ⟨8, _⟩ => ⟨S1x384, .f32⟩
  | .local _ .vmem, ⟨9, _⟩ => ⟨S1x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x768, .bf16⟩
  | .local _ .vmem, ⟨14, _⟩ => ⟨S768x768, .bf16⟩
  | .local _ .vmem, ⟨15, _⟩ => ⟨S1x768, .f32⟩
  | .local _ .vmem, ⟨16, _⟩ => ⟨S768x384, .bf16⟩
  | .local _ .vmem, ⟨17, _⟩ => ⟨S1x384, .f32⟩
  | .local _ .vmem, ⟨18, _⟩ => ⟨S1x384, .f32⟩
  | .local _ .vmem, ⟨19, _⟩ => ⟨S1x384, .f32⟩
  | .local _ .vmem, ⟨20, _⟩ => ⟨S384x256, .bf16⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S256x256, .bf16⟩
  | .local _ .vmem, ⟨25, _⟩ => ⟨S1x256, .f32⟩
  | .local _ .vmem, ⟨26, _⟩ => ⟨S512x256, .f32⟩
  | _, _ => ⟨S512x120000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_c : Ref sig .tc := ⟨.hbm, 23, rfl⟩
abbrev main_call0_v0 : Ref sig .tc := ⟨.hbm, 24, rfl⟩
abbrev main_v1 : Ref sig .tc := ⟨.hbm, 25, rfl⟩
abbrev main_cst : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_c_0 : Ref sig .tc := ⟨.hbm, 32, rfl⟩
abbrev main_v7 : Ref sig .tc := ⟨.hbm, 33, rfl⟩
abbrev main_v8 : Ref sig .tc := ⟨.hbm, 34, rfl⟩
abbrev main_c_1 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_c_2 : Ref sig .tc := ⟨.hbm, 39, rfl⟩
abbrev main_v12 : Ref sig .tc := ⟨.hbm, 40, rfl⟩
abbrev main_v13 : Ref sig .tc := ⟨.hbm, 41, rfl⟩
abbrev main_c_3 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_c_4 : Ref sig .tc := ⟨.hbm, 51, rfl⟩
abbrev main_call1_v0 : Ref sig .tc := ⟨.hbm, 52, rfl⟩
abbrev main_v22 : Ref sig .tc := ⟨.hbm, 53, rfl⟩
abbrev main_c_5 : Ref sig .tc := ⟨.hbm, 54, rfl⟩
abbrev main_call2_v0 : Ref sig .tc := ⟨.hbm, 55, rfl⟩
abbrev main_v23 : Ref sig .tc := ⟨.hbm, 56, rfl⟩
abbrev main_c_6 : Ref sig .tc := ⟨.hbm, 57, rfl⟩
abbrev main_call3_v0 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_cst_7 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_c_8 : Ref sig .tc := ⟨.hbm, 71, rfl⟩
abbrev main_v35 : Ref sig .tc := ⟨.hbm, 72, rfl⟩
abbrev main_v36 : Ref sig .tc := ⟨.hbm, 73, rfl⟩
abbrev main_c_9 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_c_10 : Ref sig .tc := ⟨.hbm, 78, rfl⟩
abbrev main_v40 : Ref sig .tc := ⟨.hbm, 79, rfl⟩
abbrev main_v41 : Ref sig .tc := ⟨.hbm, 80, rfl⟩
abbrev main_c_11 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_cst_12 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_c_13 : Ref sig .tc := ⟨.hbm, 96, rfl⟩
abbrev main_v55 : Ref sig .tc := ⟨.hbm, 97, rfl⟩
abbrev main_v56 : Ref sig .tc := ⟨.hbm, 98, rfl⟩
abbrev main_c_14 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_c_15 : Ref sig .tc := ⟨.hbm, 103, rfl⟩
abbrev main_v60 : Ref sig .tc := ⟨.hbm, 104, rfl⟩
abbrev main_v61 : Ref sig .tc := ⟨.hbm, 105, rfl⟩
abbrev main_c_16 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_cst_17 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_c_18 : Ref sig .tc := ⟨.hbm, 121, rfl⟩
abbrev main_v75 : Ref sig .tc := ⟨.hbm, 122, rfl⟩
abbrev main_v76 : Ref sig .tc := ⟨.hbm, 123, rfl⟩
abbrev main_c_19 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_c_20 : Ref sig .tc := ⟨.hbm, 128, rfl⟩
abbrev main_v80 : Ref sig .tc := ⟨.hbm, 129, rfl⟩
abbrev main_v81 : Ref sig .tc := ⟨.hbm, 130, rfl⟩
abbrev main_c_21 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_cst_22 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_c_23 : Ref sig .tc := ⟨.hbm, 146, rfl⟩
abbrev main_v95 : Ref sig .tc := ⟨.hbm, 147, rfl⟩
abbrev main_v96 : Ref sig .tc := ⟨.hbm, 148, rfl⟩
abbrev main_c_24 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_c_25 : Ref sig .tc := ⟨.hbm, 153, rfl⟩
abbrev main_v100 : Ref sig .tc := ⟨.hbm, 154, rfl⟩
abbrev main_v101 : Ref sig .tc := ⟨.hbm, 155, rfl⟩
abbrev main_c_26 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_c_27 : Ref sig .tc := ⟨.hbm, 165, rfl⟩
abbrev main_call4_v0 : Ref sig .tc := ⟨.hbm, 166, rfl⟩
abbrev main_v110 : Ref sig .tc := ⟨.hbm, 167, rfl⟩
abbrev main_c_28 : Ref sig .tc := ⟨.hbm, 168, rfl⟩
abbrev main_call5_v0 : Ref sig .tc := ⟨.hbm, 169, rfl⟩
abbrev main_v111 : Ref sig .tc := ⟨.hbm, 170, rfl⟩
abbrev main_c_29 : Ref sig .tc := ⟨.hbm, 171, rfl⟩
abbrev main_call6_v0 : Ref sig .tc := ⟨.hbm, 172, rfl⟩
abbrev main_v112 : Ref sig .tc := ⟨.hbm, 173, rfl⟩
abbrev main_c_30 : Ref sig .tc := ⟨.hbm, 174, rfl⟩
abbrev main_call7_v0 : Ref sig .tc := ⟨.hbm, 175, rfl⟩
abbrev main_v113 : Ref sig .tc := ⟨.hbm, 176, rfl⟩
abbrev main_c_31 : Ref sig .tc := ⟨.hbm, 177, rfl⟩
abbrev main_call8_v0 : Ref sig .tc := ⟨.hbm, 178, rfl⟩
abbrev main_v114 : Ref sig .tc := ⟨.hbm, 179, rfl⟩
abbrev main_c_32 : Ref sig .tc := ⟨.hbm, 180, rfl⟩
abbrev main_call9_v0 : Ref sig .tc := ⟨.hbm, 181, rfl⟩
abbrev main_v115 : Ref sig .tc := ⟨.hbm, 182, rfl⟩
abbrev main_c_33 : Ref sig .tc := ⟨.hbm, 183, rfl⟩
abbrev main_call10_v0 : Ref sig .tc := ⟨.hbm, 184, rfl⟩
abbrev main_v116 : Ref sig .tc := ⟨.hbm, 185, rfl⟩
abbrev main_c_34 : Ref sig .tc := ⟨.hbm, 186, rfl⟩
abbrev main_call11_v0 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg12_0 : Ref sig .tc := ⟨.vmem, 25, rfl⟩
abbrev cc1_stg13_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem13_0 : DmaSem sig := 25

abbrev nD : Nat := 1
abbrev τ : Topo := Topo.v7x

variable {F : FTy → Type} [FloatOps F]

abbrev grid0 : Pipeline.Grid := ⟨2, ![2, 15], ![false, false]⟩

def k0_cond2 (i : grid0.Coords) : BitVec 1 :=
  let arg1 : BitVec 32 := BitVec.ofNat 32 (i 1).val
  let c14_i32 : BitVec 32 := 14#32
  let v13 : BitVec 1 := Scalar.cmpi .eq arg1 c14_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8192x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S512x768 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S768x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S768x384 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x384 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x384 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x384 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S384x256 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S256x256 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x256 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S512x256 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

class Facts₀ : Prop where
  bitsLt_bf16_f32 : FTy.bits .bf16 < FTy.bits .f32
  pads_S512x120000_S512x122880_000_028800 : S512x120000.Pads (![0, 0] : Fin 2 → Nat) ![0, 2880] ![0, 0] S512x122880
  h_S_ : 0 < S_.numel
  bcast_S_S122880x768 : S_.BroadcastsInDim S122880x768 (![] : Fin 0 → Fin S122880x768.rank)
  slices_S2x7200000_S1x7200000_1_0 : S2x7200000.Slices ![1, 0] S1x7200000
  shapeCasts_S1x7200000_S7200000 : S1x7200000.ShapeCasts S7200000
  slices_S2x7200000_S1x7200000_0_0 : S2x7200000.Slices ![0, 0] S1x7200000
  bcast_S_S7200000 : S_.BroadcastsInDim S7200000 (![] : Fin 0 → Fin S7200000.rank)
  bcast_S7200000_S7200000x1_0 : S7200000.BroadcastsInDim S7200000x1 (![0] : Fin 1 → Fin S7200000x1.rank)
  concatenates_S7200000x1_S7200000x1_S7200000x2_d1 : Shape.Concatenates [S7200000x1, S7200000x1] S7200000x2 1
  pads_S600_S768_01680 : S600.Pads (![0] : Fin 1 → Nat) ![168] ![0] S768
  shapeCasts_S768_S1x768 : S768.ShapeCasts S1x768
  inb_S512x384_S512x384_0_0 : ∀ a, (![0, 0] : Fin 2 → Nat) a + S512x384.size a ≤ S512x384.size a
  h_S512x384 : 0 < S512x384.numel
  shapeCasts_S512x384_S512x384 : S512x384.ShapeCasts S512x384
  inb_S512x8192_S512x8192_0_0 : ∀ a, (![0, 0] : Fin 2 → Nat) a + S512x8192.size a ≤ S512x8192.size a
  h_S512x8192 : 0 < S512x8192.numel
  shapeCasts_S512x8192_S512x8192 : S512x8192.ShapeCasts S512x8192
  inb_S8192x384_S8192x384_0_0 : ∀ a, (![0, 0] : Fin 2 → Nat) a + S8192x384.size a ≤ S8192x384.size a
  h_S8192x384 : 0 < S8192x384.numel
  shapeCasts_S8192x384_S8192x384 : S8192x384.ShapeCasts S8192x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S512x384 : S1x384.Broadcasts S512x384
  reduces_S512x384_S384 : S512x384.Reduces [0] S384
  shapeCasts_S384_S1x384 : S384.ShapeCasts S1x384
  bcast_S_S768x768 : S_.BroadcastsInDim S768x768 (![] : Fin 0 → Fin S768x768.rank)
  slices_S2x36000_S1x36000_1_0 : S2x36000.Slices ![1, 0] S1x36000
  shapeCasts_S1x36000_S36000 : S1x36000.ShapeCasts S36000
  slices_S2x36000_S1x36000_0_0 : S2x36000.Slices ![0, 0] S1x36000
  bcast_S_S36000 : S_.BroadcastsInDim S36000 (![] : Fin 0 → Fin S36000.rank)
  bcast_S36000_S36000x1_0 : S36000.BroadcastsInDim S36000x1 (![0] : Fin 1 → Fin S36000x1.rank)
  concatenates_S36000x1_S36000x1_S36000x2_d1 : Shape.Concatenates [S36000x1, S36000x1] S36000x2 1
  bcast_S_S768x384 : S_.BroadcastsInDim S768x384 (![] : Fin 0 → Fin S768x384.rank)
  slices_S2x18000_S1x18000_1_0 : S2x18000.Slices ![1, 0] S1x18000
  shapeCasts_S1x18000_S18000 : S1x18000.ShapeCasts S18000
  slices_S2x18000_S1x18000_0_0 : S2x18000.Slices ![0, 0] S1x18000
  bcast_S_S18000 : S_.BroadcastsInDim S18000 (![] : Fin 0 → Fin S18000.rank)
  bcast_S18000_S18000x1_0 : S18000.BroadcastsInDim S18000x1 (![0] : Fin 1 → Fin S18000x1.rank)
  concatenates_S18000x1_S18000x1_S18000x2_d1 : Shape.Concatenates [S18000x1, S18000x1] S18000x2 1
  bcast_S_S384x256 : S_.BroadcastsInDim S384x256 (![] : Fin 0 → Fin S384x256.rank)
  slices_S2x6000_S1x6000_1_0 : S2x6000.Slices ![1, 0] S1x6000
  shapeCasts_S1x6000_S6000 : S1x6000.ShapeCasts S6000
  slices_S2x6000_S1x6000_0_0 : S2x6000.Slices ![0, 0] S1x6000
  bcast_S_S6000 : S_.BroadcastsInDim S6000 (![] : Fin 0 → Fin S6000.rank)
  bcast_S6000_S6000x1_0 : S6000.BroadcastsInDim S6000x1 (![0] : Fin 1 → Fin S6000x1.rank)
  concatenates_S6000x1_S6000x1_S6000x2_d1 : Shape.Concatenates [S6000x1, S6000x1] S6000x2 1
  bcast_S_S256x256 : S_.BroadcastsInDim S256x256 (![] : Fin 0 → Fin S256x256.rank)
  slices_S2x4000_S1x4000_1_0 : S2x4000.Slices ![1, 0] S1x4000
  shapeCasts_S1x4000_S4000 : S1x4000.ShapeCasts S4000
  slices_S2x4000_S1x4000_0_0 : S2x4000.Slices ![0, 0] S1x4000
  bcast_S_S4000 : S_.BroadcastsInDim S4000 (![] : Fin 0 → Fin S4000.rank)
  bcast_S4000_S4000x1_0 : S4000.BroadcastsInDim S4000x1 (![0] : Fin 1 → Fin S4000x1.rank)
  concatenates_S4000x1_S4000x1_S4000x2_d1 : Shape.Concatenates [S4000x1, S4000x1] S4000x2 1
  pads_S300_S384_0840 : S300.Pads (![0] : Fin 1 → Nat) ![84] ![0] S384
  pads_S200_S256_0560 : S200.Pads (![0] : Fin 1 → Nat) ![56] ![0] S256
  shapeCasts_S256_S1x256 : S256.ShapeCasts S1x256
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  inb_S768x384_S768x384_0_0 : ∀ a, (![0, 0] : Fin 2 → Nat) a + S768x384.size a ≤ S768x384.size a
  h_S768x384 : 0 < S768x384.numel
  shapeCasts_S768x384_S768x384 : S768x384.ShapeCasts S768x384
  inb_S384x256_S384x256_0_0 : ∀ a, (![0, 0] : Fin 2 → Nat) a + S384x256.size a ≤ S384x256.size a
  h_S384x256 : 0 < S384x256.numel
  shapeCasts_S384x256_S384x256 : S384x256.ShapeCasts S384x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  reduces_S512x256_S256 : S512x256.Reduces [0] S256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S512x256_S512x256_0_0 : ∀ a, (![0, 0] : Fin 2 → Nat) a + S512x256.size a ≤ S512x256.size a
  h_S512x256 : 0 < S512x256.numel
  slices_S512x256_S512x200_0_0 : S512x256.Slices ![0, 0] S512x200
  scatter_S122880x768_S7200000x2_S7200000_n_01_01_1_wf : ScatterDims.WF S122880x768 S7200000x2 S7200000 [] [0, 1] [0, 1] 1
  dot_S512x8192_S8192x384_S512x384_1_0_0_1_n_n_wf : DotDims.WF S512x8192 S8192x384 S512x384 [1] [0] [0] [1] [] []
  scatter_S768x768_S36000x2_S36000_n_01_01_1_wf : ScatterDims.WF S768x768 S36000x2 S36000 [] [0, 1] [0, 1] 1
  scatter_S768x384_S18000x2_S18000_n_01_01_1_wf : ScatterDims.WF S768x384 S18000x2 S18000 [] [0, 1] [0, 1] 1
  scatter_S384x256_S6000x2_S6000_n_01_01_1_wf : ScatterDims.WF S384x256 S6000x2 S6000 [] [0, 1] [0, 1] 1
  scatter_S256x256_S4000x2_S4000_n_01_01_1_wf : ScatterDims.WF S256x256 S4000x2 S4000 [] [0, 1] [0, 1] 1
  dot_S512x768_S768x768_S512x768_1_0_0_1_n_n_wf : DotDims.WF S512x768 S768x768 S512x768 [1] [0] [0] [1] [] []
  dot_S512x768_S768x384_S512x384_1_0_0_1_n_n_wf : DotDims.WF S512x768 S768x384 S512x384 [1] [0] [0] [1] [] []
  dot_S512x384_S384x256_S512x256_1_0_0_1_n_n_wf : DotDims.WF S512x384 S384x256 S512x256 [1] [0] [0] [1] [] []
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S512x122880.size a
  hwx0_0 : ∀ i : grid0.Coords, EltTy.bits .bf16 = 32 ∨ (Rect.block (s := S512x122880) S512x8192.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x384.size a ≤ S122880x768.size a
  hwx0_1 : ∀ i : grid0.Coords, EltTy.bits .bf16 = 32 ∨ (Rect.block (s := S122880x768) S8192x384.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x384.size a ≤ S1x768.size a
  hwx0_2 : ∀ i : grid0.Coords, EltTy.bits .f32 = 32 ∨ (Rect.block (s := S1x768) S1x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x384.size a ≤ S1x768.size a
  hwx0_3 : ∀ i : grid0.Coords, EltTy.bits .f32 = 32 ∨ (Rect.block (s := S1x768) S1x384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x768.size a
  hwx0_4 : ∀ i : grid0.Coords, EltTy.bits .f32 = 32 ∨ (Rect.block (s := S1x768) S1x384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x384.size a ≤ S512x768.size a
  hwx0_5 : ∀ i : grid0.Coords, EltTy.bits .f32 = 32 ∨ (Rect.block (s := S512x768) S512x384.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x768.size a ≤ S512x768.size a
  hwx1_0 : ∀ i : grid1.Coords, EltTy.bits .bf16 = 32 ∨ (Rect.block (s := S512x768) S512x768.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x768.size a ≤ S768x768.size a
  hwx1_1 : ∀ i : grid1.Coords, EltTy.bits .bf16 = 32 ∨ (Rect.block (s := S768x768) S768x768.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x768.size a ≤ S1x768.size a
  hwx1_2 : ∀ i : grid1.Coords, EltTy.bits .f32 = 32 ∨ (Rect.block (s := S1x768) S1x768.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S768x384.size a ≤ S768x384.size a
  hwx1_3 : ∀ i : grid1.Coords, EltTy.bits .bf16 = 32 ∨ (Rect.block (s := S768x384) S768x384.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x384.size a ≤ S1x384.size a
  hwx1_4 : ∀ i : grid1.Coords, EltTy.bits .f32 = 32 ∨ (Rect.block (s := S1x384) S1x384.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x384.size a ≤ S1x384.size a
  hwx1_5 : ∀ i : grid1.Coords, EltTy.bits .f32 = 32 ∨ (Rect.block (s := S1x384) S1x384.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x384.size a ≤ S1x384.size a
  hwx1_6 : ∀ i : grid1.Coords, EltTy.bits .f32 = 32 ∨ (Rect.block (s := S1x384) S1x384.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S384x256.size a ≤ S384x256.size a
  hwx1_7 : ∀ i : grid1.Coords, EltTy.bits .bf16 = 32 ∨ (Rect.block (s := S384x256) S384x256.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x256.size a ≤ S1x256.size a
  hwx1_10 : ∀ i : grid1.Coords, EltTy.bits .f32 = 32 ∨ (Rect.block (s := S1x256) S1x256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S256x256.size a ≤ S256x256.size a
  hwx1_11 : ∀ i : grid1.Coords, EltTy.bits .bf16 = 32 ∨ (Rect.block (s := S256x256) S256x256.size (cc1_transform_11 i) (hinb1_11 i)).WholeWords (EltTy.packing .bf16)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x256.size a ≤ S1x256.size a
  hwx1_12 : ∀ i : grid1.Coords, EltTy.bits .f32 = 32 ∨ (Rect.block (s := S1x256) S1x256.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S512x256.size a ≤ S512x256.size a
  hwx1_13 : ∀ i : grid1.Coords, EltTy.bits .f32 = 32 ∨ (Rect.block (s := S512x256) S512x256.size (cc1_transform_13 i) (hinb1_13 i)).WholeWords (EltTy.packing .f32)

variable [Facts₀]

def scatter_S122880x768_S7200000x2_S7200000_n_01_01_1 : ScatterDims S122880x768 S7200000x2 S7200000 where
  updateWindowDims := []
  insertedWindowDims := [0, 1]
  scatterDimsToOperandDims := [0, 1]
  indexVectorDim := 1
  wf := scatter_S122880x768_S7200000x2_S7200000_n_01_01_1_wf
def dot_S512x8192_S8192x384_S512x384_1_0_0_1_n_n : DotDims S512x8192 S8192x384 S512x384 where
  lhsContracting := [1]
  rhsContracting := [0]
  lhsNonContracting := [0]
  rhsNonContracting := [1]
  lhsBatch := []
  rhsBatch := []
  wf := dot_S512x8192_S8192x384_S512x384_1_0_0_1_n_n_wf
def scatter_S768x768_S36000x2_S36000_n_01_01_1 : ScatterDims S768x768 S36000x2 S36000 where
  updateWindowDims := []
  insertedWindowDims := [0, 1]
  scatterDimsToOperandDims := [0, 1]
  indexVectorDim := 1
  wf := scatter_S768x768_S36000x2_S36000_n_01_01_1_wf
def scatter_S768x384_S18000x2_S18000_n_01_01_1 : ScatterDims S768x384 S18000x2 S18000 where
  updateWindowDims := []
  insertedWindowDims := [0, 1]
  scatterDimsToOperandDims := [0, 1]
  indexVectorDim := 1
  wf := scatter_S768x384_S18000x2_S18000_n_01_01_1_wf
def scatter_S384x256_S6000x2_S6000_n_01_01_1 : ScatterDims S384x256 S6000x2 S6000 where
  updateWindowDims := []
  insertedWindowDims := [0, 1]
  scatterDimsToOperandDims := [0, 1]
  indexVectorDim := 1
  wf := scatter_S384x256_S6000x2_S6000_n_01_01_1_wf
def scatter_S256x256_S4000x2_S4000_n_01_01_1 : ScatterDims S256x256 S4000x2 S4000 where
  updateWindowDims := []
  insertedWindowDims := [0, 1]
  scatterDimsToOperandDims := [0, 1]
  indexVectorDim := 1
  wf := scatter_S256x256_S4000x2_S4000_n_01_01_1_wf
def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf
def dot_S512x768_S768x384_S512x384_1_0_0_1_n_n : DotDims S512x768 S768x384 S512x384 where
  lhsContracting := [1]
  rhsContracting := [0]
  lhsNonContracting := [0]
  rhsNonContracting := [1]
  lhsBatch := []
  rhsBatch := []
  wf := dot_S512x768_S768x384_S512x384_1_0_0_1_n_n_wf
def dot_S512x384_S384x256_S512x256_1_0_0_1_n_n : DotDims S512x384 S384x256 S512x256 where
  lhsContracting := [1]
  rhsContracting := [0]
  lhsNonContracting := [0]
  rhsNonContracting := [1]
  lhsBatch := []
  rhsBatch := []
  wf := dot_S512x384_S384x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_v1) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S8192x384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S1x384.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x384.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v28) S512x384.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v29) S512x768.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v49) S768x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v118) S1x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v69) S768x384.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v119) S1x384.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v120) S1x384.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v121) S1x384.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v89) S384x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v122) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v123) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v124) S1x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v109) S256x256.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v125) S1x256.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v126) S512x256.size cc1_transform_13 reads1_13 true true 1 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S512x120000 : Shape := ⟨2, ![512, 120000]⟩
abbrev S2x7200000 : Shape := ⟨2, ![2, 7200000]⟩
abbrev S7200000 : Shape := ⟨1, ![7200000]⟩
abbrev S600 : Shape := ⟨1, ![600]⟩
abbrev S2x36000 : Shape := ⟨2, ![2, 36000]⟩
abbrev S36000 : Shape := ⟨1, ![36000]⟩
abbrev S2x18000 : Shape := ⟨2, ![2, 18000]⟩
abbrev S18000 : Shape := ⟨1, ![18000]⟩
abbrev S300 : Shape := ⟨1, ![300]⟩
abbrev S2x6000 : Shape := ⟨2, ![2, 6000]⟩
abbrev S6000 : Shape := ⟨1, ![6000]⟩
abbrev S200 : Shape := ⟨1, ![200]⟩
abbrev S2x4000 : Shape := ⟨2, ![2, 4000]⟩
abbrev S4000 : Shape := ⟨1, ![4000]⟩
abbrev S_ : Shape := ⟨0, ![]⟩
abbrev S600x120000 : Shape := ⟨2, ![600, 120000]⟩
abbrev S1x7200000 : Shape := ⟨2, ![1, 7200000]⟩
abbrev S7200000x1 : Shape := ⟨2, ![7200000, 1]⟩
abbrev S7200000x2 : Shape := ⟨2, ![7200000, 2]⟩
abbrev S120000x600 : Shape := ⟨2, ![120000, 600]⟩
abbrev S512x600 : Shape := ⟨2, ![512, 600]⟩
abbrev S1x600 : Shape := ⟨2, ![1, 600]⟩
abbrev S600x600 : Shape := ⟨2, ![600, 600]⟩
abbrev S1x36000 : Shape := ⟨2, ![1, 36000]⟩
abbrev S36000x1 : Shape := ⟨2, ![36000, 1]⟩
abbrev S36000x2 : Shape := ⟨2, ![36000, 2]⟩
abbrev S300x600 : Shape := ⟨2, ![300, 600]⟩
abbrev S1x18000 : Shape := ⟨2, ![1, 18000]⟩
abbrev S18000x1 : Shape := ⟨2, ![18000, 1]⟩
abbrev S18000x2 : Shape := ⟨2, ![18000, 2]⟩
abbrev S600x300 : Shape := ⟨2, ![600, 300]⟩
abbrev S512x300 : Shape := ⟨2, ![512, 300]⟩
abbrev S1x300 : Shape := ⟨2, ![1, 300]⟩
abbrev S200x300 : Shape := ⟨2, ![200, 300]⟩
abbrev S1x6000 : Shape := ⟨2, ![1, 6000]⟩
abbrev S6000x1 : Shape := ⟨2, ![6000, 1]⟩
abbrev S6000x2 : Shape := ⟨2, ![6000, 2]⟩
abbrev S300x200 : Shape := ⟨2, ![300, 200]⟩
abbrev S512x200 : Shape := ⟨2, ![512, 200]⟩
abbrev S1x200 : Shape := ⟨2, ![1, 200]⟩
abbrev S200x200 : Shape := ⟨2, ![200, 200]⟩
abbrev S1x4000 : Shape := ⟨2, ![1, 4000]⟩
abbrev S4000x1 : Shape := ⟨2, ![4000, 1]⟩
abbrev S4000x2 : Shape := ⟨2, ![4000, 2]⟩

abbrev nBuf : Space → Nat
  | .hbm => 335
  | .vmem => 0
  | .smem => 0
  | _ => 0

abbrev hbmTy0_0 (i : Nat) : BufTy := match i % 128 with
  | 0 => ⟨S512x120000, .f32⟩
  | 1 => ⟨S2x7200000, .i32⟩
  | 2 => ⟨S7200000, .f32⟩
  | 3 => ⟨S600, .f32⟩
  | 4 => ⟨S2x36000, .i32⟩
  | 5 => ⟨S36000, .f32⟩
  | 6 => ⟨S600, .f32⟩
  | 7 => ⟨S2x18000, .i32⟩
  | 8 => ⟨S18000, .f32⟩
  | 9 => ⟨S300, .f32⟩
  | 10 => ⟨S2x6000, .i32⟩
  | 11 => ⟨S6000, .f32⟩
  | 12 => ⟨S200, .f32⟩
  | 13 => ⟨S2x4000, .i32⟩
  | 14 => ⟨S4000, .f32⟩
  | 15 => ⟨S200, .f32⟩
  | 16 => ⟨S600, .f32⟩
  | 17 => ⟨S600, .f32⟩
  | 18 => ⟨S300, .f32⟩
  | 19 => ⟨S300, .f32⟩
  | 20 => ⟨S200, .f32⟩
  | 21 => ⟨S200, .f32⟩
  | 22 => ⟨S_, .f32⟩
  | 23 => ⟨S600x120000, .f32⟩
  | 24 => ⟨S1x7200000, .i32⟩
  | 25 => ⟨S7200000, .i32⟩
  | 26 => ⟨S1x7200000, .i32⟩
  | 27 => ⟨S7200000, .i32⟩
  | 28 => ⟨S_, .i32⟩
  | 29 => ⟨S7200000, .i32⟩
  | 30 => ⟨S7200000, .i1⟩
  | 31 => ⟨S_, .i32⟩
  | 32 => ⟨S7200000, .i32⟩
  | 33 => ⟨S7200000, .i32⟩
  | 34 => ⟨S7200000, .i32⟩
  | 35 => ⟨S_, .i32⟩
  | 36 => ⟨S7200000, .i32⟩
  | 37 => ⟨S7200000, .i1⟩
  | 38 => ⟨S_, .i32⟩
  | 39 => ⟨S7200000, .i32⟩
  | 40 => ⟨S7200000, .i32⟩
  | 41 => ⟨S7200000, .i32⟩
  | 42 => ⟨S7200000x1, .i32⟩
  | 43 => ⟨S7200000x1, .i32⟩
  | 44 => ⟨S7200000x2, .i32⟩
  | 45 => ⟨S600x120000, .f32⟩
  | 46 => ⟨S120000x600, .f32⟩
  | 47 => ⟨S512x600, .f32⟩
  | 48 => ⟨S1x600, .f32⟩
  | 49 => ⟨S512x600, .f32⟩
  | 50 => ⟨S512x600, .f32⟩
  | 51 => ⟨S_, .f32⟩
  | 52 => ⟨S600, .f32⟩
  | 53 => ⟨S_, .f32⟩
  | 54 => ⟨S600, .f32⟩
  | 55 => ⟨S600, .f32⟩
  | 56 => ⟨S_, .i32⟩
  | 57 => ⟨S_, .f32⟩
  | 58 => ⟨S600, .f32⟩
  | 59 => ⟨S1x600, .f32⟩
  | 60 => ⟨S_, .f32⟩
  | 61 => ⟨S1x600, .f32⟩
  | 62 => ⟨S1x600, .f32⟩
  | 63 => ⟨S512x600, .f32⟩
  | 64 => ⟨S512x600, .f32⟩
  | 65 => ⟨S512x600, .f32⟩
  | 66 => ⟨S_, .f32⟩
  | 67 => ⟨S_, .f32⟩
  | 68 => ⟨S_, .f32⟩
  | 69 => ⟨S_, .f32⟩
  | 70 => ⟨S600, .f32⟩
  | 71 => ⟨S600, .f32⟩
  | 72 => ⟨S600, .f32⟩
  | 73 => ⟨S_, .f32⟩
  | 74 => ⟨S_, .i1⟩
  | 75 => ⟨S_, .f32⟩
  | 76 => ⟨S_, .f32⟩
  | 77 => ⟨S600, .f32⟩
  | 78 => ⟨S600, .f32⟩
  | 79 => ⟨S1x600, .f32⟩
  | 80 => ⟨S512x600, .f32⟩
  | 81 => ⟨S512x600, .f32⟩
  | 82 => ⟨S_, .f32⟩
  | 83 => ⟨S600, .f32⟩
  | 84 => ⟨S600, .f32⟩
  | 85 => ⟨S600, .f32⟩
  | 86 => ⟨S1x600, .f32⟩
  | 87 => ⟨S512x600, .f32⟩
  | 88 => ⟨S512x600, .f32⟩
  | 89 => ⟨S1x600, .f32⟩
  | 90 => ⟨S512x600, .f32⟩
  | 91 => ⟨S512x600, .f32⟩
  | 92 => ⟨S1x600, .f32⟩
  | 93 => ⟨S512x600, .f32⟩
  | 94 => ⟨S512x600, .f32⟩
  | 95 => ⟨S512x600, .f32⟩
  | 96 => ⟨S512x600, .f32⟩
  | 97 => ⟨S_, .f32⟩
  | 98 => ⟨S512x600, .f32⟩
  | 99 => ⟨S512x600, .f32⟩
  | 100 => ⟨S_, .f32⟩
  | 101 => ⟨S512x600, .f32⟩
  | 102 => ⟨S512x600, .f32⟩
  | 103 => ⟨S512x600, .f32⟩
  | 104 => ⟨S_, .f32⟩
  | 105 => ⟨S600x600, .f32⟩
  | 106 => ⟨S1x36000, .i32⟩
  | 107 => ⟨S36000, .i32⟩
  | 108 => ⟨S1x36000, .i32⟩
  | 109 => ⟨S36000, .i32⟩
  | 110 => ⟨S_, .i32⟩
  | 111 => ⟨S36000, .i32⟩
  | 112 => ⟨S36000, .i1⟩
  | 113 => ⟨S_, .i32⟩
  | 114 => ⟨S36000, .i32⟩
  | 115 => ⟨S36000, .i32⟩
  | 116 => ⟨S36000, .i32⟩
  | 117 => ⟨S_, .i32⟩
  | 118 => ⟨S36000, .i32⟩
  | 119 => ⟨S36000, .i1⟩
  | 120 => ⟨S_, .i32⟩
  | 121 => ⟨S36000, .i32⟩
  | 122 => ⟨S36000, .i32⟩
  | 123 => ⟨S36000, .i32⟩
  | 124 => ⟨S36000x1, .i32⟩
  | 125 => ⟨S36000x1, .i32⟩
  | 126 => ⟨S36000x2, .i32⟩
  | 127 => ⟨S600x600, .f32⟩
  | _ => ⟨S512x120000, .f32⟩

abbrev hbmTy0_1 (i : Nat) : BufTy := match i % 128 with
  | 0 => ⟨S600x600, .f32⟩
  | 1 => ⟨S512x600, .f32⟩
  | 2 => ⟨S1x600, .f32⟩
  | 3 => ⟨S512x600, .f32⟩
  | 4 => ⟨S512x600, .f32⟩
  | 5 => ⟨S512x600, .f32⟩
  | 6 => ⟨S512x600, .f32⟩
  | 7 => ⟨S_, .f32⟩
  | 8 => ⟨S512x600, .f32⟩
  | 9 => ⟨S512x600, .f32⟩
  | 10 => ⟨S_, .f32⟩
  | 11 => ⟨S512x600, .f32⟩
  | 12 => ⟨S512x600, .f32⟩
  | 13 => ⟨S512x600, .f32⟩
  | 14 => ⟨S_, .f32⟩
  | 15 => ⟨S300x600, .f32⟩
  | 16 => ⟨S1x18000, .i32⟩
  | 17 => ⟨S18000, .i32⟩
  | 18 => ⟨S1x18000, .i32⟩
  | 19 => ⟨S18000, .i32⟩
  | 20 => ⟨S_, .i32⟩
  | 21 => ⟨S18000, .i32⟩
  | 22 => ⟨S18000, .i1⟩
  | 23 => ⟨S_, .i32⟩
  | 24 => ⟨S18000, .i32⟩
  | 25 => ⟨S18000, .i32⟩
  | 26 => ⟨S18000, .i32⟩
  | 27 => ⟨S_, .i32⟩
  | 28 => ⟨S18000, .i32⟩
  | 29 => ⟨S18000, .i1⟩
  | 30 => ⟨S_, .i32⟩
  | 31 => ⟨S18000, .i32⟩
  | 32 => ⟨S18000, .i32⟩
  | 33 => ⟨S18000, .i32⟩
  | 34 => ⟨S18000x1, .i32⟩
  | 35 => ⟨S18000x1, .i32⟩
  | 36 => ⟨S18000x2, .i32⟩
  | 37 => ⟨S300x600, .f32⟩
  | 38 => ⟨S600x300, .f32⟩
  | 39 => ⟨S512x300, .f32⟩
  | 40 => ⟨S1x300, .f32⟩
  | 41 => ⟨S512x300, .f32⟩
  | 42 => ⟨S512x300, .f32⟩
  | 43 => ⟨S_, .f32⟩
  | 44 => ⟨S300, .f32⟩
  | 45 => ⟨S_, .f32⟩
  | 46 => ⟨S300, .f32⟩
  | 47 => ⟨S300, .f32⟩
  | 48 => ⟨S_, .i32⟩
  | 49 => ⟨S_, .f32⟩
  | 50 => ⟨S300, .f32⟩
  | 51 => ⟨S1x300, .f32⟩
  | 52 => ⟨S_, .f32⟩
  | 53 => ⟨S1x300, .f32⟩
  | 54 => ⟨S1x300, .f32⟩
  | 55 => ⟨S512x300, .f32⟩
  | 56 => ⟨S512x300, .f32⟩
  | 57 => ⟨S512x300, .f32⟩
  | 58 => ⟨S_, .f32⟩
  | 59 => ⟨S_, .f32⟩
  | 60 => ⟨S_, .f32⟩
  | 61 => ⟨S_, .f32⟩
  | 62 => ⟨S300, .f32⟩
  | 63 => ⟨S300, .f32⟩
  | 64 => ⟨S300, .f32⟩
  | 65 => ⟨S_, .f32⟩
  | 66 => ⟨S_, .i1⟩
  | 67 => ⟨S_, .f32⟩
  | 68 => ⟨S_, .f32⟩
  | 69 => ⟨S300, .f32⟩
  | 70 => ⟨S300, .f32⟩
  | 71 => ⟨S1x300, .f32⟩
  | 72 => ⟨S512x300, .f32⟩
  | 73 => ⟨S512x300, .f32⟩
  | 74 => ⟨S_, .f32⟩
  | 75 => ⟨S300, .f32⟩
  | 76 => ⟨S300, .f32⟩
  | 77 => ⟨S300, .f32⟩
  | 78 => ⟨S1x300, .f32⟩
  | 79 => ⟨S512x300, .f32⟩
  | 80 => ⟨S512x300, .f32⟩
  | 81 => ⟨S1x300, .f32⟩
  | 82 => ⟨S512x300, .f32⟩
  | 83 => ⟨S512x300, .f32⟩
  | 84 => ⟨S1x300, .f32⟩
  | 85 => ⟨S512x300, .f32⟩
  | 86 => ⟨S512x300, .f32⟩
  | 87 => ⟨S512x300, .f32⟩
  | 88 => ⟨S512x300, .f32⟩
  | 89 => ⟨S_, .f32⟩
  | 90 => ⟨S512x300, .f32⟩
  | 91 => ⟨S512x300, .f32⟩
  | 92 => ⟨S_, .f32⟩
  | 93 => ⟨S512x300, .f32⟩
  | 94 => ⟨S512x300, .f32⟩
  | 95 => ⟨S512x300, .f32⟩
  | 96 => ⟨S_, .f32⟩
  | 97 => ⟨S200x300, .f32⟩
  | 98 => ⟨S1x6000, .i32⟩
  | 99 => ⟨S6000, .i32⟩
  | 100 => ⟨S1x6000, .i32⟩
  | 101 => ⟨S6000, .i32⟩
  | 102 => ⟨S_, .i32⟩
  | 103 => ⟨S6000, .i32⟩
  | 104 => ⟨S6000, .i1⟩
  | 105 => ⟨S_, .i32⟩
  | 106 => ⟨S6000, .i32⟩
  | 107 => ⟨S6000, .i32⟩
  | 108 => ⟨S6000, .i32⟩
  | 109 => ⟨S_, .i32⟩
  | 110 => ⟨S6000, .i32⟩
  | 111 => ⟨S6000, .i1⟩
  | 112 => ⟨S_, .i32⟩
  | 113 => ⟨S6000, .i32⟩
  | 114 => ⟨S6000, .i32⟩
  | 115 => ⟨S6000, .i32⟩
  | 116 => ⟨S6000x1, .i32⟩
  | 117 => ⟨S6000x1, .i32⟩
  | 118 => ⟨S6000x2, .i32⟩
  | 119 => ⟨S200x300, .f32⟩
  | 120 => ⟨S300x200, .f32⟩
  | 121 => ⟨S512x200, .f32⟩
  | 122 => ⟨S1x200, .f32⟩
  | 123 => ⟨S512x200, .f32⟩
  | 124 => ⟨S512x200, .f32⟩
  | 125 => ⟨S_, .f32⟩
  | 126 => ⟨S200, .f32⟩
  | 127 => ⟨S_, .f32⟩
  | _ => ⟨S512x120000, .f32⟩

abbrev hbmTy0_2 (i : Nat) : BufTy := match i % 128 with
  | 0 => ⟨S200, .f32⟩
  | 1 => ⟨S200, .f32⟩
  | 2 => ⟨S_, .i32⟩
  | 3 => ⟨S_, .f32⟩
  | 4 => ⟨S200, .f32⟩
  | 5 => ⟨S1x200, .f32⟩
  | 6 => ⟨S_, .f32⟩
  | 7 => ⟨S1x200, .f32⟩
  | 8 => ⟨S1x200, .f32⟩
  | 9 => ⟨S512x200, .f32⟩
  | 10 => ⟨S512x200, .f32⟩
  | 11 => ⟨S512x200, .f32⟩
  | 12 => ⟨S_, .f32⟩
  | 13 => ⟨S_, .f32⟩
  | 14 => ⟨S_, .f32⟩
  | 15 => ⟨S_, .f32⟩
  | 16 => ⟨S200, .f32⟩
  | 17 => ⟨S200, .f32⟩
  | 18 => ⟨S200, .f32⟩
  | 19 => ⟨S_, .f32⟩
  | 20 => ⟨S_, .i1⟩
  | 21 => ⟨S_, .f32⟩
  | 22 => ⟨S_, .f32⟩
  | 23 => ⟨S200, .f32⟩
  | 24 => ⟨S200, .f32⟩
  | 25 => ⟨S1x200, .f32⟩
  | 26 => ⟨S512x200, .f32⟩
  | 27 => ⟨S512x200, .f32⟩
  | 28 => ⟨S_, .f32⟩
  | 29 => ⟨S200, .f32⟩
  | 30 => ⟨S200, .f32⟩
  | 31 => ⟨S200, .f32⟩
  | 32 => ⟨S1x200, .f32⟩
  | 33 => ⟨S512x200, .f32⟩
  | 34 => ⟨S512x200, .f32⟩
  | 35 => ⟨S1x200, .f32⟩
  | 36 => ⟨S512x200, .f32⟩
  | 37 => ⟨S512x200, .f32⟩
  | 38 => ⟨S1x200, .f32⟩
  | 39 => ⟨S512x200, .f32⟩
  | 40 => ⟨S512x200, .f32⟩
  | 41 => ⟨S512x200, .f32⟩
  | 42 => ⟨S512x200, .f32⟩
  | 43 => ⟨S_, .f32⟩
  | 44 => ⟨S512x200, .f32⟩
  | 45 => ⟨S512x200, .f32⟩
  | 46 => ⟨S_, .f32⟩
  | 47 => ⟨S512x200, .f32⟩
  | 48 => ⟨S512x200, .f32⟩
  | 49 => ⟨S512x200, .f32⟩
  | 50 => ⟨S_, .f32⟩
  | 51 => ⟨S200x200, .f32⟩
  | 52 => ⟨S1x4000, .i32⟩
  | 53 => ⟨S4000, .i32⟩
  | 54 => ⟨S1x4000, .i32⟩
  | 55 => ⟨S4000, .i32⟩
  | 56 => ⟨S_, .i32⟩
  | 57 => ⟨S4000, .i32⟩
  | 58 => ⟨S4000, .i1⟩
  | 59 => ⟨S_, .i32⟩
  | 60 => ⟨S4000, .i32⟩
  | 61 => ⟨S4000, .i32⟩
  | 62 => ⟨S4000, .i32⟩
  | 63 => ⟨S_, .i32⟩
  | 64 => ⟨S4000, .i32⟩
  | 65 => ⟨S4000, .i1⟩
  | 66 => ⟨S_, .i32⟩
  | 67 => ⟨S4000, .i32⟩
  | 68 => ⟨S4000, .i32⟩
  | 69 => ⟨S4000, .i32⟩
  | 70 => ⟨S4000x1, .i32⟩
  | 71 => ⟨S4000x1, .i32⟩
  | 72 => ⟨S4000x2, .i32⟩
  | 73 => ⟨S200x200, .f32⟩
  | 74 => ⟨S200x200, .f32⟩
  | 75 => ⟨S512x200, .f32⟩
  | 76 => ⟨S1x200, .f32⟩
  | 77 => ⟨S512x200, .f32⟩
  | 78 => ⟨S512x200, .f32⟩
  | _ => ⟨S512x120000, .f32⟩

abbrev hbmTy (i : Nat) : BufTy := match i / 128 with
  | 0 => hbmTy0_0 i
  | 1 => hbmTy0_1 i
  | 2 => hbmTy0_2 i
  | _ => ⟨S512x120000, .f32⟩

abbrev bufTy : (tb : Table) → Fin (tcTables nBuf tb) → BufTy
  | .hbm, ⟨i, _⟩ => hbmTy i
  | _, _ => ⟨S512x120000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_c : Ref sig .tc := ⟨.hbm, 28, rfl⟩
abbrev main_v5 : Ref sig .tc := ⟨.hbm, 29, rfl⟩
abbrev main_v6 : Ref sig .tc := ⟨.hbm, 30, rfl⟩
abbrev main_c_0 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_c_1 : Ref sig .tc := ⟨.hbm, 35, rfl⟩
abbrev main_v10 : Ref sig .tc := ⟨.hbm, 36, rfl⟩
abbrev main_v11 : Ref sig .tc := ⟨.hbm, 37, rfl⟩
abbrev main_c_2 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_3 : Ref sig .tc := ⟨.hbm, 51, rfl⟩
abbrev main_v24 : Ref sig .tc := ⟨.hbm, 52, rfl⟩
abbrev main_cst_4 : Ref sig .tc := ⟨.hbm, 53, rfl⟩
abbrev main_v25 : Ref sig .tc := ⟨.hbm, 54, rfl⟩
abbrev main_v26 : Ref sig .tc := ⟨.hbm, 55, rfl⟩
abbrev main_c_5 : Ref sig .tc := ⟨.hbm, 56, rfl⟩
abbrev main_call0_cst : Ref sig .tc := ⟨.hbm, 57, rfl⟩
abbrev main_call0_v0 : Ref sig .tc := ⟨.hbm, 58, rfl⟩
abbrev main_call0_v1 : Ref sig .tc := ⟨.hbm, 59, rfl⟩
abbrev main_call0_cst_0 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_call0_v5 : Ref sig .tc := ⟨.hbm, 64, rfl⟩
abbrev main_call0_v6 : Ref sig .tc := ⟨.hbm, 65, rfl⟩
abbrev main_call0_v7 : Ref sig .tc := ⟨.hbm, 66, rfl⟩
abbrev main_call0_cst_1 : Ref sig .tc := ⟨.hbm, 67, rfl⟩
abbrev main_call0_v8 : Ref sig .tc := ⟨.hbm, 68, rfl⟩
abbrev main_call0_cst_2 : Ref sig .tc := ⟨.hbm, 69, rfl⟩
abbrev main_call0_v9 : Ref sig .tc := ⟨.hbm, 70, rfl⟩
abbrev main_call0_v10 : Ref sig .tc := ⟨.hbm, 71, rfl⟩
abbrev main_call0_v11 : Ref sig .tc := ⟨.hbm, 72, rfl⟩
abbrev main_call0_cst_3 : Ref sig .tc := ⟨.hbm, 73, rfl⟩
abbrev main_call0_v12 : Ref sig .tc := ⟨.hbm, 74, rfl⟩
abbrev main_call0_cst_4 : Ref sig .tc := ⟨.hbm, 75, rfl⟩
abbrev main_call0_call0_v0 : Ref sig .tc := ⟨.hbm, 76, rfl⟩
abbrev main_call0_call0_v1 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_cst_6 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_call1_v0 : Ref sig .tc := ⟨.hbm, 95, rfl⟩
abbrev main_call1_v1 : Ref sig .tc := ⟨.hbm, 96, rfl⟩
abbrev main_call1_cst : Ref sig .tc := ⟨.hbm, 97, rfl⟩
abbrev main_call1_v2 : Ref sig .tc := ⟨.hbm, 98, rfl⟩
abbrev main_call1_v3 : Ref sig .tc := ⟨.hbm, 99, rfl⟩
abbrev main_call1_cst_0 : Ref sig .tc := ⟨.hbm, 100, rfl⟩
abbrev main_call1_v4 : Ref sig .tc := ⟨.hbm, 101, rfl⟩
abbrev main_call1_v5 : Ref sig .tc := ⟨.hbm, 102, rfl⟩
abbrev main_v43 : Ref sig .tc := ⟨.hbm, 103, rfl⟩
abbrev main_cst_7 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_c_8 : Ref sig .tc := ⟨.hbm, 110, rfl⟩
abbrev main_v49 : Ref sig .tc := ⟨.hbm, 111, rfl⟩
abbrev main_v50 : Ref sig .tc := ⟨.hbm, 112, rfl⟩
abbrev main_c_9 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_c_10 : Ref sig .tc := ⟨.hbm, 117, rfl⟩
abbrev main_v54 : Ref sig .tc := ⟨.hbm, 118, rfl⟩
abbrev main_v55 : Ref sig .tc := ⟨.hbm, 119, rfl⟩
abbrev main_c_11 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_v67 : Ref sig .tc := ⟨.hbm, 132, rfl⟩
abbrev main_call2_v0 : Ref sig .tc := ⟨.hbm, 133, rfl⟩
abbrev main_call2_v1 : Ref sig .tc := ⟨.hbm, 134, rfl⟩
abbrev main_call2_cst : Ref sig .tc := ⟨.hbm, 135, rfl⟩
abbrev main_call2_v2 : Ref sig .tc := ⟨.hbm, 136, rfl⟩
abbrev main_call2_v3 : Ref sig .tc := ⟨.hbm, 137, rfl⟩
abbrev main_call2_cst_0 : Ref sig .tc := ⟨.hbm, 138, rfl⟩
abbrev main_call2_v4 : Ref sig .tc := ⟨.hbm, 139, rfl⟩
abbrev main_call2_v5 : Ref sig .tc := ⟨.hbm, 140, rfl⟩
abbrev main_v68 : Ref sig .tc := ⟨.hbm, 141, rfl⟩
abbrev main_cst_12 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_c_13 : Ref sig .tc := ⟨.hbm, 148, rfl⟩
abbrev main_v74 : Ref sig .tc := ⟨.hbm, 149, rfl⟩
abbrev main_v75 : Ref sig .tc := ⟨.hbm, 150, rfl⟩
abbrev main_c_14 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_c_15 : Ref sig .tc := ⟨.hbm, 155, rfl⟩
abbrev main_v79 : Ref sig .tc := ⟨.hbm, 156, rfl⟩
abbrev main_v80 : Ref sig .tc := ⟨.hbm, 157, rfl⟩
abbrev main_c_16 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_cst_17 : Ref sig .tc := ⟨.hbm, 171, rfl⟩
abbrev main_v93 : Ref sig .tc := ⟨.hbm, 172, rfl⟩
abbrev main_cst_18 : Ref sig .tc := ⟨.hbm, 173, rfl⟩
abbrev main_v94 : Ref sig .tc := ⟨.hbm, 174, rfl⟩
abbrev main_v95 : Ref sig .tc := ⟨.hbm, 175, rfl⟩
abbrev main_c_19 : Ref sig .tc := ⟨.hbm, 176, rfl⟩
abbrev main_call3_cst : Ref sig .tc := ⟨.hbm, 177, rfl⟩
abbrev main_call3_v0 : Ref sig .tc := ⟨.hbm, 178, rfl⟩
abbrev main_call3_v1 : Ref sig .tc := ⟨.hbm, 179, rfl⟩
abbrev main_call3_cst_0 : Ref sig .tc := ⟨.hbm, 180, rfl⟩
abbrev main_call3_v2 : Ref sig .tc := ⟨.hbm, 181, rfl⟩
abbrev main_call3_v3 : Ref sig .tc := ⟨.hbm, 182, rfl⟩
abbrev main_call3_v4 : Ref sig .tc := ⟨.hbm, 183, rfl⟩
abbrev main_call3_v5 : Ref sig .tc := ⟨.hbm, 184, rfl⟩
abbrev main_call3_v6 : Ref sig .tc := ⟨.hbm, 185, rfl⟩
abbrev main_call3_v7 : Ref sig .tc := ⟨.hbm, 186, rfl⟩
abbrev main_call3_cst_1 : Ref sig .tc := ⟨.hbm, 187, rfl⟩
abbrev main_call3_v8 : Ref sig .tc := ⟨.hbm, 188, rfl⟩
abbrev main_call3_cst_2 : Ref sig .tc := ⟨.hbm, 189, rfl⟩
abbrev main_call3_v9 : Ref sig .tc := ⟨.hbm, 190, rfl⟩
abbrev main_call3_v10 : Ref sig .tc := ⟨.hbm, 191, rfl⟩
abbrev main_call3_v11 : Ref sig .tc := ⟨.hbm, 192, rfl⟩
abbrev main_call3_cst_3 : Ref sig .tc := ⟨.hbm, 193, rfl⟩
abbrev main_call3_v12 : Ref sig .tc := ⟨.hbm, 194, rfl⟩
abbrev main_call3_cst_4 : Ref sig .tc := ⟨.hbm, 195, rfl⟩
abbrev main_call3_call0_v0 : Ref sig .tc := ⟨.hbm, 196, rfl⟩
abbrev main_call3_call0_v1 : Ref sig .tc := ⟨.hbm, 197, rfl⟩
abbrev main_v96 : Ref sig .tc := ⟨.hbm, 198, rfl⟩
abbrev main_v97 : Ref sig .tc := ⟨.hbm, 199, rfl⟩
abbrev main_v98 : Ref sig .tc := ⟨.hbm, 200, rfl⟩
abbrev main_v99 : Ref sig .tc := ⟨.hbm, 201, rfl⟩
abbrev main_cst_20 : Ref sig .tc := ⟨.hbm, 202, rfl⟩
abbrev main_v100 : Ref sig .tc := ⟨.hbm, 203, rfl⟩
abbrev main_v101 : Ref sig .tc := ⟨.hbm, 204, rfl⟩
abbrev main_v102 : Ref sig .tc := ⟨.hbm, 205, rfl⟩
abbrev main_v103 : Ref sig .tc := ⟨.hbm, 206, rfl⟩
abbrev main_v104 : Ref sig .tc := ⟨.hbm, 207, rfl⟩
abbrev main_v105 : Ref sig .tc := ⟨.hbm, 208, rfl⟩
abbrev main_v106 : Ref sig .tc := ⟨.hbm, 209, rfl⟩
abbrev main_v107 : Ref sig .tc := ⟨.hbm, 210, rfl⟩
abbrev main_v108 : Ref sig .tc := ⟨.hbm, 211, rfl⟩
abbrev main_v109 : Ref sig .tc := ⟨.hbm, 212, rfl⟩
abbrev main_v110 : Ref sig .tc := ⟨.hbm, 213, rfl⟩
abbrev main_v111 : Ref sig .tc := ⟨.hbm, 214, rfl⟩
abbrev main_call4_v0 : Ref sig .tc := ⟨.hbm, 215, rfl⟩
abbrev main_call4_v1 : Ref sig .tc := ⟨.hbm, 216, rfl⟩
abbrev main_call4_cst : Ref sig .tc := ⟨.hbm, 217, rfl⟩
abbrev main_call4_v2 : Ref sig .tc := ⟨.hbm, 218, rfl⟩
abbrev main_call4_v3 : Ref sig .tc := ⟨.hbm, 219, rfl⟩
abbrev main_call4_cst_0 : Ref sig .tc := ⟨.hbm, 220, rfl⟩
abbrev main_call4_v4 : Ref sig .tc := ⟨.hbm, 221, rfl⟩
abbrev main_call4_v5 : Ref sig .tc := ⟨.hbm, 222, rfl⟩
abbrev main_v112 : Ref sig .tc := ⟨.hbm, 223, rfl⟩
abbrev main_cst_21 : Ref sig .tc := ⟨.hbm, 224, rfl⟩
abbrev main_v113 : Ref sig .tc := ⟨.hbm, 225, rfl⟩
abbrev main_v114 : Ref sig .tc := ⟨.hbm, 226, rfl⟩
abbrev main_v115 : Ref sig .tc := ⟨.hbm, 227, rfl⟩
abbrev main_v116 : Ref sig .tc := ⟨.hbm, 228, rfl⟩
abbrev main_v117 : Ref sig .tc := ⟨.hbm, 229, rfl⟩
abbrev main_c_22 : Ref sig .tc := ⟨.hbm, 230, rfl⟩
abbrev main_v118 : Ref sig .tc := ⟨.hbm, 231, rfl⟩
abbrev main_v119 : Ref sig .tc := ⟨.hbm, 232, rfl⟩
abbrev main_c_23 : Ref sig .tc := ⟨.hbm, 233, rfl⟩
abbrev main_v120 : Ref sig .tc := ⟨.hbm, 234, rfl⟩
abbrev main_v121 : Ref sig .tc := ⟨.hbm, 235, rfl⟩
abbrev main_v122 : Ref sig .tc := ⟨.hbm, 236, rfl⟩
abbrev main_c_24 : Ref sig .tc := ⟨.hbm, 237, rfl⟩
abbrev main_v123 : Ref sig .tc := ⟨.hbm, 238, rfl⟩
abbrev main_v124 : Ref sig .tc := ⟨.hbm, 239, rfl⟩
abbrev main_c_25 : Ref sig .tc := ⟨.hbm, 240, rfl⟩
abbrev main_v125 : Ref sig .tc := ⟨.hbm, 241, rfl⟩
abbrev main_v126 : Ref sig .tc := ⟨.hbm, 242, rfl⟩
abbrev main_v127 : Ref sig .tc := ⟨.hbm, 243, rfl⟩
abbrev main_v128 : Ref sig .tc := ⟨.hbm, 244, rfl⟩
abbrev main_v129 : Ref sig .tc := ⟨.hbm, 245, rfl⟩
abbrev main_v130 : Ref sig .tc := ⟨.hbm, 246, rfl⟩
abbrev main_v131 : Ref sig .tc := ⟨.hbm, 247, rfl⟩
abbrev main_v132 : Ref sig .tc := ⟨.hbm, 248, rfl⟩
abbrev main_v133 : Ref sig .tc := ⟨.hbm, 249, rfl⟩
abbrev main_v134 : Ref sig .tc := ⟨.hbm, 250, rfl⟩
abbrev main_v135 : Ref sig .tc := ⟨.hbm, 251, rfl⟩
abbrev main_v136 : Ref sig .tc := ⟨.hbm, 252, rfl⟩
abbrev main_cst_26 : Ref sig .tc := ⟨.hbm, 253, rfl⟩
abbrev main_v137 : Ref sig .tc := ⟨.hbm, 254, rfl⟩
abbrev main_cst_27 : Ref sig .tc := ⟨.hbm, 255, rfl⟩
abbrev main_v138 : Ref sig .tc := ⟨.hbm, 256, rfl⟩
abbrev main_v139 : Ref sig .tc := ⟨.hbm, 257, rfl⟩
abbrev main_c_28 : Ref sig .tc := ⟨.hbm, 258, rfl⟩
abbrev main_call5_cst : Ref sig .tc := ⟨.hbm, 259, rfl⟩
abbrev main_call5_v0 : Ref sig .tc := ⟨.hbm, 260, rfl⟩
abbrev main_call5_v1 : Ref sig .tc := ⟨.hbm, 261, rfl⟩
abbrev main_call5_cst_0 : Ref sig .tc := ⟨.hbm, 262, rfl⟩
abbrev main_call5_v2 : Ref sig .tc := ⟨.hbm, 263, rfl⟩
abbrev main_call5_v3 : Ref sig .tc := ⟨.hbm, 264, rfl⟩
abbrev main_call5_v4 : Ref sig .tc := ⟨.hbm, 265, rfl⟩
abbrev main_call5_v5 : Ref sig .tc := ⟨.hbm, 266, rfl⟩
abbrev main_call5_v6 : Ref sig .tc := ⟨.hbm, 267, rfl⟩
abbrev main_call5_v7 : Ref sig .tc := ⟨.hbm, 268, rfl⟩
abbrev main_call5_cst_1 : Ref sig .tc := ⟨.hbm, 269, rfl⟩
abbrev main_call5_v8 : Ref sig .tc := ⟨.hbm, 270, rfl⟩
abbrev main_call5_cst_2 : Ref sig .tc := ⟨.hbm, 271, rfl⟩
abbrev main_call5_v9 : Ref sig .tc := ⟨.hbm, 272, rfl⟩
abbrev main_call5_v10 : Ref sig .tc := ⟨.hbm, 273, rfl⟩
abbrev main_call5_v11 : Ref sig .tc := ⟨.hbm, 274, rfl⟩
abbrev main_call5_cst_3 : Ref sig .tc := ⟨.hbm, 275, rfl⟩
abbrev main_call5_v12 : Ref sig .tc := ⟨.hbm, 276, rfl⟩
abbrev main_call5_cst_4 : Ref sig .tc := ⟨.hbm, 277, rfl⟩
abbrev main_call5_call0_v0 : Ref sig .tc := ⟨.hbm, 278, rfl⟩
abbrev main_call5_call0_v1 : Ref sig .tc := ⟨.hbm, 279, rfl⟩
abbrev main_v140 : Ref sig .tc := ⟨.hbm, 280, rfl⟩
abbrev main_v141 : Ref sig .tc := ⟨.hbm, 281, rfl⟩
abbrev main_v142 : Ref sig .tc := ⟨.hbm, 282, rfl⟩
abbrev main_v143 : Ref sig .tc := ⟨.hbm, 283, rfl⟩
abbrev main_cst_29 : Ref sig .tc := ⟨.hbm, 284, rfl⟩
abbrev main_v144 : Ref sig .tc := ⟨.hbm, 285, rfl⟩
abbrev main_v145 : Ref sig .tc := ⟨.hbm, 286, rfl⟩
abbrev main_v146 : Ref sig .tc := ⟨.hbm, 287, rfl⟩
abbrev main_v147 : Ref sig .tc := ⟨.hbm, 288, rfl⟩
abbrev main_v148 : Ref sig .tc := ⟨.hbm, 289, rfl⟩
abbrev main_v149 : Ref sig .tc := ⟨.hbm, 290, rfl⟩
abbrev main_v150 : Ref sig .tc := ⟨.hbm, 291, rfl⟩
abbrev main_v151 : Ref sig .tc := ⟨.hbm, 292, rfl⟩
abbrev main_v152 : Ref sig .tc := ⟨.hbm, 293, rfl⟩
abbrev main_v153 : Ref sig .tc := ⟨.hbm, 294, rfl⟩
abbrev main_v154 : Ref sig .tc := ⟨.hbm, 295, rfl⟩
abbrev main_v155 : Ref sig .tc := ⟨.hbm, 296, rfl⟩
abbrev main_call6_v0 : Ref sig .tc := ⟨.hbm, 297, rfl⟩
abbrev main_call6_v1 : Ref sig .tc := ⟨.hbm, 298, rfl⟩
abbrev main_call6_cst : Ref sig .tc := ⟨.hbm, 299, rfl⟩
abbrev main_call6_v2 : Ref sig .tc := ⟨.hbm, 300, rfl⟩
abbrev main_call6_v3 : Ref sig .tc := ⟨.hbm, 301, rfl⟩
abbrev main_call6_cst_0 : Ref sig .tc := ⟨.hbm, 302, rfl⟩
abbrev main_call6_v4 : Ref sig .tc := ⟨.hbm, 303, rfl⟩
abbrev main_call6_v5 : Ref sig .tc := ⟨.hbm, 304, rfl⟩
abbrev main_v156 : Ref sig .tc := ⟨.hbm, 305, rfl⟩
abbrev main_cst_30 : Ref sig .tc := ⟨.hbm, 306, rfl⟩
abbrev main_v157 : Ref sig .tc := ⟨.hbm, 307, rfl⟩
abbrev main_v158 : Ref sig .tc := ⟨.hbm, 308, rfl⟩
abbrev main_v159 : Ref sig .tc := ⟨.hbm, 309, rfl⟩
abbrev main_v160 : Ref sig .tc := ⟨.hbm, 310, rfl⟩
abbrev main_v161 : Ref sig .tc := ⟨.hbm, 311, rfl⟩
abbrev main_c_31 : Ref sig .tc := ⟨.hbm, 312, rfl⟩
abbrev main_v162 : Ref sig .tc := ⟨.hbm, 313, rfl⟩
abbrev main_v163 : Ref sig .tc := ⟨.hbm, 314, rfl⟩
abbrev main_c_32 : Ref sig .tc := ⟨.hbm, 315, rfl⟩
abbrev main_v164 : Ref sig .tc := ⟨.hbm, 316, rfl⟩
abbrev main_v165 : Ref sig .tc := ⟨.hbm, 317, rfl⟩
abbrev main_v166 : Ref sig .tc := ⟨.hbm, 318, rfl⟩
abbrev main_c_33 : Ref sig .tc := ⟨.hbm, 319, rfl⟩
abbrev main_v167 : Ref sig .tc := ⟨.hbm, 320, rfl⟩
abbrev main_v168 : Ref sig .tc := ⟨.hbm, 321, rfl⟩
abbrev main_c_34 : Ref sig .tc := ⟨.hbm, 322, rfl⟩
abbrev main_v169 : Ref sig .tc := ⟨.hbm, 323, rfl⟩
abbrev main_v170 : Ref sig .tc := ⟨.hbm, 324, rfl⟩
abbrev main_v171 : Ref sig .tc := ⟨.hbm, 325, rfl⟩
abbrev main_v172 : Ref sig .tc := ⟨.hbm, 326, rfl⟩
abbrev main_v173 : Ref sig .tc := ⟨.hbm, 327, rfl⟩
abbrev main_v174 : Ref sig .tc := ⟨.hbm, 328, rfl⟩
abbrev main_v175 : Ref sig .tc := ⟨.hbm, 329, rfl⟩
abbrev main_v176 : Ref sig .tc := ⟨.hbm, 330, rfl⟩
abbrev main_v177 : Ref sig .tc := ⟨.hbm, 331, rfl⟩
abbrev main_v178 : Ref sig .tc := ⟨.hbm, 332, rfl⟩
abbrev main_v179 : Ref sig .tc := ⟨.hbm, 333, rfl⟩
abbrev main_v180 : Ref sig .tc := ⟨.hbm, 334, rfl⟩

abbrev nD : Nat := 1
abbrev τ : Topo := Topo.v7x

variable {F : FTy → Type} [FloatOps F]

class Facts₀ : Prop where
  bcast_S_S600x120000 : S_.BroadcastsInDim S600x120000 (![] : Fin 0 → Fin S600x120000.rank)
  slices_S2x7200000_S1x7200000_0_0 : S2x7200000.Slices ![0, 0] S1x7200000
  shapeCasts_S1x7200000_S7200000 : S1x7200000.ShapeCasts S7200000
  slices_S2x7200000_S1x7200000_1_0 : S2x7200000.Slices ![1, 0] S1x7200000
  bcast_S_S7200000 : S_.BroadcastsInDim S7200000 (![] : Fin 0 → Fin S7200000.rank)
  bcast_S7200000_S7200000x1_0 : S7200000.BroadcastsInDim S7200000x1 (![0] : Fin 1 → Fin S7200000x1.rank)
  concatenates_S7200000x1_S7200000x1_S7200000x2_d1 : Shape.Concatenates [S7200000x1, S7200000x1] S7200000x2 1
  transposes_S600x120000_S120000x600_1_0 : S600x120000.Transposes [1, 0] S120000x600
  bcast_S600_S1x600_1 : S600.BroadcastsInDim S1x600 (![1] : Fin 1 → Fin S1x600.rank)
  bcast_S1x600_S512x600_0_1 : S1x600.BroadcastsInDim S512x600 (![0, 1] : Fin 2 → Fin S512x600.rank)
  reducesTo_S512x600_S600_d0 : S512x600.ReducesTo [0] S600
  h_S_ : 0 < S_.numel
  bcast_S_S600 : S_.BroadcastsInDim S600 (![] : Fin 0 → Fin S600.rank)
  bcast_S_S1x600 : S_.BroadcastsInDim S1x600 (![] : Fin 0 → Fin S1x600.rank)
  bcast_S_S512x600 : S_.BroadcastsInDim S512x600 (![] : Fin 0 → Fin S512x600.rank)
  bcast_S_S600x600 : S_.BroadcastsInDim S600x600 (![] : Fin 0 → Fin S600x600.rank)
  slices_S2x36000_S1x36000_0_0 : S2x36000.Slices ![0, 0] S1x36000
  shapeCasts_S1x36000_S36000 : S1x36000.ShapeCasts S36000
  slices_S2x36000_S1x36000_1_0 : S2x36000.Slices ![1, 0] S1x36000
  bcast_S_S36000 : S_.BroadcastsInDim S36000 (![] : Fin 0 → Fin S36000.rank)
  bcast_S36000_S36000x1_0 : S36000.BroadcastsInDim S36000x1 (![0] : Fin 1 → Fin S36000x1.rank)
  concatenates_S36000x1_S36000x1_S36000x2_d1 : Shape.Concatenates [S36000x1, S36000x1] S36000x2 1
  transposes_S600x600_S600x600_1_0 : S600x600.Transposes [1, 0] S600x600
  bcast_S_S300x600 : S_.BroadcastsInDim S300x600 (![] : Fin 0 → Fin S300x600.rank)
  slices_S2x18000_S1x18000_0_0 : S2x18000.Slices ![0, 0] S1x18000
  shapeCasts_S1x18000_S18000 : S1x18000.ShapeCasts S18000
  slices_S2x18000_S1x18000_1_0 : S2x18000.Slices ![1, 0] S1x18000
  bcast_S_S18000 : S_.BroadcastsInDim S18000 (![] : Fin 0 → Fin S18000.rank)
  bcast_S18000_S18000x1_0 : S18000.BroadcastsInDim S18000x1 (![0] : Fin 1 → Fin S18000x1.rank)
  concatenates_S18000x1_S18000x1_S18000x2_d1 : Shape.Concatenates [S18000x1, S18000x1] S18000x2 1
  transposes_S300x600_S600x300_1_0 : S300x600.Transposes [1, 0] S600x300
  bcast_S300_S1x300_1 : S300.BroadcastsInDim S1x300 (![1] : Fin 1 → Fin S1x300.rank)
  bcast_S1x300_S512x300_0_1 : S1x300.BroadcastsInDim S512x300 (![0, 1] : Fin 2 → Fin S512x300.rank)
  reducesTo_S512x300_S300_d0 : S512x300.ReducesTo [0] S300
  bcast_S_S300 : S_.BroadcastsInDim S300 (![] : Fin 0 → Fin S300.rank)
  bcast_S_S1x300 : S_.BroadcastsInDim S1x300 (![] : Fin 0 → Fin S1x300.rank)
  bcast_S_S512x300 : S_.BroadcastsInDim S512x300 (![] : Fin 0 → Fin S512x300.rank)
  bcast_S_S200x300 : S_.BroadcastsInDim S200x300 (![] : Fin 0 → Fin S200x300.rank)
  slices_S2x6000_S1x6000_0_0 : S2x6000.Slices ![0, 0] S1x6000
  shapeCasts_S1x6000_S6000 : S1x6000.ShapeCasts S6000
  slices_S2x6000_S1x6000_1_0 : S2x6000.Slices ![1, 0] S1x6000
  bcast_S_S6000 : S_.BroadcastsInDim S6000 (![] : Fin 0 → Fin S6000.rank)
  bcast_S6000_S6000x1_0 : S6000.BroadcastsInDim S6000x1 (![0] : Fin 1 → Fin S6000x1.rank)
  concatenates_S6000x1_S6000x1_S6000x2_d1 : Shape.Concatenates [S6000x1, S6000x1] S6000x2 1
  transposes_S200x300_S300x200_1_0 : S200x300.Transposes [1, 0] S300x200
  bcast_S200_S1x200_1 : S200.BroadcastsInDim S1x200 (![1] : Fin 1 → Fin S1x200.rank)
  bcast_S1x200_S512x200_0_1 : S1x200.BroadcastsInDim S512x200 (![0, 1] : Fin 2 → Fin S512x200.rank)
  reducesTo_S512x200_S200_d0 : S512x200.ReducesTo [0] S200
  bcast_S_S200 : S_.BroadcastsInDim S200 (![] : Fin 0 → Fin S200.rank)
  bcast_S_S1x200 : S_.BroadcastsInDim S1x200 (![] : Fin 0 → Fin S1x200.rank)
  bcast_S_S512x200 : S_.BroadcastsInDim S512x200 (![] : Fin 0 → Fin S512x200.rank)
  bcast_S_S200x200 : S_.BroadcastsInDim S200x200 (![] : Fin 0 → Fin S200x200.rank)
  slices_S2x4000_S1x4000_0_0 : S2x4000.Slices ![0, 0] S1x4000
  shapeCasts_S1x4000_S4000 : S1x4000.ShapeCasts S4000
  slices_S2x4000_S1x4000_1_0 : S2x4000.Slices ![1, 0] S1x4000
  bcast_S_S4000 : S_.BroadcastsInDim S4000 (![] : Fin 0 → Fin S4000.rank)
  bcast_S4000_S4000x1_0 : S4000.BroadcastsInDim S4000x1 (![0] : Fin 1 → Fin S4000x1.rank)
  concatenates_S4000x1_S4000x1_S4000x2_d1 : Shape.Concatenates [S4000x1, S4000x1] S4000x2 1
  transposes_S200x200_S200x200_1_0 : S200x200.Transposes [1, 0] S200x200
  scatter_S600x120000_S7200000x2_S7200000_n_01_01_1_wf : ScatterDims.WF S600x120000 S7200000x2 S7200000 [] [0, 1] [0, 1] 1
  dot_S512x120000_S120000x600_S512x600_1_0_0_1_n_n_wf : DotDims.WF S512x120000 S120000x600 S512x600 [1] [0] [0] [1] [] []
  scatter_S600x600_S36000x2_S36000_n_01_01_1_wf : ScatterDims.WF S600x600 S36000x2 S36000 [] [0, 1] [0, 1] 1
  dot_S512x600_S600x600_S512x600_1_0_0_1_n_n_wf : DotDims.WF S512x600 S600x600 S512x600 [1] [0] [0] [1] [] []
  scatter_S300x600_S18000x2_S18000_n_01_01_1_wf : ScatterDims.WF S300x600 S18000x2 S18000 [] [0, 1] [0, 1] 1
  dot_S512x600_S600x300_S512x300_1_0_0_1_n_n_wf : DotDims.WF S512x600 S600x300 S512x300 [1] [0] [0] [1] [] []
  scatter_S200x300_S6000x2_S6000_n_01_01_1_wf : ScatterDims.WF S200x300 S6000x2 S6000 [] [0, 1] [0, 1] 1
  dot_S512x300_S300x200_S512x200_1_0_0_1_n_n_wf : DotDims.WF S512x300 S300x200 S512x200 [1] [0] [0] [1] [] []
  scatter_S200x200_S4000x2_S4000_n_01_01_1_wf : ScatterDims.WF S200x200 S4000x2 S4000 [] [0, 1] [0, 1] 1
  dot_S512x200_S200x200_S512x200_1_0_0_1_n_n_wf : DotDims.WF S512x200 S200x200 S512x200 [1] [0] [0] [1] [] []

variable [Facts₀]

def scatter_S600x120000_S7200000x2_S7200000_n_01_01_1 : ScatterDims S600x120000 S7200000x2 S7200000 where
  updateWindowDims := []
  insertedWindowDims := [0, 1]
  scatterDimsToOperandDims := [0, 1]
  indexVectorDim := 1
  wf := scatter_S600x120000_S7200000x2_S7200000_n_01_01_1_wf
def dot_S512x120000_S120000x600_S512x600_1_0_0_1_n_n : DotDims S512x120000 S120000x600 S512x600 where
  lhsContracting := [1]
  rhsContracting := [0]
  lhsNonContracting := [0]
  rhsNonContracting := [1]
  lhsBatch := []
  rhsBatch := []
  wf := dot_S512x120000_S120000x600_S512x600_1_0_0_1_n_n_wf
def scatter_S600x600_S36000x2_S36000_n_01_01_1 : ScatterDims S600x600 S36000x2 S36000 where
  updateWindowDims := []
  insertedWindowDims := [0, 1]
  scatterDimsToOperandDims := [0, 1]
  indexVectorDim := 1
  wf := scatter_S600x600_S36000x2_S36000_n_01_01_1_wf
def dot_S512x600_S600x600_S512x600_1_0_0_1_n_n : DotDims S512x600 S600x600 S512x600 where
  lhsContracting := [1]
  rhsContracting := [0]
  lhsNonContracting := [0]
  rhsNonContracting := [1]
  lhsBatch := []
  rhsBatch := []
  wf := dot_S512x600_S600x600_S512x600_1_0_0_1_n_n_wf
def scatter_S300x600_S18000x2_S18000_n_01_01_1 : ScatterDims S300x600 S18000x2 S18000 where
  updateWindowDims := []
  insertedWindowDims := [0, 1]
  scatterDimsToOperandDims := [0, 1]
  indexVectorDim := 1
  wf := scatter_S300x600_S18000x2_S18000_n_01_01_1_wf
def dot_S512x600_S600x300_S512x300_1_0_0_1_n_n : DotDims S512x600 S600x300 S512x300 where
  lhsContracting := [1]
  rhsContracting := [0]
  lhsNonContracting := [0]
  rhsNonContracting := [1]
  lhsBatch := []
  rhsBatch := []
  wf := dot_S512x600_S600x300_S512x300_1_0_0_1_n_n_wf
def scatter_S200x300_S6000x2_S6000_n_01_01_1 : ScatterDims S200x300 S6000x2 S6000 where
  updateWindowDims := []
  insertedWindowDims := [0, 1]
  scatterDimsToOperandDims := [0, 1]
  indexVectorDim := 1
  wf := scatter_S200x300_S6000x2_S6000_n_01_01_1_wf
def dot_S512x300_S300x200_S512x200_1_0_0_1_n_n : DotDims S512x300 S300x200 S512x200 where
  lhsContracting := [1]
  rhsContracting := [0]
  lhsNonContracting := [0]
  rhsNonContracting := [1]
  lhsBatch := []
  rhsBatch := []
  wf := dot_S512x300_S300x200_S512x200_1_0_0_1_n_n_wf
def scatter_S200x200_S4000x2_S4000_n_01_01_1 : ScatterDims S200x200 S4000x2 S4000 where
  updateWindowDims := []
  insertedWindowDims := [0, 1]
  scatterDimsToOperandDims := [0, 1]
  indexVectorDim := 1
  wf := scatter_S200x200_S4000x2_S4000_n_01_01_1_wf
def dot_S512x200_S200x200_S512x200_1_0_0_1_n_n : DotDims S512x200 S200x200 S512x200 where
  lhsContracting := [1]
  rhsContracting := [0]
  lhsNonContracting := [0]
  rhsNonContracting := [1]
  lhsBatch := []
  rhsBatch := []
  wf := dot_S512x200_S200x200_S512x200_1_0_0_1_n_n_wf

class Facts : Prop extends Facts₀ where

variable [Facts]
-- ==== Proof.K.Folds.lean ====
/-
  The host operations of @main between the launch, the two kernel regions and the return, stretch by stretch: no
  operation allocates a buffer; each stretch writes only the listed result buffers, so every other buffer — the
  twenty-two argument arrays among them — holds after the stretch what it held before it.
-/
import proofs.«146654_j5488968204426_2_alg».proof.Proof.Gen.Kernel.Launch
import Idealize.ShloMosaic.Lib.StableHlo.Run

set_option maxRecDepth 16384

noncomputable section

namespace Cert.Kernel.Hand

open Cert.Kernel Cert.Kernel.Gen
open Idealize.ShloMosaic Idealize.ShloMosaic.TcCoe Idealize.SL.Sem
open Idealize.ShloMosaic.StableHlo (after)

variable {F : FTy → Type} [FloatOps F]

/-- A result buffer that is on a list is inside the list's set of device buffers. -/
theorem wsub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The argument arrays of @main. -/
def argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

/-- No operation of hostOps0 allocates a buffer. -/
theorem hostOps0_fresh : (hostOps0 : List (HloOp τ sig (Elt F))).Forall fun op => op.fresh = ∅ := by
  simp only [List.Forall]; repeat' constructor
/-- The buffers hostOps0 writes. -/
def hostOps0_W : List (Ref sig .tc) := [main_v0, main_c]
theorem hostOps0_writes : (hostOps0 : List (HloOp τ sig (Elt F))).Forall fun op =>
    op.writes ⊆ ((hostOps0_W).map (Proc.devRef (τ := τ) .tc)).toFinset :=
  ⟨wsub (by decide), wsub (by decide)⟩
/-- A buffer hostOps0 does not write keeps its contents. -/
theorem hostOps0_keeps (V : Valuation τ sig (Elt F)) (r : Ref sig .tc) (hr : r ∉ hostOps0_W) :
    after hostOps0 V (Proc.devRef .tc r) = V (Proc.devRef .tc r) :=
  StableHlo.after_of_writes_sub hostOps0 V hostOps0_writes hr
theorem hostOps0_args : ∀ r ∈ argRefs, r ∉ hostOps0_W := by decide

/-- No operation of hostOps0_1 allocates a buffer. -/
theorem hostOps0_1_fresh : (hostOps0_1 : List (HloOp τ sig (Elt F))).Forall fun op => op.fresh = ∅ := by
  simp only [List.Forall]; repeat' constructor
/-- The buffers hostOps0_1 writes. -/
def hostOps0_1_W : List (Ref sig .tc) := [main_call0_v0, main_v1]
theorem hostOps0_1_writes : (hostOps0_1 : List (HloOp τ sig (Elt F))).Forall fun op =>
    op.writes ⊆ ((hostOps0_1_W).map (Proc.devRef (τ := τ) .tc)).toFinset :=
  ⟨wsub (by decide), wsub (by decide)⟩
/-- A buffer hostOps0_1 does not write keeps its contents. -/
theorem hostOps0_1_keeps (V : Valuation τ sig (Elt F)) (r : Ref sig .tc) (hr : r ∉ hostOps0_1_W) :
    after hostOps0_1 V (Proc.devRef .tc r) = V (Proc.devRef .tc r) :=
  StableHlo.after_of_writes_sub hostOps0_1 V hostOps0_1_writes hr
theorem hostOps0_1_args : ∀ r ∈ argRefs, r ∉ hostOps0_1_W := by decide

/-- No operation of hostOps0_2 allocates a buffer. -/
theorem hostOps0_2_fresh : (hostOps0_2 : List (HloOp τ sig (Elt F))).Forall fun op => op.fresh = ∅ := by
  simp only [List.Forall]; repeat' constructor
/-- The buffers hostOps0_2 writes. -/
def hostOps0_2_W : List (Ref sig .tc) := [main_cst, main_v2, main_v3, main_v4, main_v5, main_v6, main_c_0, main_v7, main_v8, main_c_1, main_v9, main_v10, main_v11, main_c_2, main_v12, main_v13, main_c_3, main_v14, main_v15, main_v16, main_v17, main_v18, main_v19, main_v20, main_v21, main_c_4]
theorem hostOps0_2_writes : (hostOps0_2 : List (HloOp τ sig (Elt F))).Forall fun op =>
    op.writes ⊆ ((hostOps0_2_W).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩
/-- A buffer hostOps0_2 does not write keeps its contents. -/
theorem hostOps0_2_keeps (V : Valuation τ sig (Elt F)) (r : Ref sig .tc) (hr : r ∉ hostOps0_2_W) :
    after hostOps0_2 V (Proc.devRef .tc r) = V (Proc.devRef .tc r) :=
  StableHlo.after_of_writes_sub hostOps0_2 V hostOps0_2_writes hr
theorem hostOps0_2_args : ∀ r ∈ argRefs, r ∉ hostOps0_2_W := by decide

/-- No operation of hostOps0_3 allocates a buffer. -/
theorem hostOps0_3_fresh : (hostOps0_3 : List (HloOp τ sig (Elt F))).Forall fun op => op.fresh = ∅ := by
  simp only [List.Forall]; repeat' constructor
/-- The buffers hostOps0_3 writes. -/
def hostOps0_3_W : List (Ref sig .tc) := [main_call1_v0, main_v22]
theorem hostOps0_3_writes : (hostOps0_3 : List (HloOp τ sig (Elt F))).Forall fun op =>
    op.writes ⊆ ((hostOps0_3_W).map (Proc.devRef (τ := τ) .tc)).toFinset :=
  ⟨wsub (by decide), wsub (by decide)⟩
/-- A buffer hostOps0_3 does not write keeps its contents. -/
theorem hostOps0_3_keeps (V : Valuation τ sig (Elt F)) (r : Ref sig .tc) (hr : r ∉ hostOps0_3_W) :
    after hostOps0_3 V (Proc.devRef .tc r) = V (Proc.devRef .tc r) :=
  StableHlo.after_of_writes_sub hostOps0_3 V hostOps0_3_writes hr
theorem hostOps0_3_args : ∀ r ∈ argRefs, r ∉ hostOps0_3_W := by decide

/-- No operation of hostOps0_4 allocates a buffer. -/
theorem hostOps0_4_fresh : (hostOps0_4 : List (HloOp τ sig (Elt F))).Forall fun op => op.fresh = ∅ := by
  simp only [List.Forall]; repeat' constructor
/-- The buffers hostOps0_4 writes. -/
def hostOps0_4_W : List (Ref sig .tc) := [main_c_5]
theorem hostOps0_4_writes : (hostOps0_4 : List (HloOp τ sig (Elt F))).Forall fun op =>
    op.writes ⊆ ((hostOps0_4_W).map (Proc.devRef (τ := τ) .tc)).toFinset :=
  wsub (by decide)
/-- A buffer hostOps0_4 does not write keeps its contents. -/
theorem hostOps0_4_keeps (V : Valuation τ sig (Elt F)) (r : Ref sig .tc) (hr : r ∉ hostOps0_4_W) :
    after hostOps0_4 V (Proc.devRef .tc r) = V (Proc.devRef .tc r) :=
  StableHlo.after_of_writes_sub hostOps0_4 V hostOps0_4_writes hr
theorem hostOps0_4_args : ∀ r ∈ argRefs, r ∉ hostOps0_4_W := by decide

/-- No operation of hostOps0_5 allocates a buffer. -/
theorem hostOps0_5_fresh : (hostOps0_5 : List (HloOp τ sig (Elt F))).Forall fun op => op.fresh = ∅ := by
  simp only [List.Forall]; repeat' constructor
/-- The buffers hostOps0_5 writes. -/
def hostOps0_5_W : List (Ref sig .tc) := [main_call2_v0, main_v23]
theorem hostOps0_5_writes : (hostOps0_5 : List (HloOp τ sig (Elt F))).Forall fun op =>
    op.writes ⊆ ((hostOps0_5_W).map (Proc.devRef (τ := τ) .tc)).toFinset :=
  ⟨wsub (by decide), wsub (by decide)⟩
/-- A buffer hostOps0_5 does not write keeps its contents. -/
theorem hostOps0_5_keeps (V : Valuation τ sig (Elt F)) (r : Ref sig .tc) (hr : r ∉ hostOps0_5_W) :
    after hostOps0_5 V (Proc.devRef .tc r) = V (Proc.devRef .tc r) :=
  StableHlo.after_of_writes_sub hostOps0_5 V hostOps0_5_writes hr
theorem hostOps0_5_args : ∀ r ∈ argRefs, r ∉ hostOps0_5_W := by decide

/-- No operation of hostOps0_6 allocates a buffer. -/
theorem hostOps0_6_fresh : (hostOps0_6 : List (HloOp τ sig (Elt F))).Forall fun op => op.fresh = ∅ := by
  simp only [List.Forall]; repeat' constructor
/-- The buffers hostOps0_6 writes. -/
def hostOps0_6_W : List (Ref sig .tc) := [main_c_6]
theorem hostOps0_6_writes : (hostOps0_6 : List (HloOp τ sig (Elt F))).Forall fun op =>
    op.writes ⊆ ((hostOps0_6_W).map (Proc.devRef (τ := τ) .tc)).toFinset :=
  wsub (by decide)
/-- A buffer hostOps0_6 does not write keeps its contents. -/
theorem hostOps0_6_keeps (V : Valuation τ sig (Elt F)) (r : Ref sig .tc) (hr : r ∉ hostOps0_6_W) :
    after hostOps0_6 V (Proc.devRef .tc r) = V (Proc.devRef .tc r) :=
  StableHlo.after_of_writes_sub hostOps0_6 V hostOps0_6_writes hr
theorem hostOps0_6_args : ∀ r ∈ argRefs, r ∉ hostOps0_6_W := by decide

/-- No operation of hostOps0_7 allocates a buffer. -/
theorem hostOps0_7_fresh : (hostOps0_7 : List (HloOp τ sig (Elt F))).Forall fun op => op.fresh = ∅ := by
  simp only [List.Forall]; repeat' constructor
/-- The buffers hostOps0_7 writes. -/
def hostOps0_7_W : List (Ref sig .tc) := [main_call3_v0, main_v24]
theorem hostOps0_7_writes : (hostOps0_7 : List (HloOp τ sig (Elt F))).Forall fun op =>
    op.writes ⊆ ((hostOps0_7_W).map (Proc.devRef (τ := τ) .tc)).toFinset :=
  ⟨wsub (by decide), wsub (by decide)⟩
/-- A buffer hostOps0_7 does not write keeps its contents. -/
theorem hostOps0_7_keeps (V : Valuation τ sig (Elt F)) (r : Ref sig .tc) (hr : r ∉ hostOps0_7_W) :
    after hostOps0_7 V (Proc.devRef .tc r) = V (Proc.devRef .tc r) :=
  StableHlo.after_of_writes_sub hostOps0_7 V hostOps0_7_writes hr
theorem hostOps0_7_args : ∀ r ∈ argRefs, r ∉ hostOps0_7_W := by decide

/-- No operation of hostOps0_8 allocates a buffer. -/
theorem hostOps0_8_fresh : (hostOps0_8 : List (HloOp τ sig (Elt F))).Forall fun op => op.fresh = ∅ := by
  simp only [List.Forall]; repeat' constructor
/-- The buffers hostOps0_8 writes. -/
def hostOps0_8_W : List (Ref sig .tc) := [main_v25, main_v26, main_v27]
theorem hostOps0_8_writes : (hostOps0_8 : List (HloOp τ sig (Elt F))).Forall fun op =>
    op.writes ⊆ ((hostOps0_8_W).map (Proc.devRef (τ := τ) .tc)).toFinset :=
  ⟨wsub (by decide), wsub (by decide), wsub (by decide)⟩
/-- A buffer hostOps0_8 does not write keeps its contents. -/
theorem hostOps0_8_keeps (V : Valuation τ sig (Elt F)) (r : Ref sig .tc) (hr : r ∉ hostOps0_8_W) :
    after hostOps0_8 V (Proc.devRef .tc r) = V (Proc.devRef .tc r) :=
  StableHlo.after_of_writes_sub hostOps0_8 V hostOps0_8_writes hr
theorem hostOps0_8_args : ∀ r ∈ argRefs, r ∉ hostOps0_8_W := by decide

/-- No operation of hostOps1 allocates a buffer. -/
theorem hostOps1_fresh : (hostOps1 : List (HloOp τ sig (Elt F))).Forall fun op => op.fresh = ∅ := by
  simp only [List.Forall]; repeat' constructor
/-- The buffers hostOps1 writes. -/
def hostOps1_W : List (Ref sig .tc) := [main_v29, main_cst_7, main_v30, main_v31, main_v32, main_v33, main_v34, main_c_8, main_v35, main_v36, main_c_9, main_v37, main_v38, main_v39, main_c_10, main_v40, main_v41, main_c_11, main_v42, main_v43, main_v44, main_v45, main_v46, main_v47, main_v48, main_v49, main_cst_12, main_v50, main_v51, main_v52, main_v53, main_v54, main_c_13, main_v55, main_v56, main_c_14, main_v57, main_v58, main_v59, main_c_15, main_v60, main_v61, main_c_16, main_v62, main_v63, main_v64, main_v65, main_v66, main_v67, main_v68, main_v69, main_cst_17, main_v70, main_v71, main_v72, main_v73, main_v74, main_c_18, main_v75, main_v76, main_c_19, main_v77, main_v78, main_v79, main_c_20, main_v80, main_v81, main_c_21, main_v82, main_v83, main_v84, main_v85, main_v86, main_v87, main_v88, main_v89, main_cst_22, main_v90, main_v91, main_v92, main_v93, main_v94, main_c_23, main_v95, main_v96, main_c_24, main_v97, main_v98, main_v99, main_c_25, main_v100, main_v101, main_c_26, main_v102, main_v103, main_v104, main_v105, main_v106, main_v107, main_v108, main_v109, main_c_27]
theorem hostOps1_writes : (hostOps1 : List (HloOp τ sig (Elt F))).Forall fun op =>
    op.writes ⊆ ((hostOps1_W).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩
/-- A buffer hostOps1 does not write keeps its contents. -/
theorem hostOps1_keeps (V : Valuation τ sig (Elt F)) (r : Ref sig .tc) (hr : r ∉ hostOps1_W) :
    after hostOps1 V (Proc.devRef .tc r) = V (Proc.devRef .tc r) :=
  StableHlo.after_of_writes_sub hostOps1 V hostOps1_writes hr
theorem hostOps1_args : ∀ r ∈ argRefs, r ∉ hostOps1_W := by decide

/-- No operation of hostOps1_1 allocates a buffer. -/
theorem hostOps1_1_fresh : (hostOps1_1 : List (HloOp τ sig (Elt F))).Forall fun op => op.fresh = ∅ := by
  simp only [List.Forall]; repeat' constructor
/-- The buffers hostOps1_1 writes. -/
def hostOps1_1_W : List (Ref sig .tc) := [main_call4_v0, main_v110]
theorem hostOps1_1_writes : (hostOps1_1 : List (HloOp τ sig (Elt F))).Forall fun op =>
    op.writes ⊆ ((hostOps1_1_W).map (Proc.devRef (τ := τ) .tc)).toFinset :=
  ⟨wsub (by decide), wsub (by decide)⟩
/-- A buffer hostOps1_1 does not write keeps its contents. -/
theorem hostOps1_1_keeps (V : Valuation τ sig (Elt F)) (r : Ref sig .tc) (hr : r ∉ hostOps1_1_W) :
    after hostOps1_1 V (Proc.devRef .tc r) = V (Proc.devRef .tc r) :=
  StableHlo.after_of_writes_sub hostOps1_1 V hostOps1_1_writes hr
theorem hostOps1_1_args : ∀ r ∈ argRefs, r ∉ hostOps1_1_W := by decide

/-- No operation of hostOps1_2 allocates a buffer. -/
theorem hostOps1_2_fresh : (hostOps1_2 : List (HloOp τ sig (Elt F))).Forall fun op => op.fresh = ∅ := by
  simp only [List.Forall]; repeat' constructor
/-- The buffers hostOps1_2 writes. -/
def hostOps1_2_W : List (Ref sig .tc) := [main_c_28]
theorem hostOps1_2_writes : (hostOps1_2 : List (HloOp τ sig (Elt F))).Forall fun op =>
    op.writes ⊆ ((hostOps1_2_W).map (Proc.devRef (τ := τ) .tc)).toFinset :=
  wsub (by decide)
/-- A buffer hostOps1_2 does not write keeps its contents. -/
theorem hostOps1_2_keeps (V : Valuation τ sig (Elt F)) (r : Ref sig .tc) (hr : r ∉ hostOps1_2_W) :
    after hostOps1_2 V (Proc.devRef .tc r) = V (Proc.devRef .tc r) :=
  StableHlo.after_of_writes_sub hostOps1_2 V hostOps1_2_writes hr
theorem hostOps1_2_args : ∀ r ∈ argRefs, r ∉ hostOps1_2_W := by decide

/-- No operation of hostOps1_3 allocates a buffer. -/
theorem hostOps1_3_fresh : (hostOps1_3 : List (HloOp τ sig (Elt F))).Forall fun op => op.fresh = ∅ := by
  simp only [List.Forall]; repeat' constructor
/-- The buffers hostOps1_3 writes. -/
def hostOps1_3_W : List (Ref sig .tc) := [main_call5_v0, main_v111]
theorem hostOps1_3_writes : (hostOps1_3 : List (HloOp τ sig (Elt F))).Forall fun op =>
    op.writes ⊆ ((hostOps1_3_W).map (Proc.devRef (τ := τ) .tc)).toFinset :=
  ⟨wsub (by decide), wsub (by decide)⟩
/-- A buffer hostOps1_3 does not write keeps its contents. -/
theorem hostOps1_3_keeps (V : Valuation τ sig (Elt F)) (r : Ref sig .tc) (hr : r ∉ hostOps1_3_W) :
    after hostOps1_3 V (Proc.devRef .tc r) = V (Proc.devRef .tc r) :=
  StableHlo.after_of_writes_sub hostOps1_3 V hostOps1_3_writes hr
theorem hostOps1_3_args : ∀ r ∈ argRefs, r ∉ hostOps1_3_W := by decide

/-- No operation of hostOps1_4 allocates a buffer. -/
theorem hostOps1_4_fresh : (hostOps1_4 : List (HloOp τ sig (Elt F))).Forall fun op => op.fresh = ∅ := by
  simp only [List.Forall]; repeat' constructor
/-- The buffers hostOps1_4 writes. -/
def hostOps1_4_W : List (Ref sig .tc) := [main_c_29]
theorem hostOps1_4_writes : (hostOps1_4 : List (HloOp τ sig (Elt F))).Forall fun op =>
    op.writes ⊆ ((hostOps1_4_W).map (Proc.devRef (τ := τ) .tc)).toFinset :=
  wsub (by decide)
/-- A buffer hostOps1_4 does not write keeps its contents. -/
theorem hostOps1_4_keeps (V : Valuation τ sig (Elt F)) (r : Ref sig .tc) (hr : r ∉ hostOps1_4_W) :
    after hostOps1_4 V (Proc.devRef .tc r) = V (Proc.devRef .tc r) :=
  StableHlo.after_of_writes_sub hostOps1_4 V hostOps1_4_writes hr
theorem hostOps1_4_args : ∀ r ∈ argRefs, r ∉ hostOps1_4_W := by decide

/-- No operation of hostOps1_5 allocates a buffer. -/
theorem hostOps1_5_fresh : (hostOps1_5 : List (HloOp τ sig (Elt F))).Forall fun op => op.fresh = ∅ := by
  simp only [List.Forall]; repeat' constructor
/-- The buffers hostOps1_5 writes. -/
def hostOps1_5_W : List (Ref sig .tc) := [main_call6_v0, main_v112]
theorem hostOps1_5_writes : (hostOps1_5 : List (HloOp τ sig (Elt F))).Forall fun op =>
    op.writes ⊆ ((hostOps1_5_W).map (Proc.devRef (τ := τ) .tc)).toFinset :=
  ⟨wsub (by decide), wsub (by decide)⟩
/-- A buffer hostOps1_5 does not write keeps its contents. -/
theorem hostOps1_5_keeps (V : Valuation τ sig (Elt F)) (r : Ref sig .tc) (hr : r ∉ hostOps1_5_W) :
    after hostOps1_5 V (Proc.devRef .tc r) = V (Proc.devRef .tc r) :=
  StableHlo.after_of_writes_sub hostOps1_5 V hostOps1_5_writes hr
theorem hostOps1_5_args : ∀ r ∈ argRefs, r ∉ hostOps1_5_W := by decide

/-- No operation of hostOps1_6 allocates a buffer. -/
theorem hostOps1_6_fresh : (hostOps1_6 : List (HloOp τ sig (Elt F))).Forall fun op => op.fresh = ∅ := by
  simp only [List.Forall]; repeat' constructor
/-- The buffers hostOps1_6 writes. -/
def hostOps1_6_W : List (Ref sig .tc) := [main_c_30]
theorem hostOps1_6_writes : (hostOps1_6 : List (HloOp τ sig (Elt F))).Forall fun op =>
    op.writes ⊆ ((hostOps1_6_W).map (Proc.devRef (τ := τ) .tc)).toFinset :=
  wsub (by decide)
/-- A buffer hostOps1_6 does not write keeps its contents. -/
theorem hostOps1_6_keeps (V : Valuation τ sig (Elt F)) (r : Ref sig .tc) (hr : r ∉ hostOps1_6_W) :
    after hostOps1_6 V (Proc.devRef .tc r) = V (Proc.devRef .tc r) :=
  StableHlo.after_of_writes_sub hostOps1_6 V hostOps1_6_writes hr
theorem hostOps1_6_args : ∀ r ∈ argRefs, r ∉ hostOps1_6_W := by decide

/-- No operation of hostOps1_7 allocates a buffer. -/
theorem hostOps1_7_fresh : (hostOps1_7 : List (HloOp τ sig (Elt F))).Forall fun op => op.fresh = ∅ := by
  simp only [List.Forall]; repeat' constructor
/-- The buffers hostOps1_7 writes. -/
def hostOps1_7_W : List (Ref sig .tc) := [main_call7_v0, main_v113]
theorem hostOps1_7_writes : (hostOps1_7 : List (HloOp τ sig (Elt F))).Forall fun op =>
    op.writes ⊆ ((hostOps1_7_W).map (Proc.devRef (τ := τ) .tc)).toFinset :=
  ⟨wsub (by decide), wsub (by decide)⟩
/-- A buffer hostOps1_7 does not write keeps its contents. -/
theorem hostOps1_7_keeps (V : Valuation τ sig (Elt F)) (r : Ref sig .tc) (hr : r ∉ hostOps1_7_W) :
    after hostOps1_7 V (Proc.devRef .tc r) = V (Proc.devRef .tc r) :=
  StableHlo.after_of_writes_sub hostOps1_7 V hostOps1_7_writes hr
theorem hostOps1_7_args : ∀ r ∈ argRefs, r ∉ hostOps1_7_W := by decide

/-- No operation of hostOps1_8 allocates a buffer. -/
theorem hostOps1_8_fresh : (hostOps1_8 : List (HloOp τ sig (Elt F))).Forall fun op => op.fresh = ∅ := by
  simp only [List.Forall]; repeat' constructor
/-- The buffers hostOps1_8 writes. -/
def hostOps1_8_W : List (Ref sig .tc) := [main_c_31]
theorem hostOps1_8_writes : (hostOps1_8 : List (HloOp τ sig (Elt F))).Forall fun op =>
    op.writes ⊆ ((hostOps1_8_W).map (Proc.devRef (τ := τ) .tc)).toFinset :=
  wsub (by decide)
/-- A buffer hostOps1_8 does not write keeps its contents. -/
theorem hostOps1_8_keeps (V : Valuation τ sig (Elt F)) (r : Ref sig .tc) (hr : r ∉ hostOps1_8_W) :
    after hostOps1_8 V (Proc.devRef .tc r) = V (Proc.devRef .tc r) :=
  StableHlo.after_of_writes_sub hostOps1_8 V hostOps1_8_writes hr
theorem hostOps1_8_args : ∀ r ∈ argRefs, r ∉ hostOps1_8_W := by decide

/-- No operation of hostOps1_9 allocates a buffer. -/
theorem hostOps1_9_fresh : (hostOps1_9 : List (HloOp τ sig (Elt F))).Forall fun op => op.fresh = ∅ := by
  simp only [List.Forall]; repeat' constructor
/-- The buffers hostOps1_9 writes. -/
def hostOps1_9_W : List (Ref sig .tc) := [main_call8_v0, main_v114]
theorem hostOps1_9_writes : (hostOps1_9 : List (HloOp τ sig (Elt F))).Forall fun op =>
    op.writes ⊆ ((hostOps1_9_W).map (Proc.devRef (τ := τ) .tc)).toFinset :=
  ⟨wsub (by decide), wsub (by decide)⟩
/-- A buffer hostOps1_9 does not write keeps its contents. -/
theorem hostOps1_9_keeps (V : Valuation τ sig (Elt F)) (r : Ref sig .tc) (hr : r ∉ hostOps1_9_W) :
    after hostOps1_9 V (Proc.devRef .tc r) = V (Proc.devRef .tc r) :=
  StableHlo.after_of_writes_sub hostOps1_9 V hostOps1_9_writes hr
theorem hostOps1_9_args : ∀ r ∈ argRefs, r ∉ hostOps1_9_W := by decide

/-- No operation of hostOps1_10 allocates a buffer. -/
theorem hostOps1_10_fresh : (hostOps1_10 : List (HloOp τ sig (Elt F))).Forall fun op => op.fresh = ∅ := by
  simp only [List.Forall]; repeat' constructor
/-- The buffers hostOps1_10 writes. -/
def hostOps1_10_W : List (Ref sig .tc) := [main_c_32]
theorem hostOps1_10_writes : (hostOps1_10 : List (HloOp τ sig (Elt F))).Forall fun op =>
    op.writes ⊆ ((hostOps1_10_W).map (Proc.devRef (τ := τ) .tc)).toFinset :=
  wsub (by decide)
/-- A buffer hostOps1_10 does not write keeps its contents. -/
theorem hostOps1_10_keeps (V : Valuation τ sig (Elt F)) (r : Ref sig .tc) (hr : r ∉ hostOps1_10_W) :
    after hostOps1_10 V (Proc.devRef .tc r) = V (Proc.devRef .tc r) :=
  StableHlo.after_of_writes_sub hostOps1_10 V hostOps1_10_writes hr
theorem hostOps1_10_args : ∀ r ∈ argRefs, r ∉ hostOps1_10_W := by decide

/-- No operation of hostOps1_11 allocates a buffer. -/
theorem hostOps1_11_fresh : (hostOps1_11 : List (HloOp τ sig (Elt F))).Forall fun op => op.fresh = ∅ := by
  simp only [List.Forall]; repeat' constructor
/-- The buffers hostOps1_11 writes. -/
def hostOps1_11_W : List (Ref sig .tc) := [main_call9_v0, main_v115]
theorem hostOps1_11_writes : (hostOps1_11 : List (HloOp τ sig (Elt F))).Forall fun op =>
    op.writes ⊆ ((hostOps1_11_W).map (Proc.devRef (τ := τ) .tc)).toFinset :=
  ⟨wsub (by decide), wsub (by decide)⟩
/-- A buffer hostOps1_11 does not write keeps its contents. -/
theorem hostOps1_11_keeps (V : Valuation τ sig (Elt F)) (r : Ref sig .tc) (hr : r ∉ hostOps1_11_W) :
    after hostOps1_11 V (Proc.devRef .tc r) = V (Proc.devRef .tc r) :=
  StableHlo.after_of_writes_sub hostOps1_11 V hostOps1_11_writes hr
theorem hostOps1_11_args : ∀ r ∈ argRefs, r ∉ hostOps1_11_W := by decide

/-- No operation of hostOps1_12 allocates a buffer. -/
theorem hostOps1_12_fresh : (hostOps1_12 : List (HloOp τ sig (Elt F))).Forall fun op => op.fresh = ∅ := by
  simp only [List.Forall]; repeat' constructor
/-- The buffers hostOps1_12 writes. -/
def hostOps1_12_W : List (Ref sig .tc) := [main_c_33]
theorem hostOps1_12_writes : (hostOps1_12 : List (HloOp τ sig (Elt F))).Forall fun op =>
    op.writes ⊆ ((hostOps1_12_W).map (Proc.devRef (τ := τ) .tc)).toFinset :=
  wsub (by decide)
/-- A buffer hostOps1_12 does not write keeps its contents. -/
theorem hostOps1_12_keeps (V : Valuation τ sig (Elt F)) (r : Ref sig .tc) (hr : r ∉ hostOps1_12_W) :
    after hostOps1_12 V (Proc.devRef .tc r) = V (Proc.devRef .tc r) :=
  StableHlo.after_of_writes_sub hostOps1_12 V hostOps1_12_writes hr
theorem hostOps1_12_args : ∀ r ∈ argRefs, r ∉ hostOps1_12_W := by decide

/-- No operation of hostOps1_13 allocates a buffer. -/
theorem hostOps1_13_fresh : (hostOps1_13 : List (HloOp τ sig (Elt F))).Forall fun op => op.fresh = ∅ := by
  simp only [List.Forall]; repeat' constructor
/-- The buffers hostOps1_13 writes. -/
def hostOps1_13_W : List (Ref sig .tc) := [main_call10_v0, main_v116]
theorem hostOps1_13_writes : (hostOps1_13 : List (HloOp τ sig (Elt F))).Forall fun op =>
    op.writes ⊆ ((hostOps1_13_W).map (Proc.devRef (τ := τ) .tc)).toFinset :=
  ⟨wsub (by decide), wsub (by decide)⟩
/-- A buffer hostOps1_13 does not write keeps its contents. -/
theorem hostOps1_13_keeps (V : Valuation τ sig (Elt F)) (r : Ref sig .tc) (hr : r ∉ hostOps1_13_W) :
    after hostOps1_13 V (Proc.devRef .tc r) = V (Proc.devRef .tc r) :=
  StableHlo.after_of_writes_sub hostOps1_13 V hostOps1_13_writes hr
theorem hostOps1_13_args : ∀ r ∈ argRefs, r ∉ hostOps1_13_W := by decide

/-- No operation of hostOps1_14 allocates a buffer. -/
theorem hostOps1_14_fresh : (hostOps1_14 : List (HloOp τ sig (Elt F))).Forall fun op => op.fresh = ∅ := by
  simp only [List.Forall]; repeat' constructor
/-- The buffers hostOps1_14 writes. -/
def hostOps1_14_W : List (Ref sig .tc) := [main_c_34]
theorem hostOps1_14_writes : (hostOps1_14 : List (HloOp τ sig (Elt F))).Forall fun op =>
    op.writes ⊆ ((hostOps1_14_W).map (Proc.devRef (τ := τ) .tc)).toFinset :=
  wsub (by decide)
/-- A buffer hostOps1_14 does not write keeps its contents. -/
theorem hostOps1_14_keeps (V : Valuation τ sig (Elt F)) (r : Ref sig .tc) (hr : r ∉ hostOps1_14_W) :
    after hostOps1_14 V (Proc.devRef .tc r) = V (Proc.devRef .tc r) :=
  StableHlo.after_of_writes_sub hostOps1_14 V hostOps1_14_writes hr
theorem hostOps1_14_args : ∀ r ∈ argRefs, r ∉ hostOps1_14_W := by decide

/-- No operation of hostOps1_15 allocates a buffer. -/
theorem hostOps1_15_fresh : (hostOps1_15 : List (HloOp τ sig (Elt F))).Forall fun op => op.fresh = ∅ := by
  simp only [List.Forall]; repeat' constructor
/-- The buffers hostOps1_15 writes. -/
def hostOps1_15_W : List (Ref sig .tc) := [main_call11_v0, main_v117]
theorem hostOps1_15_writes : (hostOps1_15 : List (HloOp τ sig (Elt F))).Forall fun op =>
    op.writes ⊆ ((hostOps1_15_W).map (Proc.devRef (τ := τ) .tc)).toFinset :=
  ⟨wsub (by decide), wsub (by decide)⟩
/-- A buffer hostOps1_15 does not write keeps its contents. -/
theorem hostOps1_15_keeps (V : Valuation τ sig (Elt F)) (r : Ref sig .tc) (hr : r ∉ hostOps1_15_W) :
    after hostOps1_15 V (Proc.devRef .tc r) = V (Proc.devRef .tc r) :=
  StableHlo.after_of_writes_sub hostOps1_15 V hostOps1_15_writes hr
theorem hostOps1_15_args : ∀ r ∈ argRefs, r ∉ hostOps1_15_W := by decide

/-- No operation of hostOps1_16 allocates a buffer. -/
theorem hostOps1_16_fresh : (hostOps1_16 : List (HloOp τ sig (Elt F))).Forall fun op => op.fresh = ∅ := by
  simp only [List.Forall]; repeat' constructor
/-- The buffers hostOps1_16 writes. -/
def hostOps1_16_W : List (Ref sig .tc) := [main_v118, main_v119, main_v120, main_v121, main_v122, main_v123, main_v124, main_v125]
theorem hostOps1_16_writes : (hostOps1_16 : List (HloOp τ sig (Elt F))).Forall fun op =>
    op.writes ⊆ ((hostOps1_16_W).map (Proc.devRef (τ := τ) .tc)).toFinset :=
  ⟨wsub (by decide), wsub (by decide), wsub (by decide), wsub (by decide), wsub (by decide), wsub (by decide), wsub (by decide), wsub (by decide)⟩
/-- A buffer hostOps1_16 does not write keeps its contents. -/
theorem hostOps1_16_keeps (V : Valuation τ sig (Elt F)) (r : Ref sig .tc) (hr : r ∉ hostOps1_16_W) :
    after hostOps1_16 V (Proc.devRef .tc r) = V (Proc.devRef .tc r) :=
  StableHlo.after_of_writes_sub hostOps1_16 V hostOps1_16_writes hr
theorem hostOps1_16_args : ∀ r ∈ argRefs, r ∉ hostOps1_16_W := by decide

/-- No operation of hostOps2 allocates a buffer. -/
theorem hostOps2_fresh : (hostOps2 : List (HloOp τ sig (Elt F))).Forall fun op => op.fresh = ∅ := by
  simp only [List.Forall]; repeat' constructor
/-- The buffers hostOps2 writes. -/
def hostOps2_W : List (Ref sig .tc) := [main_v127]
theorem hostOps2_writes : (hostOps2 : List (HloOp τ sig (Elt F))).Forall fun op =>
    op.writes ⊆ ((hostOps2_W).map (Proc.devRef (τ := τ) .tc)).toFinset :=
  wsub (by decide)
/-- A buffer hostOps2 does not write keeps its contents. -/
theorem hostOps2_keeps (V : Valuation τ sig (Elt F)) (r : Ref sig .tc) (hr : r ∉ hostOps2_W) :
    after hostOps2 V (Proc.devRef .tc r) = V (Proc.devRef .tc r) :=
  StableHlo.after_of_writes_sub hostOps2 V hostOps2_writes hr
theorem hostOps2_args : ∀ r ∈ argRefs, r ∉ hostOps2_W := by decide

end Cert.Kernel.Hand

end
-- ==== Proof.K.R0Runs.lean ====
/- Region 0 of the idealized kernel program (the first layer's pallas_call, grid (2, 15), point t = 15·n + k):
   what the three control cases of its body share. Everything is stated at a parameter `V`, the TensorCore's
   buffer contents when the region is entered. Here: each window's block at a point read off `V`; the fact
   that an input's staging buffer holds its block at every point, fetched there or not (the three parameter
   rows are fetched only at k = 0 and their block index does not move in between); the two branch conditions
   of the body in closed form over t % 15 (k = 0: the accumulator is zeroed; k = 14: the output block is
   stored); where the output window is idle and where it is written back; the staging and scratch memrefs;
   and the region invariant with the accumulator split off the other scoped buffers (the second
   pallas_call's staging buffers, which ride along at anything). -/
import proofs.«146654_j5488968204426_2_alg».proof.Proof.Gen.Kernel.Launch
import proofs.«146654_j5488968204426_2_alg».proof.Proof.Gen.Kernel.Skeleton
import proofs.«146654_j5488968204426_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents: the elaborator's structural look recurses once per coordinate
-- of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block
    index has not moved since the point before; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): unfetched, the block
    index has not moved since the point before; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): unfetched, the block
    index has not moved since the point before; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): unfetched, the block
    index has not moved since the point before; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s (`hA`) and whose body leaves the block in place (`hafter`): unfetched, the block
    index has not moved since the point before; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first `scf.if` (k = 0: zero the accumulator), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 15) — decided over the grid. -/
theorem hcond0_0 : ∀ t : Fin cfg0.N, cond0_0 (grid0.coords t) ↔ t.val % 15 = 0 :=
  (by decide +kernel : ∀ t : Fin grid0.N, cond0_0 (grid0.coords t) ↔ t.val % 15 = 0)

/-- The condition of the body's second `scf.if` (k = 14: normalise, activate and store the output block). -/
abbrev cond0_1 (i : grid0.Coords) : Prop := k0_cond2 i = 1#1
/-- It holds at the points ≡ 14 (mod 15) — decided over the grid. -/
theorem hcond0_1 : ∀ t : Fin cfg0.N, cond0_1 (grid0.coords t) ↔ t.val % 15 = 14 :=
  (by decide +kernel : ∀ t : Fin grid0.N, cond0_1 (grid0.coords t) ↔ t.val % 15 = 14)

/-! ## Where the windows are idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- Window 4 is never idle (an input). -/
theorem liveAt0_4 : ∀ t : Fin cfg0.N, cfg0.idle 4 (grid0.coords t) = false := by decide +kernel
/-- At the points of case A (k = 0) the output window is idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write the output block back. -/
theorem noFlush0_5_A : ∀ t : Fin cfg0.N, cond0_0 (grid0.coords t) → ¬cond0_1 (grid0.coords t) → (cfg0.win 5).flush t = false := by decide +kernel
/-- At the points of case B (0 < k < 14) the output window is idle. -/
theorem idleAt0_5_B : ∀ t : Fin cfg0.N, ¬cond0_0 (grid0.coords t) → ¬cond0_1 (grid0.coords t) → cfg0.idle 5 (grid0.coords t) = true := by decide +kernel
/-- At the points of case B the pipeline does not write the output block back. -/
theorem noFlush0_5_B : ∀ t : Fin cfg0.N, ¬cond0_0 (grid0.coords t) → ¬cond0_1 (grid0.coords t) → (cfg0.win 5).flush t = false := by decide +kernel
/-- At the points of case C (k = 14) the output window is live: the case stores its whole block. -/
theorem liveAt0_5_C : ∀ t : Fin cfg0.N, ¬cond0_0 (grid0.coords t) → cond0_1 (grid0.coords t) → cfg0.idle 5 (grid0.coords t) = false := by decide +kernel

/-! ## The staging and scratch memrefs -/

/-- One staging buffer of the output window, through which its contents are stated (the choice does not matter). -/
abbrev VO0_5 : View sig .tc .vmem S512x384 .f32 := (Memref.whole cc0_stg5_0 : Memref sig .tc .vmem S512x384 .f32).view
/-- Each window's current staging memref at point `t`, spelled as the pipeline passes it, and its wholeness. -/
abbrev ms0_0 (t : Fin cfg0.N) : Memref sig .tc .vmem S512x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x384 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x384 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x384 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x384 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x384 .f32 := win0_5.stage (cfg0.slots t 5)
abbrev hs0_5 (t : Fin cfg0.N) : (ms0_5 t).IsWhole := hstage0_5 ((cfg0.slots t 5).cast nbuf0_5)
/-- The scratch operand (the accumulator): a whole scoped buffer of the kernel's own, passed beside the windows. -/
abbrev scM0_0 : Memref sig .tc .vmem S512x384 .f32 := Memref.whole cc0_scratch0
/-- The accumulator as a view: what it holds between points is stated through it. -/
abbrev VS0_0 : View sig .tc .vmem S512x384 .f32 := scM0_0.view

/-- The core's other scoped buffers that are no staging buffer of this region — the second pallas_call's fourteen
    staging buffers —, each whole at some contents: the body never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg12_0), ((c : Thread nD τ).loc cc1_stg12_0) ↦{fullShare} f) ∗ (∃ f : Buf (Elt F) ((c : Thread nD τ).loc cc1_stg13_0), ((c : Thread nD τ).loc cc1_stg13_0) ↦{fullShare} f))

/-- The region invariant with the accumulator as a memref owned at some contents, the other scoped buffers beside
    it, and the generator register at some state: what the body obligation hands the run and takes back. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA rest0; rw [scopedRest0_eq]; simp only [scM0_0, owns_whole]; try rfl

end Cert.Kernel.Hand

end
-- ==== Proof.K.R0RunA.lean ====
/- Region 0's kernel body run as a whole in control case A: k = 0. The accumulator, found at anything, is stored whole with zeros, read back, and stored again with the zeros plus the product of the x block and the weight block; the output block is not touched. -/
import proofs.«146654_j5488968204426_2_alg».proof.Proof.K.R0Runs

-- membership in a rectangle of these extents: the elaborator's structural look recurses once per coordinate
-- of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref (`L5`) and in the accumulator (`LS0`), as pieces
    (last first) in case A, WITH the proof that on whole staging memrefs — the five inputs' at their contents
    `x0` … `x4`, the output's (idle in this case) at contents `xi5` handed back untouched, the accumulator
    at anything — the body runs to the continuation holding the inputs' as they were, the output's as it was
    and the accumulator with its pieces written. The printed function is its skeleton, which the symbolic
    executor runs, each `scf.if` decided by the case's hypotheses; the pieces are the witness that run finds. -/
noncomputable def kernelRun0_A (c : Dev nD) (i : grid0.Coords) (arg2 : Memref sig .tc .vmem S512x8192 .bf16) (harg2 : arg2.IsWhole) (arg3 : Memref sig .tc .vmem S8192x384 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S512x384 .f32) (harg7 : arg7.IsWhole) (arg8 : Memref sig .tc .vmem S512x384 .f32) (harg8 : arg8.IsWhole) (hc0 : cond0_0 i) (hc1 : ¬cond0_1 i)
    (x0 : Vec F S512x8192 .bf16) (x1 : Vec F S8192x384 .bf16) (x2 : Vec F S1x384 .f32) (x3 : Vec F S1x384 .f32) (x4 : Vec F S1x384 .f32) :
    Σ' (L5 : List (View.Piece (Elt F) S512x384 .f32)), { LS0 : List (View.Piece (Elt F) S512x384 .f32) //
      ∀ (xi5 : Vec F S512x384 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__layer1_kernel i arg2 harg2 arg3 harg3 arg4 harg4 arg5 harg5 arg6 harg6 arg7 harg7 arg8 harg8) K } := by
  refine ⟨[], ?_, fun xi5 E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.K.R0RunB.lean ====
/- Region 0's kernel body run as a whole in control case B: 0 < k < 14. The accumulator, at what the point before left, is read and stored again with the product of the x block and the weight block added; the output block is not touched. -/
import proofs.«146654_j5488968204426_2_alg».proof.Proof.K.R0RunA

-- membership in a rectangle of these extents: the elaborator's structural look recurses once per coordinate
-- of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref (`L5`) and in the accumulator (`LS0`), as pieces
    (last first) in case B, WITH the proof that on whole staging memrefs — the five inputs' at their contents
    `x0` … `x4`, the output's (idle in this case) at contents `xi5` handed back untouched, the accumulator
    at the contents `xs0` the point before left — the body runs to the continuation holding the inputs' as they were, the output's as it was
    and the accumulator with its pieces written. The printed function is its skeleton, which the symbolic
    executor runs, each `scf.if` decided by the case's hypotheses; the pieces are the witness that run finds. -/
noncomputable def kernelRun0_B (c : Dev nD) (i : grid0.Coords) (arg2 : Memref sig .tc .vmem S512x8192 .bf16) (harg2 : arg2.IsWhole) (arg3 : Memref sig .tc .vmem S8192x384 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S512x384 .f32) (harg7 : arg7.IsWhole) (arg8 : Memref sig .tc .vmem S512x384 .f32) (harg8 : arg8.IsWhole) (hc0 : ¬cond0_0 i) (hc1 : ¬cond0_1 i)
    (x0 : Vec F S512x8192 .bf16) (x1 : Vec F S8192x384 .bf16) (x2 : Vec F S1x384 .f32) (x3 : Vec F S1x384 .f32) (x4 : Vec F S1x384 .f32) (xs0 : Vec F S512x384 .f32) :
    Σ' (L5 : List (View.Piece (Elt F) S512x384 .f32)), { LS0 : List (View.Piece (Elt F) S512x384 .f32) //
      ∀ (xi5 : Vec F S512x384 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__layer1_kernel i arg2 harg2 arg3 harg3 arg4 harg4 arg5 harg5 arg6 harg6 arg7 harg7 arg8 harg8) K } := by
  refine ⟨[], ?_, fun xi5 E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.Kernel.Hand

end
-- ==== Proof.K.R0RunC.lean ====
/- Region 0's kernel body run as a whole in control case C: k = 14. The accumulator is updated as at the points before; then it is read with the three parameter rows, and the output block is stored whole: bias added, normalised over the rows, scaled, shifted and passed through x·σ(x). -/
import proofs.«146654_j5488968204426_2_alg».proof.Proof.K.R0RunB

-- membership in a rectangle of these extents: the elaborator's structural look recurses once per coordinate
-- of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref (`L5`) and in the accumulator (`LS0`), as pieces
    (last first) in case C, WITH the proof that on whole staging memrefs — the five inputs' at their contents
    `x0` … `x4`, the output's at anything, the accumulator
    at the contents `xs0` the point before left — the body runs to the continuation holding the inputs' as they were, the output's with its pieces written
    and the accumulator with its pieces written. The printed function is its skeleton, which the symbolic
    executor runs, each `scf.if` decided by the case's hypotheses; the pieces are the witness that run finds. -/
noncomputable def kernelRun0_C (c : Dev nD) (i : grid0.Coords) (arg2 : Memref sig .tc .vmem S512x8192 .bf16) (harg2 : arg2.IsWhole) (arg3 : Memref sig .tc .vmem S8192x384 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S512x384 .f32) (harg7 : arg7.IsWhole) (arg8 : Memref sig .tc .vmem S512x384 .f32) (harg8 : arg8.IsWhole) (hc0 : ¬cond0_0 i) (hc1 : cond0_1 i)
    (x0 : Vec F S512x8192 .bf16) (x1 : Vec F S8192x384 .bf16) (x2 : Vec F S1x384 .f32) (x3 : Vec F S1x384 .f32) (x4 : Vec F S1x384 .f32) (xs0 : Vec F S512x384 .f32) :
    Σ' (L5 : List (View.Piece (Elt F) S512x384 .f32)), { LS0 : List (View.Piece (Elt F) S512x384 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__layer1_kernel i arg2 harg2 arg3 harg3 arg4 harg4 arg5 harg5 arg6 harg6 arg7 harg7 arg8 harg8) K } := by
  refine ⟨?_, ?_, fun E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.Kernel.Hand

end
-- ==== Proof.K.R0Data.lean ====
/- Region 0's half of the frame proof of the idealized kernel program, at the entry contents `V`: what each control
   case leaves in the accumulator and in the output's staging buffer (the pieces the runs found, read back), the
   same point by point along the grid (`outsAt0`: the accumulation over the 15 column tiles of each of the two row
   blocks), the pipeline's proof data (`dat0`), the body obligation, and the two ends of the region invariant
   (`hin0`, `hout0`). -/
import proofs.«146654_j5488968204426_2_alg».proof.Proof.K.R0RunC

-- membership in a rectangle of these extents: the elaborator's structural look recurses once per coordinate
-- of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Case A (k = 0) stores nothing into the output's staging buffer (the window is idle at its points and not
    written back there): no pieces — a placeholder that nothing consults, since at these points the window is
    neither written back nor read at the next point. -/
def out0_A_5 (c : Dev nD) (i : grid0.Coords) (arg2 : Memref sig .tc .vmem S512x8192 .bf16) (harg2 : arg2.IsWhole) (arg3 : Memref sig .tc .vmem S8192x384 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S512x384 .f32) (harg7 : arg7.IsWhole) (arg8 : Memref sig .tc .vmem S512x384 .f32) (harg8 : arg8.IsWhole) (hc0 : cond0_0 i) (hc1 : ¬cond0_1 i)
    (x0 : Vec F S512x8192 .bf16) (x1 : Vec F S8192x384 .bf16) (x2 : Vec F S1x384 .f32) (x3 : Vec F S1x384 .f32) (x4 : Vec F S1x384 .f32) : Vec F S512x384 .f32 :=
  VO0_5.read (Elt F) (VO0_5.writes (Elt F) VO0_5.junk (kernelRun0_A c i arg2 harg2 arg3 harg3 arg4 harg4 arg5 harg5 arg6 harg6 arg7 harg7 arg8 harg8 hc0 hc1 x0 x1 x2 x3 x4).1)

/-- Case A's stores into the accumulator are of the whole buffer, so its pieces cover it. -/
theorem scover0_A_0 (c : Dev nD) (i : grid0.Coords) (arg2 : Memref sig .tc .vmem S512x8192 .bf16) (harg2 : arg2.IsWhole) (arg3 : Memref sig .tc .vmem S8192x384 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S512x384 .f32) (harg7 : arg7.IsWhole) (arg8 : Memref sig .tc .vmem S512x384 .f32) (harg8 : arg8.IsWhole) (hc0 : cond0_0 i) (hc1 : ¬cond0_1 i)
    (x0 : Vec F S512x8192 .bf16) (x1 : Vec F S8192x384 .bf16) (x2 : Vec F S1x384 .f32) (x3 : Vec F S1x384 .f32) (x4 : Vec F S1x384 .f32) (y : S512x384.Idx) :
    ∃ pc ∈ (kernelRun0_A c i arg2 harg2 arg3 harg3 arg4 harg4 arg5 harg5 arg6 harg6 arg7 harg7 arg8 harg8 hc0 hc1 x0 x1 x2 x3 x4).2.1, y ∈ pc.1.set :=
  View.cover_of_tiledL (kernelRun0_A c i arg2 harg2 arg3 harg3 arg4 harg4 arg5 harg5 arg6 harg6 arg7 harg7 arg8 harg8 hc0 hc1 x0 x1 x2 x3 x4).2.1 S512x384.size (by sl_kernel_rfl) y

/-- What case A (k = 0) leaves in the accumulator: its pieces read back over junk. -/
def sout0_A_0 (c : Dev nD) (i : grid0.Coords) (arg2 : Memref sig .tc .vmem S512x8192 .bf16) (harg2 : arg2.IsWhole) (arg3 : Memref sig .tc .vmem S8192x384 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S512x384 .f32) (harg7 : arg7.IsWhole) (arg8 : Memref sig .tc .vmem S512x384 .f32) (harg8 : arg8.IsWhole) (hc0 : cond0_0 i) (hc1 : ¬cond0_1 i)
    (x0 : Vec F S512x8192 .bf16) (x1 : Vec F S8192x384 .bf16) (x2 : Vec F S1x384 .f32) (x3 : Vec F S1x384 .f32) (x4 : Vec F S1x384 .f32) : Vec F S512x384 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).2.1)

/-- Case B (0 < k < 14) stores nothing into the output's staging buffer (the window is idle at its points and not
    written back there): no pieces — a placeholder that nothing consults, since at these points the window is
    neither written back nor read at the next point. -/
def out0_B_5 (c : Dev nD) (i : grid0.Coords) (arg2 : Memref sig .tc .vmem S512x8192 .bf16) (harg2 : arg2.IsWhole) (arg3 : Memref sig .tc .vmem S8192x384 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S512x384 .f32) (harg7 : arg7.IsWhole) (arg8 : Memref sig .tc .vmem S512x384 .f32) (harg8 : arg8.IsWhole) (hc0 : ¬cond0_0 i) (hc1 : ¬cond0_1 i)
    (x0 : Vec F S512x8192 .bf16) (x1 : Vec F S8192x384 .bf16) (x2 : Vec F S1x384 .f32) (x3 : Vec F S1x384 .f32) (x4 : Vec F S1x384 .f32) (xs0 : Vec F S512x384 .f32) : Vec F S512x384 .f32 :=
  VO0_5.read (Elt F) (VO0_5.writes (Elt F) VO0_5.junk (kernelRun0_B c i arg2 harg2 arg3 harg3 arg4 harg4 arg5 harg5 arg6 harg6 arg7 harg7 arg8 harg8 hc0 hc1 x0 x1 x2 x3 x4 xs0).1)

/-- Case B's stores into the accumulator are of the whole buffer, so its pieces cover it. -/
theorem scover0_B_0 (c : Dev nD) (i : grid0.Coords) (arg2 : Memref sig .tc .vmem S512x8192 .bf16) (harg2 : arg2.IsWhole) (arg3 : Memref sig .tc .vmem S8192x384 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S512x384 .f32) (harg7 : arg7.IsWhole) (arg8 : Memref sig .tc .vmem S512x384 .f32) (harg8 : arg8.IsWhole) (hc0 : ¬cond0_0 i) (hc1 : ¬cond0_1 i)
    (x0 : Vec F S512x8192 .bf16) (x1 : Vec F S8192x384 .bf16) (x2 : Vec F S1x384 .f32) (x3 : Vec F S1x384 .f32) (x4 : Vec F S1x384 .f32) (xs0 : Vec F S512x384 .f32) (y : S512x384.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S512x384.size (by sl_kernel_rfl) y

/-- What case B (0 < k < 14) leaves in the accumulator: its pieces read back over junk. -/
def sout0_B_0 (c : Dev nD) (i : grid0.Coords) (arg2 : Memref sig .tc .vmem S512x8192 .bf16) (harg2 : arg2.IsWhole) (arg3 : Memref sig .tc .vmem S8192x384 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S512x384 .f32) (harg7 : arg7.IsWhole) (arg8 : Memref sig .tc .vmem S512x384 .f32) (harg8 : arg8.IsWhole) (hc0 : ¬cond0_0 i) (hc1 : ¬cond0_1 i)
    (x0 : Vec F S512x8192 .bf16) (x1 : Vec F S8192x384 .bf16) (x2 : Vec F S1x384 .f32) (x3 : Vec F S1x384 .f32) (x4 : Vec F S1x384 .f32) (xs0 : Vec F S512x384 .f32) : Vec F S512x384 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).2.1)

/-- Case C's one store into the output's staging buffer is of the whole block, so its pieces cover it. -/
theorem cover0_C_5 (c : Dev nD) (i : grid0.Coords) (arg2 : Memref sig .tc .vmem S512x8192 .bf16) (harg2 : arg2.IsWhole) (arg3 : Memref sig .tc .vmem S8192x384 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S512x384 .f32) (harg7 : arg7.IsWhole) (arg8 : Memref sig .tc .vmem S512x384 .f32) (harg8 : arg8.IsWhole) (hc0 : ¬cond0_0 i) (hc1 : cond0_1 i)
    (x0 : Vec F S512x8192 .bf16) (x1 : Vec F S8192x384 .bf16) (x2 : Vec F S1x384 .f32) (x3 : Vec F S1x384 .f32) (x4 : Vec F S1x384 .f32) (xs0 : Vec F S512x384 .f32) (y : S512x384.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL (kernelRun0_C c i arg2 harg2 arg3 harg3 arg4 harg4 arg5 harg5 arg6 harg6 arg7 harg7 arg8 harg8 hc0 hc1 x0 x1 x2 x3 x4 xs0).1 S512x384.size (by sl_kernel_rfl) y

/-- What case C (k = 14) leaves in the output's staging buffer: its pieces read back over junk. -/
def out0_C_5 (c : Dev nD) (i : grid0.Coords) (arg2 : Memref sig .tc .vmem S512x8192 .bf16) (harg2 : arg2.IsWhole) (arg3 : Memref sig .tc .vmem S8192x384 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S512x384 .f32) (harg7 : arg7.IsWhole) (arg8 : Memref sig .tc .vmem S512x384 .f32) (harg8 : arg8.IsWhole) (hc0 : ¬cond0_0 i) (hc1 : cond0_1 i)
    (x0 : Vec F S512x8192 .bf16) (x1 : Vec F S8192x384 .bf16) (x2 : Vec F S1x384 .f32) (x3 : Vec F S1x384 .f32) (x4 : Vec F S1x384 .f32) (xs0 : Vec F S512x384 .f32) : Vec F S512x384 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs0).1)

/-- Case C's stores into the accumulator are of the whole buffer, so its pieces cover it. -/
theorem scover0_C_0 (c : Dev nD) (i : grid0.Coords) (arg2 : Memref sig .tc .vmem S512x8192 .bf16) (harg2 : arg2.IsWhole) (arg3 : Memref sig .tc .vmem S8192x384 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S512x384 .f32) (harg7 : arg7.IsWhole) (arg8 : Memref sig .tc .vmem S512x384 .f32) (harg8 : arg8.IsWhole) (hc0 : ¬cond0_0 i) (hc1 : cond0_1 i)
    (x0 : Vec F S512x8192 .bf16) (x1 : Vec F S8192x384 .bf16) (x2 : Vec F S1x384 .f32) (x3 : Vec F S1x384 .f32) (x4 : Vec F S1x384 .f32) (xs0 : Vec F S512x384 .f32) (y : S512x384.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 hc0 hc1 x0 x1 x2 x3 x4 xs0).2.1 S512x384.size (by sl_kernel_rfl) y

/-- What case C (k = 14) leaves in the accumulator: its pieces read back over junk. -/
def sout0_C_0 (c : Dev nD) (i : grid0.Coords) (arg2 : Memref sig .tc .vmem S512x8192 .bf16) (harg2 : arg2.IsWhole) (arg3 : Memref sig .tc .vmem S8192x384 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S512x384 .f32) (harg7 : arg7.IsWhole) (arg8 : Memref sig .tc .vmem S512x384 .f32) (harg8 : arg8.IsWhole) (hc0 : ¬cond0_0 i) (hc1 : cond0_1 i)
    (x0 : Vec F S512x8192 .bf16) (x1 : Vec F S8192x384 .bf16) (x2 : Vec F S1x384 .f32) (x3 : Vec F S1x384 .f32) (x4 : Vec F S1x384 .f32) (xs0 : Vec F S512x384 .f32) : Vec F S512x384 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 x4 xs0).2.1)

/-! ## What the output's buffer and the accumulator hold after each point -/

/-- THE ACCUMULATION. What the output's staging buffer and the accumulator hold after the body at position `n` (a pair:
    the output window's buffer, then the accumulator): the case the closed forms select at `n`, run at the point's
    memrefs and input blocks, the accumulator found at what this leaves at `n - 1`. An assignment of the
    conditions no point meets (k = 0 and k = 14 at once) is no case. -/
def outsAt0 (c : Dev nD) : (n : ℕ) → n < cfg0.N → Vec F S512x384 .f32 × Vec F S512x384 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 15 = 0 then
      if h1 : (n + 1) % 15 = 14 then
        False.elim (by have hN : n + 1 < 30 := lt_of_lt_of_eq hn (show cfg0.N = 30 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 15 = 14 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

/-- `outsAt0` at a point of case A (k = 0): that case's contents. -/
theorem outsAt0_A (c : Dev nD) (t : Fin cfg0.N) (h0 : t.val % 15 = 0) (h1 : ¬t.val % 15 = 14) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

/-- `outsAt0` at a point of case B (0 < k < 14): that case's contents, over what the point before left. -/
theorem outsAt0_B (c : Dev nD) (t : Fin cfg0.N) (h0 : ¬t.val % 15 = 0) (h1 : ¬t.val % 15 = 14) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C (k = 14): that case's contents, over what the point before left. -/
theorem outsAt0_C (c : Dev nD) (t : Fin cfg0.N) (h0 : ¬t.val % 15 = 0) (h1 : t.val % 15 = 14) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`, the accumulator being CARRIED between points: before the first point
    the class's (every scoped buffer that is no staging buffer at anything); afterwards the accumulator at what the
    point before left in it (`outsAt0`'s second component), the other scoped buffers at anything, and the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the accumulator at that point's contents. -/
theorem PhiS_succ (c : Dev nD) (n : ℕ) (hn : n < cfg0.N) :
    PhiS V c (n + 1) hn = iprop(iprop(owns (c : Thread nD τ) scM0_0 fullShare ((outsAt0 V c n hn).2) ∗ rest0 (F := F) c) ∗ (∃ r, prngReg c r)) := rfl

/-- Before a point that is not the first: the accumulator at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The pipeline's proof data -/

/-- The proof data of region 0's pipeline on core `c`: the arrays as the region finds them (`V`); after the body at
    point `t` each input's buffer at its block and the output's at `outsAt0`'s first component; the invariant
    `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

/-- The proof data's arrays are the region-entry contents: the definition projected, so that `V` is never unfolded. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' memrefs hold their blocks (`before0_W`); the closed forms say which case the
    point is in; so that case's run applies. The invariant hands the body the accumulator at what the point before
    left (at anything at the first point, and at a later point with k = 0 the named contents are forgotten), the
    other scoped buffers and the generator register, and takes the accumulator back at this point's contents; the
    output's buffer is handed back untouched where the window is idle; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 30 := lt_of_lt_of_eq t.isLt (show cfg0.N = 30 from N_0)
  by_cases h0 : t.val % 15 = 0
  · by_cases h1 : t.val % 15 = 14
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 15 = 14
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [outsAt0_C V c t h0 h1]
      unfold out0_C_5 sout0_C_0; (try dsimp only)
      by_cases hz : t.val = 0
      · exfalso; omega
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (`ΦA`) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives `ΦA` back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hrest⟩, Hg⟩
  isplitl [HS0 Hrest]
  · isplitl [HS0]
    · iexists _; iexact HS0
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 30 := N_0; omega)

end Cert.Kernel.Hand

end
-- ==== Proof.K.R1.lean ====
/- Region 1's half of Kernel's frame: the fused tail kernel (layers 2–5 of the network) run once, on whole
   staging buffers. Stated at a parameter `V` — the TensorCore's buffer contents when the region is entered —:
   each window's block at the grid's one point, what the body's one store leaves in the output window's buffer
   as a function of the thirteen input blocks, the body's triple, the pipeline's proof data and its body
   obligation. Generic in the float instance. -/
import proofs.«146654_j5488968204426_2_alg».proof.Proof.Gen.Kernel.Launch
import proofs.«146654_j5488968204426_2_alg».proof.Proof.Gen.Kernel.Skeleton
import proofs.«146654_j5488968204426_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents (`View.cover_of_tiled`): the elaborator's structural look
-- recurses once per coordinate of the long axes
set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this half is stated at
variable (V : (c : Dev nD) → (b : Ref sig .tc) → Buf (Elt F) ((c : Thread nD τ).loc b))

/-! # Region 1 of @main: the fused tail kernel (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): an unfetched window's index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): an unfetched window's index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): an unfetched window's index
    has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s (`hA`) and whose body leaves the block in place (`hafter`): an unfetched window's index
    has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s (`hA`) and whose body leaves the block in place (`hafter`): an unfetched window's index
    has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof
    data whose array is `V`'s (`hA`) and whose body leaves the block in place (`hafter`): an unfetched window's index
    has not moved; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for any proof
    data whose array is `V`'s (`hA`) and whose body leaves the block in place (`hafter`): an unfetched window's index
    has not moved; the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for any proof
    data whose array is `V`'s (`hA`) and whose body leaves the block in place (`hafter`): an unfetched window's index
    has not moved; the window is uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for any proof
    data whose array is `V`'s (`hA`) and whose body leaves the block in place (`hafter`): an unfetched window's index
    has not moved; the window is uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not, for any proof
    data whose array is `V`'s (`hA`) and whose body leaves the block in place (`hafter`): an unfetched window's index
    has not moved; the window is uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's current staging buffer holds its block at every point, fetched there or not, for any proof
    data whose array is `V`'s (`hA`) and whose body leaves the block in place (`hafter`): an unfetched window's index
    has not moved; the window is uncut and never idle. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Input window 11's current staging buffer holds its block at every point, fetched there or not, for any proof
    data whose array is `V`'s (`hA`) and whose body leaves the block in place (`hafter`): an unfetched window's index
    has not moved; the window is uncut and never idle. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
/-- Input window 12's current staging buffer holds its block at every point, fetched there or not, for any proof
    data whose array is `V`'s (`hA`) and whose body leaves the block in place (`hafter`): an unfetched window's index
    has not moved; the window is uncut and never idle. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each window's staging buffer is read, or written, whole -/

abbrev r1_0 : Rect S512x768 := Rect.unit (s := S512x768) ![0, 0] S512x768.size inb_S512x768_S512x768_0_0
abbrev r1_1 : Rect S768x768 := Rect.unit (s := S768x768) ![0, 0] S768x768.size inb_S768x768_S768x768_0_0
abbrev r1_2 : Rect S1x768 := Rect.unit (s := S1x768) ![0, 0] S1x768.size inb_S1x768_S1x768_0_0
abbrev r1_3 : Rect S768x384 := Rect.unit (s := S768x384) ![0, 0] S768x384.size inb_S768x384_S768x384_0_0
abbrev r1_4 : Rect S1x384 := Rect.unit (s := S1x384) ![0, 0] S1x384.size inb_S1x384_S1x384_0_0
abbrev r1_5 : Rect S1x384 := Rect.unit (s := S1x384) ![0, 0] S1x384.size inb_S1x384_S1x384_0_0
abbrev r1_6 : Rect S1x384 := Rect.unit (s := S1x384) ![0, 0] S1x384.size inb_S1x384_S1x384_0_0
abbrev r1_7 : Rect S384x256 := Rect.unit (s := S384x256) ![0, 0] S384x256.size inb_S384x256_S384x256_0_0
abbrev r1_8 : Rect S1x256 := Rect.unit (s := S1x256) ![0, 0] S1x256.size inb_S1x256_S1x256_0_0
abbrev r1_9 : Rect S1x256 := Rect.unit (s := S1x256) ![0, 0] S1x256.size inb_S1x256_S1x256_0_0
abbrev r1_10 : Rect S1x256 := Rect.unit (s := S1x256) ![0, 0] S1x256.size inb_S1x256_S1x256_0_0
abbrev r1_11 : Rect S256x256 := Rect.unit (s := S256x256) ![0, 0] S256x256.size inb_S256x256_S256x256_0_0
abbrev r1_12 : Rect S1x256 := Rect.unit (s := S1x256) ![0, 0] S1x256.size inb_S1x256_S1x256_0_0
abbrev r1_13 : Rect S512x256 := Rect.unit (s := S512x256) ![0, 0] S512x256.size inb_S512x256_S512x256_0_0

/-! ## What the body leaves in the output window's buffer -/

/-- Window 13's staging buffer after the body, from the input windows' blocks: its one store as a piece — the last
    layer's affine map of the fifth activation, itself the payload chain of layers 2 to 4 over the loaded blocks. -/
def out1_13 (x0 : Vec F S512x768 .bf16) (x1 : Vec F S768x768 .bf16) (x2 : Vec F S1x768 .f32) (x3 : Vec F S768x384 .bf16) (x4 : Vec F S1x384 .f32) (x5 : Vec F S1x384 .f32) (x6 : Vec F S1x384 .f32) (x7 : Vec F S384x256 .bf16) (x8 : Vec F S1x256 .f32) (x9 : Vec F S1x256 .f32) (x10 : Vec F S1x256 .f32) (x11 : Vec F S256x256 .bf16) (x12 : Vec F S1x256 .f32) : Vec F S512x256 .f32 :=
  View.canon [⟨r1_13, k1_pay1 (k1_pay3 (k1_pay2 (View.ld x0 r1_0) (View.ld x1 r1_1) (View.ld x2 r1_2) (View.ld x3 r1_3) (View.ld x4 r1_4) (View.ld x5 r1_5)) (View.ld x6 r1_6) (View.ld x7 r1_7) (View.ld x8 r1_8) (View.ld x9 r1_9) (View.ld x10 r1_10)) (k1_pay4 (View.ld x11 r1_11)) (View.ld x12 r1_12)⟩]

/-- The one store is of the whole buffer (checked by evaluation), so it covers it. -/
theorem cover1_13 (p0 : Vec F S512x256 .f32) (y : S512x256.Idx) :
    ∃ pc ∈ ([⟨r1_13, p0⟩] : List (View.Piece (Elt F) S512x256 .f32)), y ∈ pc.1.set :=
  View.cover_of_tiled [⟨r1_13, p0⟩] S512x256.size (by rfl) y

/-! ## The body's triple -/

set_option maxHeartbeats 1000000 in
/-- The kernel body on whole staging memrefs, the inputs' at read contents `xW` and the output's at anything, runs to
    the continuation holding the inputs' as they were and the output's at `out1_13` of the inputs': the printed functions
    are their skeletons, which the symbolic executor runs, through both part calls. -/
theorem sound_kernel1 (c : Dev nD) (E : Set ℕ) (i : grid1.Coords) (arg1 : Memref sig .tc .vmem S512x768 .bf16) (harg1 : arg1.IsWhole) (arg2 : Memref sig .tc .vmem S768x768 .bf16) (harg2 : arg2.IsWhole) (arg3 : Memref sig .tc .vmem S1x768 .f32) (harg3 : arg3.IsWhole) (arg4 : Memref sig .tc .vmem S768x384 .bf16) (harg4 : arg4.IsWhole) (arg5 : Memref sig .tc .vmem S1x384 .f32) (harg5 : arg5.IsWhole) (arg6 : Memref sig .tc .vmem S1x384 .f32) (harg6 : arg6.IsWhole) (arg7 : Memref sig .tc .vmem S1x384 .f32) (harg7 : arg7.IsWhole) (arg8 : Memref sig .tc .vmem S384x256 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x256 .bf16) (harg12 : arg12.IsWhole) (arg13 : Memref sig .tc .vmem S1x256 .f32) (harg13 : arg13.IsWhole) (arg14 : Memref sig .tc .vmem S512x256 .f32) (harg14 : arg14.IsWhole)
    (x0 : Vec F S512x768 .bf16) (x1 : Vec F S768x768 .bf16) (x2 : Vec F S1x768 .f32) (x3 : Vec F S768x384 .bf16) (x4 : Vec F S1x384 .f32) (x5 : Vec F S1x384 .f32) (x6 : Vec F S1x384 .f32) (x7 : Vec F S384x256 .bf16) (x8 : Vec F S1x256 .f32) (x9 : Vec F S1x256 .f32) (x10 : Vec F S1x256 .f32) (x11 : Vec F S256x256 .bf16) (x12 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out1_13 x0 x1 x2 x3 x4 x5 x6 x7 x8 x9 x10 x11 x12)) -∗ K ⟨⟩))
      ⊢ wp frame (wpE (defs₀ (F := F)) Variants.none c none) E (cc1__fused_tail_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__fused_tail_kernel_eq_skeleton]; unfold cc1__fused_tail_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover1_13 _)

/-! ## The pipeline's proof data -/

/-- The proof data of pipeline 1 on core `c`: the arrays as the region finds them (`V`); after the body at
    point `t` each input's buffer at its block and the output's at `out1_13` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t)
  Φ _ := Pipeline.ΦA spec1 c
  q _ := fullShare
  owed _ := 0

/-- The proof data's arrays are the region-entry contents (the proof data's definition projected, by `dsimp`). -/
theorem A_eq1 (c : Dev nD) (w : Fin cfg1.W) : (dat1 V c).A w = V c (Pipeline.arrRef spec1 w) := by
  dsimp only [dat1]

/-- What the body leaves, window by window (the proof data's `match` reduced by `dsimp`, never `rfl`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel1 c Set.univ (grid1.coords t) _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  @main's run: the buffer contents at every boundary between its stretches of host operations and its two kernel
  regions, a fold from the launch memory (a stretch applies its operations; a region leaves each of its windows'
  arrays at what its write-backs leave and every other buffer as it found it); every weakly fair execution
  terminates with every unscoped buffer at the last boundary's contents; the argument arrays are written by
  nothing, so they end as launched.
-/
import proofs.«146654_j5488968204426_2_alg».proof.Proof.K.Folds
import proofs.«146654_j5488968204426_2_alg».proof.Proof.K.R0Data
import proofs.«146654_j5488968204426_2_alg».proof.Proof.K.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- A core's buffers at launch. -/
abbrev Wa0 : Dev nD → Valuation τ sig (Elt F) := fun c b => (s₀ m ρ).mem ((c : Dev nD), b)
abbrev Wa1 : Dev nD → Valuation τ sig (Elt F) := fun c => StableHlo.after hostOps0 (Wa0 m ρ c)
abbrev Wa2 : Dev nD → Valuation τ sig (Elt F) := fun c => StableHlo.after hostOps0_1 (Wa1 m ρ c)
abbrev Wa3 : Dev nD → Valuation τ sig (Elt F) := fun c => StableHlo.after hostOps0_2 (Wa2 m ρ c)
abbrev Wa4 : Dev nD → Valuation τ sig (Elt F) := fun c => StableHlo.after hostOps0_3 (Wa3 m ρ c)
abbrev Wa5 : Dev nD → Valuation τ sig (Elt F) := fun c => StableHlo.after hostOps0_4 (Wa4 m ρ c)
abbrev Wa6 : Dev nD → Valuation τ sig (Elt F) := fun c => StableHlo.after hostOps0_5 (Wa5 m ρ c)
abbrev Wa7 : Dev nD → Valuation τ sig (Elt F) := fun c => StableHlo.after hostOps0_6 (Wa6 m ρ c)
abbrev Wa8 : Dev nD → Valuation τ sig (Elt F) := fun c => StableHlo.after hostOps0_7 (Wa7 m ρ c)
abbrev Wa9 : Dev nD → Valuation τ sig (Elt F) := fun c => StableHlo.after hostOps0_8 (Wa8 m ρ c)
/-- Region 0's entry contents read at the TensorCore's references. -/
abbrev Va : (c : Dev nD) → (b : Ref sig .tc) → Buf (Elt F) ((c : Thread nD τ).loc b) := fun c b => Wa9 m ρ c b
/-- At region 0's exit: its arrays at what the pipeline leaves, every other buffer as entered. -/
def Wb0 (c : Dev nD) : Valuation τ sig (Elt F) :=
  Pipeline.withArrays spec0 c (Wa9 m ρ c) fun w => (dat0 (Va m ρ) c).arrAt w cfg0.N
theorem Wb0_arr (c : Dev nD) (w : Fin cfg0.W) :
    Wb0 m ρ c (Proc.devRef .tc (Pipeline.arrRef spec0 w)) = (dat0 (Va m ρ) c).arrAt w cfg0.N := by
  unfold Wb0; exact Pipeline.withArrays_arr spec0 launch0.win.arr_inj c _ _ w
theorem Wb0_of_ne (c : Dev nD) (b : Ref sig .tc) (hb : ∀ w, Pipeline.arrRef spec0 w ≠ b) :
    Wb0 m ρ c (Proc.devRef .tc b) = Wa9 m ρ c (Proc.devRef .tc b) := by
  unfold Wb0; exact Pipeline.withArrays_of_ne spec0 c _ _ b hb
abbrev Vb0 : (c : Dev nD) → (b : Ref sig .tc) → Buf (Elt F) ((c : Thread nD τ).loc b) := fun c b => Wb0 m ρ c b
theorem hF0 (c : Dev nD) (w : Fin cfg0.W) : (dat0 (Va m ρ) c).arrAt w cfg0.N = Vb0 m ρ c (Pipeline.arrRef spec0 w) :=
  (Wb0_arr m ρ c w).symm
theorem hrest0 (c : Dev nD) : ∀ b, b ∉ Finset.univ.image (Pipeline.arrRef spec0) → Vb0 m ρ c b = Va m ρ c b :=
  fun b hb => Wb0_of_ne m ρ c b fun w e => hb (Finset.mem_image.mpr ⟨w, Finset.mem_univ _, e⟩)
abbrev Wb1 : Dev nD → Valuation τ sig (Elt F) := fun c => StableHlo.after hostOps1 (Wb0 m ρ c)
abbrev Wb2 : Dev nD → Valuation τ sig (Elt F) := fun c => StableHlo.after hostOps1_1 (Wb1 m ρ c)
abbrev Wb3 : Dev nD → Valuation τ sig (Elt F) := fun c => StableHlo.after hostOps1_2 (Wb2 m ρ c)
abbrev Wb4 : Dev nD → Valuation τ sig (Elt F) := fun c => StableHlo.after hostOps1_3 (Wb3 m ρ c)
abbrev Wb5 : Dev nD → Valuation τ sig (Elt F) := fun c => StableHlo.after hostOps1_4 (Wb4 m ρ c)
abbrev Wb6 : Dev nD → Valuation τ sig (Elt F) := fun c => StableHlo.after hostOps1_5 (Wb5 m ρ c)
abbrev Wb7 : Dev nD → Valuation τ sig (Elt F) := fun c => StableHlo.after hostOps1_6 (Wb6 m ρ c)
abbrev Wb8 : Dev nD → Valuation τ sig (Elt F) := fun c => StableHlo.after hostOps1_7 (Wb7 m ρ c)
abbrev Wb9 : Dev nD → Valuation τ sig (Elt F) := fun c => StableHlo.after hostOps1_8 (Wb8 m ρ c)
abbrev Wb10 : Dev nD → Valuation τ sig (Elt F) := fun c => StableHlo.after hostOps1_9 (Wb9 m ρ c)
abbrev Wb11 : Dev nD → Valuation τ sig (Elt F) := fun c => StableHlo.after hostOps1_10 (Wb10 m ρ c)
abbrev Wb12 : Dev nD → Valuation τ sig (Elt F) := fun c => StableHlo.after hostOps1_11 (Wb11 m ρ c)
abbrev Wb13 : Dev nD → Valuation τ sig (Elt F) := fun c => StableHlo.after hostOps1_12 (Wb12 m ρ c)
abbrev Wb14 : Dev nD → Valuation τ sig (Elt F) := fun c => StableHlo.after hostOps1_13 (Wb13 m ρ c)
abbrev Wb15 : Dev nD → Valuation τ sig (Elt F) := fun c => StableHlo.after hostOps1_14 (Wb14 m ρ c)
abbrev Wb16 : Dev nD → Valuation τ sig (Elt F) := fun c => StableHlo.after hostOps1_15 (Wb15 m ρ c)
abbrev Wb17 : Dev nD → Valuation τ sig (Elt F) := fun c => StableHlo.after hostOps1_16 (Wb16 m ρ c)
/-- Region 1's entry contents read at the TensorCore's references. -/
abbrev Vb : (c : Dev nD) → (b : Ref sig .tc) → Buf (Elt F) ((c : Thread nD τ).loc b) := fun c b => Wb17 m ρ c b
/-- At region 1's exit. -/
def Wc0 (c : Dev nD) : Valuation τ sig (Elt F) :=
  Pipeline.withArrays spec1 c (Wb17 m ρ c) fun w => (dat1 (Vb m ρ) c).arrAt w cfg1.N
theorem Wc0_arr (c : Dev nD) (w : Fin cfg1.W) :
    Wc0 m ρ c (Proc.devRef .tc (Pipeline.arrRef spec1 w)) = (dat1 (Vb m ρ) c).arrAt w cfg1.N := by
  unfold Wc0; exact Pipeline.withArrays_arr spec1 launch1.win.arr_inj c _ _ w
theorem Wc0_of_ne (c : Dev nD) (b : Ref sig .tc) (hb : ∀ w, Pipeline.arrRef spec1 w ≠ b) :
    Wc0 m ρ c (Proc.devRef .tc b) = Wb17 m ρ c (Proc.devRef .tc b) := by
  unfold Wc0; exact Pipeline.withArrays_of_ne spec1 c _ _ b hb
abbrev Vc0 : (c : Dev nD) → (b : Ref sig .tc) → Buf (Elt F) ((c : Thread nD τ).loc b) := fun c b => Wc0 m ρ c b
theorem hF1 (c : Dev nD) (w : Fin cfg1.W) : (dat1 (Vb m ρ) c).arrAt w cfg1.N = Vc0 m ρ c (Pipeline.arrRef spec1 w) :=
  (Wc0_arr m ρ c w).symm
theorem hrest1 (c : Dev nD) : ∀ b, b ∉ Finset.univ.image (Pipeline.arrRef spec1) → Vc0 m ρ c b = Vb m ρ c b :=
  fun b hb => Wc0_of_ne m ρ c b fun w e => hb (Finset.mem_image.mpr ⟨w, Finset.mem_univ _, e⟩)
/-- After the last stretch: the contents @main returns with. -/
abbrev Wc1 : Dev nD → Valuation τ sig (Elt F) := fun c => StableHlo.after hostOps2 (Wc0 m ρ c)

/-! ## The arguments end as launched -/

/-- No window of either region stages an argument array. -/
theorem spec0_args : ∀ r ∈ argRefs, ∀ w, Pipeline.arrRef spec0 w ≠ r := by decide
theorem spec1_args : ∀ r ∈ argRefs, ∀ w, Pipeline.arrRef spec1 w ≠ r := by decide

/-- An argument array holds at the end what the launch memory held: no stretch writes it and no region stages it. -/
theorem Wc1_arg (c : Dev nD) (r : Ref sig .tc) (hr : r ∈ argRefs) :
    Wc1 m ρ c (Proc.devRef .tc r) = m ((c : Thread nD τ).loc r) := by
  rw [show Wc1 m ρ c (Proc.devRef .tc r) = Wc0 m ρ c (Proc.devRef .tc r) from hostOps2_keeps _ r (hostOps2_args r hr)]
  rw [Wc0_of_ne m ρ c r (spec1_args r hr)]
  rw [show Wb17 m ρ c (Proc.devRef .tc r) = Wb16 m ρ c (Proc.devRef .tc r) from hostOps1_16_keeps _ r (hostOps1_16_args r hr)]
  rw [show Wb16 m ρ c (Proc.devRef .tc r) = Wb15 m ρ c (Proc.devRef .tc r) from hostOps1_15_keeps _ r (hostOps1_15_args r hr)]
  rw [show Wb15 m ρ c (Proc.devRef .tc r) = Wb14 m ρ c (Proc.devRef .tc r) from hostOps1_14_keeps _ r (hostOps1_14_args r hr)]
  rw [show Wb14 m ρ c (Proc.devRef .tc r) = Wb13 m ρ c (Proc.devRef .tc r) from hostOps1_13_keeps _ r (hostOps1_13_args r hr)]
  rw [show Wb13 m ρ c (Proc.devRef .tc r) = Wb12 m ρ c (Proc.devRef .tc r) from hostOps1_12_keeps _ r (hostOps1_12_args r hr)]
  rw [show Wb12 m ρ c (Proc.devRef .tc r) = Wb11 m ρ c (Proc.devRef .tc r) from hostOps1_11_keeps _ r (hostOps1_11_args r hr)]
  rw [show Wb11 m ρ c (Proc.devRef .tc r) = Wb10 m ρ c (Proc.devRef .tc r) from hostOps1_10_keeps _ r (hostOps1_10_args r hr)]
  rw [show Wb10 m ρ c (Proc.devRef .tc r) = Wb9 m ρ c (Proc.devRef .tc r) from hostOps1_9_keeps _ r (hostOps1_9_args r hr)]
  rw [show Wb9 m ρ c (Proc.devRef .tc r) = Wb8 m ρ c (Proc.devRef .tc r) from hostOps1_8_keeps _ r (hostOps1_8_args r hr)]
  rw [show Wb8 m ρ c (Proc.devRef .tc r) = Wb7 m ρ c (Proc.devRef .tc r) from hostOps1_7_keeps _ r (hostOps1_7_args r hr)]
  rw [show Wb7 m ρ c (Proc.devRef .tc r) = Wb6 m ρ c (Proc.devRef .tc r) from hostOps1_6_keeps _ r (hostOps1_6_args r hr)]
  rw [show Wb6 m ρ c (Proc.devRef .tc r) = Wb5 m ρ c (Proc.devRef .tc r) from hostOps1_5_keeps _ r (hostOps1_5_args r hr)]
  rw [show Wb5 m ρ c (Proc.devRef .tc r) = Wb4 m ρ c (Proc.devRef .tc r) from hostOps1_4_keeps _ r (hostOps1_4_args r hr)]
  rw [show Wb4 m ρ c (Proc.devRef .tc r) = Wb3 m ρ c (Proc.devRef .tc r) from hostOps1_3_keeps _ r (hostOps1_3_args r hr)]
  rw [show Wb3 m ρ c (Proc.devRef .tc r) = Wb2 m ρ c (Proc.devRef .tc r) from hostOps1_2_keeps _ r (hostOps1_2_args r hr)]
  rw [show Wb2 m ρ c (Proc.devRef .tc r) = Wb1 m ρ c (Proc.devRef .tc r) from hostOps1_1_keeps _ r (hostOps1_1_args r hr)]
  rw [show Wb1 m ρ c (Proc.devRef .tc r) = Wb0 m ρ c (Proc.devRef .tc r) from hostOps1_keeps _ r (hostOps1_args r hr)]
  rw [Wb0_of_ne m ρ c r (spec0_args r hr)]
  rw [show Wa9 m ρ c (Proc.devRef .tc r) = Wa8 m ρ c (Proc.devRef .tc r) from hostOps0_8_keeps _ r (hostOps0_8_args r hr)]
  rw [show Wa8 m ρ c (Proc.devRef .tc r) = Wa7 m ρ c (Proc.devRef .tc r) from hostOps0_7_keeps _ r (hostOps0_7_args r hr)]
  rw [show Wa7 m ρ c (Proc.devRef .tc r) = Wa6 m ρ c (Proc.devRef .tc r) from hostOps0_6_keeps _ r (hostOps0_6_args r hr)]
  rw [show Wa6 m ρ c (Proc.devRef .tc r) = Wa5 m ρ c (Proc.devRef .tc r) from hostOps0_5_keeps _ r (hostOps0_5_args r hr)]
  rw [show Wa5 m ρ c (Proc.devRef .tc r) = Wa4 m ρ c (Proc.devRef .tc r) from hostOps0_4_keeps _ r (hostOps0_4_args r hr)]
  rw [show Wa4 m ρ c (Proc.devRef .tc r) = Wa3 m ρ c (Proc.devRef .tc r) from hostOps0_3_keeps _ r (hostOps0_3_args r hr)]
  rw [show Wa3 m ρ c (Proc.devRef .tc r) = Wa2 m ρ c (Proc.devRef .tc r) from hostOps0_2_keeps _ r (hostOps0_2_args r hr)]
  rw [show Wa2 m ρ c (Proc.devRef .tc r) = Wa1 m ρ c (Proc.devRef .tc r) from hostOps0_1_keeps _ r (hostOps0_1_args r hr)]
  rw [show Wa1 m ρ c (Proc.devRef .tc r) = Wa0 m ρ c (Proc.devRef .tc r) from hostOps0_keeps _ r (hostOps0_args r hr)]

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Va m ρ) c
  | ⟨1, _⟩ => fun c => dat1 (Vb m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from given contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without what the core owes. -/
abbrev Tₙ (c : Dev nD) : sProp 𝕄 := iprop(StableHlo.held (c : Thread nD τ) (Pipeline.ucRefs τ sig) (Wc1 m ρ c) ∗ ∃ r, prngReg c r)

/-! ## The regions as segments -/

set_option backward.isDefEq.respectTransparency.types false in
/-- Region 0 over the thread state: entered from every unscoped buffer at its entry contents, left at its exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m ρ) c).loose
  hwaits := Pipeline.hwaits_of_owed_zero _ _ _ _ L lv 0 fun _ _ => rfl
  pre c := iprop(StableHlo.held (c : Thread nD τ) (Pipeline.ucRefs τ sig) (Wa9 m ρ c) ∗ R c)
  post c := iprop(StableHlo.held (c : Thread nD τ) (Pipeline.ucRefs τ sig) (Wb0 m ρ c) ∗ R c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show iprop(iprop(∃ r, prngReg c r) ∗ Pipeline.prefHeld (pcfgs (F := F) 0).pre c (fun _ => fullShare) (adm 0).1 ∗ Pipeline.scopedRest spec0 c) ⊢ Pipeline.ΦA spec0 c from ?_).trans (hin0 (Va m ρ) c)
    unfold Pipeline.ΦA
    iintro ⟨Hp, -, Hr⟩
    isplitl [Hr]; · iexact Hr
    iexact Hp
  hout c := by
    refine (hout0 (Va m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Va m ρ c) (Vb0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry contents, left at its exit contents. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb m ρ) c).loose
  hwaits := Pipeline.hwaits_of_owed_zero _ _ _ _ L lv 1 fun _ _ => rfl
  pre c := iprop(StableHlo.held (c : Thread nD τ) (Pipeline.ucRefs τ sig) (Wb17 m ρ c) ∗ R c)
  post c := iprop(StableHlo.held (c : Thread nD τ) (Pipeline.ucRefs τ sig) (Wc0 m ρ c) ∗ R c)
  X c := iprop(∃ r, prngReg c r)
  Y c := iprop(∃ r, prngReg c r)
  Z c := Pipeline.unscopedRest (Ix := Unit) (Name := ℕ) (U := UR sig nD τ) (Lvl := ℕ) spec1 c (Vb m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vb m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vb m ρ c) (Vc0 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's segments in order: a host segment per stretch from its boundary's contents, a region per kernel. -/
abbrev segs : List (Pipeline.Seg (pcfgs (F := F)) adm (pdats m ρ) () defs₀ 𝒱₀ L lv) :=
  [ .host (hseg hostOps0 hostOps0_sub hostOps0_fresh (Wa0 m ρ)),
    .host (hseg hostOps0_1 hostOps0_1_sub hostOps0_1_fresh (Wa1 m ρ)),
    .host (hseg hostOps0_2 hostOps0_2_sub hostOps0_2_fresh (Wa2 m ρ)),
    .host (hseg hostOps0_3 hostOps0_3_sub hostOps0_3_fresh (Wa3 m ρ)),
    .host (hseg hostOps0_4 hostOps0_4_sub hostOps0_4_fresh (Wa4 m ρ)),
    .host (hseg hostOps0_5 hostOps0_5_sub hostOps0_5_fresh (Wa5 m ρ)),
    .host (hseg hostOps0_6 hostOps0_6_sub hostOps0_6_fresh (Wa6 m ρ)),
    .host (hseg hostOps0_7 hostOps0_7_sub hostOps0_7_fresh (Wa7 m ρ)),
    .host (hseg hostOps0_8 hostOps0_8_sub hostOps0_8_fresh (Wa8 m ρ)),
    .region (reg0 m ρ),
    .host (hseg hostOps1 hostOps1_sub hostOps1_fresh (Wb0 m ρ)),
    .host (hseg hostOps1_1 hostOps1_1_sub hostOps1_1_fresh (Wb1 m ρ)),
    .host (hseg hostOps1_2 hostOps1_2_sub hostOps1_2_fresh (Wb2 m ρ)),
    .host (hseg hostOps1_3 hostOps1_3_sub hostOps1_3_fresh (Wb3 m ρ)),
    .host (hseg hostOps1_4 hostOps1_4_sub hostOps1_4_fresh (Wb4 m ρ)),
    .host (hseg hostOps1_5 hostOps1_5_sub hostOps1_5_fresh (Wb5 m ρ)),
    .host (hseg hostOps1_6 hostOps1_6_sub hostOps1_6_fresh (Wb6 m ρ)),
    .host (hseg hostOps1_7 hostOps1_7_sub hostOps1_7_fresh (Wb7 m ρ)),
    .host (hseg hostOps1_8 hostOps1_8_sub hostOps1_8_fresh (Wb8 m ρ)),
    .host (hseg hostOps1_9 hostOps1_9_sub hostOps1_9_fresh (Wb9 m ρ)),
    .host (hseg hostOps1_10 hostOps1_10_sub hostOps1_10_fresh (Wb10 m ρ)),
    .host (hseg hostOps1_11 hostOps1_11_sub hostOps1_11_fresh (Wb11 m ρ)),
    .host (hseg hostOps1_12 hostOps1_12_sub hostOps1_12_fresh (Wb12 m ρ)),
    .host (hseg hostOps1_13 hostOps1_13_sub hostOps1_13_fresh (Wb13 m ρ)),
    .host (hseg hostOps1_14 hostOps1_14_sub hostOps1_14_fresh (Wb14 m ρ)),
    .host (hseg hostOps1_15 hostOps1_15_sub hostOps1_15_fresh (Wb15 m ρ)),
    .host (hseg hostOps1_16 hostOps1_16_sub hostOps1_16_fresh (Wb16 m ρ)),
    .region (reg1 m ρ),
    .host (hseg hostOps2 hostOps2_sub hostOps2_fresh (Wc0 m ρ)) ]
/-- @main IS the run of the segments. -/
theorem main_run (c : Dev nD) : main (F := F) c = Pipeline.Seg.run (segs m ρ) := by
  rw [main_chain c, Pipeline.Seg.run_eq_chain]; rfl

set_option backward.isDefEq.respectTransparency.types false in
/-- From any memory with zero counters every weakly fair execution of @main on the TensorCores terminates, nothing
    faulting, and every final state has every unscoped buffer at the last boundary's contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = Wc1 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (Wc1 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Wa0 m ρ c)
        from Pipeline.unscopedBufs_held c (Wa0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wc1 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wc1 m ρ c) s')
      isplitl [Hh] <;> iassumption)
    (hQ := fun s h c b hb => h c _ (mem_uc b hb))

/-- The frame: every weakly fair execution terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨(h c main_arg0 (by decide)).trans (Wc1_arg m ρ c main_arg0 (by decide)),
    (h c main_arg1 (by decide)).trans (Wc1_arg m ρ c main_arg1 (by decide)),
    (h c main_arg2 (by decide)).trans (Wc1_arg m ρ c main_arg2 (by decide)),
    (h c main_arg3 (by decide)).trans (Wc1_arg m ρ c main_arg3 (by decide)),
    (h c main_arg4 (by decide)).trans (Wc1_arg m ρ c main_arg4 (by decide)),
    (h c main_arg5 (by decide)).trans (Wc1_arg m ρ c main_arg5 (by decide)),
    (h c main_arg6 (by decide)).trans (Wc1_arg m ρ c main_arg6 (by decide)),
    (h c main_arg7 (by decide)).trans (Wc1_arg m ρ c main_arg7 (by decide)),
    (h c main_arg8 (by decide)).trans (Wc1_arg m ρ c main_arg8 (by decide)),
    (h c main_arg9 (by decide)).trans (Wc1_arg m ρ c main_arg9 (by decide)),
    (h c main_arg10 (by decide)).trans (Wc1_arg m ρ c main_arg10 (by decide)),
    (h c main_arg11 (by decide)).trans (Wc1_arg m ρ c main_arg11 (by decide)),
    (h c main_arg12 (by decide)).trans (Wc1_arg m ρ c main_arg12 (by decide)),
    (h c main_arg13 (by decide)).trans (Wc1_arg m ρ c main_arg13 (by decide)),
    (h c main_arg14 (by decide)).trans (Wc1_arg m ρ c main_arg14 (by decide)),
    (h c main_arg15 (by decide)).trans (Wc1_arg m ρ c main_arg15 (by decide)),
    (h c main_arg16 (by decide)).trans (Wc1_arg m ρ c main_arg16 (by decide)),
    (h c main_arg17 (by decide)).trans (Wc1_arg m ρ c main_arg17 (by decide)),
    (h c main_arg18 (by decide)).trans (Wc1_arg m ρ c main_arg18 (by decide)),
    (h c main_arg19 (by decide)).trans (Wc1_arg m ρ c main_arg19 (by decide)),
    (h c main_arg20 (by decide)).trans (Wc1_arg m ρ c main_arg20 (by decide)),
    (h c main_arg21 (by decide)).trans (Wc1_arg m ρ c main_arg21 (by decide))⟩) (run_all m ρ)

end Cert.Kernel.Hand

end
-- ==== Proof.KI.Folds.lean ====
/-
  The host operations of @main between the launch, the two kernel regions and the return, stretch by stretch: no
  operation allocates a buffer; each stretch writes only the listed result buffers, so every other buffer — the
  twenty-two argument arrays among them — holds after the stretch what it held before it.
-/
import proofs.«146654_j5488968204426_2_alg».proof.Proof.Gen.KernelIdeal.Launch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.StableHlo (after)

variable {F : FTy → Type} [FloatOps F]

/-- A result buffer that is on a list is inside the list's set of device buffers. -/
theorem wsub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The argument arrays of @main. -/
def argRefs : List (Ref sig .tc) :=
  [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

/-- No operation of hostOps0 allocates a buffer. -/
theorem hostOps0_fresh : (hostOps0 : List (HloOp τ sig (Elt F))).Forall fun op => op.fresh = ∅ := by
  simp only [List.Forall]; repeat' constructor
/-- The buffers hostOps0 writes. -/
def hostOps0_W : List (Ref sig .tc) := [main_v0, main_c]
theorem hostOps0_writes : (hostOps0 : List (HloOp τ sig (Elt F))).Forall fun op =>
    op.writes ⊆ ((hostOps0_W).map (Proc.devRef (τ := τ) .tc)).toFinset :=
  ⟨wsub (by decide), wsub (by decide)⟩
/-- A buffer hostOps0 does not write keeps its contents. -/
theorem hostOps0_keeps (V : Valuation τ sig (Elt F)) (r : Ref sig .tc) (hr : r ∉ hostOps0_W) :
    after hostOps0 V (Proc.devRef .tc r) = V (Proc.devRef .tc r) :=
  StableHlo.after_of_writes_sub hostOps0 V hostOps0_writes hr
theorem hostOps0_args : ∀ r ∈ argRefs, r ∉ hostOps0_W := by decide

/-- No operation of hostOps0_1 allocates a buffer. -/
theorem hostOps0_1_fresh : (hostOps0_1 : List (HloOp τ sig (Elt F))).Forall fun op => op.fresh = ∅ := by
  simp only [List.Forall]; repeat' constructor
/-- The buffers hostOps0_1 writes. -/
def hostOps0_1_W : List (Ref sig .tc) := [main_call0_v0, main_v1]
theorem hostOps0_1_writes : (hostOps0_1 : List (HloOp τ sig (Elt F))).Forall fun op =>
    op.writes ⊆ ((hostOps0_1_W).map (Proc.devRef (τ := τ) .tc)).toFinset :=
  ⟨wsub (by decide), wsub (by decide)⟩
/-- A buffer hostOps0_1 does not write keeps its contents. -/
theorem hostOps0_1_keeps (V : Valuation τ sig (Elt F)) (r : Ref sig .tc) (hr : r ∉ hostOps0_1_W) :
    after hostOps0_1 V (Proc.devRef .tc r) = V (Proc.devRef .tc r) :=
  StableHlo.after_of_writes_sub hostOps0_1 V hostOps0_1_writes hr
theorem hostOps0_1_args : ∀ r ∈ argRefs, r ∉ hostOps0_1_W := by decide

/-- No operation of hostOps0_2 allocates a buffer. -/
theorem hostOps0_2_fresh : (hostOps0_2 : List (HloOp τ sig (Elt F))).Forall fun op => op.fresh = ∅ := by
  simp only [List.Forall]; repeat' constructor
/-- The buffers hostOps0_2 writes. -/
def hostOps0_2_W : List (Ref sig .tc) := [main_cst, main_v2, main_v3, main_v4, main_v5, main_v6, main_c_0, main_v7, main_v8, main_c_1, main_v9, main_v10, main_v11, main_c_2, main_v12, main_v13, main_c_3, main_v14, main_v15, main_v16, main_v17, main_v18, main_v19, main_v20, main_v21, main_c_4]
theorem hostOps0_2_writes : (hostOps0_2 : List (HloOp τ sig (Elt F))).Forall fun op =>
    op.writes ⊆ ((hostOps0_2_W).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩
/-- A buffer hostOps0_2 does not write keeps its contents. -/
theorem hostOps0_2_keeps (V : Valuation τ sig (Elt F)) (r : Ref sig .tc) (hr : r ∉ hostOps0_2_W) :
    after hostOps0_2 V (Proc.devRef .tc r) = V (Proc.devRef .tc r) :=
  StableHlo.after_of_writes_sub hostOps0_2 V hostOps0_2_writes hr
theorem hostOps0_2_args : ∀ r ∈ argRefs, r ∉ hostOps0_2_W := by decide

/-- No operation of hostOps0_3 allocates a buffer. -/
theorem hostOps0_3_fresh : (hostOps0_3 : List (HloOp τ sig (Elt F))).Forall fun op => op.fresh = ∅ := by
  simp only [List.Forall]; repeat' constructor
/-- The buffers hostOps0_3 writes. -/
def hostOps0_3_W : List (Ref sig .tc) := [main_call1_v0, main_v22]
theorem hostOps0_3_writes : (hostOps0_3 : List (HloOp τ sig (Elt F))).Forall fun op =>
    op.writes ⊆ ((hostOps0_3_W).map (Proc.devRef (τ := τ) .tc)).toFinset :=
  ⟨wsub (by decide), wsub (by decide)⟩
/-- A buffer hostOps0_3 does not write keeps its contents. -/
theorem hostOps0_3_keeps (V : Valuation τ sig (Elt F)) (r : Ref sig .tc) (hr : r ∉ hostOps0_3_W) :
    after hostOps0_3 V (Proc.devRef .tc r) = V (Proc.devRef .tc r) :=
  StableHlo.after_of_writes_sub hostOps0_3 V hostOps0_3_writes hr
theorem hostOps0_3_args : ∀ r ∈ argRefs, r ∉ hostOps0_3_W := by decide

/-- No operation of hostOps0_4 allocates a buffer. -/
theorem hostOps0_4_fresh : (hostOps0_4 : List (HloOp τ sig (Elt F))).Forall fun op => op.fresh = ∅ := by
  simp only [List.Forall]; repeat' constructor
/-- The buffers hostOps0_4 writes. -/
def hostOps0_4_W : List (Ref sig .tc) := [main_c_5]
theorem hostOps0_4_writes : (hostOps0_4 : List (HloOp τ sig (Elt F))).Forall fun op =>
    op.writes ⊆ ((hostOps0_4_W).map (Proc.devRef (τ := τ) .tc)).toFinset :=
  wsub (by decide)
/-- A buffer hostOps0_4 does not write keeps its contents. -/
theorem hostOps0_4_keeps (V : Valuation τ sig (Elt F)) (r : Ref sig .tc) (hr : r ∉ hostOps0_4_W) :
    after hostOps0_4 V (Proc.devRef .tc r) = V (Proc.devRef .tc r) :=
  StableHlo.after_of_writes_sub hostOps0_4 V hostOps0_4_writes hr
theorem hostOps0_4_args : ∀ r ∈ argRefs, r ∉ hostOps0_4_W := by decide

/-- No operation of hostOps0_5 allocates a buffer. -/
theorem hostOps0_5_fresh : (hostOps0_5 : List (HloOp τ sig (Elt F))).Forall fun op => op.fresh = ∅ := by
  simp only [List.Forall]; repeat' constructor
/-- The buffers hostOps0_5 writes. -/
def hostOps0_5_W : List (Ref sig .tc) := [main_call2_v0, main_v23]
theorem hostOps0_5_writes : (hostOps0_5 : List (HloOp τ sig (Elt F))).Forall fun op =>
    op.writes ⊆ ((hostOps0_5_W).map (Proc.devRef (τ := τ) .tc)).toFinset :=
  ⟨wsub (by decide), wsub (by decide)⟩
/-- A buffer hostOps0_5 does not write keeps its contents. -/
theorem hostOps0_5_keeps (V : Valuation τ sig (Elt F)) (r : Ref sig .tc) (hr : r ∉ hostOps0_5_W) :
    after hostOps0_5 V (Proc.devRef .tc r) = V (Proc.devRef .tc r) :=
  StableHlo.after_of_writes_sub hostOps0_5 V hostOps0_5_writes hr
theorem hostOps0_5_args : ∀ r ∈ argRefs, r ∉ hostOps0_5_W := by decide

/-- No operation of hostOps0_6 allocates a buffer. -/
theorem hostOps0_6_fresh : (hostOps0_6 : List (HloOp τ sig (Elt F))).Forall fun op => op.fresh = ∅ := by
  simp only [List.Forall]; repeat' constructor
/-- The buffers hostOps0_6 writes. -/
def hostOps0_6_W : List (Ref sig .tc) := [main_c_6]
theorem hostOps0_6_writes : (hostOps0_6 : List (HloOp τ sig (Elt F))).Forall fun op =>
    op.writes ⊆ ((hostOps0_6_W).map (Proc.devRef (τ := τ) .tc)).toFinset :=
  wsub (by decide)
/-- A buffer hostOps0_6 does not write keeps its contents. -/
theorem hostOps0_6_keeps (V : Valuation τ sig (Elt F)) (r : Ref sig .tc) (hr : r ∉ hostOps0_6_W) :
    after hostOps0_6 V (Proc.devRef .tc r) = V (Proc.devRef .tc r) :=
  StableHlo.after_of_writes_sub hostOps0_6 V hostOps0_6_writes hr
theorem hostOps0_6_args : ∀ r ∈ argRefs, r ∉ hostOps0_6_W := by decide

/-- No operation of hostOps0_7 allocates a buffer. -/
theorem hostOps0_7_fresh : (hostOps0_7 : List (HloOp τ sig (Elt F))).Forall fun op => op.fresh = ∅ := by
  simp only [List.Forall]; repeat' constructor
/-- The buffers hostOps0_7 writes. -/
def hostOps0_7_W : List (Ref sig .tc) := [main_call3_v0, main_v24]
theorem hostOps0_7_writes : (hostOps0_7 : List (HloOp τ sig (Elt F))).Forall fun op =>
    op.writes ⊆ ((hostOps0_7_W).map (Proc.devRef (τ := τ) .tc)).toFinset :=
  ⟨wsub (by decide), wsub (by decide)⟩
/-- A buffer hostOps0_7 does not write keeps its contents. -/
theorem hostOps0_7_keeps (V : Valuation τ sig (Elt F)) (r : Ref sig .tc) (hr : r ∉ hostOps0_7_W) :
    after hostOps0_7 V (Proc.devRef .tc r) = V (Proc.devRef .tc r) :=
  StableHlo.after_of_writes_sub hostOps0_7 V hostOps0_7_writes hr
theorem hostOps0_7_args : ∀ r ∈ argRefs, r ∉ hostOps0_7_W := by decide

/-- No operation of hostOps0_8 allocates a buffer. -/
theorem hostOps0_8_fresh : (hostOps0_8 : List (HloOp τ sig (Elt F))).Forall fun op => op.fresh = ∅ := by
  simp only [List.Forall]; repeat' constructor
/-- The buffers hostOps0_8 writes. -/
def hostOps0_8_W : List (Ref sig .tc) := [main_v25, main_v26, main_v27]
theorem hostOps0_8_writes : (hostOps0_8 : List (HloOp τ sig (Elt F))).Forall fun op =>
    op.writes ⊆ ((hostOps0_8_W).map (Proc.devRef (τ := τ) .tc)).toFinset :=
  ⟨wsub (by decide), wsub (by decide), wsub (by decide)⟩
/-- A buffer hostOps0_8 does not write keeps its contents. -/
theorem hostOps0_8_keeps (V : Valuation τ sig (Elt F)) (r : Ref sig .tc) (hr : r ∉ hostOps0_8_W) :
    after hostOps0_8 V (Proc.devRef .tc r) = V (Proc.devRef .tc r) :=
  StableHlo.after_of_writes_sub hostOps0_8 V hostOps0_8_writes hr
theorem hostOps0_8_args : ∀ r ∈ argRefs, r ∉ hostOps0_8_W := by decide

/-- No operation of hostOps1 allocates a buffer. -/
theorem hostOps1_fresh : (hostOps1 : List (HloOp τ sig (Elt F))).Forall fun op => op.fresh = ∅ := by
  simp only [List.Forall]; repeat' constructor
/-- The buffers hostOps1 writes. -/
def hostOps1_W : List (Ref sig .tc) := [main_v29, main_cst_7, main_v30, main_v31, main_v32, main_v33, main_v34, main_c_8, main_v35, main_v36, main_c_9, main_v37, main_v38, main_v39, main_c_10, main_v40, main_v41, main_c_11, main_v42, main_v43, main_v44, main_v45, main_v46, main_v47, main_v48, main_v49, main_cst_12, main_v50, main_v51, main_v52, main_v53, main_v54, main_c_13, main_v55, main_v56, main_c_14, main_v57, main_v58, main_v59, main_c_15, main_v60, main_v61, main_c_16, main_v62, main_v63, main_v64, main_v65, main_v66, main_v67, main_v68, main_v69, main_cst_17, main_v70, main_v71, main_v72, main_v73, main_v74, main_c_18, main_v75, main_v76, main_c_19, main_v77, main_v78, main_v79, main_c_20, main_v80, main_v81, main_c_21, main_v82, main_v83, main_v84, main_v85, main_v86, main_v87, main_v88, main_v89, main_cst_22, main_v90, main_v91, main_v92, main_v93, main_v94, main_c_23, main_v95, main_v96, main_c_24, main_v97, main_v98, main_v99, main_c_25, main_v100, main_v101, main_c_26, main_v102, main_v103, main_v104, main_v105, main_v106, main_v107, main_v108, main_v109, main_c_27]
theorem hostOps1_writes : (hostOps1 : List (HloOp τ sig (Elt F))).Forall fun op =>
    op.writes ⊆ ((hostOps1_W).map (Proc.devRef (τ := τ) .tc)).toFinset :=
  ⟨wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide), wsub (by decide)⟩
/-- A buffer hostOps1 does not write keeps its contents. -/
theorem hostOps1_keeps (V : Valuation τ sig (Elt F)) (r : Ref sig .tc) (hr : r ∉ hostOps1_W) :
    after hostOps1 V (Proc.devRef .tc r) = V (Proc.devRef .tc r) :=
  StableHlo.after_of_writes_sub hostOps1 V hostOps1_writes hr
theorem hostOps1_args : ∀ r ∈ argRefs, r ∉ hostOps1_W := by decide

/-- No operation of hostOps1_1 allocates a buffer. -/
theorem hostOps1_1_fresh : (hostOps1_1 : List (HloOp τ sig (Elt F))).Forall fun op => op.fresh = ∅ := by
  simp only [List.Forall]; repeat' constructor
/-- The buffers hostOps1_1 writes. -/
def hostOps1_1_W : List (Ref sig .tc) := [main_call4_v0, main_v110]
theorem hostOps1_1_writes : (hostOps1_1 : List (HloOp τ sig (Elt F))).Forall fun op =>
    op.writes ⊆ ((hostOps1_1_W).map (Proc.devRef (τ := τ) .tc)).toFinset :=
  ⟨wsub (by decide), wsub (by decide)⟩
/-- A buffer hostOps1_1 does not write keeps its contents. -/
theorem hostOps1_1_keeps (V : Valuation τ sig (Elt F)) (r : Ref sig .tc) (hr : r ∉ hostOps1_1_W) :
    after hostOps1_1 V (Proc.devRef .tc r) = V (Proc.devRef .tc r) :=
  StableHlo.after_of_writes_sub hostOps1_1 V hostOps1_1_writes hr
theorem hostOps1_1_args : ∀ r ∈ argRefs, r ∉ hostOps1_1_W := by decide

/-- No operation of hostOps1_2 allocates a buffer. -/
theorem hostOps1_2_fresh : (hostOps1_2 : List (HloOp τ sig (Elt F))).Forall fun op => op.fresh = ∅ := by
  simp only [List.Forall]; repeat' constructor
/-- The buffers hostOps1_2 writes. -/
def hostOps1_2_W : List (Ref sig .tc) := [main_c_28]
theorem hostOps1_2_writes : (hostOps1_2 : List (HloOp τ sig (Elt F))).Forall fun op =>
    op.writes ⊆ ((hostOps1_2_W).map (Proc.devRef (τ := τ) .tc)).toFinset :=
  wsub (by decide)
/-- A buffer hostOps1_2 does not write keeps its contents. -/
theorem hostOps1_2_keeps (V : Valuation τ sig (Elt F)) (r : Ref sig .tc) (hr : r ∉ hostOps1_2_W) :
    after hostOps1_2 V (Proc.devRef .tc r) = V (Proc.devRef .tc r) :=
  StableHlo.after_of_writes_sub hostOps1_2 V hostOps1_2_writes hr
theorem hostOps1_2_args : ∀ r ∈ argRefs, r ∉ hostOps1_2_W := by decide

/-- No operation of hostOps1_3 allocates a buffer. -/
theorem hostOps1_3_fresh : (hostOps1_3 : List (HloOp τ sig (Elt F))).Forall fun op => op.fresh = ∅ := by
  simp only [List.Forall]; repeat' constructor
/-- The buffers hostOps1_3 writes. -/
def hostOps1_3_W : List (Ref sig .tc) := [main_call5_v0, main_v111]
theorem hostOps1_3_writes : (hostOps1_3 : List (HloOp τ sig (Elt F))).Forall fun op =>
    op.writes ⊆ ((hostOps1_3_W).map (Proc.devRef (τ := τ) .tc)).toFinset :=
  ⟨wsub (by decide), wsub (by decide)⟩
/-- A buffer hostOps1_3 does not write keeps its contents. -/
theorem hostOps1_3_keeps (V : Valuation τ sig (Elt F)) (r : Ref sig .tc) (hr : r ∉ hostOps1_3_W) :
    after hostOps1_3 V (Proc.devRef .tc r) = V (Proc.devRef .tc r) :=
  StableHlo.after_of_writes_sub hostOps1_3 V hostOps1_3_writes hr
theorem hostOps1_3_args : ∀ r ∈ argRefs, r ∉ hostOps1_3_W := by decide

/-- No operation of hostOps1_4 allocates a buffer. -/
theorem hostOps1_4_fresh : (hostOps1_4 : List (HloOp τ sig (Elt F))).Forall fun op => op.fresh = ∅ := by
  simp only [List.Forall]; repeat' constructor
/-- The buffers hostOps1_4 writes. -/
def hostOps1_4_W : List (Ref sig .tc) := [main_c_29]
theorem hostOps1_4_writes : (hostOps1_4 : List (HloOp τ sig (Elt F))).Forall fun op =>
    op.writes ⊆ ((hostOps1_4_W).map (Proc.devRef (τ := τ) .tc)).toFinset :=
  wsub (by decide)
/-- A buffer hostOps1_4 does not write keeps its contents. -/
theorem hostOps1_4_keeps (V : Valuation τ sig (Elt F)) (r : Ref sig .tc) (hr : r ∉ hostOps1_4_W) :
    after hostOps1_4 V (Proc.devRef .tc r) = V (Proc.devRef .tc r) :=
  StableHlo.after_of_writes_sub hostOps1_4 V hostOps1_4_writes hr
theorem hostOps1_4_args : ∀ r ∈ argRefs, r ∉ hostOps1_4_W := by decide

/-- No operation of hostOps1_5 allocates a buffer. -/
theorem hostOps1_5_fresh : (hostOps1_5 : List (HloOp τ sig (Elt F))).Forall fun op => op.fresh = ∅ := by
  simp only [List.Forall]; repeat' constructor
/-- The buffers hostOps1_5 writes. -/
def hostOps1_5_W : List (Ref sig .tc) := [main_call6_v0, main_v112]
theorem hostOps1_5_writes : (hostOps1_5 : List (HloOp τ sig (Elt F))).Forall fun op =>
    op.writes ⊆ ((hostOps1_5_W).map (Proc.devRef (τ := τ) .tc)).toFinset :=
  ⟨wsub (by decide), wsub (by decide)⟩
/-- A buffer hostOps1_5 does not write keeps its contents. -/
theorem hostOps1_5_keeps (V : Valuation τ sig (Elt F)) (r : Ref sig .tc) (hr : r ∉ hostOps1_5_W) :
    after hostOps1_5 V (Proc.devRef .tc r) = V (Proc.devRef .tc r) :=
  StableHlo.after_of_writes_sub hostOps1_5 V hostOps1_5_writes hr
theorem hostOps1_5_args : ∀ r ∈ argRefs, r ∉ hostOps1_5_W := by decide

/-- No operation of hostOps1_6 allocates a buffer. -/
theorem hostOps1_6_fresh : (hostOps1_6 : List (HloOp τ sig (Elt F))).Forall fun op => op.fresh = ∅ := by
  simp only [List.Forall]; repeat' constructor
/-- The buffers hostOps1_6 writes. -/
def hostOps1_6_W : List (Ref sig .tc) := [main_c_30]
theorem hostOps1_6_writes : (hostOps1_6 : List (HloOp τ sig (Elt F))).Forall fun op =>
    op.writes ⊆ ((hostOps1_6_W).map (Proc.devRef (τ := τ) .tc)).toFinset :=
  wsub (by decide)
/-- A buffer hostOps1_6 does not write keeps its contents. -/
theorem hostOps1_6_keeps (V : Valuation τ sig (Elt F)) (r : Ref sig .tc) (hr : r ∉ hostOps1_6_W) :
    after hostOps1_6 V (Proc.devRef .tc r) = V (Proc.devRef .tc r) :=
  StableHlo.after_of_writes_sub hostOps1_6 V hostOps1_6_writes hr
theorem hostOps1_6_args : ∀ r ∈ argRefs, r ∉ hostOps1_6_W := by decide

/-- No operation of hostOps1_7 allocates a buffer. -/
theorem hostOps1_7_fresh : (hostOps1_7 : List (HloOp τ sig (Elt F))).Forall fun op => op.fresh = ∅ := by
  simp only [List.Forall]; repeat' constructor
/-- The buffers hostOps1_7 writes. -/
def hostOps1_7_W : List (Ref sig .tc) := [main_call7_v0, main_v113]
theorem hostOps1_7_writes : (hostOps1_7 : List (HloOp τ sig (Elt F))).Forall fun op =>
    op.writes ⊆ ((hostOps1_7_W).map (Proc.devRef (τ := τ) .tc)).toFinset :=
  ⟨wsub (by decide), wsub (by decide)⟩
/-- A buffer hostOps1_7 does not write keeps its contents. -/
theorem hostOps1_7_keeps (V : Valuation τ sig (Elt F)) (r : Ref sig .tc) (hr : r ∉ hostOps1_7_W) :
    after hostOps1_7 V (Proc.devRef .tc r) = V (Proc.devRef .tc r) :=
  StableHlo.after_of_writes_sub hostOps1_7 V hostOps1_7_writes hr
theorem hostOps1_7_args : ∀ r ∈ argRefs, r ∉ hostOps1_7_W := by decide

/-- No operation of hostOps1_8 allocates a buffer. -/
theorem hostOps1_8_fresh : (hostOps1_8 : List (HloOp τ sig (Elt F))).Forall fun op => op.fresh = ∅ := by
  simp only [List.Forall]; repeat' constructor
/-- The buffers hostOps1_8 writes. -/
def hostOps1_8_W : List (Ref sig .tc) := [main_c_31]
theorem hostOps1_8_writes : (hostOps1_8 : List (HloOp τ sig (Elt F))).Forall fun op =>
    op.writes ⊆ ((hostOps1_8_W).map (Proc.devRef (τ := τ) .tc)).toFinset :=
  wsub (by decide)
/-- A buffer hostOps1_8 does not write keeps its contents. -/
theorem hostOps1_8_keeps (V : Valuation τ sig (Elt F)) (r : Ref sig .tc) (hr : r ∉ hostOps1_8_W) :
    after hostOps1_8 V (Proc.devRef .tc r) = V (Proc.devRef .tc r) :=
  StableHlo.after_of_writes_sub hostOps1_8 V hostOps1_8_writes hr
theorem hostOps1_8_args : ∀ r ∈ argRefs, r ∉ hostOps1_8_W := by decide

/-- No operation of hostOps1_9 allocates a buffer. -/
theorem hostOps1_9_fresh : (hostOps1_9 : List (HloOp τ sig (Elt F))).Forall fun op => op.fresh = ∅ := by
  simp only [List.Forall]; repeat' constructor
/-- The buffers hostOps1_9 writes. -/
def hostOps1_9_W : List (Ref sig .tc) := [main_call8_v0, main_v114]
theorem hostOps1_9_writes : (hostOps1_9 : List (HloOp τ sig (Elt F))).Forall fun op =>
    op.writes ⊆ ((hostOps1_9_W).map (Proc.devRef (τ := τ) .tc)).toFinset :=
  ⟨wsub (by decide), wsub (by decide)⟩
/-- A buffer hostOps1_9 does not write keeps its contents. -/
theorem hostOps1_9_keeps (V : Valuation τ sig (Elt F)) (r : Ref sig .tc) (hr : r ∉ hostOps1_9_W) :
    after hostOps1_9 V (Proc.devRef .tc r) = V (Proc.devRef .tc r) :=
  StableHlo.after_of_writes_sub hostOps1_9 V hostOps1_9_writes hr
theorem hostOps1_9_args : ∀ r ∈ argRefs, r ∉ hostOps1_9_W := by decide

/-- No operation of hostOps1_10 allocates a buffer. -/
theorem hostOps1_10_fresh : (hostOps1_10 : List (HloOp τ sig (Elt F))).Forall fun op => op.fresh = ∅ := by
  simp only [List.Forall]; repeat' constructor
/-- The buffers hostOps1_10 writes. -/
def hostOps1_10_W : List (Ref sig .tc) := [main_c_32]
theorem hostOps1_10_writes : (hostOps1_10 : List (HloOp τ sig (Elt F))).Forall fun op =>
    op.writes ⊆ ((hostOps1_10_W).map (Proc.devRef (τ := τ) .tc)).toFinset :=
  wsub (by decide)
/-- A buffer hostOps1_10 does not write keeps its contents. -/
theorem hostOps1_10_keeps (V : Valuation τ sig (Elt F)) (r : Ref sig .tc) (hr : r ∉ hostOps1_10_W) :
    after hostOps1_10 V (Proc.devRef .tc r) = V (Proc.devRef .tc r) :=
  StableHlo.after_of_writes_sub hostOps1_10 V hostOps1_10_writes hr
theorem hostOps1_10_args : ∀ r ∈ argRefs, r ∉ hostOps1_10_W := by decide

/-- No operation of hostOps1_11 allocates a buffer. -/
theorem hostOps1_11_fresh : (hostOps1_11 : List (HloOp τ sig (Elt F))).Forall fun op => op.fresh = ∅ := by
  simp only [List.Forall]; repeat' constructor
/-- The buffers hostOps1_11 writes. -/
def hostOps1_11_W : List (Ref sig .tc) := [main_call9_v0, main_v115]
theorem hostOps1_11_writes : (hostOps1_11 : List (HloOp τ sig (Elt F))).Forall fun op =>
    op.writes ⊆ ((hostOps1_11_W).map (Proc.devRef (τ := τ) .tc)).toFinset :=
  ⟨wsub (by decide), wsub (by decide)⟩
/-- A buffer hostOps1_11 does not write keeps its contents. -/
theorem hostOps1_11_keeps (V : Valuation τ sig (Elt F)) (r : Ref sig .tc) (hr : r ∉ hostOps1_11_W) :
    after hostOps1_11 V (Proc.devRef .tc r) = V (Proc.devRef .tc r) :=
  StableHlo.after_of_writes_sub hostOps1_11 V hostOps1_11_writes hr
theorem hostOps1_11_args : ∀ r ∈ argRefs, r ∉ hostOps1_11_W := by decide

/-- No operation of hostOps1_12 allocates a buffer. -/
theorem hostOps1_12_fresh : (hostOps1_12 : List (HloOp τ sig (Elt F))).Forall fun op => op.fresh = ∅ := by
  simp only [List.Forall]; repeat' constructor
/-- The buffers hostOps1_12 writes. -/
def hostOps1_12_W : List (Ref sig .tc) := [main_c_33]
theorem hostOps1_12_writes : (hostOps1_12 : List (HloOp τ sig (Elt F))).Forall fun op =>
    op.writes ⊆ ((hostOps1_12_W).map (Proc.devRef (τ := τ) .tc)).toFinset :=
  wsub (by decide)
/-- A buffer hostOps1_12 does not write keeps its contents. -/
theorem hostOps1_12_keeps (V : Valuation τ sig (Elt F)) (r : Ref sig .tc) (hr : r ∉ hostOps1_12_W) :
    after hostOps1_12 V (Proc.devRef .tc r) = V (Proc.devRef .tc r) :=
  StableHlo.after_of_writes_sub hostOps1_12 V hostOps1_12_writes hr
theorem hostOps1_12_args : ∀ r ∈ argRefs, r ∉ hostOps1_12_W := by decide

/-- No operation of hostOps1_13 allocates a buffer. -/
theorem hostOps1_13_fresh : (hostOps1_13 : List (HloOp τ sig (Elt F))).Forall fun op => op.fresh = ∅ := by
  simp only [List.Forall]; repeat' constructor
/-- The buffers hostOps1_13 writes. -/
def hostOps1_13_W : List (Ref sig .tc) := [main_call10_v0, main_v116]
theorem hostOps1_13_writes : (hostOps1_13 : List (HloOp τ sig (Elt F))).Forall fun op =>
    op.writes ⊆ ((hostOps1_13_W).map (Proc.devRef (τ := τ) .tc)).toFinset :=
  ⟨wsub (by decide), wsub (by decide)⟩
/-- A buffer hostOps1_13 does not write keeps its contents. -/
theorem hostOps1_13_keeps (V : Valuation τ sig (Elt F)) (r : Ref sig .tc) (hr : r ∉ hostOps1_13_W) :
    after hostOps1_13 V (Proc.devRef .tc r) = V (Proc.devRef .tc r) :=
  StableHlo.after_of_writes_sub hostOps1_13 V hostOps1_13_writes hr
theorem hostOps1_13_args : ∀ r ∈ argRefs, r ∉ hostOps1_13_W := by decide

/-- No operation of hostOps1_14 allocates a buffer. -/
theorem hostOps1_14_fresh : (hostOps1_14 : List (HloOp τ sig (Elt F))).Forall fun op => op.fresh = ∅ := by
  simp only [List.Forall]; repeat' constructor
/-- The buffers hostOps1_14 writes. -/
def hostOps1_14_W : List (Ref sig .tc) := [main_c_34]
theorem hostOps1_14_writes : (hostOps1_14 : List (HloOp τ sig (Elt F))).Forall fun op =>
    op.writes ⊆ ((hostOps1_14_W).map (Proc.devRef (τ := τ) .tc)).toFinset :=
  wsub (by decide)
/-- A buffer hostOps1_14 does not write keeps its contents. -/
theorem hostOps1_14_keeps (V : Valuation τ sig (Elt F)) (r : Ref sig .tc) (hr : r ∉ hostOps1_14_W) :
    after hostOps1_14 V (Proc.devRef .tc r) = V (Proc.devRef .tc r) :=
  StableHlo.after_of_writes_sub hostOps1_14 V hostOps1_14_writes hr
theorem hostOps1_14_args : ∀ r ∈ argRefs, r ∉ hostOps1_14_W := by decide

/-- No operation of hostOps1_15 allocates a buffer. -/
theorem hostOps1_15_fresh : (hostOps1_15 : List (HloOp τ sig (Elt F))).Forall fun op => op.fresh = ∅ := by
  simp only [List.Forall]; repeat' constructor
/-- The buffers hostOps1_15 writes. -/
def hostOps1_15_W : List (Ref sig .tc) := [main_call11_v0, main_v117]
theorem hostOps1_15_writes : (hostOps1_15 : List (HloOp τ sig (Elt F))).Forall fun op =>
    op.writes ⊆ ((hostOps1_15_W).map (Proc.devRef (τ := τ) .tc)).toFinset :=
  ⟨wsub (by decide), wsub (by decide)⟩
/-- A buffer hostOps1_15 does not write keeps its contents. -/
theorem hostOps1_15_keeps (V : Valuation τ sig (Elt F)) (r : Ref sig .tc) (hr : r ∉ hostOps1_15_W) :
    after hostOps1_15 V (Proc.devRef .tc r) = V (Proc.devRef .tc r) :=
  StableHlo.after_of_writes_sub hostOps1_15 V hostOps1_15_writes hr
theorem hostOps1_15_args : ∀ r ∈ argRefs, r ∉ hostOps1_15_W := by decide

/-- No operation of hostOps1_16 allocates a buffer. -/
theorem hostOps1_16_fresh : (hostOps1_16 : List (HloOp τ sig (Elt F))).Forall fun op => op.fresh = ∅ := by
  simp only [List.Forall]; repeat' constructor
/-- The buffers hostOps1_16 writes. -/
def hostOps1_16_W : List (Ref sig .tc) := [main_v118, main_v119, main_v120, main_v121, main_v122, main_v123, main_v124, main_v125]
theorem hostOps1_16_writes : (hostOps1_16 : List (HloOp τ sig (Elt F))).Forall fun op =>
    op.writes ⊆ ((hostOps1_16_W).map (Proc.devRef (τ := τ) .tc)).toFinset :=
  ⟨wsub (by decide), wsub (by decide), wsub (by decide), wsub (by decide), wsub (by decide), wsub (by decide), wsub (by decide), wsub (by decide)⟩
/-- A buffer hostOps1_16 does not write keeps its contents. -/
theorem hostOps1_16_keeps (V : Valuation τ sig (Elt F)) (r : Ref sig .tc) (hr : r ∉ hostOps1_16_W) :
    after hostOps1_16 V (Proc.devRef .tc r) = V (Proc.devRef .tc r) :=
  StableHlo.after_of_writes_sub hostOps1_16 V hostOps1_16_writes hr
theorem hostOps1_16_args : ∀ r ∈ argRefs, r ∉ hostOps1_16_W := by decide

/-- No operation of hostOps2 allocates a buffer. -/
theorem hostOps2_fresh : (hostOps2 : List (HloOp τ sig (Elt F))).Forall fun op => op.fresh = ∅ := by
  simp only [List.Forall]; repeat' constructor
/-- The buffers hostOps2 writes. -/
def hostOps2_W : List (Ref sig .tc) := [main_v127]
theorem hostOps2_writes : (hostOps2 : List (HloOp τ sig (Elt F))).Forall fun op =>
    op.writes ⊆ ((hostOps2_W).map (Proc.devRef (τ := τ) .tc)).toFinset :=
  wsub (by decide)
/-- A buffer hostOps2 does not write keeps its contents. -/
theorem hostOps2_keeps (V : Valuation τ sig (Elt F)) (r : Ref sig .tc) (hr : r ∉ hostOps2_W) :
    after hostOps2 V (Proc.devRef .tc r) = V (Proc.devRef .tc r) :=
  StableHlo.after_of_writes_sub hostOps2 V hostOps2_writes hr
theorem hostOps2_args : ∀ r ∈ argRefs, r ∉ hostOps2_W := by decide

end Cert.KernelIdeal.Hand

end
-- ==== Proof.KI.R0Runs.lean ====
/- Region 0 of the idealized kernel program (the first layer's pallas_call, grid (2, 15), point t = 15·n + k):
   what the three control cases of its body share. Everything is stated at a parameter `V`, the TensorCore's
   buffer contents when the region is entered. Here: each window's block at a point read off `V`; the fact
   that an input's staging buffer holds its block at every point, fetched there or not (the three parameter
   rows are fetched only at k = 0 and their block index does not move in between); the two branch conditions
   of the body in closed form over t % 15 (k = 0: the accumulator is zeroed; k = 14: the output block is
   stored); where the output window is idle and where it is written back; the staging and scratch memrefs;
   and the region invariant with the accumulator split off the other scoped buffers (the second
   pallas_call's staging buffers, which ride along at anything). -/
import proofs.«146654_j5488968204426_2_alg».proof.Proof.Gen.KernelIdeal.Launch
import proofs.«146654_j5488968204426_2_alg».proof.Proof.Gen.KernelIdeal.Skeleton
import proofs.«146654_j5488968204426_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of these extents: the elaborator's structural look recurses once per coordinate
-- of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block
    index has not moved since the point before; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): unfetched, the block
    index has not moved since the point before; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): unfetched, the block
    index has not moved since the point before; the window is uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): unfetched, the block
    index has not moved since the point before; the window is uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof
    data whose array is `V`'s (`hA`) and whose body leaves the block in place (`hafter`): unfetched, the block
    index has not moved since the point before; the window is uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first `scf.if` (k = 0: zero the accumulator), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 15) — decided over the grid. -/
theorem hcond0_0 : ∀ t : Fin cfg0.N, cond0_0 (grid0.coords t) ↔ t.val % 15 = 0 :=
  (by decide +kernel : ∀ t : Fin grid0.N, cond0_0 (grid0.coords t) ↔ t.val % 15 = 0)

/-- The condition of the body's second `scf.if` (k = 14: normalise, activate and store the output block). -/
abbrev cond0_1 (i : grid0.Coords) : Prop := k0_cond2 i = 1#1
/-- It holds at the points ≡ 14 (mod 15) — decided over the grid. -/
theorem hcond0_1 : ∀ t : Fin cfg0.N, cond0_1 (grid0.coords t) ↔ t.val % 15 = 14 :=
  (by decide +kernel : ∀ t : Fin grid0.N, cond0_1 (grid0.coords t) ↔ t.val % 15 = 14)

/-! ## Where the windows are idle -/

/-- Window 0 is never idle (an input). -/
theorem liveAt0_0 : ∀ t : Fin cfg0.N, cfg0.idle 0 (grid0.coords t) = false := by decide +kernel
/-- Window 1 is never idle (an input). -/
theorem liveAt0_1 : ∀ t : Fin cfg0.N, cfg0.idle 1 (grid0.coords t) = false := by decide +kernel
/-- Window 2 is never idle (an input). -/
theorem liveAt0_2 : ∀ t : Fin cfg0.N, cfg0.idle 2 (grid0.coords t) = false := by decide +kernel
/-- Window 3 is never idle (an input). -/
theorem liveAt0_3 : ∀ t : Fin cfg0.N, cfg0.idle 3 (grid0.coords t) = false := by decide +kernel
/-- Window 4 is never idle (an input). -/
theorem liveAt0_4 : ∀ t : Fin cfg0.N, cfg0.idle 4 (grid0.coords t) = false := by decide +kernel
/-- At the points of case A (k = 0) the output window is idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write the output block back. -/
theorem noFlush0_5_A : ∀ t : Fin cfg0.N, cond0_0 (grid0.coords t) → ¬cond0_1 (grid0.coords t) → (cfg0.win 5).flush t = false := by decide +kernel
/-- At the points of case B (0 < k < 14) the output window is idle. -/
theorem idleAt0_5_B : ∀ t : Fin cfg0.N, ¬cond0_0 (grid0.coords t) → ¬cond0_1 (grid0.coords t) → cfg0.idle 5 (grid0.coords t) = true := by decide +kernel
/-- At the points of case B the pipeline does not write the output block back. -/
theorem noFlush0_5_B : ∀ t : Fin cfg0.N, ¬cond0_0 (grid0.coords t) → ¬cond0_1 (grid0.coords t) → (cfg0.win 5).flush t = false := by decide +kernel
/-- At the points of case C (k = 14) the output window is live: the case stores its whole block. -/
theorem liveAt0_5_C : ∀ t : Fin cfg0.N, ¬cond0_0 (grid0.coords t) → cond0_1 (grid0.coords t) → cfg0.idle 5 (grid0.coords t) = false := by decide +kernel

/-! ## The staging and scratch memrefs -/

/-- One staging buffer of the output window, through which its contents are stated (the choice does not matter). -/
abbrev VO0_5 : View sig .tc .vmem S512x384 .f32 := (Memref.whole cc0_stg5_0 : Memref sig .tc .vmem S512x384 .f32).view
/-- Each window's current staging memref at point `t`, spelled as the pipeline passes it, and its wholeness. -/
abbrev ms0_0 (t : Fin cfg0.N) : Memref sig .tc .vmem S512x8192 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x384 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x384 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x384 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x384 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x384 .f32 := win0_5.stage (cfg0.slots t 5)
abbrev hs0_5 (t : Fin cfg0.N) : (ms0_5 t).IsWhole := hstage0_5 ((cfg0.slots t 5).cast nbuf0_5)
/-- The scratch operand (the accumulator): a whole scoped buffer of the kernel's own, passed beside the windows. -/
abbrev scM0_0 : Memref sig .tc .vmem S512x384 .f32 := Memref.whole cc0_scratch0
/-- The accumulator as a view: what it holds between points is stated through it. -/
abbrev VS0_0 : View sig .tc .vmem S512x384 .f32 := scM0_0.view

/-- The core's other scoped buffers that are no staging buffer of this region — the second pallas_call's fourteen
    staging buffers —, each whole at some contents: the body never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg12_0), ((c : Thread nD τ).loc cc1_stg12_0) ↦{fullShare} f) ∗ (∃ f : Buf (Elt F) ((c : Thread nD τ).loc cc1_stg13_0), ((c : Thread nD τ).loc cc1_stg13_0) ↦{fullShare} f))

/-- The region invariant with the accumulator as a memref owned at some contents, the other scoped buffers beside
    it, and the generator register at some state: what the body obligation hands the run and takes back. -/
theorem PhiA0_eq (c : Dev nD) :
    (Pipeline.ΦA spec0 c : sProp 𝕄)
      = iprop(iprop((∃ d, owns (c : Thread nD τ) scM0_0 fullShare d) ∗ rest0 (F := F) c) ∗ (∃ r, prngReg c r)) := by
  unfold Pipeline.ΦA rest0; rw [scopedRest0_eq]; simp only [scM0_0, owns_whole]; try rfl

end Cert.KernelIdeal.Hand

end
-- ==== Proof.KI.R0RunA.lean ====
/- Region 0's kernel body run as a whole in control case A: k = 0. The accumulator, found at anything, is stored whole with zeros, read back, and stored again with the zeros plus the product of the x block and the weight block; the output block is not touched. -/
import proofs.«146654_j5488968204426_2_alg».proof.Proof.KI.R0Runs

-- membership in a rectangle of these extents: the elaborator's structural look recurses once per coordinate
-- of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref (`L5`) and in the accumulator (`LS0`), as pieces
    (last first) in case A, WITH the proof that on whole staging memrefs — the five inputs' at their contents
    `x0` … `x4`, the output's (idle in this case) at contents `xi5` handed back untouched, the accumulator
    at anything — the body runs to the continuation holding the inputs' as they were, the output's as it was
    and the accumulator with its pieces written. The printed function is its skeleton, which the symbolic
    executor runs, each `scf.if` decided by the case's hypotheses; the pieces are the witness that run finds. -/
noncomputable def kernelRun0_A (c : Dev nD) (i : grid0.Coords) (arg2 : Memref sig .tc .vmem S512x8192 .bf16) (harg2 : arg2.IsWhole) (arg3 : Memref sig .tc .vmem S8192x384 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S512x384 .f32) (harg7 : arg7.IsWhole) (arg8 : Memref sig .tc .vmem S512x384 .f32) (harg8 : arg8.IsWhole) (hc0 : cond0_0 i) (hc1 : ¬cond0_1 i)
    (x0 : Vec F S512x8192 .bf16) (x1 : Vec F S8192x384 .bf16) (x2 : Vec F S1x384 .f32) (x3 : Vec F S1x384 .f32) (x4 : Vec F S1x384 .f32) :
    Σ' (L5 : List (View.Piece (Elt F) S512x384 .f32)), { LS0 : List (View.Piece (Elt F) S512x384 .f32) //
      ∀ (xi5 : Vec F S512x384 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__layer1_kernel i arg2 harg2 arg3 harg3 arg4 harg4 arg5 harg5 arg6 harg6 arg7 harg7 arg8 harg8) K } := by
  refine ⟨[], ?_, fun xi5 E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KI.R0RunB.lean ====
/- Region 0's kernel body run as a whole in control case B: 0 < k < 14. The accumulator, at what the point before left, is read and stored again with the product of the x block and the weight block added; the output block is not touched. -/
import proofs.«146654_j5488968204426_2_alg».proof.Proof.KI.R0RunA

-- membership in a rectangle of these extents: the elaborator's structural look recurses once per coordinate
-- of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref (`L5`) and in the accumulator (`LS0`), as pieces
    (last first) in case B, WITH the proof that on whole staging memrefs — the five inputs' at their contents
    `x0` … `x4`, the output's (idle in this case) at contents `xi5` handed back untouched, the accumulator
    at the contents `xs0` the point before left — the body runs to the continuation holding the inputs' as they were, the output's as it was
    and the accumulator with its pieces written. The printed function is its skeleton, which the symbolic
    executor runs, each `scf.if` decided by the case's hypotheses; the pieces are the witness that run finds. -/
noncomputable def kernelRun0_B (c : Dev nD) (i : grid0.Coords) (arg2 : Memref sig .tc .vmem S512x8192 .bf16) (harg2 : arg2.IsWhole) (arg3 : Memref sig .tc .vmem S8192x384 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S512x384 .f32) (harg7 : arg7.IsWhole) (arg8 : Memref sig .tc .vmem S512x384 .f32) (harg8 : arg8.IsWhole) (hc0 : ¬cond0_0 i) (hc1 : ¬cond0_1 i)
    (x0 : Vec F S512x8192 .bf16) (x1 : Vec F S8192x384 .bf16) (x2 : Vec F S1x384 .f32) (x3 : Vec F S1x384 .f32) (x4 : Vec F S1x384 .f32) (xs0 : Vec F S512x384 .f32) :
    Σ' (L5 : List (View.Piece (Elt F) S512x384 .f32)), { LS0 : List (View.Piece (Elt F) S512x384 .f32) //
      ∀ (xi5 : Vec F S512x384 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0)) -∗ K ⟨⟩))
          ⊢ wp frame (wpE (defs₀ (F := F)) Variants.none c none) E (cc0__layer1_kernel i arg2 harg2 arg3 harg3 arg4 harg4 arg5 harg5 arg6 harg6 arg7 harg7 arg8 harg8) K } := by
  refine ⟨[], ?_, fun xi5 E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact HS0

end Cert.KernelIdeal.Hand

end
-- ==== Proof.KI.R0RunC.lean ====
/- Region 0's kernel body run as a whole in control case C: k = 14. The accumulator is updated as at the points before; then it is read with the three parameter rows, and the output block is stored whole: bias added, normalised over the rows, scaled, shifted and passed through x·σ(x). -/
import proofs.«146654_j5488968204426_2_alg».proof.Proof.KI.R0RunB

-- membership in a rectangle of these extents: the elaborator's structural look recurses once per coordinate
-- of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- What the body's stores leave in the output's staging memref (`L5`) and in the accumulator (`LS0`), as pieces
    (last first) in case C, WITH the proof that on whole staging memrefs — the five inputs' at their contents
    `x0` … `x4`, the output's at anything, the accumulator
    at the contents `xs0` the point before left — the body runs to the continuation holding the inputs' as they were, the output's with its pieces written
    and the accumulator with its pieces written. The printed function is its skeleton, which the symbolic
    executor runs, each `scf.if` decided by the case's hypotheses; the pieces are the witness that run finds. -/
noncomputable def kernelRun0_C (c : Dev nD) (i : grid0.Coords) (arg2 : Memref sig .tc .vmem S512x8192 .bf16) (harg2 : arg2.IsWhole) (arg3 : Memref sig .tc .vmem S8192x384 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S512x384 .f32) (harg7 : arg7.IsWhole) (arg8 : Memref sig .tc .vmem S512x384 .f32) (harg8 : arg8.IsWhole) (hc0 : ¬cond0_0 i) (hc1 : cond0_1 i)
    (x0 : Vec F S512x8192 .bf16) (x1 : Vec F S8192x384 .bf16) (x2 : Vec F S1x384 .f32) (x3 : Vec F S1x384 .f32) (x4 : Vec F S1x384 .f32) (xs0 : Vec F S512x384 .f32) :
    Σ' (L5 : List (View.Piece (Elt F) S512x384 .f32)), { LS0 : List (View.Piece (Elt F) S512x384 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0)) -∗ K ⟨⟩))
          ⊢ wp frame (wpE (defs₀ (F := F)) Variants.none c none) E (cc0__layer1_kernel i arg2 harg2 arg3 harg3 arg4 harg4 arg5 harg5 arg6 harg6 arg7 harg7 arg8 harg8) K } := by
  refine ⟨?_, ?_, fun E K => ?run⟩
  case run =>
    simp only [cc0__layer1_kernel_eq_skeleton]; unfold cc0__layer1_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS0

end Cert.KernelIdeal.Hand

end
-- ==== Proof.KI.R0Data.lean ====
/- Region 0's half of the frame proof of the idealized kernel program, at the entry contents `V`: what each control
   case leaves in the accumulator and in the output's staging buffer (the pieces the runs found, read back), the
   same point by point along the grid (`outsAt0`: the accumulation over the 15 column tiles of each of the two row
   blocks), the pipeline's proof data (`dat0`), the body obligation, and the two ends of the region invariant
   (`hin0`, `hout0`). -/
import proofs.«146654_j5488968204426_2_alg».proof.Proof.KI.R0RunC

-- membership in a rectangle of these extents: the elaborator's structural look recurses once per coordinate
-- of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Case A (k = 0) stores nothing into the output's staging buffer (the window is idle at its points and not
    written back there): no pieces — a placeholder that nothing consults, since at these points the window is
    neither written back nor read at the next point. -/
def out0_A_5 (c : Dev nD) (i : grid0.Coords) (arg2 : Memref sig .tc .vmem S512x8192 .bf16) (harg2 : arg2.IsWhole) (arg3 : Memref sig .tc .vmem S8192x384 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S512x384 .f32) (harg7 : arg7.IsWhole) (arg8 : Memref sig .tc .vmem S512x384 .f32) (harg8 : arg8.IsWhole) (hc0 : cond0_0 i) (hc1 : ¬cond0_1 i)
    (x0 : Vec F S512x8192 .bf16) (x1 : Vec F S8192x384 .bf16) (x2 : Vec F S1x384 .f32) (x3 : Vec F S1x384 .f32) (x4 : Vec F S1x384 .f32) : Vec F S512x384 .f32 :=
  VO0_5.read (Elt F) (VO0_5.writes (Elt F) VO0_5.junk (kernelRun0_A c i arg2 harg2 arg3 harg3 arg4 harg4 arg5 harg5 arg6 harg6 arg7 harg7 arg8 harg8 hc0 hc1 x0 x1 x2 x3 x4).1)

/-- Case A's stores into the accumulator are of the whole buffer, so its pieces cover it. -/
theorem scover0_A_0 (c : Dev nD) (i : grid0.Coords) (arg2 : Memref sig .tc .vmem S512x8192 .bf16) (harg2 : arg2.IsWhole) (arg3 : Memref sig .tc .vmem S8192x384 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S512x384 .f32) (harg7 : arg7.IsWhole) (arg8 : Memref sig .tc .vmem S512x384 .f32) (harg8 : arg8.IsWhole) (hc0 : cond0_0 i) (hc1 : ¬cond0_1 i)
    (x0 : Vec F S512x8192 .bf16) (x1 : Vec F S8192x384 .bf16) (x2 : Vec F S1x384 .f32) (x3 : Vec F S1x384 .f32) (x4 : Vec F S1x384 .f32) (y : S512x384.Idx) :
    ∃ pc ∈ (kernelRun0_A c i arg2 harg2 arg3 harg3 arg4 harg4 arg5 harg5 arg6 harg6 arg7 harg7 arg8 harg8 hc0 hc1 x0 x1 x2 x3 x4).2.1, y ∈ pc.1.set :=
  View.cover_of_tiledL (kernelRun0_A c i arg2 harg2 arg3 harg3 arg4 harg4 arg5 harg5 arg6 harg6 arg7 harg7 arg8 harg8 hc0 hc1 x0 x1 x2 x3 x4).2.1 S512x384.size (by sl_kernel_rfl) y

/-- What case A (k = 0) leaves in the accumulator: its pieces read back over junk. -/
def sout0_A_0 (c : Dev nD) (i : grid0.Coords) (arg2 : Memref sig .tc .vmem S512x8192 .bf16) (harg2 : arg2.IsWhole) (arg3 : Memref sig .tc .vmem S8192x384 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S512x384 .f32) (harg7 : arg7.IsWhole) (arg8 : Memref sig .tc .vmem S512x384 .f32) (harg8 : arg8.IsWhole) (hc0 : cond0_0 i) (hc1 : ¬cond0_1 i)
    (x0 : Vec F S512x8192 .bf16) (x1 : Vec F S8192x384 .bf16) (x2 : Vec F S1x384 .f32) (x3 : Vec F S1x384 .f32) (x4 : Vec F S1x384 .f32) : Vec F S512x384 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2 x3 x4).2.1)

/-- Case B (0 < k < 14) stores nothing into the output's staging buffer (the window is idle at its points and not
    written back there): no pieces — a placeholder that nothing consults, since at these points the window is
    neither written back nor read at the next point. -/
def out0_B_5 (c : Dev nD) (i : grid0.Coords) (arg2 : Memref sig .tc .vmem S512x8192 .bf16) (harg2 : arg2.IsWhole) (arg3 : Memref sig .tc .vmem S8192x384 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S512x384 .f32) (harg7 : arg7.IsWhole) (arg8 : Memref sig .tc .vmem S512x384 .f32) (harg8 : arg8.IsWhole) (hc0 : ¬cond0_0 i) (hc1 : ¬cond0_1 i)
    (x0 : Vec F S512x8192 .bf16) (x1 : Vec F S8192x384 .bf16) (x2 : Vec F S1x384 .f32) (x3 : Vec F S1x384 .f32) (x4 : Vec F S1x384 .f32) (xs0 : Vec F S512x384 .f32) : Vec F S512x384 .f32 :=
  VO0_5.read (Elt F) (VO0_5.writes (Elt F) VO0_5.junk (kernelRun0_B c i arg2 harg2 arg3 harg3 arg4 harg4 arg5 harg5 arg6 harg6 arg7 harg7 arg8 harg8 hc0 hc1 x0 x1 x2 x3 x4 xs0).1)

/-- Case B's stores into the accumulator are of the whole buffer, so its pieces cover it. -/
theorem scover0_B_0 (c : Dev nD) (i : grid0.Coords) (arg2 : Memref sig .tc .vmem S512x8192 .bf16) (harg2 : arg2.IsWhole) (arg3 : Memref sig .tc .vmem S8192x384 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S512x384 .f32) (harg7 : arg7.IsWhole) (arg8 : Memref sig .tc .vmem S512x384 .f32) (harg8 : arg8.IsWhole) (hc0 : ¬cond0_0 i) (hc1 : ¬cond0_1 i)
    (x0 : Vec F S512x8192 .bf16) (x1 : Vec F S8192x384 .bf16) (x2 : Vec F S1x384 .f32) (x3 : Vec F S1x384 .f32) (x4 : Vec F S1x384 .f32) (xs0 : Vec F S512x384 .f32) (y : S512x384.Idx) :
    ∃ pc ∈ (kernelRun0_B c i arg2 harg2 arg3 harg3 arg4 harg4 arg5 harg5 arg6 harg6 arg7 harg7 arg8 harg8 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 hc0 hc1 x0 x1 x2 x3 x4 xs0).2.1 S512x384.size (by sl_kernel_rfl) y

/-- What case B (0 < k < 14) leaves in the accumulator: its pieces read back over junk. -/
def sout0_B_0 (c : Dev nD) (i : grid0.Coords) (arg2 : Memref sig .tc .vmem S512x8192 .bf16) (harg2 : arg2.IsWhole) (arg3 : Memref sig .tc .vmem S8192x384 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S512x384 .f32) (harg7 : arg7.IsWhole) (arg8 : Memref sig .tc .vmem S512x384 .f32) (harg8 : arg8.IsWhole) (hc0 : ¬cond0_0 i) (hc1 : ¬cond0_1 i)
    (x0 : Vec F S512x8192 .bf16) (x1 : Vec F S8192x384 .bf16) (x2 : Vec F S1x384 .f32) (x3 : Vec F S1x384 .f32) (x4 : Vec F S1x384 .f32) (xs0 : Vec F S512x384 .f32) : Vec F S512x384 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 x3 x4 xs0).2.1)

/-- Case C's one store into the output's staging buffer is of the whole block, so its pieces cover it. -/
theorem cover0_C_5 (c : Dev nD) (i : grid0.Coords) (arg2 : Memref sig .tc .vmem S512x8192 .bf16) (harg2 : arg2.IsWhole) (arg3 : Memref sig .tc .vmem S8192x384 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S512x384 .f32) (harg7 : arg7.IsWhole) (arg8 : Memref sig .tc .vmem S512x384 .f32) (harg8 : arg8.IsWhole) (hc0 : ¬cond0_0 i) (hc1 : cond0_1 i)
    (x0 : Vec F S512x8192 .bf16) (x1 : Vec F S8192x384 .bf16) (x2 : Vec F S1x384 .f32) (x3 : Vec F S1x384 .f32) (x4 : Vec F S1x384 .f32) (xs0 : Vec F S512x384 .f32) (y : S512x384.Idx) :
    ∃ pc ∈ (kernelRun0_C c i arg2 harg2 arg3 harg3 arg4 harg4 arg5 harg5 arg6 harg6 arg7 harg7 arg8 harg8 hc0 hc1 x0 x1 x2 x3 x4 xs0).1, y ∈ pc.1.set :=
  View.cover_of_tiledL (kernelRun0_C c i arg2 harg2 arg3 harg3 arg4 harg4 arg5 harg5 arg6 harg6 arg7 harg7 arg8 harg8 hc0 hc1 x0 x1 x2 x3 x4 xs0).1 S512x384.size (by sl_kernel_rfl) y

/-- What case C (k = 14) leaves in the output's staging buffer: its pieces read back over junk. -/
def out0_C_5 (c : Dev nD) (i : grid0.Coords) (arg2 : Memref sig .tc .vmem S512x8192 .bf16) (harg2 : arg2.IsWhole) (arg3 : Memref sig .tc .vmem S8192x384 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S512x384 .f32) (harg7 : arg7.IsWhole) (arg8 : Memref sig .tc .vmem S512x384 .f32) (harg8 : arg8.IsWhole) (hc0 : ¬cond0_0 i) (hc1 : cond0_1 i)
    (x0 : Vec F S512x8192 .bf16) (x1 : Vec F S8192x384 .bf16) (x2 : Vec F S1x384 .f32) (x3 : Vec F S1x384 .f32) (x4 : Vec F S1x384 .f32) (xs0 : Vec F S512x384 .f32) : Vec F S512x384 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs0).1)

/-- Case C's stores into the accumulator are of the whole buffer, so its pieces cover it. -/
theorem scover0_C_0 (c : Dev nD) (i : grid0.Coords) (arg2 : Memref sig .tc .vmem S512x8192 .bf16) (harg2 : arg2.IsWhole) (arg3 : Memref sig .tc .vmem S8192x384 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S512x384 .f32) (harg7 : arg7.IsWhole) (arg8 : Memref sig .tc .vmem S512x384 .f32) (harg8 : arg8.IsWhole) (hc0 : ¬cond0_0 i) (hc1 : cond0_1 i)
    (x0 : Vec F S512x8192 .bf16) (x1 : Vec F S8192x384 .bf16) (x2 : Vec F S1x384 .f32) (x3 : Vec F S1x384 .f32) (x4 : Vec F S1x384 .f32) (xs0 : Vec F S512x384 .f32) (y : S512x384.Idx) :
    ∃ pc ∈ (kernelRun0_C c i arg2 harg2 arg3 harg3 arg4 harg4 arg5 harg5 arg6 harg6 arg7 harg7 arg8 harg8 hc0 hc1 x0 x1 x2 x3 x4 xs0).2.1, y ∈ pc.1.set :=
  View.cover_of_tiledL (kernelRun0_C c i arg2 harg2 arg3 harg3 arg4 harg4 arg5 harg5 arg6 harg6 arg7 harg7 arg8 harg8 hc0 hc1 x0 x1 x2 x3 x4 xs0).2.1 S512x384.size (by sl_kernel_rfl) y

/-- What case C (k = 14) leaves in the accumulator: its pieces read back over junk. -/
def sout0_C_0 (c : Dev nD) (i : grid0.Coords) (arg2 : Memref sig .tc .vmem S512x8192 .bf16) (harg2 : arg2.IsWhole) (arg3 : Memref sig .tc .vmem S8192x384 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S512x384 .f32) (harg7 : arg7.IsWhole) (arg8 : Memref sig .tc .vmem S512x384 .f32) (harg8 : arg8.IsWhole) (hc0 : ¬cond0_0 i) (hc1 : cond0_1 i)
    (x0 : Vec F S512x8192 .bf16) (x1 : Vec F S8192x384 .bf16) (x2 : Vec F S1x384 .f32) (x3 : Vec F S1x384 .f32) (x4 : Vec F S1x384 .f32) (xs0 : Vec F S512x384 .f32) : Vec F S512x384 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 x3 x4 xs0).2.1)

/-! ## What the output's buffer and the accumulator hold after each point -/

/-- THE ACCUMULATION. What the output's staging buffer and the accumulator hold after the body at position `n` (a pair:
    the output window's buffer, then the accumulator): the case the closed forms select at `n`, run at the point's
    memrefs and input blocks, the accumulator found at what this leaves at `n - 1`. An assignment of the
    conditions no point meets (k = 0 and k = 14 at once) is no case. -/
def outsAt0 (c : Dev nD) : (n : ℕ) → n < cfg0.N → Vec F S512x384 .f32 × Vec F S512x384 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    if h0 : (n + 1) % 15 = 0 then
      if h1 : (n + 1) % 15 = 14 then
        False.elim (by have hN : n + 1 < 30 := lt_of_lt_of_eq hn (show cfg0.N = 30 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩))
    else
      if h1 : (n + 1) % 15 = 14 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (outsAt0 c n (Nat.lt_of_succ_lt hn)).2)

/-- `outsAt0` at a point of case A (k = 0): that case's contents. -/
theorem outsAt0_A (c : Dev nD) (t : Fin cfg0.N) (h0 : t.val % 15 = 0) (h1 : ¬t.val % 15 = 14) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => exact rfl
  | succ n => exact (dif_pos h0).trans ((dif_neg h1).trans rfl)

/-- `outsAt0` at a point of case B (0 < k < 14): that case's contents, over what the point before left. -/
theorem outsAt0_B (c : Dev nD) (t : Fin cfg0.N) (h0 : ¬t.val % 15 = 0) (h1 : ¬t.val % 15 = 14) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C (k = 14): that case's contents, over what the point before left. -/
theorem outsAt0_C (c : Dev nD) (t : Fin cfg0.N) (h0 : ¬t.val % 15 = 0) (h1 : t.val % 15 = 14) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`, the accumulator being CARRIED between points: before the first point
    the class's (every scoped buffer that is no staging buffer at anything); afterwards the accumulator at what the
    point before left in it (`outsAt0`'s second component), the other scoped buffers at anything, and the generator
    register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the accumulator at that point's contents. -/
theorem PhiS_succ (c : Dev nD) (n : ℕ) (hn : n < cfg0.N) :
    PhiS V c (n + 1) hn = iprop(iprop(owns (c : Thread nD τ) scM0_0 fullShare ((outsAt0 V c n hn).2) ∗ rest0 (F := F) c) ∗ (∃ r, prngReg c r)) := rfl

/-- Before a point that is not the first: the accumulator at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The pipeline's proof data -/

/-- The proof data of region 0's pipeline on core `c`: the arrays as the region finds them (`V`); after the body at
    point `t` each input's buffer at its block and the output's at `outsAt0`'s first component; the invariant
    `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

/-- The proof data's arrays are the region-entry contents: the definition projected, so that `V` is never unfolded. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' memrefs hold their blocks (`before0_W`); the closed forms say which case the
    point is in; so that case's run applies. The invariant hands the body the accumulator at what the point before
    left (at anything at the first point, and at a later point with k = 0 the named contents are forgotten), the
    other scoped buffers and the generator register, and takes the accumulator back at this point's contents; the
    output's buffer is handed back untouched where the window is idle; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  have hN : t.val < 30 := lt_of_lt_of_eq t.isLt (show cfg0.N = 30 from N_0)
  by_cases h0 : t.val % 15 = 0
  · by_cases h1 : t.val % 15 = 14
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5_A t ((hcond0_0 t).mpr h0) (fun h => h1 ((hcond0_1 t).mp h))) (noFlush0_5_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 15 = 14
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5_C t (fun h => h0 ((hcond0_0 t).mp h)) ((hcond0_1 t).mpr h1)], after0_5]
      rw [outsAt0_C V c t h0 h1]
      unfold out0_C_5 sout0_C_0; (try dsimp only)
      by_cases hz : t.val = 0
      · exfalso; omega
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        iintro ⟨H0, H1, H2, H3, H4, ⟨%e5, H5⟩, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [Dat.leavesExact_idle (dat0 V c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [outsAt0_B V c t h0 h1]
      unfold sout0_B_0; (try dsimp only)
      by_cases hz : t.val = 0
      · exfalso; omega
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        iintro ⟨H0, H1, H2, H3, H4, H5, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        isplitl [H4]; · iexact H4
        iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (`ΦA`) is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives `ΦA` back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hrest⟩, Hg⟩
  isplitl [HS0 Hrest]
  · isplitl [HS0]
    · iexists _; iexact HS0
    iexact Hrest
  iexact Hg

/-- The same after the last point. -/
theorem hout0 (c : Dev nD) : (dat0 V c).Φ (Fin.last cfg0.N) ⊢ Pipeline.ΦA spec0 c :=
  Phi_out0 V c _ (by rw [Fin.val_last]; have : cfg0.N = 30 := N_0; omega)

end Cert.KernelIdeal.Hand

end
-- ==== Proof.KI.R1.lean ====
/- Region 1's half of KernelIdeal's frame: the fused tail kernel (layers 2–5 of the network) run once, on whole
   staging buffers. Stated at a parameter `V` — the TensorCore's buffer contents when the region is entered —:
   each window's block at the grid's one point, what the body's one store leaves in the output window's buffer
   as a function of the thirteen input blocks, the body's triple, the pipeline's proof data and its body
   obligation. Generic in the float instance. -/
import proofs.«146654_j5488968204426_2_alg».proof.Proof.Gen.KernelIdeal.Launch
import proofs.«146654_j5488968204426_2_alg».proof.Proof.Gen.KernelIdeal.Skeleton
import proofs.«146654_j5488968204426_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of full extents (`View.cover_of_tiled`): the elaborator's structural look
-- recurses once per coordinate of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this half is stated at
variable (V : (c : Dev nD) → (b : Ref sig .tc) → Buf (Elt F) ((c : Thread nD τ).loc b))

/-! # Region 1 of @main: the fused tail kernel (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): an unfetched window's index
    has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): an unfetched window's index
    has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): an unfetched window's index
    has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s (`hA`) and whose body leaves the block in place (`hafter`): an unfetched window's index
    has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s (`hA`) and whose body leaves the block in place (`hafter`): an unfetched window's index
    has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof
    data whose array is `V`'s (`hA`) and whose body leaves the block in place (`hafter`): an unfetched window's index
    has not moved; the window is uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for any proof
    data whose array is `V`'s (`hA`) and whose body leaves the block in place (`hafter`): an unfetched window's index
    has not moved; the window is uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for any proof
    data whose array is `V`'s (`hA`) and whose body leaves the block in place (`hafter`): an unfetched window's index
    has not moved; the window is uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for any proof
    data whose array is `V`'s (`hA`) and whose body leaves the block in place (`hafter`): an unfetched window's index
    has not moved; the window is uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not, for any proof
    data whose array is `V`'s (`hA`) and whose body leaves the block in place (`hafter`): an unfetched window's index
    has not moved; the window is uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- Input window 10's current staging buffer holds its block at every point, fetched there or not, for any proof
    data whose array is `V`'s (`hA`) and whose body leaves the block in place (`hafter`): an unfetched window's index
    has not moved; the window is uncut and never idle. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- Input window 11's current staging buffer holds its block at every point, fetched there or not, for any proof
    data whose array is `V`'s (`hA`) and whose body leaves the block in place (`hafter`): an unfetched window's index
    has not moved; the window is uncut and never idle. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
/-- Input window 12's current staging buffer holds its block at every point, fetched there or not, for any proof
    data whose array is `V`'s (`hA`) and whose body leaves the block in place (`hafter`): an unfetched window's index
    has not moved; the window is uncut and never idle. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each window's staging buffer is read, or written, whole -/

abbrev r1_0 : Rect S512x768 := Rect.unit (s := S512x768) ![0, 0] S512x768.size inb_S512x768_S512x768_0_0
abbrev r1_1 : Rect S768x768 := Rect.unit (s := S768x768) ![0, 0] S768x768.size inb_S768x768_S768x768_0_0
abbrev r1_2 : Rect S1x768 := Rect.unit (s := S1x768) ![0, 0] S1x768.size inb_S1x768_S1x768_0_0
abbrev r1_3 : Rect S768x384 := Rect.unit (s := S768x384) ![0, 0] S768x384.size inb_S768x384_S768x384_0_0
abbrev r1_4 : Rect S1x384 := Rect.unit (s := S1x384) ![0, 0] S1x384.size inb_S1x384_S1x384_0_0
abbrev r1_5 : Rect S1x384 := Rect.unit (s := S1x384) ![0, 0] S1x384.size inb_S1x384_S1x384_0_0
abbrev r1_6 : Rect S1x384 := Rect.unit (s := S1x384) ![0, 0] S1x384.size inb_S1x384_S1x384_0_0
abbrev r1_7 : Rect S384x256 := Rect.unit (s := S384x256) ![0, 0] S384x256.size inb_S384x256_S384x256_0_0
abbrev r1_8 : Rect S1x256 := Rect.unit (s := S1x256) ![0, 0] S1x256.size inb_S1x256_S1x256_0_0
abbrev r1_9 : Rect S1x256 := Rect.unit (s := S1x256) ![0, 0] S1x256.size inb_S1x256_S1x256_0_0
abbrev r1_10 : Rect S1x256 := Rect.unit (s := S1x256) ![0, 0] S1x256.size inb_S1x256_S1x256_0_0
abbrev r1_11 : Rect S256x256 := Rect.unit (s := S256x256) ![0, 0] S256x256.size inb_S256x256_S256x256_0_0
abbrev r1_12 : Rect S1x256 := Rect.unit (s := S1x256) ![0, 0] S1x256.size inb_S1x256_S1x256_0_0
abbrev r1_13 : Rect S512x256 := Rect.unit (s := S512x256) ![0, 0] S512x256.size inb_S512x256_S512x256_0_0

/-! ## What the body leaves in the output window's buffer -/

/-- Window 13's staging buffer after the body, from the input windows' blocks: its one store as a piece — the last
    layer's affine map of the fifth activation, itself the payload chain of layers 2 to 4 over the loaded blocks. -/
def out1_13 (x0 : Vec F S512x768 .bf16) (x1 : Vec F S768x768 .bf16) (x2 : Vec F S1x768 .f32) (x3 : Vec F S768x384 .bf16) (x4 : Vec F S1x384 .f32) (x5 : Vec F S1x384 .f32) (x6 : Vec F S1x384 .f32) (x7 : Vec F S384x256 .bf16) (x8 : Vec F S1x256 .f32) (x9 : Vec F S1x256 .f32) (x10 : Vec F S1x256 .f32) (x11 : Vec F S256x256 .bf16) (x12 : Vec F S1x256 .f32) : Vec F S512x256 .f32 :=
  View.canon [⟨r1_13, k1_pay1 (k1_pay3 (k1_pay2 (View.ld x0 r1_0) (View.ld x1 r1_1) (View.ld x2 r1_2) (View.ld x3 r1_3) (View.ld x4 r1_4) (View.ld x5 r1_5)) (View.ld x6 r1_6) (View.ld x7 r1_7) (View.ld x8 r1_8) (View.ld x9 r1_9) (View.ld x10 r1_10)) (k1_pay4 (View.ld x11 r1_11)) (View.ld x12 r1_12)⟩]

/-- The one store is of the whole buffer (checked by evaluation), so it covers it. -/
theorem cover1_13 (p0 : Vec F S512x256 .f32) (y : S512x256.Idx) :
    ∃ pc ∈ ([⟨r1_13, p0⟩] : List (View.Piece (Elt F) S512x256 .f32)), y ∈ pc.1.set :=
  View.cover_of_tiled [⟨r1_13, p0⟩] S512x256.size (by rfl) y

/-! ## The body's triple -/

set_option maxHeartbeats 1000000 in
/-- The kernel body on whole staging memrefs, the inputs' at read contents `xW` and the output's at anything, runs to
    the continuation holding the inputs' as they were and the output's at `out1_13` of the inputs': the printed functions
    are their skeletons, which the symbolic executor runs, through both part calls. -/
theorem sound_kernel1 (c : Dev nD) (E : Set ℕ) (i : grid1.Coords) (arg1 : Memref sig .tc .vmem S512x768 .bf16) (harg1 : arg1.IsWhole) (arg2 : Memref sig .tc .vmem S768x768 .bf16) (harg2 : arg2.IsWhole) (arg3 : Memref sig .tc .vmem S1x768 .f32) (harg3 : arg3.IsWhole) (arg4 : Memref sig .tc .vmem S768x384 .bf16) (harg4 : arg4.IsWhole) (arg5 : Memref sig .tc .vmem S1x384 .f32) (harg5 : arg5.IsWhole) (arg6 : Memref sig .tc .vmem S1x384 .f32) (harg6 : arg6.IsWhole) (arg7 : Memref sig .tc .vmem S1x384 .f32) (harg7 : arg7.IsWhole) (arg8 : Memref sig .tc .vmem S384x256 .bf16) (harg8 : arg8.IsWhole) (arg9 : Memref sig .tc .vmem S1x256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S256x256 .bf16) (harg12 : arg12.IsWhole) (arg13 : Memref sig .tc .vmem S1x256 .f32) (harg13 : arg13.IsWhole) (arg14 : Memref sig .tc .vmem S512x256 .f32) (harg14 : arg14.IsWhole)
    (x0 : Vec F S512x768 .bf16) (x1 : Vec F S768x768 .bf16) (x2 : Vec F S1x768 .f32) (x3 : Vec F S768x384 .bf16) (x4 : Vec F S1x384 .f32) (x5 : Vec F S1x384 .f32) (x6 : Vec F S1x384 .f32) (x7 : Vec F S384x256 .bf16) (x8 : Vec F S1x256 .f32) (x9 : Vec F S1x256 .f32) (x10 : Vec F S1x256 .f32) (x11 : Vec F S256x256 .bf16) (x12 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out1_13 x0 x1 x2 x3 x4 x5 x6 x7 x8 x9 x10 x11 x12)) -∗ K ⟨⟩))
      ⊢ wp frame (wpE (defs₀ (F := F)) Variants.none c none) E (cc1__fused_tail_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__fused_tail_kernel_eq_skeleton]; unfold cc1__fused_tail_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover1_13 _)

/-! ## The pipeline's proof data -/

/-- The proof data of pipeline 1 on core `c`: the arrays as the region finds them (`V`); after the body at
    point `t` each input's buffer at its block and the output's at `out1_13` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t)
  Φ _ := Pipeline.ΦA spec1 c
  q _ := fullShare
  owed _ := 0

/-- The proof data's arrays are the region-entry contents (the proof data's definition projected, by `dsimp`). -/
theorem A_eq1 (c : Dev nD) (w : Fin cfg1.W) : (dat1 V c).A w = V c (Pipeline.arrRef spec1 w) := by
  dsimp only [dat1]

/-- What the body leaves, window by window (the proof data's `match` reduced by `dsimp`, never `rfl`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = out1_13 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel1 c Set.univ (grid1.coords t) _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  @main's run: the buffer contents at every boundary between its stretches of host operations and its two kernel
  regions, a fold from the launch memory (a stretch applies its operations; a region leaves each of its windows'
  arrays at what its write-backs leave and every other buffer as it found it); every weakly fair execution
  terminates with every unscoped buffer at the last boundary's contents; the argument arrays are written by
  nothing, so they end as launched.
-/
import proofs.«146654_j5488968204426_2_alg».proof.Proof.KI.Folds
import proofs.«146654_j5488968204426_2_alg».proof.Proof.KI.R0Data
import proofs.«146654_j5488968204426_2_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- A core's buffers at launch. -/
abbrev Wa0 : Dev nD → Valuation τ sig (Elt F) := fun c b => (s₀ m ρ).mem ((c : Dev nD), b)
abbrev Wa1 : Dev nD → Valuation τ sig (Elt F) := fun c => StableHlo.after hostOps0 (Wa0 m ρ c)
abbrev Wa2 : Dev nD → Valuation τ sig (Elt F) := fun c => StableHlo.after hostOps0_1 (Wa1 m ρ c)
abbrev Wa3 : Dev nD → Valuation τ sig (Elt F) := fun c => StableHlo.after hostOps0_2 (Wa2 m ρ c)
abbrev Wa4 : Dev nD → Valuation τ sig (Elt F) := fun c => StableHlo.after hostOps0_3 (Wa3 m ρ c)
abbrev Wa5 : Dev nD → Valuation τ sig (Elt F) := fun c => StableHlo.after hostOps0_4 (Wa4 m ρ c)
abbrev Wa6 : Dev nD → Valuation τ sig (Elt F) := fun c => StableHlo.after hostOps0_5 (Wa5 m ρ c)
abbrev Wa7 : Dev nD → Valuation τ sig (Elt F) := fun c => StableHlo.after hostOps0_6 (Wa6 m ρ c)
abbrev Wa8 : Dev nD → Valuation τ sig (Elt F) := fun c => StableHlo.after hostOps0_7 (Wa7 m ρ c)
abbrev Wa9 : Dev nD → Valuation τ sig (Elt F) := fun c => StableHlo.after hostOps0_8 (Wa8 m ρ c)
/-- Region 0's entry contents read at the TensorCore's references. -/
abbrev Va : (c : Dev nD) → (b : Ref sig .tc) → Buf (Elt F) ((c : Thread nD τ).loc b) := fun c b => Wa9 m ρ c b
/-- At region 0's exit: its arrays at what the pipeline leaves, every other buffer as entered. -/
def Wb0 (c : Dev nD) : Valuation τ sig (Elt F) :=
  Pipeline.withArrays spec0 c (Wa9 m ρ c) fun w => (dat0 (Va m ρ) c).arrAt w cfg0.N
theorem Wb0_arr (c : Dev nD) (w : Fin cfg0.W) :
    Wb0 m ρ c (Proc.devRef .tc (Pipeline.arrRef spec0 w)) = (dat0 (Va m ρ) c).arrAt w cfg0.N := by
  unfold Wb0; exact Pipeline.withArrays_arr spec0 launch0.win.arr_inj c _ _ w
theorem Wb0_of_ne (c : Dev nD) (b : Ref sig .tc) (hb : ∀ w, Pipeline.arrRef spec0 w ≠ b) :
    Wb0 m ρ c (Proc.devRef .tc b) = Wa9 m ρ c (Proc.devRef .tc b) := by
  unfold Wb0; exact Pipeline.withArrays_of_ne spec0 c _ _ b hb
abbrev Vb0 : (c : Dev nD) → (b : Ref sig .tc) → Buf (Elt F) ((c : Thread nD τ).loc b) := fun c b => Wb0 m ρ c b
theorem hF0 (c : Dev nD) (w : Fin cfg0.W) : (dat0 (Va m ρ) c).arrAt w cfg0.N = Vb0 m ρ c (Pipeline.arrRef spec0 w) :=
  (Wb0_arr m ρ c w).symm
theorem hrest0 (c : Dev nD) : ∀ b, b ∉ Finset.univ.image (Pipeline.arrRef spec0) → Vb0 m ρ c b = Va m ρ c b :=
  fun b hb => Wb0_of_ne m ρ c b fun w e => hb (Finset.mem_image.mpr ⟨w, Finset.mem_univ _, e⟩)
abbrev Wb1 : Dev nD → Valuation τ sig (Elt F) := fun c => StableHlo.after hostOps1 (Wb0 m ρ c)
abbrev Wb2 : Dev nD → Valuation τ sig (Elt F) := fun c => StableHlo.after hostOps1_1 (Wb1 m ρ c)
abbrev Wb3 : Dev nD → Valuation τ sig (Elt F) := fun c => StableHlo.after hostOps1_2 (Wb2 m ρ c)
abbrev Wb4 : Dev nD → Valuation τ sig (Elt F) := fun c => StableHlo.after hostOps1_3 (Wb3 m ρ c)
abbrev Wb5 : Dev nD → Valuation τ sig (Elt F) := fun c => StableHlo.after hostOps1_4 (Wb4 m ρ c)
abbrev Wb6 : Dev nD → Valuation τ sig (Elt F) := fun c => StableHlo.after hostOps1_5 (Wb5 m ρ c)
abbrev Wb7 : Dev nD → Valuation τ sig (Elt F) := fun c => StableHlo.after hostOps1_6 (Wb6 m ρ c)
abbrev Wb8 : Dev nD → Valuation τ sig (Elt F) := fun c => StableHlo.after hostOps1_7 (Wb7 m ρ c)
abbrev Wb9 : Dev nD → Valuation τ sig (Elt F) := fun c => StableHlo.after hostOps1_8 (Wb8 m ρ c)
abbrev Wb10 : Dev nD → Valuation τ sig (Elt F) := fun c => StableHlo.after hostOps1_9 (Wb9 m ρ c)
abbrev Wb11 : Dev nD → Valuation τ sig (Elt F) := fun c => StableHlo.after hostOps1_10 (Wb10 m ρ c)
abbrev Wb12 : Dev nD → Valuation τ sig (Elt F) := fun c => StableHlo.after hostOps1_11 (Wb11 m ρ c)
abbrev Wb13 : Dev nD → Valuation τ sig (Elt F) := fun c => StableHlo.after hostOps1_12 (Wb12 m ρ c)
abbrev Wb14 : Dev nD → Valuation τ sig (Elt F) := fun c => StableHlo.after hostOps1_13 (Wb13 m ρ c)
abbrev Wb15 : Dev nD → Valuation τ sig (Elt F) := fun c => StableHlo.after hostOps1_14 (Wb14 m ρ c)
abbrev Wb16 : Dev nD → Valuation τ sig (Elt F) := fun c => StableHlo.after hostOps1_15 (Wb15 m ρ c)
abbrev Wb17 : Dev nD → Valuation τ sig (Elt F) := fun c => StableHlo.after hostOps1_16 (Wb16 m ρ c)
/-- Region 1's entry contents read at the TensorCore's references. -/
abbrev Vb : (c : Dev nD) → (b : Ref sig .tc) → Buf (Elt F) ((c : Thread nD τ).loc b) := fun c b => Wb17 m ρ c b
/-- At region 1's exit. -/
def Wc0 (c : Dev nD) : Valuation τ sig (Elt F) :=
  Pipeline.withArrays spec1 c (Wb17 m ρ c) fun w => (dat1 (Vb m ρ) c).arrAt w cfg1.N
theorem Wc0_arr (c : Dev nD) (w : Fin cfg1.W) :
    Wc0 m ρ c (Proc.devRef .tc (Pipeline.arrRef spec1 w)) = (dat1 (Vb m ρ) c).arrAt w cfg1.N := by
  unfold Wc0; exact Pipeline.withArrays_arr spec1 launch1.win.arr_inj c _ _ w
theorem Wc0_of_ne (c : Dev nD) (b : Ref sig .tc) (hb : ∀ w, Pipeline.arrRef spec1 w ≠ b) :
    Wc0 m ρ c (Proc.devRef .tc b) = Wb17 m ρ c (Proc.devRef .tc b) := by
  unfold Wc0; exact Pipeline.withArrays_of_ne spec1 c _ _ b hb
abbrev Vc0 : (c : Dev nD) → (b : Ref sig .tc) → Buf (Elt F) ((c : Thread nD τ).loc b) := fun c b => Wc0 m ρ c b
theorem hF1 (c : Dev nD) (w : Fin cfg1.W) : (dat1 (Vb m ρ) c).arrAt w cfg1.N = Vc0 m ρ c (Pipeline.arrRef spec1 w) :=
  (Wc0_arr m ρ c w).symm
theorem hrest1 (c : Dev nD) : ∀ b, b ∉ Finset.univ.image (Pipeline.arrRef spec1) → Vc0 m ρ c b = Vb m ρ c b :=
  fun b hb => Wc0_of_ne m ρ c b fun w e => hb (Finset.mem_image.mpr ⟨w, Finset.mem_univ _, e⟩)
/-- After the last stretch: the contents @main returns with. -/
abbrev Wc1 : Dev nD → Valuation τ sig (Elt F) := fun c => StableHlo.after hostOps2 (Wc0 m ρ c)

/-! ## The arguments end as launched -/

/-- No window of either region stages an argument array. -/
theorem spec0_args : ∀ r ∈ argRefs, ∀ w, Pipeline.arrRef spec0 w ≠ r := by decide
theorem spec1_args : ∀ r ∈ argRefs, ∀ w, Pipeline.arrRef spec1 w ≠ r := by decide

/-- An argument array holds at the end what the launch memory held: no stretch writes it and no region stages it. -/
theorem Wc1_arg (c : Dev nD) (r : Ref sig .tc) (hr : r ∈ argRefs) :
    Wc1 m ρ c (Proc.devRef .tc r) = m ((c : Thread nD τ).loc r) := by
  rw [show Wc1 m ρ c (Proc.devRef .tc r) = Wc0 m ρ c (Proc.devRef .tc r) from hostOps2_keeps _ r (hostOps2_args r hr)]
  rw [Wc0_of_ne m ρ c r (spec1_args r hr)]
  rw [show Wb17 m ρ c (Proc.devRef .tc r) = Wb16 m ρ c (Proc.devRef .tc r) from hostOps1_16_keeps _ r (hostOps1_16_args r hr)]
  rw [show Wb16 m ρ c (Proc.devRef .tc r) = Wb15 m ρ c (Proc.devRef .tc r) from hostOps1_15_keeps _ r (hostOps1_15_args r hr)]
  rw [show Wb15 m ρ c (Proc.devRef .tc r) = Wb14 m ρ c (Proc.devRef .tc r) from hostOps1_14_keeps _ r (hostOps1_14_args r hr)]
  rw [show Wb14 m ρ c (Proc.devRef .tc r) = Wb13 m ρ c (Proc.devRef .tc r) from hostOps1_13_keeps _ r (hostOps1_13_args r hr)]
  rw [show Wb13 m ρ c (Proc.devRef .tc r) = Wb12 m ρ c (Proc.devRef .tc r) from hostOps1_12_keeps _ r (hostOps1_12_args r hr)]
  rw [show Wb12 m ρ c (Proc.devRef .tc r) = Wb11 m ρ c (Proc.devRef .tc r) from hostOps1_11_keeps _ r (hostOps1_11_args r hr)]
  rw [show Wb11 m ρ c (Proc.devRef .tc r) = Wb10 m ρ c (Proc.devRef .tc r) from hostOps1_10_keeps _ r (hostOps1_10_args r hr)]
  rw [show Wb10 m ρ c (Proc.devRef .tc r) = Wb9 m ρ c (Proc.devRef .tc r) from hostOps1_9_keeps _ r (hostOps1_9_args r hr)]
  rw [show Wb9 m ρ c (Proc.devRef .tc r) = Wb8 m ρ c (Proc.devRef .tc r) from hostOps1_8_keeps _ r (hostOps1_8_args r hr)]
  rw [show Wb8 m ρ c (Proc.devRef .tc r) = Wb7 m ρ c (Proc.devRef .tc r) from hostOps1_7_keeps _ r (hostOps1_7_args r hr)]
  rw [show Wb7 m ρ c (Proc.devRef .tc r) = Wb6 m ρ c (Proc.devRef .tc r) from hostOps1_6_keeps _ r (hostOps1_6_args r hr)]
  rw [show Wb6 m ρ c (Proc.devRef .tc r) = Wb5 m ρ c (Proc.devRef .tc r) from hostOps1_5_keeps _ r (hostOps1_5_args r hr)]
  rw [show Wb5 m ρ c (Proc.devRef .tc r) = Wb4 m ρ c (Proc.devRef .tc r) from hostOps1_4_keeps _ r (hostOps1_4_args r hr)]
  rw [show Wb4 m ρ c (Proc.devRef .tc r) = Wb3 m ρ c (Proc.devRef .tc r) from hostOps1_3_keeps _ r (hostOps1_3_args r hr)]
  rw [show Wb3 m ρ c (Proc.devRef .tc r) = Wb2 m ρ c (Proc.devRef .tc r) from hostOps1_2_keeps _ r (hostOps1_2_args r hr)]
  rw [show Wb2 m ρ c (Proc.devRef .tc r) = Wb1 m ρ c (Proc.devRef .tc r) from hostOps1_1_keeps _ r (hostOps1_1_args r hr)]
  rw [show Wb1 m ρ c (Proc.devRef .tc r) = Wb0 m ρ c (Proc.devRef .tc r) from hostOps1_keeps _ r (hostOps1_args r hr)]
  rw [Wb0_of_ne m ρ c r (spec0_args r hr)]
  rw [show Wa9 m ρ c (Proc.devRef .tc r) = Wa8 m ρ c (Proc.devRef .tc r) from hostOps0_8_keeps _ r (hostOps0_8_args r hr)]
  rw [show Wa8 m ρ c (Proc.devRef .tc r) = Wa7 m ρ c (Proc.devRef .tc r) from hostOps0_7_keeps _ r (hostOps0_7_args r hr)]
  rw [show Wa7 m ρ c (Proc.devRef .tc r) = Wa6 m ρ c (Proc.devRef .tc r) from hostOps0_6_keeps _ r (hostOps0_6_args r hr)]
  rw [show Wa6 m ρ c (Proc.devRef .tc r) = Wa5 m ρ c (Proc.devRef .tc r) from hostOps0_5_keeps _ r (hostOps0_5_args r hr)]
  rw [show Wa5 m ρ c (Proc.devRef .tc r) = Wa4 m ρ c (Proc.devRef .tc r) from hostOps0_4_keeps _ r (hostOps0_4_args r hr)]
  rw [show Wa4 m ρ c (Proc.devRef .tc r) = Wa3 m ρ c (Proc.devRef .tc r) from hostOps0_3_keeps _ r (hostOps0_3_args r hr)]
  rw [show Wa3 m ρ c (Proc.devRef .tc r) = Wa2 m ρ c (Proc.devRef .tc r) from hostOps0_2_keeps _ r (hostOps0_2_args r hr)]
  rw [show Wa2 m ρ c (Proc.devRef .tc r) = Wa1 m ρ c (Proc.devRef .tc r) from hostOps0_1_keeps _ r (hostOps0_1_args r hr)]
  rw [show Wa1 m ρ c (Proc.devRef .tc r) = Wa0 m ρ c (Proc.devRef .tc r) from hostOps0_keeps _ r (hostOps0_args r hr)]

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Va m ρ) c
  | ⟨1, _⟩ => fun c => dat1 (Vb m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from given contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without what the core owes. -/
abbrev Tₙ (c : Dev nD) : sProp 𝕄 := iprop(StableHlo.held (c : Thread nD τ) (Pipeline.ucRefs τ sig) (Wc1 m ρ c) ∗ ∃ r, prngReg c r)

/-! ## The regions as segments -/

set_option backward.isDefEq.respectTransparency.types false in
/-- Region 0 over the thread state: entered from every unscoped buffer at its entry contents, left at its exit contents. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m ρ) c).loose
  hwaits := Pipeline.hwaits_of_owed_zero _ _ _ _ L lv 0 fun _ _ => rfl
  pre c := iprop(StableHlo.held (c : Thread nD τ) (Pipeline.ucRefs τ sig) (Wa9 m ρ c) ∗ R c)
  post c := iprop(StableHlo.held (c : Thread nD τ) (Pipeline.ucRefs τ sig) (Wb0 m ρ c) ∗ R c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show iprop(iprop(∃ r, prngReg c r) ∗ Pipeline.prefHeld (pcfgs (F := F) 0).pre c (fun _ => fullShare) (adm 0).1 ∗ Pipeline.scopedRest spec0 c) ⊢ Pipeline.ΦA spec0 c from ?_).trans (hin0 (Va m ρ) c)
    unfold Pipeline.ΦA
    iintro ⟨Hp, -, Hr⟩
    isplitl [Hr]; · iexact Hr
    iexact Hp
  hout c := by
    refine (hout0 (Va m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Va m ρ c) (Vb0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry contents, left at its exit contents. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb m ρ) c).loose
  hwaits := Pipeline.hwaits_of_owed_zero _ _ _ _ L lv 1 fun _ _ => rfl
  pre c := iprop(StableHlo.held (c : Thread nD τ) (Pipeline.ucRefs τ sig) (Wb17 m ρ c) ∗ R c)
  post c := iprop(StableHlo.held (c : Thread nD τ) (Pipeline.ucRefs τ sig) (Wc0 m ρ c) ∗ R c)
  X c := iprop(∃ r, prngReg c r)
  Y c := iprop(∃ r, prngReg c r)
  Z c := Pipeline.unscopedRest (Ix := Unit) (Name := ℕ) (U := UR sig nD τ) (Lvl := ℕ) spec1 c (Vb m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vb m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vb m ρ c) (Vc0 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's segments in order: a host segment per stretch from its boundary's contents, a region per kernel. -/
abbrev segs : List (Pipeline.Seg (pcfgs (F := F)) adm (pdats m ρ) () defs₀ 𝒱₀ L lv) :=
  [ .host (hseg hostOps0 hostOps0_sub hostOps0_fresh (Wa0 m ρ)),
    .host (hseg hostOps0_1 hostOps0_1_sub hostOps0_1_fresh (Wa1 m ρ)),
    .host (hseg hostOps0_2 hostOps0_2_sub hostOps0_2_fresh (Wa2 m ρ)),
    .host (hseg hostOps0_3 hostOps0_3_sub hostOps0_3_fresh (Wa3 m ρ)),
    .host (hseg hostOps0_4 hostOps0_4_sub hostOps0_4_fresh (Wa4 m ρ)),
    .host (hseg hostOps0_5 hostOps0_5_sub hostOps0_5_fresh (Wa5 m ρ)),
    .host (hseg hostOps0_6 hostOps0_6_sub hostOps0_6_fresh (Wa6 m ρ)),
    .host (hseg hostOps0_7 hostOps0_7_sub hostOps0_7_fresh (Wa7 m ρ)),
    .host (hseg hostOps0_8 hostOps0_8_sub hostOps0_8_fresh (Wa8 m ρ)),
    .region (reg0 m ρ),
    .host (hseg hostOps1 hostOps1_sub hostOps1_fresh (Wb0 m ρ)),
    .host (hseg hostOps1_1 hostOps1_1_sub hostOps1_1_fresh (Wb1 m ρ)),
    .host (hseg hostOps1_2 hostOps1_2_sub hostOps1_2_fresh (Wb2 m ρ)),
    .host (hseg hostOps1_3 hostOps1_3_sub hostOps1_3_fresh (Wb3 m ρ)),
    .host (hseg hostOps1_4 hostOps1_4_sub hostOps1_4_fresh (Wb4 m ρ)),
    .host (hseg hostOps1_5 hostOps1_5_sub hostOps1_5_fresh (Wb5 m ρ)),
    .host (hseg hostOps1_6 hostOps1_6_sub hostOps1_6_fresh (Wb6 m ρ)),
    .host (hseg hostOps1_7 hostOps1_7_sub hostOps1_7_fresh (Wb7 m ρ)),
    .host (hseg hostOps1_8 hostOps1_8_sub hostOps1_8_fresh (Wb8 m ρ)),
    .host (hseg hostOps1_9 hostOps1_9_sub hostOps1_9_fresh (Wb9 m ρ)),
    .host (hseg hostOps1_10 hostOps1_10_sub hostOps1_10_fresh (Wb10 m ρ)),
    .host (hseg hostOps1_11 hostOps1_11_sub hostOps1_11_fresh (Wb11 m ρ)),
    .host (hseg hostOps1_12 hostOps1_12_sub hostOps1_12_fresh (Wb12 m ρ)),
    .host (hseg hostOps1_13 hostOps1_13_sub hostOps1_13_fresh (Wb13 m ρ)),
    .host (hseg hostOps1_14 hostOps1_14_sub hostOps1_14_fresh (Wb14 m ρ)),
    .host (hseg hostOps1_15 hostOps1_15_sub hostOps1_15_fresh (Wb15 m ρ)),
    .host (hseg hostOps1_16 hostOps1_16_sub hostOps1_16_fresh (Wb16 m ρ)),
    .region (reg1 m ρ),
    .host (hseg hostOps2 hostOps2_sub hostOps2_fresh (Wc0 m ρ)) ]
/-- @main IS the run of the segments. -/
theorem main_run (c : Dev nD) : main (F := F) c = Pipeline.Seg.run (segs m ρ) := by
  rw [main_chain c, Pipeline.Seg.run_eq_chain]; rfl

set_option backward.isDefEq.respectTransparency.types false in
/-- From any memory with zero counters every weakly fair execution of @main on the TensorCores terminates, nothing
    faulting, and every final state has every unscoped buffer at the last boundary's contents. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = Wc1 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Wa0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (Wc1 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Wa0 m ρ c)
        from Pipeline.unscopedBufs_held c (Wa0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wc1 m ρ c b)
    (hfin := fun c s' => by
      iintro ⟨⟨Hh, -⟩, HSI⟩
      unfold StableHlo.held
      imodintro
      iapply (pointsTo_read_all (Pipeline.ucRefs τ sig) (fun b => (((c : Thread nD τ)).1, b)) (Wc1 m ρ c) s')
      isplitl [Hh] <;> iassumption)
    (hQ := fun s h c b hb => h c _ (mem_uc b hb))

/-- The frame: every weakly fair execution terminates, nothing faulting, and the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨(h c main_arg0 (by decide)).trans (Wc1_arg m ρ c main_arg0 (by decide)),
    (h c main_arg1 (by decide)).trans (Wc1_arg m ρ c main_arg1 (by decide)),
    (h c main_arg2 (by decide)).trans (Wc1_arg m ρ c main_arg2 (by decide)),
    (h c main_arg3 (by decide)).trans (Wc1_arg m ρ c main_arg3 (by decide)),
    (h c main_arg4 (by decide)).trans (Wc1_arg m ρ c main_arg4 (by decide)),
    (h c main_arg5 (by decide)).trans (Wc1_arg m ρ c main_arg5 (by decide)),
    (h c main_arg6 (by decide)).trans (Wc1_arg m ρ c main_arg6 (by decide)),
    (h c main_arg7 (by decide)).trans (Wc1_arg m ρ c main_arg7 (by decide)),
    (h c main_arg8 (by decide)).trans (Wc1_arg m ρ c main_arg8 (by decide)),
    (h c main_arg9 (by decide)).trans (Wc1_arg m ρ c main_arg9 (by decide)),
    (h c main_arg10 (by decide)).trans (Wc1_arg m ρ c main_arg10 (by decide)),
    (h c main_arg11 (by decide)).trans (Wc1_arg m ρ c main_arg11 (by decide)),
    (h c main_arg12 (by decide)).trans (Wc1_arg m ρ c main_arg12 (by decide)),
    (h c main_arg13 (by decide)).trans (Wc1_arg m ρ c main_arg13 (by decide)),
    (h c main_arg14 (by decide)).trans (Wc1_arg m ρ c main_arg14 (by decide)),
    (h c main_arg15 (by decide)).trans (Wc1_arg m ρ c main_arg15 (by decide)),
    (h c main_arg16 (by decide)).trans (Wc1_arg m ρ c main_arg16 (by decide)),
    (h c main_arg17 (by decide)).trans (Wc1_arg m ρ c main_arg17 (by decide)),
    (h c main_arg18 (by decide)).trans (Wc1_arg m ρ c main_arg18 (by decide)),
    (h c main_arg19 (by decide)).trans (Wc1_arg m ρ c main_arg19 (by decide)),
    (h c main_arg20 (by decide)).trans (Wc1_arg m ρ c main_arg20 (by decide)),
    (h c main_arg21 (by decide)).trans (Wc1_arg m ρ c main_arg21 (by decide))⟩) (run_all m ρ)

end Cert.KernelIdeal.Hand

end
-- ==== Proof.KG.Defs.lean ====
/-
  The host operations the kernel program applies around its two kernel calls, each chain as ONE function of the
  argument arrays, at the ideal instance.

  * The input x, changed to the narrow float format (the identity on extended reals) and padded with zeros on the
    right from 120000 to 122880 columns.
  * A layer's weight matrix, from its list of (row, column, value) triples: the two rows of the [2, E] index array
    are cut out, each index v is replaced by v + n where v < 0 (n the padded extent of its axis), the pairs
    (column index, row index) -- the TRANSPOSED order -- are laid side by side as an [E, 2] array, and the values are
    added into a zero matrix of the padded transposed shape at those pairs.
  * A bias, scale or shift vector, padded with zeros on the right and read as a one-row matrix.
  * The result, cut back from 256 to the first 200 columns.

  The pieces are written once over any extents; the ten chains of the program are their instances at the program's
  shapes and shape relations.
-/
import proofs.«146654_j5488968204426_2_alg».proof.KernelIdeal
import Idealize.ShloMosaic.Lib.ValueIdx
import Idealize.ShloMosaic.PureOps.Ideal.Laws

noncomputable section

namespace Cert.KernelGlue

open Idealize.ShloMosaic Idealize.ShloMosaic.ValueIdx

/-! ## The pieces, over any extents -/

/-- Row r of a [2, E] index array, as a vector [E]. -/
def idxRow {E : Nat} (r : Nat) (hs : (⟨2, ![2, E]⟩ : Shape).Slices ![r, 0] ⟨2, ![1, E]⟩)
    (hc : (⟨2, ![1, E]⟩ : Shape).ShapeCasts ⟨1, ![E]⟩) (idx : IVec ⟨2, ![2, E]⟩ 32) : IVec ⟨1, ![E]⟩ 32 :=
  shapeCast ⟨1, ![E]⟩ (extractStridedSlice ⟨2, ![1, E]⟩ ![r, 0] idx hs) hc

/-- An index that may count from the end, made to count from the start: v + n where v < 0, v elsewhere. -/
def normIdx {E : Nat} (hb : (⟨0, ![]⟩ : Shape).BroadcastsInDim ⟨1, ![E]⟩ (![] : Fin 0 → Fin 1)) (n : BitVec 32)
    (v : IVec ⟨1, ![E]⟩ 32) : IVec ⟨1, ![E]⟩ 32 :=
  select (cmpi .slt v (broadcastInDim ⟨1, ![E]⟩ ![] hb (constantI ⟨0, ![]⟩ 32 0#32)))
    (addi v (broadcastInDim ⟨1, ![E]⟩ ![] hb (constantI ⟨0, ![]⟩ 32 n))) v

/-- Two index vectors [E] side by side as an array [E, 2] of pairs. -/
def idxPairs {E : Nat} (hb1 : (⟨1, ![E]⟩ : Shape).BroadcastsInDim ⟨2, ![E, 1]⟩ (![0] : Fin 1 → Fin 2))
    (hcat : Shape.Concatenates [⟨2, ![E, 1]⟩, ⟨2, ![E, 1]⟩] ⟨2, ![E, 2]⟩ 1) (a b : IVec ⟨1, ![E]⟩ 32) :
    IVec ⟨2, ![E, 2]⟩ 32 :=
  concatenate ⟨2, ![E, 2]⟩ 1
    [⟨⟨2, ![E, 1]⟩, broadcastInDim ⟨2, ![E, 1]⟩ ![0] hb1 a⟩, ⟨⟨2, ![E, 1]⟩, broadcastInDim ⟨2, ![E, 1]⟩ ![0] hb1 b⟩] hcat

/-- The padded transposed matrix [N, C] of a list of E (row, column, value) triples: the values added into a zero
    matrix at the pairs (column index, row index), the indices made to count from the start with the padded extents
    cN (of the column index) and rN (of the row index). -/
def weightT {N C E : Nat} (cN rN : BitVec 32)
    (hs1 : (⟨2, ![2, E]⟩ : Shape).Slices ![1, 0] ⟨2, ![1, E]⟩) (hs0 : (⟨2, ![2, E]⟩ : Shape).Slices ![0, 0] ⟨2, ![1, E]⟩)
    (hc : (⟨2, ![1, E]⟩ : Shape).ShapeCasts ⟨1, ![E]⟩)
    (hb : (⟨0, ![]⟩ : Shape).BroadcastsInDim ⟨1, ![E]⟩ (![] : Fin 0 → Fin 1))
    (hb1 : (⟨1, ![E]⟩ : Shape).BroadcastsInDim ⟨2, ![E, 1]⟩ (![0] : Fin 1 → Fin 2))
    (hcat : Shape.Concatenates [⟨2, ![E, 1]⟩, ⟨2, ![E, 1]⟩] ⟨2, ![E, 2]⟩ 1)
    (hbz : (⟨0, ![]⟩ : Shape).BroadcastsInDim ⟨2, ![N, C]⟩ (![] : Fin 0 → Fin 2))
    (D : ScatterDims ⟨2, ![N, C]⟩ ⟨2, ![E, 2]⟩ ⟨1, ![E]⟩) (hbits : FTy.bits .bf16 < FTy.bits .f32)
    (idx : IVec ⟨2, ![2, E]⟩ 32) (val : FVec Ideal ⟨1, ![E]⟩ .f32) : FVec Ideal ⟨2, ![N, C]⟩ .bf16 :=
  truncf .bf16
    (Host.scatterAdd D
      (broadcastInDim ⟨2, ![N, C]⟩ ![] hbz (constant (F := Ideal) ⟨0, ![]⟩ .f32 0x00000000#32))
      (idxPairs hb1 hcat (normIdx hb cN (idxRow 1 hs1 hc idx)) (normIdx hb rN (idxRow 0 hs0 hc idx)))
      val)
    hbits

/-- A vector [n] padded with zeros on the right to [m] and read as a one-row matrix [1, m]. -/
def padRow {n m : Nat} (hi : Nat) (hp : (⟨1, ![n]⟩ : Shape).Pads (![0] : Fin 1 → Nat) ![hi] ![0] ⟨1, ![m]⟩)
    (hu : 0 < (⟨0, ![]⟩ : Shape).numel) (hc : (⟨1, ![m]⟩ : Shape).ShapeCasts ⟨2, ![1, m]⟩)
    (v : FVec Ideal ⟨1, ![n]⟩ .f32) : FVec Ideal ⟨2, ![1, m]⟩ .f32 :=
  shapeCast ⟨2, ![1, m]⟩
    (pad ⟨1, ![m]⟩ ![0] ![hi] ![0] v (sitofp (F := Ideal) .f32 (constantI ⟨0, ![]⟩ 32 0#32)) hp hu) hc

/-! ## The program's chains -/

section
open Cert.KernelIdeal Cert.KernelIdeal.Facts₀
variable [Facts₀]

/-- The input in the narrow format, padded with zeros from 120000 to 122880 columns. -/
def kX (x : FVec Ideal S512x120000 .f32) : FVec Ideal S512x122880 .bf16 :=
  pad S512x122880 ![0, 0] ![0, 2880] ![0, 0] (truncf .bf16 x bitsLt_bf16_f32)
    (sitofp (F := Ideal) .bf16 (constantI S_ 32 0#32)) pads_S512x120000_S512x122880_000_028800 h_S_

/-- Layer 1's weights, transposed and padded to [122880, 768]. -/
def kWeightT1 (idx : IVec S2x7200000 32) (val : FVec Ideal S7200000 .f32) : FVec Ideal S122880x768 .bf16 :=
  weightT 122880#32 768#32 slices_S2x7200000_S1x7200000_1_0 slices_S2x7200000_S1x7200000_0_0
    shapeCasts_S1x7200000_S7200000 bcast_S_S7200000 bcast_S7200000_S7200000x1_0
    concatenates_S7200000x1_S7200000x1_S7200000x2_d1 bcast_S_S122880x768
    scatter_S122880x768_S7200000x2_S7200000_n_01_01_1 bitsLt_bf16_f32 idx val

/-- Layer 2's weights, transposed and padded to [768, 768]. -/
def kWeightT2 (idx : IVec S2x36000 32) (val : FVec Ideal S36000 .f32) : FVec Ideal S768x768 .bf16 :=
  weightT 768#32 768#32 slices_S2x36000_S1x36000_1_0 slices_S2x36000_S1x36000_0_0
    shapeCasts_S1x36000_S36000 bcast_S_S36000 bcast_S36000_S36000x1_0
    concatenates_S36000x1_S36000x1_S36000x2_d1 bcast_S_S768x768
    scatter_S768x768_S36000x2_S36000_n_01_01_1 bitsLt_bf16_f32 idx val

/-- Layer 3's weights, transposed and padded to [768, 384]. -/
def kWeightT3 (idx : IVec S2x18000 32) (val : FVec Ideal S18000 .f32) : FVec Ideal S768x384 .bf16 :=
  weightT 768#32 384#32 slices_S2x18000_S1x18000_1_0 slices_S2x18000_S1x18000_0_0
    shapeCasts_S1x18000_S18000 bcast_S_S18000 bcast_S18000_S18000x1_0
    concatenates_S18000x1_S18000x1_S18000x2_d1 bcast_S_S768x384
    scatter_S768x384_S18000x2_S18000_n_01_01_1 bitsLt_bf16_f32 idx val

/-- Layer 4's weights, transposed and padded to [384, 256]. -/
def kWeightT4 (idx : IVec S2x6000 32) (val : FVec Ideal S6000 .f32) : FVec Ideal S384x256 .bf16 :=
  weightT 384#32 256#32 slices_S2x6000_S1x6000_1_0 slices_S2x6000_S1x6000_0_0
    shapeCasts_S1x6000_S6000 bcast_S_S6000 bcast_S6000_S6000x1_0
    concatenates_S6000x1_S6000x1_S6000x2_d1 bcast_S_S384x256
    scatter_S384x256_S6000x2_S6000_n_01_01_1 bitsLt_bf16_f32 idx val

/-- Layer 5's weights, transposed and padded to [256, 256]. -/
def kWeightT5 (idx : IVec S2x4000 32) (val : FVec Ideal S4000 .f32) : FVec Ideal S256x256 .bf16 :=
  weightT 256#32 256#32 slices_S2x4000_S1x4000_1_0 slices_S2x4000_S1x4000_0_0
    shapeCasts_S1x4000_S4000 bcast_S_S4000 bcast_S4000_S4000x1_0
    concatenates_S4000x1_S4000x1_S4000x2_d1 bcast_S_S256x256
    scatter_S256x256_S4000x2_S4000_n_01_01_1 bitsLt_bf16_f32 idx val

/-- A vector [600] padded with zeros to [768], as a row [1, 768]. -/
def kRow600 (v : FVec Ideal S600 .f32) : FVec Ideal S1x768 .f32 :=
  padRow 168 pads_S600_S768_01680 h_S_ shapeCasts_S768_S1x768 v

/-- A vector [300] padded with zeros to [384], as a row [1, 384]. -/
def kRow300 (v : FVec Ideal S300 .f32) : FVec Ideal S1x384 .f32 :=
  padRow 84 pads_S300_S384_0840 h_S_ shapeCasts_S384_S1x384 v

/-- A vector [200] padded with zeros to [256], as a row [1, 256]. -/
def kRow200 (v : FVec Ideal S200 .f32) : FVec Ideal S1x256 .f32 :=
  padRow 56 pads_S200_S256_0560 h_S_ shapeCasts_S256_S1x256 v

/-- The first kernel's result in the narrow format (the identity on extended reals). -/
def kMid (y : FVec Ideal S512x768 .f32) : FVec Ideal S512x768 .bf16 :=
  truncf .bf16 y bitsLt_bf16_f32

/-- The first 200 columns of the second kernel's result. -/
def kOut (y : FVec Ideal S512x256 .f32) : FVec Ideal S512x200 .f32 :=
  extractStridedSlice S512x200 ![0, 0] y slices_S512x256_S512x200_0_0

end

end Cert.KernelGlue

end
-- ==== Proof.KI.HostReads.lean ====
/- The kernel program's host operations read back through the run's boundary contents: what each stretch leaves in a
   buffer it writes, as its operations' term of the contents the stretch starts from; an argument array holds its
   launch contents at every boundary; and so, at the ideal instance, the arrays the two kernel regions read — the
   input padded, each layer's padded transposed weight matrix, each bias, scale and shift vector as a padded row,
   the first kernel's result in the narrow format — and the array @main returns, the second kernel's result cut
   back, are the host-operation chains applied to the launch contents of the argument arrays. -/
import proofs.«146654_j5488968204426_2_alg».proof.Proof.KI.Run
import proofs.«146654_j5488968204426_2_alg».proof.Proof.KG.Defs

set_option maxRecDepth 16384

noncomputable section

namespace Cert.KernelIdeal.Hand

open Cert.KernelIdeal Cert.KernelIdeal.Gen Cert.KernelGlue
open Idealize.ShloMosaic Idealize.ShloMosaic.TcCoe Idealize.SL.Sem
open Idealize.ShloMosaic.StableHlo

variable {F : FTy → Type} [FloatOps F]

/-! ## Stretch by stretch: what a stretch leaves in a buffer it writes -/

section Stretch
variable (V : Valuation τ sig (Elt F))

theorem hostOps0_c :
    (after hostOps0 V (Proc.devRef .tc main_c) : (⟨S_, .i32⟩ : BufTy).Contents (Elt F))
      = constantI S_ 32 0#32 := by
  dsimp only [hostOps0]; after_results <;> rfl

theorem hostOps0_v0 :
    (after hostOps0 V (Proc.devRef .tc main_v0) : (⟨S512x120000, .bf16⟩ : BufTy).Contents (Elt F))
      = truncf .bf16 (V (Proc.devRef .tc main_arg0)) bitsLt_bf16_f32 := by
  dsimp only [hostOps0]; after_results <;> rfl

theorem hostOps0_1_v1 :
    (after hostOps0_1 V (Proc.devRef .tc main_v1) : (⟨S512x122880, .bf16⟩ : BufTy).Contents (Elt F))
      = pad S512x122880 ![0, 0] ![0, 2880] ![0, 0] (V (Proc.devRef .tc main_v0)) (sitofp .bf16 (V (Proc.devRef .tc main_c))) pads_S512x120000_S512x122880_000_028800 h_S_ := by
  dsimp only [hostOps0_1]; after_results <;> rfl

theorem hostOps0_2_c_4 :
    (after hostOps0_2 V (Proc.devRef .tc main_c_4) : (⟨S_, .i32⟩ : BufTy).Contents (Elt F))
      = constantI S_ 32 0#32 := by
  dsimp only [hostOps0_2]; after_results <;> rfl

theorem hostOps0_3_v22 :
    (after hostOps0_3 V (Proc.devRef .tc main_v22) : (⟨S768, .f32⟩ : BufTy).Contents (Elt F))
      = pad S768 ![0] ![168] ![0] (V (Proc.devRef .tc main_arg3)) (sitofp .f32 (V (Proc.devRef .tc main_c_4))) pads_S600_S768_01680 h_S_ := by
  dsimp only [hostOps0_3]; after_results <;> rfl

theorem hostOps0_8_v25 :
    (after hostOps0_8 V (Proc.devRef .tc main_v25) : (⟨S1x768, .f32⟩ : BufTy).Contents (Elt F))
      = shapeCast S1x768 (V (Proc.devRef .tc main_v22)) shapeCasts_S768_S1x768 := by
  dsimp only [hostOps0_8]; after_results <;> rfl

theorem hostOps0_4_c_5 :
    (after hostOps0_4 V (Proc.devRef .tc main_c_5) : (⟨S_, .i32⟩ : BufTy).Contents (Elt F))
      = constantI S_ 32 0#32 := by
  dsimp only [hostOps0_4]; after_results <;> rfl

theorem hostOps0_5_v23 :
    (after hostOps0_5 V (Proc.devRef .tc main_v23) : (⟨S768, .f32⟩ : BufTy).Contents (Elt F))
      = pad S768 ![0] ![168] ![0] (V (Proc.devRef .tc main_arg16)) (sitofp .f32 (V (Proc.devRef .tc main_c_5))) pads_S600_S768_01680 h_S_ := by
  dsimp only [hostOps0_5]; after_results <;> rfl

theorem hostOps0_8_v26 :
    (after hostOps0_8 V (Proc.devRef .tc main_v26) : (⟨S1x768, .f32⟩ : BufTy).Contents (Elt F))
      = shapeCast S1x768 (V (Proc.devRef .tc main_v23)) shapeCasts_S768_S1x768 := by
  dsimp only [hostOps0_8]; after_results <;> rfl

theorem hostOps0_6_c_6 :
    (after hostOps0_6 V (Proc.devRef .tc main_c_6) : (⟨S_, .i32⟩ : BufTy).Contents (Elt F))
      = constantI S_ 32 0#32 := by
  dsimp only [hostOps0_6]; after_results <;> rfl

theorem hostOps0_7_v24 :
    (after hostOps0_7 V (Proc.devRef .tc main_v24) : (⟨S768, .f32⟩ : BufTy).Contents (Elt F))
      = pad S768 ![0] ![168] ![0] (V (Proc.devRef .tc main_arg17)) (sitofp .f32 (V (Proc.devRef .tc main_c_6))) pads_S600_S768_01680 h_S_ := by
  dsimp only [hostOps0_7]; after_results <;> rfl

theorem hostOps0_8_v27 :
    (after hostOps0_8 V (Proc.devRef .tc main_v27) : (⟨S1x768, .f32⟩ : BufTy).Contents (Elt F))
      = shapeCast S1x768 (V (Proc.devRef .tc main_v24)) shapeCasts_S768_S1x768 := by
  dsimp only [hostOps0_8]; after_results <;> rfl

theorem hostOps1_c_27 :
    (after hostOps1 V (Proc.devRef .tc main_c_27) : (⟨S_, .i32⟩ : BufTy).Contents (Elt F))
      = constantI S_ 32 0#32 := by
  dsimp only [hostOps1]; after_results_simp

theorem hostOps1_1_v110 :
    (after hostOps1_1 V (Proc.devRef .tc main_v110) : (⟨S768, .f32⟩ : BufTy).Contents (Elt F))
      = pad S768 ![0] ![168] ![0] (V (Proc.devRef .tc main_arg6)) (sitofp .f32 (V (Proc.devRef .tc main_c_27))) pads_S600_S768_01680 h_S_ := by
  dsimp only [hostOps1_1]; after_results <;> rfl

theorem hostOps1_16_v118 :
    (after hostOps1_16 V (Proc.devRef .tc main_v118) : (⟨S1x768, .f32⟩ : BufTy).Contents (Elt F))
      = shapeCast S1x768 (V (Proc.devRef .tc main_v110)) shapeCasts_S768_S1x768 := by
  dsimp only [hostOps1_16]; after_results <;> rfl

theorem hostOps1_2_c_28 :
    (after hostOps1_2 V (Proc.devRef .tc main_c_28) : (⟨S_, .i32⟩ : BufTy).Contents (Elt F))
      = constantI S_ 32 0#32 := by
  dsimp only [hostOps1_2]; after_results <;> rfl

theorem hostOps1_3_v111 :
    (after hostOps1_3 V (Proc.devRef .tc main_v111) : (⟨S384, .f32⟩ : BufTy).Contents (Elt F))
      = pad S384 ![0] ![84] ![0] (V (Proc.devRef .tc main_arg9)) (sitofp .f32 (V (Proc.devRef .tc main_c_28))) pads_S300_S384_0840 h_S_ := by
  dsimp only [hostOps1_3]; after_results <;> rfl

theorem hostOps1_16_v119 :
    (after hostOps1_16 V (Proc.devRef .tc main_v119) : (⟨S1x384, .f32⟩ : BufTy).Contents (Elt F))
      = shapeCast S1x384 (V (Proc.devRef .tc main_v111)) shapeCasts_S384_S1x384 := by
  dsimp only [hostOps1_16]; after_results <;> rfl

theorem hostOps1_4_c_29 :
    (after hostOps1_4 V (Proc.devRef .tc main_c_29) : (⟨S_, .i32⟩ : BufTy).Contents (Elt F))
      = constantI S_ 32 0#32 := by
  dsimp only [hostOps1_4]; after_results <;> rfl

theorem hostOps1_5_v112 :
    (after hostOps1_5 V (Proc.devRef .tc main_v112) : (⟨S384, .f32⟩ : BufTy).Contents (Elt F))
      = pad S384 ![0] ![84] ![0] (V (Proc.devRef .tc main_arg18)) (sitofp .f32 (V (Proc.devRef .tc main_c_29))) pads_S300_S384_0840 h_S_ := by
  dsimp only [hostOps1_5]; after_results <;> rfl

theorem hostOps1_16_v120 :
    (after hostOps1_16 V (Proc.devRef .tc main_v120) : (⟨S1x384, .f32⟩ : BufTy).Contents (Elt F))
      = shapeCast S1x384 (V (Proc.devRef .tc main_v112)) shapeCasts_S384_S1x384 := by
  dsimp only [hostOps1_16]; after_results <;> rfl

theorem hostOps1_6_c_30 :
    (after hostOps1_6 V (Proc.devRef .tc main_c_30) : (⟨S_, .i32⟩ : BufTy).Contents (Elt F))
      = constantI S_ 32 0#32 := by
  dsimp only [hostOps1_6]; after_results <;> rfl

theorem hostOps1_7_v113 :
    (after hostOps1_7 V (Proc.devRef .tc main_v113) : (⟨S384, .f32⟩ : BufTy).Contents (Elt F))
      = pad S384 ![0] ![84] ![0] (V (Proc.devRef .tc main_arg19)) (sitofp .f32 (V (Proc.devRef .tc main_c_30))) pads_S300_S384_0840 h_S_ := by
  dsimp only [hostOps1_7]; after_results <;> rfl

theorem hostOps1_16_v121 :
    (after hostOps1_16 V (Proc.devRef .tc main_v121) : (⟨S1x384, .f32⟩ : BufTy).Contents (Elt F))
      = shapeCast S1x384 (V (Proc.devRef .tc main_v113)) shapeCasts_S384_S1x384 := by
  dsimp only [hostOps1_16]; after_results <;> rfl

theorem hostOps1_8_c_31 :
    (after hostOps1_8 V (Proc.devRef .tc main_c_31) : (⟨S_, .i32⟩ : BufTy).Contents (Elt F))
      = constantI S_ 32 0#32 := by
  dsimp only [hostOps1_8]; after_results <;> rfl

theorem hostOps1_9_v114 :
    (after hostOps1_9 V (Proc.devRef .tc main_v114) : (⟨S256, .f32⟩ : BufTy).Contents (Elt F))
      = pad S256 ![0] ![56] ![0] (V (Proc.devRef .tc main_arg12)) (sitofp .f32 (V (Proc.devRef .tc main_c_31))) pads_S200_S256_0560 h_S_ := by
  dsimp only [hostOps1_9]; after_results <;> rfl

theorem hostOps1_16_v122 :
    (after hostOps1_16 V (Proc.devRef .tc main_v122) : (⟨S1x256, .f32⟩ : BufTy).Contents (Elt F))
      = shapeCast S1x256 (V (Proc.devRef .tc main_v114)) shapeCasts_S256_S1x256 := by
  dsimp only [hostOps1_16]; after_results <;> rfl

theorem hostOps1_10_c_32 :
    (after hostOps1_10 V (Proc.devRef .tc main_c_32) : (⟨S_, .i32⟩ : BufTy).Contents (Elt F))
      = constantI S_ 32 0#32 := by
  dsimp only [hostOps1_10]; after_results <;> rfl

theorem hostOps1_11_v115 :
    (after hostOps1_11 V (Proc.devRef .tc main_v115) : (⟨S256, .f32⟩ : BufTy).Contents (Elt F))
      = pad S256 ![0] ![56] ![0] (V (Proc.devRef .tc main_arg20)) (sitofp .f32 (V (Proc.devRef .tc main_c_32))) pads_S200_S256_0560 h_S_ := by
  dsimp only [hostOps1_11]; after_results <;> rfl

theorem hostOps1_16_v123 :
    (after hostOps1_16 V (Proc.devRef .tc main_v123) : (⟨S1x256, .f32⟩ : BufTy).Contents (Elt F))
      = shapeCast S1x256 (V (Proc.devRef .tc main_v115)) shapeCasts_S256_S1x256 := by
  dsimp only [hostOps1_16]; after_results <;> rfl

theorem hostOps1_12_c_33 :
    (after hostOps1_12 V (Proc.devRef .tc main_c_33) : (⟨S_, .i32⟩ : BufTy).Contents (Elt F))
      = constantI S_ 32 0#32 := by
  dsimp only [hostOps1_12]; after_results <;> rfl

theorem hostOps1_13_v116 :
    (after hostOps1_13 V (Proc.devRef .tc main_v116) : (⟨S256, .f32⟩ : BufTy).Contents (Elt F))
      = pad S256 ![0] ![56] ![0] (V (Proc.devRef .tc main_arg21)) (sitofp .f32 (V (Proc.devRef .tc main_c_33))) pads_S200_S256_0560 h_S_ := by
  dsimp only [hostOps1_13]; after_results <;> rfl

theorem hostOps1_16_v124 :
    (after hostOps1_16 V (Proc.devRef .tc main_v124) : (⟨S1x256, .f32⟩ : BufTy).Contents (Elt F))
      = shapeCast S1x256 (V (Proc.devRef .tc main_v116)) shapeCasts_S256_S1x256 := by
  dsimp only [hostOps1_16]; after_results <;> rfl

theorem hostOps1_14_c_34 :
    (after hostOps1_14 V (Proc.devRef .tc main_c_34) : (⟨S_, .i32⟩ : BufTy).Contents (Elt F))
      = constantI S_ 32 0#32 := by
  dsimp only [hostOps1_14]; after_results <;> rfl

theorem hostOps1_15_v117 :
    (after hostOps1_15 V (Proc.devRef .tc main_v117) : (⟨S256, .f32⟩ : BufTy).Contents (Elt F))
      = pad S256 ![0] ![56] ![0] (V (Proc.devRef .tc main_arg15)) (sitofp .f32 (V (Proc.devRef .tc main_c_34))) pads_S200_S256_0560 h_S_ := by
  dsimp only [hostOps1_15]; after_results <;> rfl

theorem hostOps1_16_v125 :
    (after hostOps1_16 V (Proc.devRef .tc main_v125) : (⟨S1x256, .f32⟩ : BufTy).Contents (Elt F))
      = shapeCast S1x256 (V (Proc.devRef .tc main_v117)) shapeCasts_S256_S1x256 := by
  dsimp only [hostOps1_16]; after_results <;> rfl

theorem hostOps1_v29 :
    (after hostOps1 V (Proc.devRef .tc main_v29) : (⟨S512x768, .bf16⟩ : BufTy).Contents (Elt F))
      = truncf .bf16 (V (Proc.devRef .tc main_v28)) bitsLt_bf16_f32 := by
  dsimp only [hostOps1]; after_results_simp

theorem hostOps2_v127 :
    (after hostOps2 V (Proc.devRef .tc main_v127) : (⟨S512x200, .f32⟩ : BufTy).Contents (Elt F))
      = extractStridedSlice S512x200 ![0, 0] (V (Proc.devRef .tc main_v126)) slices_S512x256_S512x200_0_0 := by
  dsimp only [hostOps2]; after_results <;> rfl

end Stretch

/-! ## The weight matrices' chains, at the ideal instance -/

section Weights
variable (V : Valuation τ sig (Elt Ideal))

theorem hostOps0_2_v21 :
    (after hostOps0_2 V (Proc.devRef .tc main_v21) : (⟨S122880x768, .bf16⟩ : BufTy).Contents (Elt Ideal))
      = kWeightT1 (V (Proc.devRef .tc main_arg1)) (V (Proc.devRef .tc main_arg2)) := by
  dsimp only [hostOps0_2]; after_results_simp
  rfl

theorem hostOps1_v49 :
    (after hostOps1 V (Proc.devRef .tc main_v49) : (⟨S768x768, .bf16⟩ : BufTy).Contents (Elt Ideal))
      = kWeightT2 (V (Proc.devRef .tc main_arg4)) (V (Proc.devRef .tc main_arg5)) := by
  dsimp only [hostOps1]; after_results_simp
  rfl

theorem hostOps1_v69 :
    (after hostOps1 V (Proc.devRef .tc main_v69) : (⟨S768x384, .bf16⟩ : BufTy).Contents (Elt Ideal))
      = kWeightT3 (V (Proc.devRef .tc main_arg7)) (V (Proc.devRef .tc main_arg8)) := by
  dsimp only [hostOps1]; after_results_simp
  rfl

theorem hostOps1_v89 :
    (after hostOps1 V (Proc.devRef .tc main_v89) : (⟨S384x256, .bf16⟩ : BufTy).Contents (Elt Ideal))
      = kWeightT4 (V (Proc.devRef .tc main_arg10)) (V (Proc.devRef .tc main_arg11)) := by
  dsimp only [hostOps1]; after_results_simp
  rfl

theorem hostOps1_v109 :
    (after hostOps1 V (Proc.devRef .tc main_v109) : (⟨S256x256, .bf16⟩ : BufTy).Contents (Elt Ideal))
      = kWeightT5 (V (Proc.devRef .tc main_arg13)) (V (Proc.devRef .tc main_arg14)) := by
  dsimp only [hostOps1]; after_results_simp
  rfl

end Weights

/-! ## An argument array holds its launch contents at every boundary up to the second region -/

section Boundaries
variable (m : (ℓ : Loc nD τ sig) → Buf (Elt F) ℓ) (ρ : Dev nD → PrngReg)

/-- At launch. -/
theorem Wa0_arg (c : Dev nD) (r : Ref sig .tc) : Wa0 m ρ c (Proc.devRef .tc r) = m ((c : Thread nD τ).loc r) := rfl
theorem Wa1_arg (c : Dev nD) (r : Ref sig .tc) (hr : r ∈ argRefs) : Wa1 m ρ c (Proc.devRef .tc r) = m ((c : Thread nD τ).loc r) :=
  (hostOps0_keeps (Wa0 m ρ c) r (hostOps0_args r hr)).trans (Wa0_arg m ρ c r)
theorem Wa2_arg (c : Dev nD) (r : Ref sig .tc) (hr : r ∈ argRefs) : Wa2 m ρ c (Proc.devRef .tc r) = m ((c : Thread nD τ).loc r) :=
  (hostOps0_1_keeps (Wa1 m ρ c) r (hostOps0_1_args r hr)).trans (Wa1_arg m ρ c r hr)
theorem Wa3_arg (c : Dev nD) (r : Ref sig .tc) (hr : r ∈ argRefs) : Wa3 m ρ c (Proc.devRef .tc r) = m ((c : Thread nD τ).loc r) :=
  (hostOps0_2_keeps (Wa2 m ρ c) r (hostOps0_2_args r hr)).trans (Wa2_arg m ρ c r hr)
theorem Wa4_arg (c : Dev nD) (r : Ref sig .tc) (hr : r ∈ argRefs) : Wa4 m ρ c (Proc.devRef .tc r) = m ((c : Thread nD τ).loc r) :=
  (hostOps0_3_keeps (Wa3 m ρ c) r (hostOps0_3_args r hr)).trans (Wa3_arg m ρ c r hr)
theorem Wa5_arg (c : Dev nD) (r : Ref sig .tc) (hr : r ∈ argRefs) : Wa5 m ρ c (Proc.devRef .tc r) = m ((c : Thread nD τ).loc r) :=
  (hostOps0_4_keeps (Wa4 m ρ c) r (hostOps0_4_args r hr)).trans (Wa4_arg m ρ c r hr)
theorem Wa6_arg (c : Dev nD) (r : Ref sig .tc) (hr : r ∈ argRefs) : Wa6 m ρ c (Proc.devRef .tc r) = m ((c : Thread nD τ).loc r) :=
  (hostOps0_5_keeps (Wa5 m ρ c) r (hostOps0_5_args r hr)).trans (Wa5_arg m ρ c r hr)
theorem Wa7_arg (c : Dev nD) (r : Ref sig .tc) (hr : r ∈ argRefs) : Wa7 m ρ c (Proc.devRef .tc r) = m ((c : Thread nD τ).loc r) :=
  (hostOps0_6_keeps (Wa6 m ρ c) r (hostOps0_6_args r hr)).trans (Wa6_arg m ρ c r hr)
theorem Wa8_arg (c : Dev nD) (r : Ref sig .tc) (hr : r ∈ argRefs) : Wa8 m ρ c (Proc.devRef .tc r) = m ((c : Thread nD τ).loc r) :=
  (hostOps0_7_keeps (Wa7 m ρ c) r (hostOps0_7_args r hr)).trans (Wa7_arg m ρ c r hr)
theorem Wa9_arg (c : Dev nD) (r : Ref sig .tc) (hr : r ∈ argRefs) : Wa9 m ρ c (Proc.devRef .tc r) = m ((c : Thread nD τ).loc r) :=
  (hostOps0_8_keeps (Wa8 m ρ c) r (hostOps0_8_args r hr)).trans (Wa8_arg m ρ c r hr)
theorem Wb0_arg (c : Dev nD) (r : Ref sig .tc) (hr : r ∈ argRefs) : Wb0 m ρ c (Proc.devRef .tc r) = m ((c : Thread nD τ).loc r) :=
  (Wb0_of_ne m ρ c r (spec0_args r hr)).trans (Wa9_arg m ρ c r hr)
theorem Wb1_arg (c : Dev nD) (r : Ref sig .tc) (hr : r ∈ argRefs) : Wb1 m ρ c (Proc.devRef .tc r) = m ((c : Thread nD τ).loc r) :=
  (hostOps1_keeps (Wb0 m ρ c) r (hostOps1_args r hr)).trans (Wb0_arg m ρ c r hr)
theorem Wb2_arg (c : Dev nD) (r : Ref sig .tc) (hr : r ∈ argRefs) : Wb2 m ρ c (Proc.devRef .tc r) = m ((c : Thread nD τ).loc r) :=
  (hostOps1_1_keeps (Wb1 m ρ c) r (hostOps1_1_args r hr)).trans (Wb1_arg m ρ c r hr)
theorem Wb3_arg (c : Dev nD) (r : Ref sig .tc) (hr : r ∈ argRefs) : Wb3 m ρ c (Proc.devRef .tc r) = m ((c : Thread nD τ).loc r) :=
  (hostOps1_2_keeps (Wb2 m ρ c) r (hostOps1_2_args r hr)).trans (Wb2_arg m ρ c r hr)
theorem Wb4_arg (c : Dev nD) (r : Ref sig .tc) (hr : r ∈ argRefs) : Wb4 m ρ c (Proc.devRef .tc r) = m ((c : Thread nD τ).loc r) :=
  (hostOps1_3_keeps (Wb3 m ρ c) r (hostOps1_3_args r hr)).trans (Wb3_arg m ρ c r hr)
theorem Wb5_arg (c : Dev nD) (r : Ref sig .tc) (hr : r ∈ argRefs) : Wb5 m ρ c (Proc.devRef .tc r) = m ((c : Thread nD τ).loc r) :=
  (hostOps1_4_keeps (Wb4 m ρ c) r (hostOps1_4_args r hr)).trans (Wb4_arg m ρ c r hr)
theorem Wb6_arg (c : Dev nD) (r : Ref sig .tc) (hr : r ∈ argRefs) : Wb6 m ρ c (Proc.devRef .tc r) = m ((c : Thread nD τ).loc r) :=
  (hostOps1_5_keeps (Wb5 m ρ c) r (hostOps1_5_args r hr)).trans (Wb5_arg m ρ c r hr)
theorem Wb7_arg (c : Dev nD) (r : Ref sig .tc) (hr : r ∈ argRefs) : Wb7 m ρ c (Proc.devRef .tc r) = m ((c : Thread nD τ).loc r) :=
  (hostOps1_6_keeps (Wb6 m ρ c) r (hostOps1_6_args r hr)).trans (Wb6_arg m ρ c r hr)
theorem Wb8_arg (c : Dev nD) (r : Ref sig .tc) (hr : r ∈ argRefs) : Wb8 m ρ c (Proc.devRef .tc r) = m ((c : Thread nD τ).loc r) :=
  (hostOps1_7_keeps (Wb7 m ρ c) r (hostOps1_7_args r hr)).trans (Wb7_arg m ρ c r hr)
theorem Wb9_arg (c : Dev nD) (r : Ref sig .tc) (hr : r ∈ argRefs) : Wb9 m ρ c (Proc.devRef .tc r) = m ((c : Thread nD τ).loc r) :=
  (hostOps1_8_keeps (Wb8 m ρ c) r (hostOps1_8_args r hr)).trans (Wb8_arg m ρ c r hr)
theorem Wb10_arg (c : Dev nD) (r : Ref sig .tc) (hr : r ∈ argRefs) : Wb10 m ρ c (Proc.devRef .tc r) = m ((c : Thread nD τ).loc r) :=
  (hostOps1_9_keeps (Wb9 m ρ c) r (hostOps1_9_args r hr)).trans (Wb9_arg m ρ c r hr)
theorem Wb11_arg (c : Dev nD) (r : Ref sig .tc) (hr : r ∈ argRefs) : Wb11 m ρ c (Proc.devRef .tc r) = m ((c : Thread nD τ).loc r) :=
  (hostOps1_10_keeps (Wb10 m ρ c) r (hostOps1_10_args r hr)).trans (Wb10_arg m ρ c r hr)
theorem Wb12_arg (c : Dev nD) (r : Ref sig .tc) (hr : r ∈ argRefs) : Wb12 m ρ c (Proc.devRef .tc r) = m ((c : Thread nD τ).loc r) :=
  (hostOps1_11_keeps (Wb11 m ρ c) r (hostOps1_11_args r hr)).trans (Wb11_arg m ρ c r hr)
theorem Wb13_arg (c : Dev nD) (r : Ref sig .tc) (hr : r ∈ argRefs) : Wb13 m ρ c (Proc.devRef .tc r) = m ((c : Thread nD τ).loc r) :=
  (hostOps1_12_keeps (Wb12 m ρ c) r (hostOps1_12_args r hr)).trans (Wb12_arg m ρ c r hr)
theorem Wb14_arg (c : Dev nD) (r : Ref sig .tc) (hr : r ∈ argRefs) : Wb14 m ρ c (Proc.devRef .tc r) = m ((c : Thread nD τ).loc r) :=
  (hostOps1_13_keeps (Wb13 m ρ c) r (hostOps1_13_args r hr)).trans (Wb13_arg m ρ c r hr)
theorem Wb15_arg (c : Dev nD) (r : Ref sig .tc) (hr : r ∈ argRefs) : Wb15 m ρ c (Proc.devRef .tc r) = m ((c : Thread nD τ).loc r) :=
  (hostOps1_14_keeps (Wb14 m ρ c) r (hostOps1_14_args r hr)).trans (Wb14_arg m ρ c r hr)
theorem Wb16_arg (c : Dev nD) (r : Ref sig .tc) (hr : r ∈ argRefs) : Wb16 m ρ c (Proc.devRef .tc r) = m ((c : Thread nD τ).loc r) :=
  (hostOps1_15_keeps (Wb15 m ρ c) r (hostOps1_15_args r hr)).trans (Wb15_arg m ρ c r hr)
theorem Wb17_arg (c : Dev nD) (r : Ref sig .tc) (hr : r ∈ argRefs) : Wb17 m ρ c (Proc.devRef .tc r) = m ((c : Thread nD τ).loc r) :=
  (hostOps1_16_keeps (Wb16 m ρ c) r (hostOps1_16_args r hr)).trans (Wb16_arg m ρ c r hr)

end Boundaries

/-! ## The regions' entry contents and the returned array, at the ideal instance -/

section Entries
variable (m : (ℓ : Loc nD τ sig) → Buf (Elt Ideal) ℓ) (ρ : Dev nD → PrngReg)

/-- Region 0's entry contents at main_v25: the vector main_arg3 padded with zeros, as a row. -/
theorem Wa9_v25 (c : Dev nD) :
    (Wa9 (F := Ideal) m ρ c (Proc.devRef .tc main_v25) : (⟨S1x768, .f32⟩ : BufTy).Contents (Elt Ideal)) = kRow600 (m ((c : Thread nD τ).loc main_arg3)) := by
  rewrite [show Wa9 m ρ c (Proc.devRef .tc main_v25) = _ from hostOps0_8_v25 (Wa8 m ρ c)]
  rewrite [show Wa8 m ρ c (Proc.devRef .tc main_v22) = Wa7 m ρ c (Proc.devRef .tc main_v22) from hostOps0_7_keeps _ main_v22 (by decide)]
  rewrite [show Wa7 m ρ c (Proc.devRef .tc main_v22) = Wa6 m ρ c (Proc.devRef .tc main_v22) from hostOps0_6_keeps _ main_v22 (by decide)]
  rewrite [show Wa6 m ρ c (Proc.devRef .tc main_v22) = Wa5 m ρ c (Proc.devRef .tc main_v22) from hostOps0_5_keeps _ main_v22 (by decide)]
  rewrite [show Wa5 m ρ c (Proc.devRef .tc main_v22) = Wa4 m ρ c (Proc.devRef .tc main_v22) from hostOps0_4_keeps _ main_v22 (by decide)]
  rewrite [show Wa4 m ρ c (Proc.devRef .tc main_v22) = _ from hostOps0_3_v22 (Wa3 m ρ c)]
  rewrite [Wa3_arg m ρ c main_arg3 (by decide)]
  rewrite [show Wa3 m ρ c (Proc.devRef .tc main_c_4) = _ from hostOps0_2_c_4 (Wa2 m ρ c)]
  rfl

/-- Region 0's entry contents at main_v26: the vector main_arg16 padded with zeros, as a row. -/
theorem Wa9_v26 (c : Dev nD) :
    (Wa9 (F := Ideal) m ρ c (Proc.devRef .tc main_v26) : (⟨S1x768, .f32⟩ : BufTy).Contents (Elt Ideal)) = kRow600 (m ((c : Thread nD τ).loc main_arg16)) := by
  rewrite [show Wa9 m ρ c (Proc.devRef .tc main_v26) = _ from hostOps0_8_v26 (Wa8 m ρ c)]
  rewrite [show Wa8 m ρ c (Proc.devRef .tc main_v23) = Wa7 m ρ c (Proc.devRef .tc main_v23) from hostOps0_7_keeps _ main_v23 (by decide)]
  rewrite [show Wa7 m ρ c (Proc.devRef .tc main_v23) = Wa6 m ρ c (Proc.devRef .tc main_v23) from hostOps0_6_keeps _ main_v23 (by decide)]
  rewrite [show Wa6 m ρ c (Proc.devRef .tc main_v23) = _ from hostOps0_5_v23 (Wa5 m ρ c)]
  rewrite [Wa5_arg m ρ c main_arg16 (by decide)]
  rewrite [show Wa5 m ρ c (Proc.devRef .tc main_c_5) = _ from hostOps0_4_c_5 (Wa4 m ρ c)]
  rfl

/-- Region 0's entry contents at main_v27: the vector main_arg17 padded with zeros, as a row. -/
theorem Wa9_v27 (c : Dev nD) :
    (Wa9 (F := Ideal) m ρ c (Proc.devRef .tc main_v27) : (⟨S1x768, .f32⟩ : BufTy).Contents (Elt Ideal)) = kRow600 (m ((c : Thread nD τ).loc main_arg17)) := by
  rewrite [show Wa9 m ρ c (Proc.devRef .tc main_v27) = _ from hostOps0_8_v27 (Wa8 m ρ c)]
  rewrite [show Wa8 m ρ c (Proc.devRef .tc main_v24) = _ from hostOps0_7_v24 (Wa7 m ρ c)]
  rewrite [Wa7_arg m ρ c main_arg17 (by decide)]
  rewrite [show Wa7 m ρ c (Proc.devRef .tc main_c_6) = _ from hostOps0_6_c_6 (Wa6 m ρ c)]
  rfl

/-- Region 1's entry contents at main_v118: the vector main_arg6 padded with zeros, as a row. -/
theorem Wb17_v118 (c : Dev nD) :
    (Wb17 (F := Ideal) m ρ c (Proc.devRef .tc main_v118) : (⟨S1x768, .f32⟩ : BufTy).Contents (Elt Ideal)) = kRow600 (m ((c : Thread nD τ).loc main_arg6)) := by
  rewrite [show Wb17 m ρ c (Proc.devRef .tc main_v118) = _ from hostOps1_16_v118 (Wb16 m ρ c)]
  rewrite [show Wb16 m ρ c (Proc.devRef .tc main_v110) = Wb15 m ρ c (Proc.devRef .tc main_v110) from hostOps1_15_keeps _ main_v110 (by decide)]
  rewrite [show Wb15 m ρ c (Proc.devRef .tc main_v110) = Wb14 m ρ c (Proc.devRef .tc main_v110) from hostOps1_14_keeps _ main_v110 (by decide)]
  rewrite [show Wb14 m ρ c (Proc.devRef .tc main_v110) = Wb13 m ρ c (Proc.devRef .tc main_v110) from hostOps1_13_keeps _ main_v110 (by decide)]
  rewrite [show Wb13 m ρ c (Proc.devRef .tc main_v110) = Wb12 m ρ c (Proc.devRef .tc main_v110) from hostOps1_12_keeps _ main_v110 (by decide)]
  rewrite [show Wb12 m ρ c (Proc.devRef .tc main_v110) = Wb11 m ρ c (Proc.devRef .tc main_v110) from hostOps1_11_keeps _ main_v110 (by decide)]
  rewrite [show Wb11 m ρ c (Proc.devRef .tc main_v110) = Wb10 m ρ c (Proc.devRef .tc main_v110) from hostOps1_10_keeps _ main_v110 (by decide)]
  rewrite [show Wb10 m ρ c (Proc.devRef .tc main_v110) = Wb9 m ρ c (Proc.devRef .tc main_v110) from hostOps1_9_keeps _ main_v110 (by decide)]
  rewrite [show Wb9 m ρ c (Proc.devRef .tc main_v110) = Wb8 m ρ c (Proc.devRef .tc main_v110) from hostOps1_8_keeps _ main_v110 (by decide)]
  rewrite [show Wb8 m ρ c (Proc.devRef .tc main_v110) = Wb7 m ρ c (Proc.devRef .tc main_v110) from hostOps1_7_keeps _ main_v110 (by decide)]
  rewrite [show Wb7 m ρ c (Proc.devRef .tc main_v110) = Wb6 m ρ c (Proc.devRef .tc main_v110) from hostOps1_6_keeps _ main_v110 (by decide)]
  rewrite [show Wb6 m ρ c (Proc.devRef .tc main_v110) = Wb5 m ρ c (Proc.devRef .tc main_v110) from hostOps1_5_keeps _ main_v110 (by decide)]
  rewrite [show Wb5 m ρ c (Proc.devRef .tc main_v110) = Wb4 m ρ c (Proc.devRef .tc main_v110) from hostOps1_4_keeps _ main_v110 (by decide)]
  rewrite [show Wb4 m ρ c (Proc.devRef .tc main_v110) = Wb3 m ρ c (Proc.devRef .tc main_v110) from hostOps1_3_keeps _ main_v110 (by decide)]
  rewrite [show Wb3 m ρ c (Proc.devRef .tc main_v110) = Wb2 m ρ c (Proc.devRef .tc main_v110) from hostOps1_2_keeps _ main_v110 (by decide)]
  rewrite [show Wb2 m ρ c (Proc.devRef .tc main_v110) = _ from hostOps1_1_v110 (Wb1 m ρ c)]
  rewrite [Wb1_arg m ρ c main_arg6 (by decide)]
  rewrite [show Wb1 m ρ c (Proc.devRef .tc main_c_27) = _ from hostOps1_c_27 (Wb0 m ρ c)]
  rfl

/-- Region 1's entry contents at main_v119: the vector main_arg9 padded with zeros, as a row. -/
theorem Wb17_v119 (c : Dev nD) :
    (Wb17 (F := Ideal) m ρ c (Proc.devRef .tc main_v119) : (⟨S1x384, .f32⟩ : BufTy).Contents (Elt Ideal)) = kRow300 (m ((c : Thread nD τ).loc main_arg9)) := by
  rewrite [show Wb17 m ρ c (Proc.devRef .tc main_v119) = _ from hostOps1_16_v119 (Wb16 m ρ c)]
  rewrite [show Wb16 m ρ c (Proc.devRef .tc main_v111) = Wb15 m ρ c (Proc.devRef .tc main_v111) from hostOps1_15_keeps _ main_v111 (by decide)]
  rewrite [show Wb15 m ρ c (Proc.devRef .tc main_v111) = Wb14 m ρ c (Proc.devRef .tc main_v111) from hostOps1_14_keeps _ main_v111 (by decide)]
  rewrite [show Wb14 m ρ c (Proc.devRef .tc main_v111) = Wb13 m ρ c (Proc.devRef .tc main_v111) from hostOps1_13_keeps _ main_v111 (by decide)]
  rewrite [show Wb13 m ρ c (Proc.devRef .tc main_v111) = Wb12 m ρ c (Proc.devRef .tc main_v111) from hostOps1_12_keeps _ main_v111 (by decide)]
  rewrite [show Wb12 m ρ c (Proc.devRef .tc main_v111) = Wb11 m ρ c (Proc.devRef .tc main_v111) from hostOps1_11_keeps _ main_v111 (by decide)]
  rewrite [show Wb11 m ρ c (Proc.devRef .tc main_v111) = Wb10 m ρ c (Proc.devRef .tc main_v111) from hostOps1_10_keeps _ main_v111 (by decide)]
  rewrite [show Wb10 m ρ c (Proc.devRef .tc main_v111) = Wb9 m ρ c (Proc.devRef .tc main_v111) from hostOps1_9_keeps _ main_v111 (by decide)]
  rewrite [show Wb9 m ρ c (Proc.devRef .tc main_v111) = Wb8 m ρ c (Proc.devRef .tc main_v111) from hostOps1_8_keeps _ main_v111 (by decide)]
  rewrite [show Wb8 m ρ c (Proc.devRef .tc main_v111) = Wb7 m ρ c (Proc.devRef .tc main_v111) from hostOps1_7_keeps _ main_v111 (by decide)]
  rewrite [show Wb7 m ρ c (Proc.devRef .tc main_v111) = Wb6 m ρ c (Proc.devRef .tc main_v111) from hostOps1_6_keeps _ main_v111 (by decide)]
  rewrite [show Wb6 m ρ c (Proc.devRef .tc main_v111) = Wb5 m ρ c (Proc.devRef .tc main_v111) from hostOps1_5_keeps _ main_v111 (by decide)]
  rewrite [show Wb5 m ρ c (Proc.devRef .tc main_v111) = Wb4 m ρ c (Proc.devRef .tc main_v111) from hostOps1_4_keeps _ main_v111 (by decide)]
  rewrite [show Wb4 m ρ c (Proc.devRef .tc main_v111) = _ from hostOps1_3_v111 (Wb3 m ρ c)]
  rewrite [Wb3_arg m ρ c main_arg9 (by decide)]
  rewrite [show Wb3 m ρ c (Proc.devRef .tc main_c_28) = _ from hostOps1_2_c_28 (Wb2 m ρ c)]
  rfl

/-- Region 1's entry contents at main_v120: the vector main_arg18 padded with zeros, as a row. -/
theorem Wb17_v120 (c : Dev nD) :
    (Wb17 (F := Ideal) m ρ c (Proc.devRef .tc main_v120) : (⟨S1x384, .f32⟩ : BufTy).Contents (Elt Ideal)) = kRow300 (m ((c : Thread nD τ).loc main_arg18)) := by
  rewrite [show Wb17 m ρ c (Proc.devRef .tc main_v120) = _ from hostOps1_16_v120 (Wb16 m ρ c)]
  rewrite [show Wb16 m ρ c (Proc.devRef .tc main_v112) = Wb15 m ρ c (Proc.devRef .tc main_v112) from hostOps1_15_keeps _ main_v112 (by decide)]
  rewrite [show Wb15 m ρ c (Proc.devRef .tc main_v112) = Wb14 m ρ c (Proc.devRef .tc main_v112) from hostOps1_14_keeps _ main_v112 (by decide)]
  rewrite [show Wb14 m ρ c (Proc.devRef .tc main_v112) = Wb13 m ρ c (Proc.devRef .tc main_v112) from hostOps1_13_keeps _ main_v112 (by decide)]
  rewrite [show Wb13 m ρ c (Proc.devRef .tc main_v112) = Wb12 m ρ c (Proc.devRef .tc main_v112) from hostOps1_12_keeps _ main_v112 (by decide)]
  rewrite [show Wb12 m ρ c (Proc.devRef .tc main_v112) = Wb11 m ρ c (Proc.devRef .tc main_v112) from hostOps1_11_keeps _ main_v112 (by decide)]
  rewrite [show Wb11 m ρ c (Proc.devRef .tc main_v112) = Wb10 m ρ c (Proc.devRef .tc main_v112) from hostOps1_10_keeps _ main_v112 (by decide)]
  rewrite [show Wb10 m ρ c (Proc.devRef .tc main_v112) = Wb9 m ρ c (Proc.devRef .tc main_v112) from hostOps1_9_keeps _ main_v112 (by decide)]
  rewrite [show Wb9 m ρ c (Proc.devRef .tc main_v112) = Wb8 m ρ c (Proc.devRef .tc main_v112) from hostOps1_8_keeps _ main_v112 (by decide)]
  rewrite [show Wb8 m ρ c (Proc.devRef .tc main_v112) = Wb7 m ρ c (Proc.devRef .tc main_v112) from hostOps1_7_keeps _ main_v112 (by decide)]
  rewrite [show Wb7 m ρ c (Proc.devRef .tc main_v112) = Wb6 m ρ c (Proc.devRef .tc main_v112) from hostOps1_6_keeps _ main_v112 (by decide)]
  rewrite [show Wb6 m ρ c (Proc.devRef .tc main_v112) = _ from hostOps1_5_v112 (Wb5 m ρ c)]
  rewrite [Wb5_arg m ρ c main_arg18 (by decide)]
  rewrite [show Wb5 m ρ c (Proc.devRef .tc main_c_29) = _ from hostOps1_4_c_29 (Wb4 m ρ c)]
  rfl

/-- Region 1's entry contents at main_v121: the vector main_arg19 padded with zeros, as a row. -/
theorem Wb17_v121 (c : Dev nD) :
    (Wb17 (F := Ideal) m ρ c (Proc.devRef .tc main_v121) : (⟨S1x384, .f32⟩ : BufTy).Contents (Elt Ideal)) = kRow300 (m ((c : Thread nD τ).loc main_arg19)) := by
  rewrite [show Wb17 m ρ c (Proc.devRef .tc main_v121) = _ from hostOps1_16_v121 (Wb16 m ρ c)]
  rewrite [show Wb16 m ρ c (Proc.devRef .tc main_v113) = Wb15 m ρ c (Proc.devRef .tc main_v113) from hostOps1_15_keeps _ main_v113 (by decide)]
  rewrite [show Wb15 m ρ c (Proc.devRef .tc main_v113) = Wb14 m ρ c (Proc.devRef .tc main_v113) from hostOps1_14_keeps _ main_v113 (by decide)]
  rewrite [show Wb14 m ρ c (Proc.devRef .tc main_v113) = Wb13 m ρ c (Proc.devRef .tc main_v113) from hostOps1_13_keeps _ main_v113 (by decide)]
  rewrite [show Wb13 m ρ c (Proc.devRef .tc main_v113) = Wb12 m ρ c (Proc.devRef .tc main_v113) from hostOps1_12_keeps _ main_v113 (by decide)]
  rewrite [show Wb12 m ρ c (Proc.devRef .tc main_v113) = Wb11 m ρ c (Proc.devRef .tc main_v113) from hostOps1_11_keeps _ main_v113 (by decide)]
  rewrite [show Wb11 m ρ c (Proc.devRef .tc main_v113) = Wb10 m ρ c (Proc.devRef .tc main_v113) from hostOps1_10_keeps _ main_v113 (by decide)]
  rewrite [show Wb10 m ρ c (Proc.devRef .tc main_v113) = Wb9 m ρ c (Proc.devRef .tc main_v113) from hostOps1_9_keeps _ main_v113 (by decide)]
  rewrite [show Wb9 m ρ c (Proc.devRef .tc main_v113) = Wb8 m ρ c (Proc.devRef .tc main_v113) from hostOps1_8_keeps _ main_v113 (by decide)]
  rewrite [show Wb8 m ρ c (Proc.devRef .tc main_v113) = _ from hostOps1_7_v113 (Wb7 m ρ c)]
  rewrite [Wb7_arg m ρ c main_arg19 (by decide)]
  rewrite [show Wb7 m ρ c (Proc.devRef .tc main_c_30) = _ from hostOps1_6_c_30 (Wb6 m ρ c)]
  rfl

/-- Region 1's entry contents at main_v122: the vector main_arg12 padded with zeros, as a row. -/
theorem Wb17_v122 (c : Dev nD) :
    (Wb17 (F := Ideal) m ρ c (Proc.devRef .tc main_v122) : (⟨S1x256, .f32⟩ : BufTy).Contents (Elt Ideal)) = kRow200 (m ((c : Thread nD τ).loc main_arg12)) := by
  rewrite [show Wb17 m ρ c (Proc.devRef .tc main_v122) = _ from hostOps1_16_v122 (Wb16 m ρ c)]
  rewrite [show Wb16 m ρ c (Proc.devRef .tc main_v114) = Wb15 m ρ c (Proc.devRef .tc main_v114) from hostOps1_15_keeps _ main_v114 (by decide)]
  rewrite [show Wb15 m ρ c (Proc.devRef .tc main_v114) = Wb14 m ρ c (Proc.devRef .tc main_v114) from hostOps1_14_keeps _ main_v114 (by decide)]
  rewrite [show Wb14 m ρ c (Proc.devRef .tc main_v114) = Wb13 m ρ c (Proc.devRef .tc main_v114) from hostOps1_13_keeps _ main_v114 (by decide)]
  rewrite [show Wb13 m ρ c (Proc.devRef .tc main_v114) = Wb12 m ρ c (Proc.devRef .tc main_v114) from hostOps1_12_keeps _ main_v114 (by decide)]
  rewrite [show Wb12 m ρ c (Proc.devRef .tc main_v114) = Wb11 m ρ c (Proc.devRef .tc main_v114) from hostOps1_11_keeps _ main_v114 (by decide)]
  rewrite [show Wb11 m ρ c (Proc.devRef .tc main_v114) = Wb10 m ρ c (Proc.devRef .tc main_v114) from hostOps1_10_keeps _ main_v114 (by decide)]
  rewrite [show Wb10 m ρ c (Proc.devRef .tc main_v114) = _ from hostOps1_9_v114 (Wb9 m ρ c)]
  rewrite [Wb9_arg m ρ c main_arg12 (by decide)]
  rewrite [show Wb9 m ρ c (Proc.devRef .tc main_c_31) = _ from hostOps1_8_c_31 (Wb8 m ρ c)]
  rfl

/-- Region 1's entry contents at main_v123: the vector main_arg20 padded with zeros, as a row. -/
theorem Wb17_v123 (c : Dev nD) :
    (Wb17 (F := Ideal) m ρ c (Proc.devRef .tc main_v123) : (⟨S1x256, .f32⟩ : BufTy).Contents (Elt Ideal)) = kRow200 (m ((c : Thread nD τ).loc main_arg20)) := by
  rewrite [show Wb17 m ρ c (Proc.devRef .tc main_v123) = _ from hostOps1_16_v123 (Wb16 m ρ c)]
  rewrite [show Wb16 m ρ c (Proc.devRef .tc main_v115) = Wb15 m ρ c (Proc.devRef .tc main_v115) from hostOps1_15_keeps _ main_v115 (by decide)]
  rewrite [show Wb15 m ρ c (Proc.devRef .tc main_v115) = Wb14 m ρ c (Proc.devRef .tc main_v115) from hostOps1_14_keeps _ main_v115 (by decide)]
  rewrite [show Wb14 m ρ c (Proc.devRef .tc main_v115) = Wb13 m ρ c (Proc.devRef .tc main_v115) from hostOps1_13_keeps _ main_v115 (by decide)]
  rewrite [show Wb13 m ρ c (Proc.devRef .tc main_v115) = Wb12 m ρ c (Proc.devRef .tc main_v115) from hostOps1_12_keeps _ main_v115 (by decide)]
  rewrite [show Wb12 m ρ c (Proc.devRef .tc main_v115) = _ from hostOps1_11_v115 (Wb11 m ρ c)]
  rewrite [Wb11_arg m ρ c main_arg20 (by decide)]
  rewrite [show Wb11 m ρ c (Proc.devRef .tc main_c_32) = _ from hostOps1_10_c_32 (Wb10 m ρ c)]
  rfl

/-- Region 1's entry contents at main_v124: the vector main_arg21 padded with zeros, as a row. -/
theorem Wb17_v124 (c : Dev nD) :
    (Wb17 (F := Ideal) m ρ c (Proc.devRef .tc main_v124) : (⟨S1x256, .f32⟩ : BufTy).Contents (Elt Ideal)) = kRow200 (m ((c : Thread nD τ).loc main_arg21)) := by
  rewrite [show Wb17 m ρ c (Proc.devRef .tc main_v124) = _ from hostOps1_16_v124 (Wb16 m ρ c)]
  rewrite [show Wb16 m ρ c (Proc.devRef .tc main_v116) = Wb15 m ρ c (Proc.devRef .tc main_v116) from hostOps1_15_keeps _ main_v116 (by decide)]
  rewrite [show Wb15 m ρ c (Proc.devRef .tc main_v116) = Wb14 m ρ c (Proc.devRef .tc main_v116) from hostOps1_14_keeps _ main_v116 (by decide)]
  rewrite [show Wb14 m ρ c (Proc.devRef .tc main_v116) = _ from hostOps1_13_v116 (Wb13 m ρ c)]
  rewrite [Wb13_arg m ρ c main_arg21 (by decide)]
  rewrite [show Wb13 m ρ c (Proc.devRef .tc main_c_33) = _ from hostOps1_12_c_33 (Wb12 m ρ c)]
  rfl

/-- Region 1's entry contents at main_v125: the vector main_arg15 padded with zeros, as a row. -/
theorem Wb17_v125 (c : Dev nD) :
    (Wb17 (F := Ideal) m ρ c (Proc.devRef .tc main_v125) : (⟨S1x256, .f32⟩ : BufTy).Contents (Elt Ideal)) = kRow200 (m ((c : Thread nD τ).loc main_arg15)) := by
  rewrite [show Wb17 m ρ c (Proc.devRef .tc main_v125) = _ from hostOps1_16_v125 (Wb16 m ρ c)]
  rewrite [show Wb16 m ρ c (Proc.devRef .tc main_v117) = _ from hostOps1_15_v117 (Wb15 m ρ c)]
  rewrite [Wb15_arg m ρ c main_arg15 (by decide)]
  rewrite [show Wb15 m ρ c (Proc.devRef .tc main_c_34) = _ from hostOps1_14_c_34 (Wb14 m ρ c)]
  rfl

/-- Region 0's entry contents at main_v21: the layer's padded transposed weight matrix. -/
theorem Wa9_v21 (c : Dev nD) :
    (Wa9 (F := Ideal) m ρ c (Proc.devRef .tc main_v21) : (⟨S122880x768, .bf16⟩ : BufTy).Contents (Elt Ideal)) = kWeightT1 (m ((c : Thread nD τ).loc main_arg1)) (m ((c : Thread nD τ).loc main_arg2)) := by
  rewrite [show Wa9 m ρ c (Proc.devRef .tc main_v21) = Wa8 m ρ c (Proc.devRef .tc main_v21) from hostOps0_8_keeps _ main_v21 (by decide)]
  rewrite [show Wa8 m ρ c (Proc.devRef .tc main_v21) = Wa7 m ρ c (Proc.devRef .tc main_v21) from hostOps0_7_keeps _ main_v21 (by decide)]
  rewrite [show Wa7 m ρ c (Proc.devRef .tc main_v21) = Wa6 m ρ c (Proc.devRef .tc main_v21) from hostOps0_6_keeps _ main_v21 (by decide)]
  rewrite [show Wa6 m ρ c (Proc.devRef .tc main_v21) = Wa5 m ρ c (Proc.devRef .tc main_v21) from hostOps0_5_keeps _ main_v21 (by decide)]
  rewrite [show Wa5 m ρ c (Proc.devRef .tc main_v21) = Wa4 m ρ c (Proc.devRef .tc main_v21) from hostOps0_4_keeps _ main_v21 (by decide)]
  rewrite [show Wa4 m ρ c (Proc.devRef .tc main_v21) = Wa3 m ρ c (Proc.devRef .tc main_v21) from hostOps0_3_keeps _ main_v21 (by decide)]
  rewrite [show Wa3 m ρ c (Proc.devRef .tc main_v21) = _ from hostOps0_2_v21 (Wa2 m ρ c)]
  rewrite [Wa2_arg m ρ c main_arg1 (by decide), Wa2_arg m ρ c main_arg2 (by decide)]
  rfl

/-- Region 1's entry contents at main_v49: the layer's padded transposed weight matrix. -/
theorem Wb17_v49 (c : Dev nD) :
    (Wb17 (F := Ideal) m ρ c (Proc.devRef .tc main_v49) : (⟨S768x768, .bf16⟩ : BufTy).Contents (Elt Ideal)) = kWeightT2 (m ((c : Thread nD τ).loc main_arg4)) (m ((c : Thread nD τ).loc main_arg5)) := by
  rewrite [show Wb17 m ρ c (Proc.devRef .tc main_v49) = Wb16 m ρ c (Proc.devRef .tc main_v49) from hostOps1_16_keeps _ main_v49 (by decide)]
  rewrite [show Wb16 m ρ c (Proc.devRef .tc main_v49) = Wb15 m ρ c (Proc.devRef .tc main_v49) from hostOps1_15_keeps _ main_v49 (by decide)]
  rewrite [show Wb15 m ρ c (Proc.devRef .tc main_v49) = Wb14 m ρ c (Proc.devRef .tc main_v49) from hostOps1_14_keeps _ main_v49 (by decide)]
  rewrite [show Wb14 m ρ c (Proc.devRef .tc main_v49) = Wb13 m ρ c (Proc.devRef .tc main_v49) from hostOps1_13_keeps _ main_v49 (by decide)]
  rewrite [show Wb13 m ρ c (Proc.devRef .tc main_v49) = Wb12 m ρ c (Proc.devRef .tc main_v49) from hostOps1_12_keeps _ main_v49 (by decide)]
  rewrite [show Wb12 m ρ c (Proc.devRef .tc main_v49) = Wb11 m ρ c (Proc.devRef .tc main_v49) from hostOps1_11_keeps _ main_v49 (by decide)]
  rewrite [show Wb11 m ρ c (Proc.devRef .tc main_v49) = Wb10 m ρ c (Proc.devRef .tc main_v49) from hostOps1_10_keeps _ main_v49 (by decide)]
  rewrite [show Wb10 m ρ c (Proc.devRef .tc main_v49) = Wb9 m ρ c (Proc.devRef .tc main_v49) from hostOps1_9_keeps _ main_v49 (by decide)]
  rewrite [show Wb9 m ρ c (Proc.devRef .tc main_v49) = Wb8 m ρ c (Proc.devRef .tc main_v49) from hostOps1_8_keeps _ main_v49 (by decide)]
  rewrite [show Wb8 m ρ c (Proc.devRef .tc main_v49) = Wb7 m ρ c (Proc.devRef .tc main_v49) from hostOps1_7_keeps _ main_v49 (by decide)]
  rewrite [show Wb7 m ρ c (Proc.devRef .tc main_v49) = Wb6 m ρ c (Proc.devRef .tc main_v49) from hostOps1_6_keeps _ main_v49 (by decide)]
  rewrite [show Wb6 m ρ c (Proc.devRef .tc main_v49) = Wb5 m ρ c (Proc.devRef .tc main_v49) from hostOps1_5_keeps _ main_v49 (by decide)]
  rewrite [show Wb5 m ρ c (Proc.devRef .tc main_v49) = Wb4 m ρ c (Proc.devRef .tc main_v49) from hostOps1_4_keeps _ main_v49 (by decide)]
  rewrite [show Wb4 m ρ c (Proc.devRef .tc main_v49) = Wb3 m ρ c (Proc.devRef .tc main_v49) from hostOps1_3_keeps _ main_v49 (by decide)]
  rewrite [show Wb3 m ρ c (Proc.devRef .tc main_v49) = Wb2 m ρ c (Proc.devRef .tc main_v49) from hostOps1_2_keeps _ main_v49 (by decide)]
  rewrite [show Wb2 m ρ c (Proc.devRef .tc main_v49) = Wb1 m ρ c (Proc.devRef .tc main_v49) from hostOps1_1_keeps _ main_v49 (by decide)]
  rewrite [show Wb1 m ρ c (Proc.devRef .tc main_v49) = _ from hostOps1_v49 (Wb0 m ρ c)]
  rewrite [Wb0_arg m ρ c main_arg4 (by decide), Wb0_arg m ρ c main_arg5 (by decide)]
  rfl

/-- Region 1's entry contents at main_v69: the layer's padded transposed weight matrix. -/
theorem Wb17_v69 (c : Dev nD) :
    (Wb17 (F := Ideal) m ρ c (Proc.devRef .tc main_v69) : (⟨S768x384, .bf16⟩ : BufTy).Contents (Elt Ideal)) = kWeightT3 (m ((c : Thread nD τ).loc main_arg7)) (m ((c : Thread nD τ).loc main_arg8)) := by
  rewrite [show Wb17 m ρ c (Proc.devRef .tc main_v69) = Wb16 m ρ c (Proc.devRef .tc main_v69) from hostOps1_16_keeps _ main_v69 (by decide)]
  rewrite [show Wb16 m ρ c (Proc.devRef .tc main_v69) = Wb15 m ρ c (Proc.devRef .tc main_v69) from hostOps1_15_keeps _ main_v69 (by decide)]
  rewrite [show Wb15 m ρ c (Proc.devRef .tc main_v69) = Wb14 m ρ c (Proc.devRef .tc main_v69) from hostOps1_14_keeps _ main_v69 (by decide)]
  rewrite [show Wb14 m ρ c (Proc.devRef .tc main_v69) = Wb13 m ρ c (Proc.devRef .tc main_v69) from hostOps1_13_keeps _ main_v69 (by decide)]
  rewrite [show Wb13 m ρ c (Proc.devRef .tc main_v69) = Wb12 m ρ c (Proc.devRef .tc main_v69) from hostOps1_12_keeps _ main_v69 (by decide)]
  rewrite [show Wb12 m ρ c (Proc.devRef .tc main_v69) = Wb11 m ρ c (Proc.devRef .tc main_v69) from hostOps1_11_keeps _ main_v69 (by decide)]
  rewrite [show Wb11 m ρ c (Proc.devRef .tc main_v69) = Wb10 m ρ c (Proc.devRef .tc main_v69) from hostOps1_10_keeps _ main_v69 (by decide)]
  rewrite [show Wb10 m ρ c (Proc.devRef .tc main_v69) = Wb9 m ρ c (Proc.devRef .tc main_v69) from hostOps1_9_keeps _ main_v69 (by decide)]
  rewrite [show Wb9 m ρ c (Proc.devRef .tc main_v69) = Wb8 m ρ c (Proc.devRef .tc main_v69) from hostOps1_8_keeps _ main_v69 (by decide)]
  rewrite [show Wb8 m ρ c (Proc.devRef .tc main_v69) = Wb7 m ρ c (Proc.devRef .tc main_v69) from hostOps1_7_keeps _ main_v69 (by decide)]
  rewrite [show Wb7 m ρ c (Proc.devRef .tc main_v69) = Wb6 m ρ c (Proc.devRef .tc main_v69) from hostOps1_6_keeps _ main_v69 (by decide)]
  rewrite [show Wb6 m ρ c (Proc.devRef .tc main_v69) = Wb5 m ρ c (Proc.devRef .tc main_v69) from hostOps1_5_keeps _ main_v69 (by decide)]
  rewrite [show Wb5 m ρ c (Proc.devRef .tc main_v69) = Wb4 m ρ c (Proc.devRef .tc main_v69) from hostOps1_4_keeps _ main_v69 (by decide)]
  rewrite [show Wb4 m ρ c (Proc.devRef .tc main_v69) = Wb3 m ρ c (Proc.devRef .tc main_v69) from hostOps1_3_keeps _ main_v69 (by decide)]
  rewrite [show Wb3 m ρ c (Proc.devRef .tc main_v69) = Wb2 m ρ c (Proc.devRef .tc main_v69) from hostOps1_2_keeps _ main_v69 (by decide)]
  rewrite [show Wb2 m ρ c (Proc.devRef .tc main_v69) = Wb1 m ρ c (Proc.devRef .tc main_v69) from hostOps1_1_keeps _ main_v69 (by decide)]
  rewrite [show Wb1 m ρ c (Proc.devRef .tc main_v69) = _ from hostOps1_v69 (Wb0 m ρ c)]
  rewrite [Wb0_arg m ρ c main_arg7 (by decide), Wb0_arg m ρ c main_arg8 (by decide)]
  rfl

/-- Region 1's entry contents at main_v89: the layer's padded transposed weight matrix. -/
theorem Wb17_v89 (c : Dev nD) :
    (Wb17 (F := Ideal) m ρ c (Proc.devRef .tc main_v89) : (⟨S384x256, .bf16⟩ : BufTy).Contents (Elt Ideal)) = kWeightT4 (m ((c : Thread nD τ).loc main_arg10)) (m ((c : Thread nD τ).loc main_arg11)) := by
  rewrite [show Wb17 m ρ c (Proc.devRef .tc main_v89) = Wb16 m ρ c (Proc.devRef .tc main_v89) from hostOps1_16_keeps _ main_v89 (by decide)]
  rewrite [show Wb16 m ρ c (Proc.devRef .tc main_v89) = Wb15 m ρ c (Proc.devRef .tc main_v89) from hostOps1_15_keeps _ main_v89 (by decide)]
  rewrite [show Wb15 m ρ c (Proc.devRef .tc main_v89) = Wb14 m ρ c (Proc.devRef .tc main_v89) from hostOps1_14_keeps _ main_v89 (by decide)]
  rewrite [show Wb14 m ρ c (Proc.devRef .tc main_v89) = Wb13 m ρ c (Proc.devRef .tc main_v89) from hostOps1_13_keeps _ main_v89 (by decide)]
  rewrite [show Wb13 m ρ c (Proc.devRef .tc main_v89) = Wb12 m ρ c (Proc.devRef .tc main_v89) from hostOps1_12_keeps _ main_v89 (by decide)]
  rewrite [show Wb12 m ρ c (Proc.devRef .tc main_v89) = Wb11 m ρ c (Proc.devRef .tc main_v89) from hostOps1_11_keeps _ main_v89 (by decide)]
  rewrite [show Wb11 m ρ c (Proc.devRef .tc main_v89) = Wb10 m ρ c (Proc.devRef .tc main_v89) from hostOps1_10_keeps _ main_v89 (by decide)]
  rewrite [show Wb10 m ρ c (Proc.devRef .tc main_v89) = Wb9 m ρ c (Proc.devRef .tc main_v89) from hostOps1_9_keeps _ main_v89 (by decide)]
  rewrite [show Wb9 m ρ c (Proc.devRef .tc main_v89) = Wb8 m ρ c (Proc.devRef .tc main_v89) from hostOps1_8_keeps _ main_v89 (by decide)]
  rewrite [show Wb8 m ρ c (Proc.devRef .tc main_v89) = Wb7 m ρ c (Proc.devRef .tc main_v89) from hostOps1_7_keeps _ main_v89 (by decide)]
  rewrite [show Wb7 m ρ c (Proc.devRef .tc main_v89) = Wb6 m ρ c (Proc.devRef .tc main_v89) from hostOps1_6_keeps _ main_v89 (by decide)]
  rewrite [show Wb6 m ρ c (Proc.devRef .tc main_v89) = Wb5 m ρ c (Proc.devRef .tc main_v89) from hostOps1_5_keeps _ main_v89 (by decide)]
  rewrite [show Wb5 m ρ c (Proc.devRef .tc main_v89) = Wb4 m ρ c (Proc.devRef .tc main_v89) from hostOps1_4_keeps _ main_v89 (by decide)]
  rewrite [show Wb4 m ρ c (Proc.devRef .tc main_v89) = Wb3 m ρ c (Proc.devRef .tc main_v89) from hostOps1_3_keeps _ main_v89 (by decide)]
  rewrite [show Wb3 m ρ c (Proc.devRef .tc main_v89) = Wb2 m ρ c (Proc.devRef .tc main_v89) from hostOps1_2_keeps _ main_v89 (by decide)]
  rewrite [show Wb2 m ρ c (Proc.devRef .tc main_v89) = Wb1 m ρ c (Proc.devRef .tc main_v89) from hostOps1_1_keeps _ main_v89 (by decide)]
  rewrite [show Wb1 m ρ c (Proc.devRef .tc main_v89) = _ from hostOps1_v89 (Wb0 m ρ c)]
  rewrite [Wb0_arg m ρ c main_arg10 (by decide), Wb0_arg m ρ c main_arg11 (by decide)]
  rfl

/-- Region 1's entry contents at main_v109: the layer's padded transposed weight matrix. -/
theorem Wb17_v109 (c : Dev nD) :
    (Wb17 (F := Ideal) m ρ c (Proc.devRef .tc main_v109) : (⟨S256x256, .bf16⟩ : BufTy).Contents (Elt Ideal)) = kWeightT5 (m ((c : Thread nD τ).loc main_arg13)) (m ((c : Thread nD τ).loc main_arg14)) := by
  rewrite [show Wb17 m ρ c (Proc.devRef .tc main_v109) = Wb16 m ρ c (Proc.devRef .tc main_v109) from hostOps1_16_keeps _ main_v109 (by decide)]
  rewrite [show Wb16 m ρ c (Proc.devRef .tc main_v109) = Wb15 m ρ c (Proc.devRef .tc main_v109) from hostOps1_15_keeps _ main_v109 (by decide)]
  rewrite [show Wb15 m ρ c (Proc.devRef .tc main_v109) = Wb14 m ρ c (Proc.devRef .tc main_v109) from hostOps1_14_keeps _ main_v109 (by decide)]
  rewrite [show Wb14 m ρ c (Proc.devRef .tc main_v109) = Wb13 m ρ c (Proc.devRef .tc main_v109) from hostOps1_13_keeps _ main_v109 (by decide)]
  rewrite [show Wb13 m ρ c (Proc.devRef .tc main_v109) = Wb12 m ρ c (Proc.devRef .tc main_v109) from hostOps1_12_keeps _ main_v109 (by decide)]
  rewrite [show Wb12 m ρ c (Proc.devRef .tc main_v109) = Wb11 m ρ c (Proc.devRef .tc main_v109) from hostOps1_11_keeps _ main_v109 (by decide)]
  rewrite [show Wb11 m ρ c (Proc.devRef .tc main_v109) = Wb10 m ρ c (Proc.devRef .tc main_v109) from hostOps1_10_keeps _ main_v109 (by decide)]
  rewrite [show Wb10 m ρ c (Proc.devRef .tc main_v109) = Wb9 m ρ c (Proc.devRef .tc main_v109) from hostOps1_9_keeps _ main_v109 (by decide)]
  rewrite [show Wb9 m ρ c (Proc.devRef .tc main_v109) = Wb8 m ρ c (Proc.devRef .tc main_v109) from hostOps1_8_keeps _ main_v109 (by decide)]
  rewrite [show Wb8 m ρ c (Proc.devRef .tc main_v109) = Wb7 m ρ c (Proc.devRef .tc main_v109) from hostOps1_7_keeps _ main_v109 (by decide)]
  rewrite [show Wb7 m ρ c (Proc.devRef .tc main_v109) = Wb6 m ρ c (Proc.devRef .tc main_v109) from hostOps1_6_keeps _ main_v109 (by decide)]
  rewrite [show Wb6 m ρ c (Proc.devRef .tc main_v109) = Wb5 m ρ c (Proc.devRef .tc main_v109) from hostOps1_5_keeps _ main_v109 (by decide)]
  rewrite [show Wb5 m ρ c (Proc.devRef .tc main_v109) = Wb4 m ρ c (Proc.devRef .tc main_v109) from hostOps1_4_keeps _ main_v109 (by decide)]
  rewrite [show Wb4 m ρ c (Proc.devRef .tc main_v109) = Wb3 m ρ c (Proc.devRef .tc main_v109) from hostOps1_3_keeps _ main_v109 (by decide)]
  rewrite [show Wb3 m ρ c (Proc.devRef .tc main_v109) = Wb2 m ρ c (Proc.devRef .tc main_v109) from hostOps1_2_keeps _ main_v109 (by decide)]
  rewrite [show Wb2 m ρ c (Proc.devRef .tc main_v109) = Wb1 m ρ c (Proc.devRef .tc main_v109) from hostOps1_1_keeps _ main_v109 (by decide)]
  rewrite [show Wb1 m ρ c (Proc.devRef .tc main_v109) = _ from hostOps1_v109 (Wb0 m ρ c)]
  rewrite [Wb0_arg m ρ c main_arg13 (by decide), Wb0_arg m ρ c main_arg14 (by decide)]
  rfl

/-- Region 0's entry contents at main_v1: the input in the narrow format, padded with zero columns. -/
theorem Wa9_v1 (c : Dev nD) :
    (Wa9 (F := Ideal) m ρ c (Proc.devRef .tc main_v1) : (⟨S512x122880, .bf16⟩ : BufTy).Contents (Elt Ideal)) = kX (m ((c : Thread nD τ).loc main_arg0)) := by
  rewrite [show Wa9 m ρ c (Proc.devRef .tc main_v1) = Wa8 m ρ c (Proc.devRef .tc main_v1) from hostOps0_8_keeps _ main_v1 (by decide)]
  rewrite [show Wa8 m ρ c (Proc.devRef .tc main_v1) = Wa7 m ρ c (Proc.devRef .tc main_v1) from hostOps0_7_keeps _ main_v1 (by decide)]
  rewrite [show Wa7 m ρ c (Proc.devRef .tc main_v1) = Wa6 m ρ c (Proc.devRef .tc main_v1) from hostOps0_6_keeps _ main_v1 (by decide)]
  rewrite [show Wa6 m ρ c (Proc.devRef .tc main_v1) = Wa5 m ρ c (Proc.devRef .tc main_v1) from hostOps0_5_keeps _ main_v1 (by decide)]
  rewrite [show Wa5 m ρ c (Proc.devRef .tc main_v1) = Wa4 m ρ c (Proc.devRef .tc main_v1) from hostOps0_4_keeps _ main_v1 (by decide)]
  rewrite [show Wa4 m ρ c (Proc.devRef .tc main_v1) = Wa3 m ρ c (Proc.devRef .tc main_v1) from hostOps0_3_keeps _ main_v1 (by decide)]
  rewrite [show Wa3 m ρ c (Proc.devRef .tc main_v1) = Wa2 m ρ c (Proc.devRef .tc main_v1) from hostOps0_2_keeps _ main_v1 (by decide)]
  rewrite [show Wa2 m ρ c (Proc.devRef .tc main_v1) = _ from hostOps0_1_v1 (Wa1 m ρ c)]
  rewrite [show Wa1 m ρ c (Proc.devRef .tc main_v0) = _ from hostOps0_v0 (Wa0 m ρ c), show Wa1 m ρ c (Proc.devRef .tc main_c) = _ from hostOps0_c (Wa0 m ρ c)]
  rfl

/-- Region 1's entry contents at main_v29: the first kernel's result array in the narrow format. -/
theorem Wb17_v29 (c : Dev nD) :
    (Wb17 (F := Ideal) m ρ c (Proc.devRef .tc main_v29) : (⟨S512x768, .bf16⟩ : BufTy).Contents (Elt Ideal)) = kMid (Wb0 m ρ c (Proc.devRef .tc main_v28)) := by
  rewrite [show Wb17 m ρ c (Proc.devRef .tc main_v29) = Wb16 m ρ c (Proc.devRef .tc main_v29) from hostOps1_16_keeps _ main_v29 (by decide)]
  rewrite [show Wb16 m ρ c (Proc.devRef .tc main_v29) = Wb15 m ρ c (Proc.devRef .tc main_v29) from hostOps1_15_keeps _ main_v29 (by decide)]
  rewrite [show Wb15 m ρ c (Proc.devRef .tc main_v29) = Wb14 m ρ c (Proc.devRef .tc main_v29) from hostOps1_14_keeps _ main_v29 (by decide)]
  rewrite [show Wb14 m ρ c (Proc.devRef .tc main_v29) = Wb13 m ρ c (Proc.devRef .tc main_v29) from hostOps1_13_keeps _ main_v29 (by decide)]
  rewrite [show Wb13 m ρ c (Proc.devRef .tc main_v29) = Wb12 m ρ c (Proc.devRef .tc main_v29) from hostOps1_12_keeps _ main_v29 (by decide)]
  rewrite [show Wb12 m ρ c (Proc.devRef .tc main_v29) = Wb11 m ρ c (Proc.devRef .tc main_v29) from hostOps1_11_keeps _ main_v29 (by decide)]
  rewrite [show Wb11 m ρ c (Proc.devRef .tc main_v29) = Wb10 m ρ c (Proc.devRef .tc main_v29) from hostOps1_10_keeps _ main_v29 (by decide)]
  rewrite [show Wb10 m ρ c (Proc.devRef .tc main_v29) = Wb9 m ρ c (Proc.devRef .tc main_v29) from hostOps1_9_keeps _ main_v29 (by decide)]
  rewrite [show Wb9 m ρ c (Proc.devRef .tc main_v29) = Wb8 m ρ c (Proc.devRef .tc main_v29) from hostOps1_8_keeps _ main_v29 (by decide)]
  rewrite [show Wb8 m ρ c (Proc.devRef .tc main_v29) = Wb7 m ρ c (Proc.devRef .tc main_v29) from hostOps1_7_keeps _ main_v29 (by decide)]
  rewrite [show Wb7 m ρ c (Proc.devRef .tc main_v29) = Wb6 m ρ c (Proc.devRef .tc main_v29) from hostOps1_6_keeps _ main_v29 (by decide)]
  rewrite [show Wb6 m ρ c (Proc.devRef .tc main_v29) = Wb5 m ρ c (Proc.devRef .tc main_v29) from hostOps1_5_keeps _ main_v29 (by decide)]
  rewrite [show Wb5 m ρ c (Proc.devRef .tc main_v29) = Wb4 m ρ c (Proc.devRef .tc main_v29) from hostOps1_4_keeps _ main_v29 (by decide)]
  rewrite [show Wb4 m ρ c (Proc.devRef .tc main_v29) = Wb3 m ρ c (Proc.devRef .tc main_v29) from hostOps1_3_keeps _ main_v29 (by decide)]
  rewrite [show Wb3 m ρ c (Proc.devRef .tc main_v29) = Wb2 m ρ c (Proc.devRef .tc main_v29) from hostOps1_2_keeps _ main_v29 (by decide)]
  rewrite [show Wb2 m ρ c (Proc.devRef .tc main_v29) = Wb1 m ρ c (Proc.devRef .tc main_v29) from hostOps1_1_keeps _ main_v29 (by decide)]
  rewrite [show Wb1 m ρ c (Proc.devRef .tc main_v29) = _ from hostOps1_v29 (Wb0 m ρ c)]
  rfl

/-- What @main returns: the first 200 columns of the second kernel's result array. -/
theorem Wc1_v127 (c : Dev nD) :
    (Wc1 (F := Ideal) m ρ c (Proc.devRef .tc main_v127) : (⟨S512x200, .f32⟩ : BufTy).Contents (Elt Ideal)) = kOut (Wc0 m ρ c (Proc.devRef .tc main_v126)) := by
  rewrite [show Wc1 m ρ c (Proc.devRef .tc main_v127) = _ from hostOps2_v127 (Wc0 m ρ c)]
  rfl

end Entries

end Cert.KernelIdeal.Hand

end
-- ==== Proof.KI.R0Pieces.lean ====
/- The value each control case of region 0's body leaves, read off the pieces its run found: the accumulator after
   a point is the accumulation payload `k0_pay2` (what it held, plus the product of the x block and the weight
   block) of what the point found — of the zero block `k0_pay1` at k = 0 —, and the output block at k = 14 is the
   epilogue payload `k0_pay3` (bias, normalisation over the rows, scale, shift, x·σ(x)) of the finished
   accumulator and the three parameter rows. Generic in the float instance. -/
import proofs.«146654_j5488968204426_2_alg».proof.Proof.KI.R0Data
import Idealize.ShloMosaic.Lib.Pipeline.Value

-- membership in a rectangle of these extents: the elaborator's structural look recurses once per coordinate
-- of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-block access, as a constant function. -/
theorem hz : (![0, 0] : Fin 2 → Nat) = fun _ => 0 := funext fun a => by fin_cases a <;> rfl

/-- CASE B (0 < k < 14): the accumulator, found at `xs0`, is left at `xs0` plus the product of the blocks — the
    one covering store's payload, whose loads read the whole buffers. -/
theorem sout0_B_0_eq (c : Dev nD) (i : grid0.Coords) (arg2 : Memref sig .tc .vmem S512x8192 .bf16) (harg2 : arg2.IsWhole) (arg3 : Memref sig .tc .vmem S8192x384 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S512x384 .f32) (harg7 : arg7.IsWhole) (arg8 : Memref sig .tc .vmem S512x384 .f32) (harg8 : arg8.IsWhole) (hc0 : ¬cond0_0 i) (hc1 : ¬cond0_1 i)
    (x0 : Vec F S512x8192 .bf16) (x1 : Vec F S8192x384 .bf16) (x2 : Vec F S1x384 .f32) (x3 : Vec F S1x384 .f32) (x4 : Vec F S1x384 .f32) (xs0 : Vec F S512x384 .f32) :
    sout0_B_0 c i arg2 harg2 arg3 harg3 arg4 harg4 arg5 harg5 arg6 harg6 arg7 harg7 arg8 harg8 hc0 hc1 x0 x1 x2 x3 x4 xs0 = k0_pay2 xs0 x0 x1 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x384) hz, View.ld_unit_zero (S := S512x8192) hz, View.ld_unit_zero (S := S8192x384) hz, View.ld_unit_zero (S := S1x384) hz]

/-- CASE A (k = 0): the body stores the zero block, reads it back, and leaves the zero block plus the product of
    the blocks. -/
theorem sout0_A_0_eq (c : Dev nD) (i : grid0.Coords) (arg2 : Memref sig .tc .vmem S512x8192 .bf16) (harg2 : arg2.IsWhole) (arg3 : Memref sig .tc .vmem S8192x384 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S512x384 .f32) (harg7 : arg7.IsWhole) (arg8 : Memref sig .tc .vmem S512x384 .f32) (harg8 : arg8.IsWhole) (hc0 : cond0_0 i) (hc1 : ¬cond0_1 i)
    (x0 : Vec F S512x8192 .bf16) (x1 : Vec F S8192x384 .bf16) (x2 : Vec F S1x384 .f32) (x3 : Vec F S1x384 .f32) (x4 : Vec F S1x384 .f32) :
    sout0_A_0 c i arg2 harg2 arg3 harg3 arg4 harg4 arg5 harg5 arg6 harg6 arg7 harg7 arg8 harg8 hc0 hc1 x0 x1 x2 x3 x4 = k0_pay2 (k0_pay1 (F := F)) x0 x1 := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S512x384) hz, View.readCov_unit_zero (S := S512x384) _ hz]
  simp only [View.readAt_eq_ld, harg2.read_unread, harg3.read_unread, harg4.read_unread, harg5.read_unread, harg6.read_unread, harg7.read_unread, harg8.read_unread, View.ld_unit_zero (S := S512x384) hz, View.ld_unit_zero (S := S512x8192) hz, View.ld_unit_zero (S := S8192x384) hz, View.ld_unit_zero (S := S1x384) hz]

/-- CASE C (k = 14), the accumulator: updated as at the points before. -/
theorem sout0_C_0_eq (c : Dev nD) (i : grid0.Coords) (arg2 : Memref sig .tc .vmem S512x8192 .bf16) (harg2 : arg2.IsWhole) (arg3 : Memref sig .tc .vmem S8192x384 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S512x384 .f32) (harg7 : arg7.IsWhole) (arg8 : Memref sig .tc .vmem S512x384 .f32) (harg8 : arg8.IsWhole) (hc0 : ¬cond0_0 i) (hc1 : cond0_1 i)
    (x0 : Vec F S512x8192 .bf16) (x1 : Vec F S8192x384 .bf16) (x2 : Vec F S1x384 .f32) (x3 : Vec F S1x384 .f32) (x4 : Vec F S1x384 .f32) (xs0 : Vec F S512x384 .f32) :
    sout0_C_0 c i arg2 harg2 arg3 harg3 arg4 harg4 arg5 harg5 arg6 harg6 arg7 harg7 arg8 harg8 hc0 hc1 x0 x1 x2 x3 x4 xs0 = k0_pay2 xs0 x0 x1 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S512x384) hz, View.ld_unit_zero (S := S512x8192) hz, View.ld_unit_zero (S := S8192x384) hz, View.ld_unit_zero (S := S1x384) hz]

/-- CASE C (k = 14), the output block: the epilogue of the finished accumulator (read back after its last update)
    and the three parameter rows. -/
theorem out0_C_5_eq (c : Dev nD) (i : grid0.Coords) (arg2 : Memref sig .tc .vmem S512x8192 .bf16) (harg2 : arg2.IsWhole) (arg3 : Memref sig .tc .vmem S8192x384 .bf16) (harg3 : arg3.IsWhole) (arg4 : Memref sig .tc .vmem S1x384 .f32) (harg4 : arg4.IsWhole) (arg5 : Memref sig .tc .vmem S1x384 .f32) (harg5 : arg5.IsWhole) (arg6 : Memref sig .tc .vmem S1x384 .f32) (harg6 : arg6.IsWhole) (arg7 : Memref sig .tc .vmem S512x384 .f32) (harg7 : arg7.IsWhole) (arg8 : Memref sig .tc .vmem S512x384 .f32) (harg8 : arg8.IsWhole) (hc0 : ¬cond0_0 i) (hc1 : cond0_1 i)
    (x0 : Vec F S512x8192 .bf16) (x1 : Vec F S8192x384 .bf16) (x2 : Vec F S1x384 .f32) (x3 : Vec F S1x384 .f32) (x4 : Vec F S1x384 .f32) (xs0 : Vec F S512x384 .f32) :
    out0_C_5 c i arg2 harg2 arg3 harg3 arg4 harg4 arg5 harg5 arg6 harg6 arg7 harg7 arg8 harg8 hc0 hc1 x0 x1 x2 x3 x4 xs0 = k0_pay3 (k0_pay2 xs0 x0 x1) x2 x3 x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz, View.readCov_unit_zero (S := S512x384) _ hz]
  simp only [View.readAt_eq_ld, harg2.read_unread, harg3.read_unread, harg4.read_unread, harg5.read_unread, harg6.read_unread, harg7.read_unread, harg8.read_unread, View.ld_unit_zero (S := S512x384) hz, View.ld_unit_zero (S := S512x8192) hz, View.ld_unit_zero (S := S8192x384) hz, View.ld_unit_zero (S := S1x384) hz]

end Cert.KernelIdeal.Hand

end
-- ==== Proof.KI.R0Value.lean ====
/- Region 0's output array in closed form, at the entry contents `V` and generic in the float instance. The grid is
   (2, 15), point t = 15·n + k: column block n of the [512, 768] output is the epilogue `k0_pay3` of the accumulator
   after the 15 tiles k = 0 … 14 of the contraction axis, each tile adding the product of the [512, 8192] column
   tile k of the activations and the [8192, 384] tile (k, n) of the weights, and of block n of the three [1, 768]
   parameter rows. Here: the tiles as explicit functions of the arrays; the accumulator by recursion on the tile
   (`accOf`); what the accumulator and the output's buffer hold point by point (by induction along the grid, from
   the case values of the body's runs); what each write-back writes; and, the two write-backs covering the array,
   the array the region leaves (`final0_5`). -/
import proofs.«146654_j5488968204426_2_alg».proof.Proof.KI.R0Pieces
import Idealize.ShloMosaic.Lib.Pipeline.Value
import Idealize.ShloMosaic.Lib.ValueIdx

-- membership in a rectangle of these extents: the elaborator's structural look recurses once per coordinate
-- of the long axes
set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

-- the TensorCore's buffer contents when the region is entered
variable (V : (c : Dev nD) → (b : Ref sig .tc) → Buf (Elt F) ((c : Thread nD τ).loc b))

/-! ## The tiles as functions of the arrays -/

/-- Column tile `k` of the [512, 122880] activations: columns 8192·k … 8192·k + 8191. -/
def xTile (X : Vec F S512x122880 .bf16) (k : Fin 15) : Vec F S512x8192 .bf16 :=
  fun y => X (ix2 (n0 := 512) (n1 := 122880) ⟨(y 0).val, idx2_lt0 y⟩
    ⟨8192 * k.val + (y 1).val, by have := idx2_lt1 y; have := k.isLt; omega⟩)

/-- Tile `(k, n)` of the [122880, 768] weights: rows 8192·k … 8192·k + 8191, columns 384·n … 384·n + 383. -/
def wTile (W : Vec F S122880x768 .bf16) (k : Fin 15) (n : Fin 2) : Vec F S8192x384 .bf16 :=
  fun y => W (ix2 (n0 := 122880) (n1 := 768) ⟨8192 * k.val + (y 0).val, by have := idx2_lt0 y; have := k.isLt; omega⟩
    ⟨384 * n.val + (y 1).val, by have := idx2_lt1 y; have := n.isLt; omega⟩)

/-- Block `n` of a [1, 768] parameter row: columns 384·n … 384·n + 383. -/
def rowTile (r : Vec F S1x768 .f32) (n : Fin 2) : Vec F S1x384 .f32 :=
  fun y => r (ix2 (n0 := 1) (n1 := 768) ⟨(y 0).val, idx2_lt0 y⟩
    ⟨384 * n.val + (y 1).val, by have := idx2_lt1 y; have := n.isLt; omega⟩)

/-! ## The accumulator and the output, as functions of the arrays -/

/-- The accumulator of column block `n` after tile `k`: the zero block plus the tiles' products, added in tile order. -/
def accOf (X : Vec F S512x122880 .bf16) (W : Vec F S122880x768 .bf16) (n : Fin 2) : (k : ℕ) → k < 15 → Vec F S512x384 .f32
  | 0, h => k0_pay2 (k0_pay1 (F := F)) (xTile X ⟨0, h⟩) (wTile W ⟨0, h⟩ n)
  | k + 1, h => k0_pay2 (accOf X W n k (Nat.lt_of_succ_lt h)) (xTile X ⟨k + 1, h⟩) (wTile W ⟨k + 1, h⟩ n)

theorem accOf_zero (X : Vec F S512x122880 .bf16) (W : Vec F S122880x768 .bf16) (n : Fin 2) (k : ℕ) (hk : k < 15) (h0 : k = 0) :
    accOf X W n k hk = k0_pay2 (k0_pay1 (F := F)) (xTile X ⟨k, hk⟩) (wTile W ⟨k, hk⟩ n) := by
  subst h0; rfl

theorem accOf_pos (X : Vec F S512x122880 .bf16) (W : Vec F S122880x768 .bf16) (n : Fin 2) (k : ℕ) (hk : k < 15) (h0 : k ≠ 0) :
    accOf X W n k hk = k0_pay2 (accOf X W n (k - 1) (by omega)) (xTile X ⟨k, hk⟩) (wTile W ⟨k, hk⟩ n) := by
  cases k with
  | zero => exact absurd rfl h0
  | succ k => rfl

theorem accOf_congr (X : Vec F S512x122880 .bf16) (W : Vec F S122880x768 .bf16) {n n' : Fin 2} {k k' : ℕ} (hn : n = n') (hk : k = k')
    (h : k < 15) (h' : k' < 15) : accOf X W n k h = accOf X W n' k' h' := by
  subst hn; subst hk; rfl

/-- Column block `n` of the output: the epilogue of the finished accumulator and block `n` of the three rows. -/
def layer1Blk (X : Vec F S512x122880 .bf16) (W : Vec F S122880x768 .bf16) (b g be : Vec F S1x768 .f32) (n : Fin 2) : Vec F S512x384 .f32 :=
  k0_pay3 (accOf X W n 14 (by decide)) (rowTile b n) (rowTile g n) (rowTile be n)

/-- THE OUTPUT ARRAY: entry (p, j) is entry (p, j mod 384) of column block j / 384. -/
def layer1Arr (X : Vec F S512x122880 .bf16) (W : Vec F S122880x768 .bf16) (b g be : Vec F S1x768 .f32) : Vec F S512x768 .f32 :=
  fun j => layer1Blk X W b g be ⟨(j 1).val / 384, by have := idx2_lt1 j; omega⟩
    (ix2 (n0 := 512) (n1 := 384) ⟨(j 0).val, idx2_lt0 j⟩ ⟨(j 1).val % 384, Nat.mod_lt _ (by decide)⟩)

/-- The array read at an index given by its block and its coordinates inside the block. -/
theorem layer1Arr_apply (X : Vec F S512x122880 .bf16) (W : Vec F S122880x768 .bf16) (b g be : Vec F S1x768 .f32)
    (j : S512x768.Idx) (n : Fin 2) (y : S512x384.Idx) (h0 : (j 0).val = (y 0).val) (h1 : (j 1).val = 384 * n.val + (y 1).val) :
    layer1Arr X W b g be j = layer1Blk X W b g be n y := by
  have hy1 : (y 1).val < 384 := idx2_lt1 y
  have hn : (⟨(j 1).val / 384, by have := idx2_lt1 j; omega⟩ : Fin 2) = n := Fin.ext (by show (j 1).val / 384 = n.val; omega)
  have hy : (ix2 (n0 := 512) (n1 := 384) ⟨(j 0).val, idx2_lt0 j⟩ ⟨(j 1).val % 384, Nat.mod_lt _ (by decide)⟩ : S512x384.Idx) = y := by
    funext a
    apply Fin.ext
    match a with
    | ⟨0, _⟩ => exact h0
    | ⟨1, _⟩ => show (j 1).val % 384 = (y 1).val; omega
  unfold layer1Arr
  rw [hn, hy]

/-! ## The windows' blocks are the tiles -/

/-- The printed index maps, decided over the grid: the activations' tile moves with k, the weights' with (k, n), the
    rows' and the output's with n. -/
theorem idx_facts0 : ∀ t : Fin cfg0.N,
    win0_0.index t (0 : Fin 2) = 0 ∧ win0_0.index t (1 : Fin 2) = t.val % 15
    ∧ win0_1.index t (0 : Fin 2) = t.val % 15 ∧ win0_1.index t (1 : Fin 2) = t.val / 15
    ∧ win0_2.index t (0 : Fin 2) = 0 ∧ win0_2.index t (1 : Fin 2) = t.val / 15
    ∧ win0_3.index t (0 : Fin 2) = 0 ∧ win0_3.index t (1 : Fin 2) = t.val / 15
    ∧ win0_4.index t (0 : Fin 2) = 0 ∧ win0_4.index t (1 : Fin 2) = t.val / 15
    ∧ win0_5.index t (0 : Fin 2) = 0 ∧ win0_5.index t (1 : Fin 2) = t.val / 15 :=
  (by decide +kernel : ∀ t : Fin grid0.N, _)

theorem div15_lt (t : Fin cfg0.N) : t.val / 15 < 2 := by
  have hN : t.val < 30 := lt_of_lt_of_eq t.isLt (show cfg0.N = 30 from N_0)
  omega

theorem iblk0_0_eq (c : Dev nD) (t : Fin cfg0.N) :
    (iblk0 V c 0 t : Vec F S512x8192 .bf16) = xTile (V c main_v1) ⟨t.val % 15, Nat.mod_lt _ (by decide)⟩ := by
  obtain ⟨e0, e1, -⟩ := idx_facts0 t
  funext y
  unfold iblk0 xTile
  rw [View.read_apply]
  show V c main_v1 _ = V c main_v1 _
  congr 1
  funext a
  apply Fin.ext
  match a with
  | ⟨0, _⟩ => show win0_0.index t (0 : Fin 2) * 512 + 1 * (y 0).val = (y 0).val; rw [e0]; omega
  | ⟨1, _⟩ => show win0_0.index t (1 : Fin 2) * 8192 + 1 * (y 1).val = 8192 * (t.val % 15) + (y 1).val; rw [e1]; omega

theorem iblk0_1_eq (c : Dev nD) (t : Fin cfg0.N) :
    (iblk0 V c 1 t : Vec F S8192x384 .bf16) = wTile (V c main_v21) ⟨t.val % 15, Nat.mod_lt _ (by decide)⟩ ⟨t.val / 15, div15_lt t⟩ := by
  obtain ⟨-, -, e0, e1, -⟩ := idx_facts0 t
  funext y
  unfold iblk0 wTile
  rw [View.read_apply]
  show V c main_v21 _ = V c main_v21 _
  congr 1
  funext a
  apply Fin.ext
  match a with
  | ⟨0, _⟩ => show win0_1.index t (0 : Fin 2) * 8192 + 1 * (y 0).val = 8192 * (t.val % 15) + (y 0).val; rw [e0]; omega
  | ⟨1, _⟩ => show win0_1.index t (1 : Fin 2) * 384 + 1 * (y 1).val = 384 * (t.val / 15) + (y 1).val; rw [e1]; omega

theorem iblk0_2_eq (c : Dev nD) (t : Fin cfg0.N) :
    (iblk0 V c 2 t : Vec F S1x384 .f32) = rowTile (V c main_v25) ⟨t.val / 15, div15_lt t⟩ := by
  obtain ⟨-, -, -, -, e0, e1, -⟩ := idx_facts0 t
  funext y
  unfold iblk0 rowTile
  rw [View.read_apply]
  show V c main_v25 _ = V c main_v25 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 384 + 1 * (y 1).val = 384 * (t.val / 15) + (y 1).val; rw [e1]; omega

theorem iblk0_3_eq (c : Dev nD) (t : Fin cfg0.N) :
    (iblk0 V c 3 t : Vec F S1x384 .f32) = rowTile (V c main_v26) ⟨t.val / 15, div15_lt t⟩ := by
  obtain ⟨-, -, -, -, -, -, e0, e1, -⟩ := idx_facts0 t
  funext y
  unfold iblk0 rowTile
  rw [View.read_apply]
  show V c main_v26 _ = V c main_v26 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 384 + 1 * (y 1).val = 384 * (t.val / 15) + (y 1).val; rw [e1]; omega

theorem iblk0_4_eq (c : Dev nD) (t : Fin cfg0.N) :
    (iblk0 V c 4 t : Vec F S1x384 .f32) = rowTile (V c main_v27) ⟨t.val / 15, div15_lt t⟩ := by
  obtain ⟨-, -, -, -, -, -, -, -, e0, e1, -⟩ := idx_facts0 t
  funext y
  unfold iblk0 rowTile
  rw [View.read_apply]
  show V c main_v27 _ = V c main_v27 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 384 + 1 * (y 1).val = 384 * (t.val / 15) + (y 1).val; rw [e1]; omega

/-! ## What the accumulator and the output's buffer hold, point by point -/

/-- At a point with k = 0 the accumulator is left at the zero block plus the product of the point's tiles. -/
theorem scratch_first (c : Dev nD) (t : Fin cfg0.N) (h0 : t.val % 15 = 0) :
    (outsAt0 V c t.val t.isLt).2 = k0_pay2 (k0_pay1 (F := F)) (iblk0 V c 0 t) (iblk0 V c 1 t) := by
  have h1 : ¬t.val % 15 = 14 := by omega
  rw [outsAt0_A V c t h0 h1]
  dsimp only
  exact sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk0 V c 0 t) (iblk0 V c 1 t) (iblk0 V c 2 t) (iblk0 V c 3 t) (iblk0 V c 4 t)

/-- At a point with k > 0 the accumulator is left at what the point before left plus the product of the point's tiles. -/
theorem scratch_next (c : Dev nD) (t : Fin cfg0.N) (h0 : ¬t.val % 15 = 0) (p : ℕ) (hp : p < cfg0.N) (e : p = t.val - 1) :
    (outsAt0 V c t.val t.isLt).2 = k0_pay2 (outsAt0 V c p hp).2 (iblk0 V c 0 t) (iblk0 V c 1 t) := by
  subst e
  by_cases h1 : t.val % 15 = 14
  · rw [outsAt0_C V c t h0 h1]
    dsimp only
    exact sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2
  · rw [outsAt0_B V c t h0 h1]
    dsimp only
    exact sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (outsAt0 V c (t.val - 1) (Nat.lt_of_le_of_lt (Nat.sub_le _ _) t.isLt)).2

/-- At a point with k = 14 the output's buffer is left at the epilogue of the accumulator as that point leaves it. -/
theorem out_last (c : Dev nD) (t : Fin cfg0.N) (h1 : t.val % 15 = 14) :
    (outsAt0 V c t.val t.isLt).1 = k0_pay3 (outsAt0 V c t.val t.isLt).2 (iblk0 V c 2 t) (iblk0 V c 3 t) (iblk0 V c 4 t) := by
  have h0 : ¬t.val % 15 = 0 := by omega
  rw [outsAt0_C V c t h0 h1]
  dsimp only
  rw [sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2]
  exact out0_C_5_eq c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk0 V c 0 t) (iblk0 V c 1 t) (iblk0 V c 2 t) (iblk0 V c 3 t) (iblk0 V c 4 t) (outsAt0 V c (t.val - 1) (Nat.lt_of_le_of_lt (Nat.sub_le _ _) t.isLt)).2

/-- THE ACCUMULATION, in closed form: after point t = 15·n + k the accumulator is `accOf` of the arrays at (n, k) —
    by induction along the grid. -/
theorem scratch_eq (c : Dev nD) : ∀ (t : ℕ) (ht : t < cfg0.N),
    (outsAt0 V c t ht).2 = accOf (V c main_v1) (V c main_v21) ⟨t / 15, div15_lt ⟨t, ht⟩⟩ (t % 15) (Nat.mod_lt _ (by decide)) := by
  intro t
  induction t with
  | zero =>
    intro ht
    refine (scratch_first V c ⟨0, ht⟩ (Nat.zero_mod _)).trans ?_
    rw [iblk0_0_eq, iblk0_1_eq]
    exact (accOf_zero (V c main_v1) (V c main_v21) _ _ _ (Nat.zero_mod _)).symm
  | succ t ih =>
    intro ht
    have hN : t + 1 < 30 := lt_of_lt_of_eq ht (show cfg0.N = 30 from N_0)
    by_cases h0 : (t + 1) % 15 = 0
    · refine (scratch_first V c ⟨t + 1, ht⟩ h0).trans ?_
      rw [iblk0_0_eq, iblk0_1_eq]
      exact (accOf_zero (V c main_v1) (V c main_v21) _ _ _ h0).symm
    · refine (scratch_next V c ⟨t + 1, ht⟩ h0 t (Nat.lt_of_succ_lt ht) (Nat.add_one_sub_one t).symm).trans ?_
      rw [iblk0_0_eq, iblk0_1_eq, ih (Nat.lt_of_succ_lt ht)]
      rw [accOf_pos (V c main_v1) (V c main_v21) ⟨(t + 1) / 15, div15_lt ⟨t + 1, ht⟩⟩ ((t + 1) % 15) (Nat.mod_lt _ (by decide)) h0]
      rw [accOf_congr (V c main_v1) (V c main_v21) (n := ⟨t / 15, div15_lt ⟨t, Nat.lt_of_succ_lt ht⟩⟩) (n' := ⟨(t + 1) / 15, div15_lt ⟨t + 1, ht⟩⟩)
        (k := t % 15) (k' := (t + 1) % 15 - 1) (Fin.ext (by show t / 15 = (t + 1) / 15; omega)) (by omega) (Nat.mod_lt _ (by decide)) (by omega)]

/-- So at a point with k = 14 the output's buffer holds column block n of the output. -/
theorem out_eq (c : Dev nD) (t : Fin cfg0.N) (h1 : t.val % 15 = 14) :
    (outsAt0 V c t.val t.isLt).1 = layer1Blk (V c main_v1) (V c main_v21) (V c main_v25) (V c main_v26) (V c main_v27) ⟨t.val / 15, div15_lt t⟩ := by
  rw [out_last V c t h1, scratch_eq V c t.val t.isLt, iblk0_2_eq, iblk0_3_eq, iblk0_4_eq]
  unfold layer1Blk
  rw [accOf_congr (V c main_v1) (V c main_v21) (n := ⟨t.val / 15, div15_lt ⟨t.val, t.isLt⟩⟩) (n' := ⟨t.val / 15, div15_lt t⟩) (k := t.val % 15) (k' := 14) rfl h1 (Nat.mod_lt _ (by decide)) (by decide)]

/-! ## The write-backs and the array -/

/-- WHAT POINT `t` WRITES BACK (it does at k = 14) is block `t` of the output array. -/
theorem flushed0_5_eq (c : Dev nD) (t : Fin cfg0.N) (hf : (cfg0.win 5).flush t = true) :
    (dat0 V c).flushed 5 t = ((cfg0.win 5).blk t).view.read (Elt F) (layer1Arr (V c main_v1) (V c main_v21) (V c main_v25) (V c main_v26) (V c main_v27)) := by
  have h14 : t.val % 15 = 14 := (flush0_5 t).mp hf
  obtain ⟨-, -, -, -, -, -, -, -, -, -, e0, e1⟩ := idx_facts0 t
  show (cfg0.win 5).cut (grid0.coords t) ((dat0 V c).after 5 t) = _
  rw [after0_5, out_eq V c t h14]
  funext y
  show layer1Blk (V c main_v1) (V c main_v21) (V c main_v25) (V c main_v26) (V c main_v27) ⟨t.val / 15, div15_lt t⟩ y = layer1Arr (V c main_v1) (V c main_v21) (V c main_v25) (V c main_v26) (V c main_v27) (((cfg0.win 5).blk t).view.emb y)
  refine (layer1Arr_apply (V c main_v1) (V c main_v21) (V c main_v25) (V c main_v26) (V c main_v27) (((cfg0.win 5).blk t).view.emb y) ⟨t.val / 15, div15_lt t⟩ y ?_ ?_).symm
  · show win0_5.index t (0 : Fin 2) * 512 + 1 * (y 0).val = (y 0).val; rw [e0]; omega
  · show win0_5.index t (1 : Fin 2) * 384 + 1 * (y 1).val = 384 * (t.val / 15) + (y 1).val; rw [e1]; omega

/-- An index of the array is in point `t`'s block iff each coordinate is in the block's range on its axis. -/
theorem mem_blk0_5 (t : Fin cfg0.N) (i : S512x768.Idx) :
    i ∈ ((cfg0.win 5).blk t).view.set ↔ ∀ a : Fin 2, win0_5.index t a * S512x384.size a ≤ (i a).val ∧ (i a).val < win0_5.index t a * S512x384.size a + S512x384.size a := by
  show i ∈ ((View.whole main_v28).slice (win0_5.rect t)).set ↔ _
  rw [View.set_slice_whole, Rect.mem_set_unit]
  exact Iff.rfl

/-- The two write-backs cover the array: column j is in the block written back at point 15·(j / 384) + 14. -/
theorem cover0_5 (i : S512x768.Idx) : ∃ t : Fin cfg0.N, (cfg0.win 5).flush t = true ∧ i ∈ ((cfg0.win 5).blk t).view.set := by
  have hi0 : (i 0).val < 512 := idx2_lt0 i
  have hi1 : (i 1).val < 768 := idx2_lt1 i
  have hN : cfg0.N = 30 := N_0
  obtain ⟨t, ht⟩ : ∃ t : Fin cfg0.N, t.val = 15 * ((i 1).val / 384) + 14 := ⟨⟨15 * ((i 1).val / 384) + 14, by omega⟩, rfl⟩
  have h14 : t.val % 15 = 14 := by omega
  have hd : t.val / 15 = (i 1).val / 384 := by omega
  obtain ⟨-, -, -, -, -, -, -, -, -, -, e0, e1⟩ := idx_facts0 t
  refine ⟨t, (flush0_5 t).mpr h14, ?_⟩
  rw [mem_blk0_5]
  intro a
  match a with
  | ⟨0, _⟩ => show win0_5.index t (0 : Fin 2) * 512 ≤ (i 0).val ∧ (i 0).val < win0_5.index t (0 : Fin 2) * 512 + 512; rw [e0]; omega
  | ⟨1, _⟩ => show win0_5.index t (1 : Fin 2) * 384 ≤ (i 1).val ∧ (i 1).val < win0_5.index t (1 : Fin 2) * 384 + 384; rw [e1, hd]; omega

/-- THE ARRAY the region leaves in its output: `layer1Arr` of the five arrays it reads, as the region finds them. -/
theorem final0_5 (c : Dev nD) :
    (dat0 V c).arrAt 5 cfg0.N = layer1Arr (V c main_v1) (V c main_v21) (V c main_v25) (V c main_v26) (V c main_v27) :=
  (dat0 V c).arrAt_eq_of_cover 5 (layer1Arr (V c main_v1) (V c main_v21) (V c main_v25) (V c main_v26) (V c main_v27)) (flushed0_5_eq V c) fun i => cover0_5 i

end Cert.KernelIdeal.Hand

end
-- ==== Proof.KI.R1Value.lean ====
/- Region 1's value: what the fused tail kernel leaves in its output array, as the payload chain of layers 2 to 5
   applied to the region-entry arrays. The body loads every staging buffer whole and stores the output's whole, the
   grid has one point and every window's block there is its whole array; so the output array after the region is
   the last layer's payload of the thirteen input arrays. Generic in the float instance. -/
import proofs.«146654_j5488968204426_2_alg».proof.Proof.KI.R1
import Idealize.ShloMosaic.Lib.Pipeline.Value

set_option maxRecDepth 16384

noncomputable section

namespace Cert.KernelIdeal.Hand

open Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The zero offsets of every access, as a constant function. -/
theorem hz1 : (![0, 0] : Fin 2 → Nat) = fun _ => 0 := funext fun a => by fin_cases a <;> rfl

/-! ## From the store's piece to the payload -/

/-- The output buffer after the body is the payload chain of the input buffers themselves: every load is of a whole
    buffer, and the one store writes the whole output buffer. -/
theorem out1_13_eq (x0 : Vec F S512x768 .bf16) (x1 : Vec F S768x768 .bf16) (x2 : Vec F S1x768 .f32) (x3 : Vec F S768x384 .bf16) (x4 : Vec F S1x384 .f32) (x5 : Vec F S1x384 .f32) (x6 : Vec F S1x384 .f32) (x7 : Vec F S384x256 .bf16) (x8 : Vec F S1x256 .f32) (x9 : Vec F S1x256 .f32) (x10 : Vec F S1x256 .f32) (x11 : Vec F S256x256 .bf16) (x12 : Vec F S1x256 .f32) :
    out1_13 x0 x1 x2 x3 x4 x5 x6 x7 x8 x9 x10 x11 x12 = k1_pay1 (k1_pay3 (k1_pay2 x0 x1 x2 x3 x4 x5) x6 x7 x8 x9 x10) (k1_pay4 x11) x12 := by
  unfold out1_13
  rw [View.canon_unit_zero hz1]
  simp only [View.ld_unit_zero (S := S512x768) hz1, View.ld_unit_zero (S := S768x768) hz1, View.ld_unit_zero (S := S1x768) hz1, View.ld_unit_zero (S := S768x384) hz1, View.ld_unit_zero (S := S1x384) hz1, View.ld_unit_zero (S := S384x256) hz1, View.ld_unit_zero (S := S1x256) hz1, View.ld_unit_zero (S := S256x256) hz1]

/-! ## Each window's block at the grid's one point is its whole array -/

/-- Window 0's block index is zero on both axes at every point: its index map is constant. -/
theorem idx1_0_zero (t : Fin cfg1.N) : (fun a => win1_0.index t a * main_v29.ty.shape.size a) = fun _ => 0 :=
  funext fun a => by fin_cases a <;> rfl
/-- Window 1's block index is zero on both axes at every point: its index map is constant. -/
theorem idx1_1_zero (t : Fin cfg1.N) : (fun a => win1_1.index t a * main_v49.ty.shape.size a) = fun _ => 0 :=
  funext fun a => by fin_cases a <;> rfl
/-- Window 2's block index is zero on both axes at every point: its index map is constant. -/
theorem idx1_2_zero (t : Fin cfg1.N) : (fun a => win1_2.index t a * main_v118.ty.shape.size a) = fun _ => 0 :=
  funext fun a => by fin_cases a <;> rfl
/-- Window 3's block index is zero on both axes at every point: its index map is constant. -/
theorem idx1_3_zero (t : Fin cfg1.N) : (fun a => win1_3.index t a * main_v69.ty.shape.size a) = fun _ => 0 :=
  funext fun a => by fin_cases a <;> rfl
/-- Window 4's block index is zero on both axes at every point: its index map is constant. -/
theorem idx1_4_zero (t : Fin cfg1.N) : (fun a => win1_4.index t a * main_v119.ty.shape.size a) = fun _ => 0 :=
  funext fun a => by fin_cases a <;> rfl
/-- Window 5's block index is zero on both axes at every point: its index map is constant. -/
theorem idx1_5_zero (t : Fin cfg1.N) : (fun a => win1_5.index t a * main_v120.ty.shape.size a) = fun _ => 0 :=
  funext fun a => by fin_cases a <;> rfl
/-- Window 6's block index is zero on both axes at every point: its index map is constant. -/
theorem idx1_6_zero (t : Fin cfg1.N) : (fun a => win1_6.index t a * main_v121.ty.shape.size a) = fun _ => 0 :=
  funext fun a => by fin_cases a <;> rfl
/-- Window 7's block index is zero on both axes at every point: its index map is constant. -/
theorem idx1_7_zero (t : Fin cfg1.N) : (fun a => win1_7.index t a * main_v89.ty.shape.size a) = fun _ => 0 :=
  funext fun a => by fin_cases a <;> rfl
/-- Window 8's block index is zero on both axes at every point: its index map is constant. -/
theorem idx1_8_zero (t : Fin cfg1.N) : (fun a => win1_8.index t a * main_v122.ty.shape.size a) = fun _ => 0 :=
  funext fun a => by fin_cases a <;> rfl
/-- Window 9's block index is zero on both axes at every point: its index map is constant. -/
theorem idx1_9_zero (t : Fin cfg1.N) : (fun a => win1_9.index t a * main_v123.ty.shape.size a) = fun _ => 0 :=
  funext fun a => by fin_cases a <;> rfl
/-- Window 10's block index is zero on both axes at every point: its index map is constant. -/
theorem idx1_10_zero (t : Fin cfg1.N) : (fun a => win1_10.index t a * main_v124.ty.shape.size a) = fun _ => 0 :=
  funext fun a => by fin_cases a <;> rfl
/-- Window 11's block index is zero on both axes at every point: its index map is constant. -/
theorem idx1_11_zero (t : Fin cfg1.N) : (fun a => win1_11.index t a * main_v109.ty.shape.size a) = fun _ => 0 :=
  funext fun a => by fin_cases a <;> rfl
/-- Window 12's block index is zero on both axes at every point: its index map is constant. -/
theorem idx1_12_zero (t : Fin cfg1.N) : (fun a => win1_12.index t a * main_v125.ty.shape.size a) = fun _ => 0 :=
  funext fun a => by fin_cases a <;> rfl
/-- Window 13's block index is zero on both axes at every point: its index map is constant. -/
theorem idx1_13_zero (t : Fin cfg1.N) : (fun a => win1_13.index t a * main_v126.ty.shape.size a) = fun _ => 0 :=
  funext fun a => by fin_cases a <;> rfl

/-- Input window 0's block is its array. -/
theorem iblk1_0_eq (c : Dev nD) (t : Fin cfg1.N) : iblk1 V c 0 t = V c (Pipeline.arrRef spec1 0) :=
  Memref.read_access_unit_zero (Elt F) main_v29 (idx1_0_zero t) (fun a => by rw [congrFun (idx1_0_zero t) a]; simp) (V c (Pipeline.arrRef spec1 0))
/-- Input window 1's block is its array. -/
theorem iblk1_1_eq (c : Dev nD) (t : Fin cfg1.N) : iblk1 V c 1 t = V c (Pipeline.arrRef spec1 1) :=
  Memref.read_access_unit_zero (Elt F) main_v49 (idx1_1_zero t) (fun a => by rw [congrFun (idx1_1_zero t) a]; simp) (V c (Pipeline.arrRef spec1 1))
/-- Input window 2's block is its array. -/
theorem iblk1_2_eq (c : Dev nD) (t : Fin cfg1.N) : iblk1 V c 2 t = V c (Pipeline.arrRef spec1 2) :=
  Memref.read_access_unit_zero (Elt F) main_v118 (idx1_2_zero t) (fun a => by rw [congrFun (idx1_2_zero t) a]; simp) (V c (Pipeline.arrRef spec1 2))
/-- Input window 3's block is its array. -/
theorem iblk1_3_eq (c : Dev nD) (t : Fin cfg1.N) : iblk1 V c 3 t = V c (Pipeline.arrRef spec1 3) :=
  Memref.read_access_unit_zero (Elt F) main_v69 (idx1_3_zero t) (fun a => by rw [congrFun (idx1_3_zero t) a]; simp) (V c (Pipeline.arrRef spec1 3))
/-- Input window 4's block is its array. -/
theorem iblk1_4_eq (c : Dev nD) (t : Fin cfg1.N) : iblk1 V c 4 t = V c (Pipeline.arrRef spec1 4) :=
  Memref.read_access_unit_zero (Elt F) main_v119 (idx1_4_zero t) (fun a => by rw [congrFun (idx1_4_zero t) a]; simp) (V c (Pipeline.arrRef spec1 4))
/-- Input window 5's block is its array. -/
theorem iblk1_5_eq (c : Dev nD) (t : Fin cfg1.N) : iblk1 V c 5 t = V c (Pipeline.arrRef spec1 5) :=
  Memref.read_access_unit_zero (Elt F) main_v120 (idx1_5_zero t) (fun a => by rw [congrFun (idx1_5_zero t) a]; simp) (V c (Pipeline.arrRef spec1 5))
/-- Input window 6's block is its array. -/
theorem iblk1_6_eq (c : Dev nD) (t : Fin cfg1.N) : iblk1 V c 6 t = V c (Pipeline.arrRef spec1 6) :=
  Memref.read_access_unit_zero (Elt F) main_v121 (idx1_6_zero t) (fun a => by rw [congrFun (idx1_6_zero t) a]; simp) (V c (Pipeline.arrRef spec1 6))
/-- Input window 7's block is its array. -/
theorem iblk1_7_eq (c : Dev nD) (t : Fin cfg1.N) : iblk1 V c 7 t = V c (Pipeline.arrRef spec1 7) :=
  Memref.read_access_unit_zero (Elt F) main_v89 (idx1_7_zero t) (fun a => by rw [congrFun (idx1_7_zero t) a]; simp) (V c (Pipeline.arrRef spec1 7))
/-- Input window 8's block is its array. -/
theorem iblk1_8_eq (c : Dev nD) (t : Fin cfg1.N) : iblk1 V c 8 t = V c (Pipeline.arrRef spec1 8) :=
  Memref.read_access_unit_zero (Elt F) main_v122 (idx1_8_zero t) (fun a => by rw [congrFun (idx1_8_zero t) a]; simp) (V c (Pipeline.arrRef spec1 8))
/-- Input window 9's block is its array. -/
theorem iblk1_9_eq (c : Dev nD) (t : Fin cfg1.N) : iblk1 V c 9 t = V c (Pipeline.arrRef spec1 9) :=
  Memref.read_access_unit_zero (Elt F) main_v123 (idx1_9_zero t) (fun a => by rw [congrFun (idx1_9_zero t) a]; simp) (V c (Pipeline.arrRef spec1 9))
/-- Input window 10's block is its array. -/
theorem iblk1_10_eq (c : Dev nD) (t : Fin cfg1.N) : iblk1 V c 10 t = V c (Pipeline.arrRef spec1 10) :=
  Memref.read_access_unit_zero (Elt F) main_v124 (idx1_10_zero t) (fun a => by rw [congrFun (idx1_10_zero t) a]; simp) (V c (Pipeline.arrRef spec1 10))
/-- Input window 11's block is its array. -/
theorem iblk1_11_eq (c : Dev nD) (t : Fin cfg1.N) : iblk1 V c 11 t = V c (Pipeline.arrRef spec1 11) :=
  Memref.read_access_unit_zero (Elt F) main_v109 (idx1_11_zero t) (fun a => by rw [congrFun (idx1_11_zero t) a]; simp) (V c (Pipeline.arrRef spec1 11))
/-- Input window 12's block is its array. -/
theorem iblk1_12_eq (c : Dev nD) (t : Fin cfg1.N) : iblk1 V c 12 t = V c (Pipeline.arrRef spec1 12) :=
  Memref.read_access_unit_zero (Elt F) main_v125 (idx1_12_zero t) (fun a => by rw [congrFun (idx1_12_zero t) a]; simp) (V c (Pipeline.arrRef spec1 12))
/-- The payload chain respects equality of its thirteen operands. -/
theorem tail_congr {x0 y0 : Vec F S512x768 .bf16} {x1 y1 : Vec F S768x768 .bf16} {x2 y2 : Vec F S1x768 .f32} {x3 y3 : Vec F S768x384 .bf16} {x4 y4 : Vec F S1x384 .f32} {x5 y5 : Vec F S1x384 .f32} {x6 y6 : Vec F S1x384 .f32} {x7 y7 : Vec F S384x256 .bf16} {x8 y8 : Vec F S1x256 .f32} {x9 y9 : Vec F S1x256 .f32} {x10 y10 : Vec F S1x256 .f32} {x11 y11 : Vec F S256x256 .bf16} {x12 y12 : Vec F S1x256 .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) :
    (k1_pay1 (k1_pay3 (k1_pay2 x0 x1 x2 x3 x4 x5) x6 x7 x8 x9 x10) (k1_pay4 x11) x12 : FVec F S512x256 .f32)
      = k1_pay1 (k1_pay3 (k1_pay2 y0 y1 y2 y3 y4 y5) y6 y7 y8 y9 y10) (k1_pay4 y11) y12 := by
  subst h0 h1 h2 h3 h4 h5 h6 h7 h8 h9 h10 h11 h12; rfl

/-! ## The output array after the region -/

/-- The array the region leaves in its output window: layers 2 to 5's payload chain of the thirteen arrays the region
    finds in its input windows. -/
def tail1 (c : Dev nD) : Buf (Elt F) ((c : Thread nD τ).loc main_v126) :=
  k1_pay1 (k1_pay3 (k1_pay2 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) (V c (Pipeline.arrRef spec1 6)) (V c (Pipeline.arrRef spec1 7)) (V c (Pipeline.arrRef spec1 8)) (V c (Pipeline.arrRef spec1 9)) (V c (Pipeline.arrRef spec1 10))) (k1_pay4 (V c (Pipeline.arrRef spec1 11))) (V c (Pipeline.arrRef spec1 12))

set_option maxHeartbeats 1000000 in
/-- What the grid's point writes back to the output's array is that payload, read through the point's block. -/
theorem flushed1_13_eq (c : Dev nD) (t : Fin cfg1.N) :
    (dat1 V c).flushed 13 t = ((cfg1.win 13).blk t).view.read (Elt F) (tail1 V c) := by
  show (cfg1.win 13).cut (grid1.coords t) ((dat1 V c).after 13 t) = _
  rewrite [after1_13, out1_13_eq]
  refine (congrArg _ (tail_congr (iblk1_0_eq V c t) (iblk1_1_eq V c t) (iblk1_2_eq V c t) (iblk1_3_eq V c t) (iblk1_4_eq V c t) (iblk1_5_eq V c t) (iblk1_6_eq V c t) (iblk1_7_eq V c t) (iblk1_8_eq V c t) (iblk1_9_eq V c t) (iblk1_10_eq V c t) (iblk1_11_eq V c t) (iblk1_12_eq V c t))).trans ?_
  exact (Memref.read_access_unit_zero (Elt F) main_v126 (idx1_13_zero t) (fun a => by rw [congrFun (idx1_13_zero t) a]; simp) (tail1 V c)).symm

/-- The one point's block covers the output array. -/
theorem cover1_13_arr (i : S512x256.Idx) :
    ∃ t : Fin cfg1.N, (cfg1.win 13).flush t = true ∧ i ∈ ((cfg1.win 13).blk t).view.set :=
  ⟨t1_0, flush1_13 t1_0, by
    show i ∈ ((View.whole main_v126).slice (win1_13.rect t1_0)).set
    rw [View.set_slice_whole, Rect.mem_set_unit]
    intro a
    have h0 : (i 0 : Nat) < 512 := (i 0).isLt
    have h1 : (i 1 : Nat) < 256 := (i 1).isLt
    match a with
    | ⟨0, _⟩ => show win1_13.index t1_0 0 * win1_13.size 0 ≤ (i 0 : Nat) ∧ (i 0 : Nat) < win1_13.index t1_0 0 * win1_13.size 0 + win1_13.xsize (grid1.coords t1_0) 0
                rw [show win1_13.index t1_0 0 * win1_13.size 0 = 0 from by decide +kernel, show win1_13.xsize (grid1.coords t1_0) 0 = 512 from by decide +kernel]; omega
    | ⟨1, _⟩ => show win1_13.index t1_0 1 * win1_13.size 1 ≤ (i 1 : Nat) ∧ (i 1 : Nat) < win1_13.index t1_0 1 * win1_13.size 1 + win1_13.xsize (grid1.coords t1_0) 1
                rw [show win1_13.index t1_0 1 * win1_13.size 1 = 0 from by decide +kernel, show win1_13.xsize (grid1.coords t1_0) 1 = 256 from by decide +kernel]; omega⟩

/-- So the output array ends the region holding the payload chain of the region-entry arrays. -/
theorem final1_13 (c : Dev nD) : (dat1 V c).arrAt 13 cfg1.N = tail1 V c :=
  (dat1 V c).arrAt_eq_of_cover 13 (tail1 V c) (fun t _ => flushed1_13_eq V c t) (cover1_13_arr)

/-- The same with the payload chain spelt out over the windows' arrays. -/
theorem final1_13_pay (c : Dev nD) : (dat1 V c).arrAt 13 cfg1.N
    = k1_pay1 (k1_pay3 (k1_pay2 (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) (V c (Pipeline.arrRef spec1 6)) (V c (Pipeline.arrRef spec1 7)) (V c (Pipeline.arrRef spec1 8)) (V c (Pipeline.arrRef spec1 9)) (V c (Pipeline.arrRef spec1 10))) (k1_pay4 (V c (Pipeline.arrRef spec1 11))) (V c (Pipeline.arrRef spec1 12)) :=
  final1_13 V c

/-- The same over the arrays' buffer names. -/
theorem final1_13_names (c : Dev nD) : (dat1 V c).arrAt 13 cfg1.N
    = k1_pay1 (k1_pay3 (k1_pay2 (V c main_v29) (V c main_v49) (V c main_v118) (V c main_v69) (V c main_v119) (V c main_v120)) (V c main_v121) (V c main_v89) (V c main_v122) (V c main_v123) (V c main_v124)) (k1_pay4 (V c main_v109)) (V c main_v125) :=
  final1_13 V c

end Cert.KernelIdeal.Hand

end
-- ==== Proof.KI.Value.lean ====
/- The kernel program's result as one term of the argument arrays, at the ideal instance: the array @main returns is
   the last layer's payload chain of the second kernel, applied to the first kernel's output array (the first layer
   of the padded input and the padded transposed weights, in the narrow format) and to the padded transposed weight
   matrices and padded rows of layers 2 to 5, cut back to the first 200 columns. Each array a kernel region reads is
   read back through the run's boundary contents to the launch contents of the argument arrays. -/
import proofs.«146654_j5488968204426_2_alg».proof.Proof.KI.HostReads
import proofs.«146654_j5488968204426_2_alg».proof.Proof.KI.R0Value
import proofs.«146654_j5488968204426_2_alg».proof.Proof.KI.R1Value

set_option maxRecDepth 16384

noncomputable section

namespace Cert.KernelIdeal.Hand

open Cert.KernelIdeal Cert.KernelIdeal.Gen Cert.KernelGlue
open Idealize.ShloMosaic Idealize.ShloMosaic.TcCoe Idealize.SL.Sem

variable (m : (ℓ : Loc nD τ sig) → Buf (Elt Ideal) ℓ) (ρ : Dev nD → PrngReg)

/-- The first layer's array respects equality of its five operands. -/
theorem layer1Arr_congr {F : FTy → Type} [FloatOps F] {X X' : Vec F S512x122880 .bf16} {W W' : Vec F S122880x768 .bf16}
    {b b' g g' be be' : Vec F S1x768 .f32} (hX : X = X') (hW : W = W') (hb : b = b') (hg : g = g') (hbe : be = be') :
    layer1Arr X W b g be = layer1Arr X' W' b' g' be' := by
  subst hX hW hb hg hbe; rfl

/-- The first kernel's output array at region 0's exit: the first layer of the padded input, the padded transposed
    weights and the three padded rows. -/
theorem Wb0_v28 (c : Dev nD) :
    (Wb0 (F := Ideal) m ρ c (Proc.devRef .tc main_v28) : (⟨S512x768, .f32⟩ : BufTy).Contents (Elt Ideal))
      = layer1Arr (F := Ideal) (kX (m ((c : Thread nD τ).loc main_arg0))) (kWeightT1 (m ((c : Thread nD τ).loc main_arg1)) (m ((c : Thread nD τ).loc main_arg2))) (kRow600 (m ((c : Thread nD τ).loc main_arg3))) (kRow600 (m ((c : Thread nD τ).loc main_arg16))) (kRow600 (m ((c : Thread nD τ).loc main_arg17))) := by
  rewrite [show Wb0 m ρ c (Proc.devRef .tc main_v28) = _ from Wb0_arr m ρ c 5]
  rewrite [final0_5 (Va m ρ) c]
  exact layer1Arr_congr (Wa9_v1 m ρ c) (Wa9_v21 m ρ c) (Wa9_v25 m ρ c) (Wa9_v26 m ρ c) (Wa9_v27 m ρ c)

set_option maxHeartbeats 1000000 in
/-- THE RESULT: what @main returns, as the host-operation chains and the two kernels' payloads of the launch
    contents of the argument arrays. -/
theorem result_eq (c : Dev nD) :
    (Wc1 (F := Ideal) m ρ c (Proc.devRef .tc main_v127) : (⟨S512x200, .f32⟩ : BufTy).Contents (Elt Ideal))
      = kOut (k1_pay1 (k1_pay3 (k1_pay2 (kMid (layer1Arr (F := Ideal) (kX (m ((c : Thread nD τ).loc main_arg0))) (kWeightT1 (m ((c : Thread nD τ).loc main_arg1)) (m ((c : Thread nD τ).loc main_arg2))) (kRow600 (m ((c : Thread nD τ).loc main_arg3))) (kRow600 (m ((c : Thread nD τ).loc main_arg16))) (kRow600 (m ((c : Thread nD τ).loc main_arg17))))) (kWeightT2 (m ((c : Thread nD τ).loc main_arg4)) (m ((c : Thread nD τ).loc main_arg5))) (kRow600 (m ((c : Thread nD τ).loc main_arg6))) (kWeightT3 (m ((c : Thread nD τ).loc main_arg7)) (m ((c : Thread nD τ).loc main_arg8))) (kRow300 (m ((c : Thread nD τ).loc main_arg9))) (kRow300 (m ((c : Thread nD τ).loc main_arg18)))) (kRow300 (m ((c : Thread nD τ).loc main_arg19))) (kWeightT4 (m ((c : Thread nD τ).loc main_arg10)) (m ((c : Thread nD τ).loc main_arg11))) (kRow200 (m ((c : Thread nD τ).loc main_arg12))) (kRow200 (m ((c : Thread nD τ).loc main_arg20))) (kRow200 (m ((c : Thread nD τ).loc main_arg21)))) (k1_pay4 (kWeightT5 (m ((c : Thread nD τ).loc main_arg13)) (m ((c : Thread nD τ).loc main_arg14)))) (kRow200 (m ((c : Thread nD τ).loc main_arg15)))) := by
  rewrite [Wc1_v127 m ρ c]
  rewrite [show Wc0 m ρ c (Proc.devRef .tc main_v126) = _ from Wc0_arr m ρ c 13]
  rewrite [final1_13_names (Vb m ρ) c]
  refine congrArg kOut (tail_congr ?_ ?_ ?_ ?_ ?_ ?_ ?_ ?_ ?_ ?_ ?_ ?_ ?_)
  · exact (Wb17_v29 m ρ c).trans (congrArg kMid (Wb0_v28 m ρ c))
  · exact Wb17_v49 m ρ c
  · exact Wb17_v118 m ρ c
  · exact Wb17_v69 m ρ c
  · exact Wb17_v119 m ρ c
  · exact Wb17_v120 m ρ c
  · exact Wb17_v121 m ρ c
  · exact Wb17_v89 m ρ c
  · exact Wb17_v122 m ρ c
  · exact Wb17_v123 m ρ c
  · exact Wb17_v124 m ρ c
  · exact Wb17_v109 m ρ c
  · exact Wb17_v125 m ρ c

end Cert.KernelIdeal.Hand

end
-- ==== Proof.Spec.lean ====
/-
  The network both programs compute, as ONE function of the argument arrays on the extended reals.

  Five linear layers whose weight matrices are given as lists of (row, column, value) triples: entry (r, c) of a layer's
  matrix is the sum of the values of the triples naming (r, c). Layers 1, 3 and 4 are followed by a normalisation of
  each output column over the 512 rows (mean and mean squared deviation over the rows, the f32 word of 1e-5 under the
  reciprocal square root, a scale and a shift per column) and every layer but the last by the sigmoid-weighted unit
  v * logistic v.
-/
import Idealize.ShloMosaic.PureOps.Ideal
import Idealize.ShloMosaic.Lib.ValueIdx

noncomputable section

namespace Cert.Spec

open Idealize.ShloMosaic

/-- The number of rows, as the f32 word both programs divide by. -/
abbrev c512 : EReal := Ideal.ofBits .f32 0x44000000#32
/-- The f32 word of 1e-5 both programs add under the reciprocal square root. -/
abbrev eps : EReal := Ideal.ofBits .f32 0x3727C5AC#32

/-- Entry (r, c) of the matrix a list of triples describes: the sum of the values whose (row, column) is (r, c). -/
def weight {E : Nat} (rows cols : Fin E → Int) (val : Fin E → EReal) (O I : Nat) (r : Fin O) (c : Fin I) : EReal :=
  ∑ e : Fin E, if rows e = (r.val : Int) ∧ cols e = (c.val : Int) then val e else 0

/-- A linear layer on the rows of x: x · Wᵀ + b. -/
def lin {B I O : Nat} (x : Fin B → Fin I → EReal) (Wm : Fin O → Fin I → EReal) (b : Fin O → EReal) :
    Fin B → Fin O → EReal :=
  fun p q => (∑ k : Fin I, x p k * Wm q k) + b q

/-- The mean of column q over the rows. -/
def colMean {B O : Nat} (y : Fin B → Fin O → EReal) (q : Fin O) : EReal :=
  Ideal.div (∑ p : Fin B, y p q) c512

/-- The mean squared deviation of column q from its mean. -/
def colVar {B O : Nat} (y : Fin B → Fin O → EReal) (q : Fin O) : EReal :=
  Ideal.div (∑ p : Fin B, (y p q - colMean y q) * (y p q - colMean y q)) c512

/-- Normalise each column over the rows, then scale and shift it. -/
def bn {B O : Nat} (y : Fin B → Fin O → EReal) (g be : Fin O → EReal) : Fin B → Fin O → EReal :=
  fun p q => (y p q - colMean y q) * Ideal.rsqrt (colVar y q + eps) * g q + be q

/-- The sigmoid-weighted unit. -/
def silu (v : EReal) : EReal := v * Ideal.logistic v

/-- A layer with normalisation and activation. -/
def layerBn {B I O : Nat} (x : Fin B → Fin I → EReal) (Wm : Fin O → Fin I → EReal) (b g be : Fin O → EReal) :
    Fin B → Fin O → EReal :=
  fun p q => silu (bn (lin x Wm b) g be p q)

/-- A layer with activation only. -/
def layerAct {B I O : Nat} (x : Fin B → Fin I → EReal) (Wm : Fin O → Fin I → EReal) (b : Fin O → EReal) :
    Fin B → Fin O → EReal :=
  fun p q => silu (lin x Wm b p q)

/-- The five layers. -/
def net (x : Fin 512 → Fin 120000 → EReal)
    (W1 : Fin 600 → Fin 120000 → EReal) (b1 : Fin 600 → EReal)
    (W2 : Fin 600 → Fin 600 → EReal) (b2 : Fin 600 → EReal)
    (W3 : Fin 300 → Fin 600 → EReal) (b3 : Fin 300 → EReal)
    (W4 : Fin 200 → Fin 300 → EReal) (b4 : Fin 200 → EReal)
    (W5 : Fin 200 → Fin 200 → EReal) (b5 : Fin 200 → EReal)
    (g1 be1 : Fin 600 → EReal) (g2 be2 : Fin 300 → EReal) (g3 be3 : Fin 200 → EReal) :
    Fin 512 → Fin 200 → EReal :=
  lin (layerBn (layerBn (layerAct (layerBn x W1 b1 g1 be1) W2 b2) W3 b3 g2 be2) W4 b4 g3 be3) W5 b5

end Cert.Spec

end
-- ==== Proof.LibScatterPairs.lean ====
/-
  An accumulating scatter into a matrix at (row, column) index pairs, read at coordinates (any extents).

  The start indices are an array [E, 2] whose second axis is the index vector: update e carries the pair
  (idx (e, 0), idx (e, 1)); both operand axes are inserted window axes and the updates are a vector [E]
  (jnp's zeros((N, C)).at[rows, cols].add(vals): the dense matrix of a list of (row, column, value) triples).
  * At the ideal instance entry (n, c) is the operand's entry plus the sum over e of the updates whose pair, read
    signed and NOT clamped, is exactly (n, c); an update whose pair is outside [0, N) x [0, C) adds nothing.
  * When every pair lies in a box [0, N0) x [0, C0), an entry outside that box receives no update: a matrix built
    directly at a padded size has its padding untouched.
-/
import Idealize.ShloMosaic.Lib.ValueIdx
import Idealize.ShloMosaic.PureOps.Ideal.Laws

noncomputable section

namespace Idealize.ShloMosaic.ScatterPairs

open Idealize.ShloMosaic Idealize.ShloMosaic.ValueIdx

/-- A sum over the index set of a rank-1 shape is the sum over its one coordinate. -/
theorem sum_idx1 {M : Type*} [AddCommMonoid M] {n : Nat} (g : (⟨1, ![n]⟩ : Shape).Idx → M) :
    ∑ i, g i = ∑ a : Fin n, g (ix1 a) := by
  refine Fintype.sum_equiv ⟨fun i => i 0, fun a => ix1 a, fun i => (eq_ix1 i).symm, fun _ => rfl⟩ _ _ (fun i => ?_)
  exact congrArg g (eq_ix1 i)

variable {φ : FTy}

/-- zeros[N, C].at[idx[:, 0], idx[:, 1]].add(upd) for updates [E] and index pairs [E, 2]. -/
abbrev pairScatterDims (N C E : Nat) (wf : ScatterDims.WF ⟨2, ![N, C]⟩ ⟨2, ![E, 2]⟩ ⟨1, ![E]⟩ [] [0, 1] [0, 1] 1) :
    ScatterDims ⟨2, ![N, C]⟩ ⟨2, ![E, 2]⟩ ⟨1, ![E]⟩ where
  updateWindowDims := []
  insertedWindowDims := [0, 1]
  scatterDimsToOperandDims := [0, 1]
  indexVectorDim := 1
  wf := wf

/-- The start of update e on the row axis is the first component of its pair, read signed. -/
theorem pair_start0 {N C E w : Nat} (wf : ScatterDims.WF ⟨2, ![N, C]⟩ ⟨2, ![E, 2]⟩ ⟨1, ![E]⟩ [] [0, 1] [0, 1] 1)
    (idx : IVec ⟨2, ![E, 2]⟩ w) (e : Fin E) :
    (pairScatterDims N C E wf).start (ix1 e) idx (0 : Fin 2) = (idx (ix2 e 0)).toInt := by
  unfold ScatterDims.start
  rw [dif_pos (show (0 : Fin 2) ∈ (pairScatterDims N C E wf).scatterDimsToOperandDims from by simp)]
  have hsi : (pairScatterDims N C E wf).siIdx (ix1 e) ⟨List.idxOf (0 : Fin 2) (pairScatterDims N C E wf).scatterDimsToOperandDims,
      List.idxOf_lt_length_iff.2 (by simp)⟩ = ix2 e 0 := by
    funext b; refine Fin.ext ?_
    match b with
    | ⟨0, _⟩ => rfl
    | ⟨1, _⟩ => rfl
  rw [hsi]

/-- The start of update e on the column axis is the second component of its pair, read signed. -/
theorem pair_start1 {N C E w : Nat} (wf : ScatterDims.WF ⟨2, ![N, C]⟩ ⟨2, ![E, 2]⟩ ⟨1, ![E]⟩ [] [0, 1] [0, 1] 1)
    (idx : IVec ⟨2, ![E, 2]⟩ w) (e : Fin E) :
    (pairScatterDims N C E wf).start (ix1 e) idx (1 : Fin 2) = (idx (ix2 e 1)).toInt := by
  unfold ScatterDims.start
  rw [dif_pos (show (1 : Fin 2) ∈ (pairScatterDims N C E wf).scatterDimsToOperandDims from by simp)]
  have hsi : (pairScatterDims N C E wf).siIdx (ix1 e) ⟨List.idxOf (1 : Fin 2) (pairScatterDims N C E wf).scatterDimsToOperandDims,
      List.idxOf_lt_length_iff.2 (by simp)⟩ = ix2 e 1 := by
    funext b; refine Fin.ext ?_
    match b with
    | ⟨0, _⟩ => rfl
    | ⟨1, _⟩ => rfl
  rw [hsi]

/-- Both operand axes are inserted: an update is a single element, its window coordinate zero on each axis. -/
theorem pair_window {N C E : Nat} (wf : ScatterDims.WF ⟨2, ![N, C]⟩ ⟨2, ![E, 2]⟩ ⟨1, ![E]⟩ [] [0, 1] [0, 1] 1)
    (e : Fin E) (a : Fin 2) : (pairScatterDims N C E wf).window (ix1 e) a = 0 := by
  unfold ScatterDims.window
  rw [dif_neg]
  intro h
  have h2 := (List.mem_filter.mp h).2
  match a with
  | ⟨0, _⟩ => simp at h2
  | ⟨1, _⟩ => simp at h2

/-- Update e lands on entry (n, c) exactly when its pair, read signed, is (n, c). -/
theorem pair_lands_iff {N C E w : Nat} (wf : ScatterDims.WF ⟨2, ![N, C]⟩ ⟨2, ![E, 2]⟩ ⟨1, ![E]⟩ [] [0, 1] [0, 1] 1)
    (idx : IVec ⟨2, ![E, 2]⟩ w) (e : Fin E) (n : Fin N) (c : Fin C) :
    (pairScatterDims N C E wf).resultIdx? (ix1 e) idx = some (ix2 n c)
      ↔ (idx (ix2 e 0)).toInt = (n.val : Int) ∧ (idx (ix2 e 1)).toInt = (c.val : Int) := by
  unfold ScatterDims.resultIdx?
  split
  · rename_i h
    rw [Option.some.injEq]
    constructor
    · intro heq
      have h0 := congrArg (fun (i : (⟨2, ![N, C]⟩ : Shape).Idx) => (i 0).val) heq
      have h1 := congrArg (fun (i : (⟨2, ![N, C]⟩ : Shape).Idx) => (i 1).val) heq
      simp only [pair_start0, pair_start1, pair_window] at h0 h1
      have hp0 := (h 0).1
      have hp1 := (h 1).1
      rw [pair_start0, pair_window] at hp0
      rw [pair_start1, pair_window] at hp1
      have hn : ((ix2 n c : (⟨2, ![N, C]⟩ : Shape).Idx) 0).val = n.val := rfl
      have hc : ((ix2 n c : (⟨2, ![N, C]⟩ : Shape).Idx) 1).val = c.val := rfl
      refine ⟨?_, ?_⟩
      · show (idx (ix2 e 0)).toInt = ((n.val : Nat) : Int)
        omega
      · show (idx (ix2 e 1)).toInt = ((c.val : Nat) : Int)
        omega
    · rintro ⟨h0, h1⟩
      funext a
      refine Fin.ext ?_
      match a with
      | ⟨0, _⟩ =>
        show ((pairScatterDims N C E wf).start (ix1 e) idx 0 + ((pairScatterDims N C E wf).window (ix1 e) 0 : Nat)).toNat = n.val
        rw [pair_start0, pair_window, h0]; simp
      | ⟨1, _⟩ =>
        show ((pairScatterDims N C E wf).start (ix1 e) idx 1 + ((pairScatterDims N C E wf).window (ix1 e) 1 : Nat)).toNat = c.val
        rw [pair_start1, pair_window, h1]; simp
  · rename_i h
    constructor
    · intro heq; exact absurd heq (by simp)
    · rintro ⟨h0, h1⟩
      refine absurd (fun a => ?_) h
      match a with
      | ⟨0, _⟩ =>
        show 0 ≤ (pairScatterDims N C E wf).start (ix1 e) idx 0 + ((pairScatterDims N C E wf).window (ix1 e) 0 : Nat)
          ∧ (pairScatterDims N C E wf).start (ix1 e) idx 0 + ((pairScatterDims N C E wf).window (ix1 e) 0 : Nat) < ((N : Nat) : Int)
        rw [pair_start0, pair_window, h0]
        have : n.val < N := n.isLt
        constructor <;> simp <;> omega
      | ⟨1, _⟩ =>
        show 0 ≤ (pairScatterDims N C E wf).start (ix1 e) idx 1 + ((pairScatterDims N C E wf).window (ix1 e) 1 : Nat)
          ∧ (pairScatterDims N C E wf).start (ix1 e) idx 1 + ((pairScatterDims N C E wf).window (ix1 e) 1 : Nat) < ((C : Nat) : Int)
        rw [pair_start1, pair_window, h1]
        have : c.val < C := c.isLt
        constructor <;> simp <;> omega

/-- The accumulating scatter at index pairs, read at entry (n, c): the operand's entry plus the updates whose pair is (n, c). -/
theorem scatterAdd_pairs_apply {N C E w : Nat} (wf : ScatterDims.WF ⟨2, ![N, C]⟩ ⟨2, ![E, 2]⟩ ⟨1, ![E]⟩ [] [0, 1] [0, 1] 1)
    (x : FVec Ideal ⟨2, ![N, C]⟩ φ) (idx : IVec ⟨2, ![E, 2]⟩ w) (upd : FVec Ideal ⟨1, ![E]⟩ φ) (n : Fin N) (c : Fin C) :
    Host.scatterAdd (pairScatterDims N C E wf) x idx upd (ix2 n c)
      = x (ix2 n c) + ∑ e : Fin E,
          if (idx (ix2 e 0)).toInt = (n.val : Int) ∧ (idx (ix2 e 1)).toInt = (c.val : Int) then upd (ix1 e) else 0 := by
  show Ideal.hostScatterAdd (pairScatterDims N C E wf) x idx upd (ix2 n c) = _
  unfold Ideal.hostScatterAdd
  congr 1
  rw [Finset.sum_filter, sum_idx1]
  refine Finset.sum_congr rfl (fun e _ => ?_)
  simp only [pair_lands_iff]

/-- When every pair lies in the box [0, N0) x [0, C0), no update reaches an entry outside that box: the sum of the
    updates whose pair is (n, c) is zero there. -/
theorem pairs_sum_eq_zero_of_outside {M : Type*} [AddCommMonoid M] {E w N0 C0 : Nat} (idx : IVec ⟨2, ![E, 2]⟩ w)
    (upd : Fin E → M)
    (hin : ∀ e : Fin E, 0 ≤ (idx (ix2 e 0)).toInt ∧ (idx (ix2 e 0)).toInt < (N0 : Int)
      ∧ 0 ≤ (idx (ix2 e 1)).toInt ∧ (idx (ix2 e 1)).toInt < (C0 : Int))
    (n c : Nat) (hout : ¬ (n < N0 ∧ c < C0)) :
    (∑ e : Fin E, if (idx (ix2 e 0)).toInt = (n : Int) ∧ (idx (ix2 e 1)).toInt = (c : Int) then upd e else 0) = 0 := by
  refine Finset.sum_eq_zero (fun e _ => ?_)
  rw [if_neg]
  rintro ⟨h0, h1⟩
  obtain ⟨_, hl0, _, hl1⟩ := hin e
  exact hout ⟨by omega, by omega⟩

end Idealize.ShloMosaic.ScatterPairs

end
-- ==== Proof.KG.Reads.lean ====
/-
  The kernel program's host operations read at an index (at the ideal instance).

  * The padded input reads the input where the column is below 120000 and zero beyond: the padding value is the zero
    word read as a signed integer and made a float.
  * A padded row reads the vector below its length and zero beyond.
  * The final cut reads the second kernel's result at the same coordinates.
  * A layer's padded transposed weight matrix, when every (row, column) pair of its list lies within the layer's true
    extents [0, O) x [0, I): entry (k, j) is entry (j, k) of the matrix the list describes -- the sum of the values
    whose (row, column) is (j, k) -- where k < I and j < O, and zero in the padding. For a nonnegative index the
    replacement of v by v + n where v < 0 changes nothing; column 0 of a pair is the COLUMN index, column 1 the ROW
    index; the accumulating scatter into a zero matrix adds, at an entry, exactly the values whose pair is that entry;
    and no pair reaches the padding.
-/
import proofs.«146654_j5488968204426_2_alg».proof.Proof.KG.Defs
import proofs.«146654_j5488968204426_2_alg».proof.Proof.Spec
import proofs.«146654_j5488968204426_2_alg».proof.Proof.LibScatterPairs
import Idealize.ShloMosaic.Lib.ValueLayout
import Idealize.ShloMosaic.Lib.KernelVsHost
import Idealize.ShloMosaic.Lib.Pipeline.Value

noncomputable section

namespace Cert.KernelGlue

open Idealize.ShloMosaic Idealize.ShloMosaic.ValueIdx Idealize.ShloMosaic.ScatterPairs

/-! ## The pieces at an index -/

/-- The padding value is zero: the zero word, read as a signed integer, as a float. -/
theorem padValue_zero (φ : FTy) (i : (⟨0, ![]⟩ : Shape).Idx) :
    (sitofp (F := Ideal) φ (constantI ⟨0, ![]⟩ 32 0#32) : FVec Ideal ⟨0, ![]⟩ φ) i = 0 := by
  show (((0#32 : BitVec 32).toInt : ℝ) : EReal) = 0
  simp

/-- Row r of the index array at position e. -/
theorem idxRow_apply {E : Nat} (r : Nat) (hs : (⟨2, ![2, E]⟩ : Shape).Slices ![r, 0] ⟨2, ![1, E]⟩)
    (hc : (⟨2, ![1, E]⟩ : Shape).ShapeCasts ⟨1, ![E]⟩) (idx : IVec ⟨2, ![2, E]⟩ 32) (k : Fin 2) (hk : k.val = r)
    (e : Fin E) : idxRow r hs hc idx (ix1 e) = idx (ix2 k e) := by
  unfold idxRow
  rw [shapeCast_1a_a_apply]
  exact slice2_axis0_apply r idx hs (0 : Fin 1) e k (by rw [hk]; rfl)

/-- A nonnegative index is left as it is. -/
theorem normIdx_apply_of_nonneg {E : Nat} (hb : (⟨0, ![]⟩ : Shape).BroadcastsInDim ⟨1, ![E]⟩ (![] : Fin 0 → Fin 1))
    (n : BitVec 32) (v : IVec ⟨1, ![E]⟩ 32) (e : Fin E) (h0 : 0 ≤ (v (ix1 e)).toInt) :
    normIdx hb n v (ix1 e) = v (ix1 e) := by
  unfold normIdx
  rw [select_apply]
  have hlt : (v (ix1 e)).slt 0#32 = false := by
    simp only [BitVec.slt, BitVec.toInt_zero]
    exact decide_eq_false (not_lt.mpr h0)
  have hcond : cmpi .slt v (broadcastInDim ⟨1, ![E]⟩ ![] hb (constantI ⟨0, ![]⟩ 32 0#32)) (ix1 e) = 0#1 := by
    show BitVec.ofBool ((v (ix1 e)).slt 0#32) = 0#1
    rw [hlt]; rfl
  rw [hcond, select_zero]

/-- Column 0 of the pairs is the first vector. -/
theorem idxPairs_apply0 {E : Nat} (hb1 : (⟨1, ![E]⟩ : Shape).BroadcastsInDim ⟨2, ![E, 1]⟩ (![0] : Fin 1 → Fin 2))
    (hcat : Shape.Concatenates [⟨2, ![E, 1]⟩, ⟨2, ![E, 1]⟩] ⟨2, ![E, 2]⟩ 1) (a b : IVec ⟨1, ![E]⟩ 32) (e : Fin E) :
    idxPairs hb1 hcat a b (ix2 e (0 : Fin 2)) = a (ix1 e) := by
  unfold idxPairs
  refine (concatenate_pair_apply_left _ _ _ hcat (ix2 e (0 : Fin 2)) rfl (ix2 e (0 : Fin 1)) (fun ax => ?_)).trans ?_
  · match ax with
    | ⟨0, _⟩ => rfl
    | ⟨1, _⟩ => rfl
  · refine broadcastInDim_apply _ hb1 a _ (ix1 e) (fun ax => ?_)
    match ax with
    | ⟨0, _⟩ =>
      show e.val = if E = 1 then 0 else e.val
      split
      · have := e.isLt; omega
      · rfl

/-- Column 1 of the pairs is the second vector. -/
theorem idxPairs_apply1 {E : Nat} (hb1 : (⟨1, ![E]⟩ : Shape).BroadcastsInDim ⟨2, ![E, 1]⟩ (![0] : Fin 1 → Fin 2))
    (hcat : Shape.Concatenates [⟨2, ![E, 1]⟩, ⟨2, ![E, 1]⟩] ⟨2, ![E, 2]⟩ 1) (a b : IVec ⟨1, ![E]⟩ 32) (e : Fin E) :
    idxPairs hb1 hcat a b (ix2 e (1 : Fin 2)) = b (ix1 e) := by
  unfold idxPairs
  refine (concatenate_pair_apply_right _ _ _ hcat (ix2 e (1 : Fin 2)) rfl rfl (ix2 e (0 : Fin 1)) (fun ax hne => ?_) rfl).trans ?_
  · match ax with
    | ⟨0, _⟩ => rfl
    | ⟨1, _⟩ => exact absurd rfl hne
  · refine broadcastInDim_apply _ hb1 b _ (ix1 e) (fun ax => ?_)
    match ax with
    | ⟨0, _⟩ =>
      show e.val = if E = 1 then 0 else e.val
      split
      · have := e.isLt; omega
      · rfl

/-- THE PADDED TRANSPOSED WEIGHT MATRIX AT ENTRY (k, j), for a list of triples whose (row, column) pairs lie in
    [0, O) x [0, I): entry (j, k) of the matrix the list describes where k < I and j < O, zero elsewhere. -/
theorem weightT_apply {N C E : Nat} (cN rN : BitVec 32)
    (hs1 : (⟨2, ![2, E]⟩ : Shape).Slices ![1, 0] ⟨2, ![1, E]⟩) (hs0 : (⟨2, ![2, E]⟩ : Shape).Slices ![0, 0] ⟨2, ![1, E]⟩)
    (hc : (⟨2, ![1, E]⟩ : Shape).ShapeCasts ⟨1, ![E]⟩)
    (hb : (⟨0, ![]⟩ : Shape).BroadcastsInDim ⟨1, ![E]⟩ (![] : Fin 0 → Fin 1))
    (hb1 : (⟨1, ![E]⟩ : Shape).BroadcastsInDim ⟨2, ![E, 1]⟩ (![0] : Fin 1 → Fin 2))
    (hcat : Shape.Concatenates [⟨2, ![E, 1]⟩, ⟨2, ![E, 1]⟩] ⟨2, ![E, 2]⟩ 1)
    (hbz : (⟨0, ![]⟩ : Shape).BroadcastsInDim ⟨2, ![N, C]⟩ (![] : Fin 0 → Fin 2))
    (wf : ScatterDims.WF ⟨2, ![N, C]⟩ ⟨2, ![E, 2]⟩ ⟨1, ![E]⟩ [] [0, 1] [0, 1] 1) (hbits : FTy.bits .bf16 < FTy.bits .f32)
    (idx : IVec ⟨2, ![2, E]⟩ 32) (val : FVec Ideal ⟨1, ![E]⟩ .f32) (O I : Nat)
    (hin : ∀ e : Fin E, 0 ≤ (idx (ix2 (0 : Fin 2) e)).toInt ∧ (idx (ix2 (0 : Fin 2) e)).toInt < (O : Int)
      ∧ 0 ≤ (idx (ix2 (1 : Fin 2) e)).toInt ∧ (idx (ix2 (1 : Fin 2) e)).toInt < (I : Int))
    (k : Fin N) (j : Fin C) :
    weightT cN rN hs1 hs0 hc hb hb1 hcat hbz (pairScatterDims N C E wf) hbits idx val (ix2 k j)
      = if h : k.val < I ∧ j.val < O then
          Cert.Spec.weight (fun e => (idx (ix2 (0 : Fin 2) e)).toInt) (fun e => (idx (ix2 (1 : Fin 2) e)).toInt)
            (fun e => val (ix1 e)) O I ⟨j.val, h.2⟩ ⟨k.val, h.1⟩
        else 0 := by
  unfold weightT
  rw [truncf_apply (ψ := .bf16) (Host.scatterAdd (pairScatterDims N C E wf) _ _ val) hbits (ix2 k j)]
  rw [scatterAdd_pairs_apply wf]
  -- the zero matrix
  have hz : broadcastInDim ⟨2, ![N, C]⟩ ![] hbz (constant (F := Ideal) ⟨0, ![]⟩ .f32 0x00000000#32) (ix2 k j) = 0 :=
    (broadcastInDim_apply _ hbz _ _ ix0 (fun a => a.elim0)).trans Ideal.ofBits_zero_f32
  rw [hz, zero_add]
  -- the pairs: (column index, row index), each index nonnegative
  have hP0 : ∀ e : Fin E, idxPairs hb1 hcat (normIdx hb cN (idxRow 1 hs1 hc idx)) (normIdx hb rN (idxRow 0 hs0 hc idx))
      (ix2 e (0 : Fin 2)) = idx (ix2 (1 : Fin 2) e) := fun e => by
    rw [idxPairs_apply0, normIdx_apply_of_nonneg, idxRow_apply 1 hs1 hc idx (1 : Fin 2) rfl e]
    rw [idxRow_apply 1 hs1 hc idx (1 : Fin 2) rfl e]; exact (hin e).2.2.1
  have hP1 : ∀ e : Fin E, idxPairs hb1 hcat (normIdx hb cN (idxRow 1 hs1 hc idx)) (normIdx hb rN (idxRow 0 hs0 hc idx))
      (ix2 e (1 : Fin 2)) = idx (ix2 (0 : Fin 2) e) := fun e => by
    rw [idxPairs_apply1, normIdx_apply_of_nonneg, idxRow_apply 0 hs0 hc idx (0 : Fin 2) rfl e]
    rw [idxRow_apply 0 hs0 hc idx (0 : Fin 2) rfl e]; exact (hin e).1
  by_cases h : k.val < I ∧ j.val < O
  · rw [dif_pos h]
    unfold Cert.Spec.weight
    refine Finset.sum_congr rfl (fun e _ => ?_)
    rw [hP0 e, hP1 e]
    exact if_congr and_comm rfl rfl
  · rw [dif_neg h]
    refine Finset.sum_eq_zero (fun e _ => ?_)
    rw [hP0 e, hP1 e, if_neg]
    rintro ⟨h1, h0⟩
    obtain ⟨_, hl0, _, hl1⟩ := hin e
    exact h ⟨by omega, by omega⟩

/-- A padded row at column j: the vector below its length, zero beyond. -/
theorem padRow_apply {n m : Nat} (hi : Nat) (hp : (⟨1, ![n]⟩ : Shape).Pads (![0] : Fin 1 → Nat) ![hi] ![0] ⟨1, ![m]⟩)
    (hu : 0 < (⟨0, ![]⟩ : Shape).numel) (hc : (⟨1, ![m]⟩ : Shape).ShapeCasts ⟨2, ![1, m]⟩)
    (v : FVec Ideal ⟨1, ![n]⟩ .f32) (u : Fin 1) (j : Fin m) :
    padRow hi hp hu hc v (ix2 u j) = if h : j.val < n then v (ix1 ⟨j.val, h⟩) else 0 := by
  unfold padRow
  rw [shapeCast_a_1a_apply]
  by_cases h : j.val < n
  · rw [dif_pos h]
    refine pad_apply_of_inside _ _ _ _ _ _ _ (ix1 j) (ix1 ⟨j.val, h⟩) (fun a => ?_)
    match a with
    | ⟨0, _⟩ => show j.val = 0 + j.val * (0 + 1); omega
  · rw [dif_neg h]
    refine (pad_apply_of_not_inside _ _ _ _ _ _ _ (ix1 j) (0 : Fin 1) (fun hin => h ?_)).trans (padValue_zero _ _)
    have h3 : (j.val - 0) / (0 + 1) < n := hin.2.2
    omega

/-! ## The program's chains at an index -/

section
open Cert.KernelIdeal Cert.KernelIdeal.Facts₀
variable [Facts₀]

/-- The padded input at (p, k). -/
theorem kX_apply (x : FVec Ideal S512x120000 .f32) (p : Fin 512) (k : Fin 122880) :
    kX x (ix2 p k) = if h : k.val < 120000 then x (ix2 p ⟨k.val, h⟩) else 0 := by
  unfold kX
  by_cases h : k.val < 120000
  · rw [dif_pos h]
    refine (pad_apply_of_inside _ _ _ _ _ _ _ (ix2 p k) (ix2 p ⟨k.val, h⟩) (fun a => ?_)).trans rfl
    match a with
    | ⟨0, _⟩ => show p.val = 0 + p.val * (0 + 1); omega
    | ⟨1, _⟩ => show k.val = 0 + k.val * (0 + 1); omega
  · rw [dif_neg h]
    refine (pad_apply_of_not_inside _ _ _ _ _ _ _ (ix2 p k) (1 : Fin 2) (fun hin => h ?_)).trans (padValue_zero _ _)
    have h3 : (k.val - 0) / (0 + 1) < 120000 := hin.2.2
    omega

/-- The printed dimension records of the five scatters are the pair scatter's. -/
theorem scatter1_eq : scatter_S122880x768_S7200000x2_S7200000_n_01_01_1
    = pairScatterDims 122880 768 7200000 scatter_S122880x768_S7200000x2_S7200000_n_01_01_1_wf := rfl
theorem scatter2_eq : scatter_S768x768_S36000x2_S36000_n_01_01_1
    = pairScatterDims 768 768 36000 scatter_S768x768_S36000x2_S36000_n_01_01_1_wf := rfl
theorem scatter3_eq : scatter_S768x384_S18000x2_S18000_n_01_01_1
    = pairScatterDims 768 384 18000 scatter_S768x384_S18000x2_S18000_n_01_01_1_wf := rfl
theorem scatter4_eq : scatter_S384x256_S6000x2_S6000_n_01_01_1
    = pairScatterDims 384 256 6000 scatter_S384x256_S6000x2_S6000_n_01_01_1_wf := rfl
theorem scatter5_eq : scatter_S256x256_S4000x2_S4000_n_01_01_1
    = pairScatterDims 256 256 4000 scatter_S256x256_S4000x2_S4000_n_01_01_1_wf := rfl

/-- Layer 1's padded transposed weights at (k, j). -/
theorem kWeightT1_apply (idx : IVec S2x7200000 32) (val : FVec Ideal S7200000 .f32)
    (hin : ∀ e : Fin 7200000, 0 ≤ (idx (ix2 (0 : Fin 2) e)).toInt ∧ (idx (ix2 (0 : Fin 2) e)).toInt < 600
      ∧ 0 ≤ (idx (ix2 (1 : Fin 2) e)).toInt ∧ (idx (ix2 (1 : Fin 2) e)).toInt < 120000)
    (k : Fin 122880) (j : Fin 768) :
    kWeightT1 idx val (ix2 k j)
      = if h : k.val < 120000 ∧ j.val < 600 then
          Cert.Spec.weight (fun e => (idx (ix2 (0 : Fin 2) e)).toInt) (fun e => (idx (ix2 (1 : Fin 2) e)).toInt)
            (fun e => val (ix1 e)) 600 120000 ⟨j.val, h.2⟩ ⟨k.val, h.1⟩
        else 0 := by
  unfold kWeightT1
  rw [scatter1_eq]
  exact weightT_apply _ _ _ _ _ _ _ _ _ _ _ idx val 600 120000 hin k j

/-- Layer 2's padded transposed weights at (k, j). -/
theorem kWeightT2_apply (idx : IVec S2x36000 32) (val : FVec Ideal S36000 .f32)
    (hin : ∀ e : Fin 36000, 0 ≤ (idx (ix2 (0 : Fin 2) e)).toInt ∧ (idx (ix2 (0 : Fin 2) e)).toInt < 600
      ∧ 0 ≤ (idx (ix2 (1 : Fin 2) e)).toInt ∧ (idx (ix2 (1 : Fin 2) e)).toInt < 600)
    (k : Fin 768) (j : Fin 768) :
    kWeightT2 idx val (ix2 k j)
      = if h : k.val < 600 ∧ j.val < 600 then
          Cert.Spec.weight (fun e => (idx (ix2 (0 : Fin 2) e)).toInt) (fun e => (idx (ix2 (1 : Fin 2) e)).toInt)
            (fun e => val (ix1 e)) 600 600 ⟨j.val, h.2⟩ ⟨k.val, h.1⟩
        else 0 := by
  unfold kWeightT2
  rw [scatter2_eq]
  exact weightT_apply _ _ _ _ _ _ _ _ _ _ _ idx val 600 600 hin k j

/-- Layer 3's padded transposed weights at (k, j). -/
theorem kWeightT3_apply (idx : IVec S2x18000 32) (val : FVec Ideal S18000 .f32)
    (hin : ∀ e : Fin 18000, 0 ≤ (idx (ix2 (0 : Fin 2) e)).toInt ∧ (idx (ix2 (0 : Fin 2) e)).toInt < 300
      ∧ 0 ≤ (idx (ix2 (1 : Fin 2) e)).toInt ∧ (idx (ix2 (1 : Fin 2) e)).toInt < 600)
    (k : Fin 768) (j : Fin 384) :
    kWeightT3 idx val (ix2 k j)
      = if h : k.val < 600 ∧ j.val < 300 then
          Cert.Spec.weight (fun e => (idx (ix2 (0 : Fin 2) e)).toInt) (fun e => (idx (ix2 (1 : Fin 2) e)).toInt)
            (fun e => val (ix1 e)) 300 600 ⟨j.val, h.2⟩ ⟨k.val, h.1⟩
        else 0 := by
  unfold kWeightT3
  rw [scatter3_eq]
  exact weightT_apply _ _ _ _ _ _ _ _ _ _ _ idx val 300 600 hin k j

/-- Layer 4's padded transposed weights at (k, j). -/
theorem kWeightT4_apply (idx : IVec S2x6000 32) (val : FVec Ideal S6000 .f32)
    (hin : ∀ e : Fin 6000, 0 ≤ (idx (ix2 (0 : Fin 2) e)).toInt ∧ (idx (ix2 (0 : Fin 2) e)).toInt < 200
      ∧ 0 ≤ (idx (ix2 (1 : Fin 2) e)).toInt ∧ (idx (ix2 (1 : Fin 2) e)).toInt < 300)
    (k : Fin 384) (j : Fin 256) :
    kWeightT4 idx val (ix2 k j)
      = if h : k.val < 300 ∧ j.val < 200 then
          Cert.Spec.weight (fun e => (idx (ix2 (0 : Fin 2) e)).toInt) (fun e => (idx (ix2 (1 : Fin 2) e)).toInt)
            (fun e => val (ix1 e)) 200 300 ⟨j.val, h.2⟩ ⟨k.val, h.1⟩
        else 0 := by
  unfold kWeightT4
  rw [scatter4_eq]
  exact weightT_apply _ _ _ _ _ _ _ _ _ _ _ idx val 200 300 hin k j

/-- Layer 5's padded transposed weights at (k, j). -/
theorem kWeightT5_apply (idx : IVec S2x4000 32) (val : FVec Ideal S4000 .f32)
    (hin : ∀ e : Fin 4000, 0 ≤ (idx (ix2 (0 : Fin 2) e)).toInt ∧ (idx (ix2 (0 : Fin 2) e)).toInt < 200
      ∧ 0 ≤ (idx (ix2 (1 : Fin 2) e)).toInt ∧ (idx (ix2 (1 : Fin 2) e)).toInt < 200)
    (k : Fin 256) (j : Fin 256) :
    kWeightT5 idx val (ix2 k j)
      = if h : k.val < 200 ∧ j.val < 200 then
          Cert.Spec.weight (fun e => (idx (ix2 (0 : Fin 2) e)).toInt) (fun e => (idx (ix2 (1 : Fin 2) e)).toInt)
            (fun e => val (ix1 e)) 200 200 ⟨j.val, h.2⟩ ⟨k.val, h.1⟩
        else 0 := by
  unfold kWeightT5
  rw [scatter5_eq]
  exact weightT_apply _ _ _ _ _ _ _ _ _ _ _ idx val 200 200 hin k j

/-- The padded row [1, 768] of a vector [600] at column j. -/
theorem kRow600_apply (v : FVec Ideal S600 .f32) (u : Fin 1) (j : Fin 768) :
    kRow600 v (ix2 u j) = if h : j.val < 600 then v (ix1 ⟨j.val, h⟩) else 0 :=
  padRow_apply _ _ _ _ v u j

/-- The padded row [1, 384] of a vector [300] at column j. -/
theorem kRow300_apply (v : FVec Ideal S300 .f32) (u : Fin 1) (j : Fin 384) :
    kRow300 v (ix2 u j) = if h : j.val < 300 then v (ix1 ⟨j.val, h⟩) else 0 :=
  padRow_apply _ _ _ _ v u j

/-- The padded row [1, 256] of a vector [200] at column j. -/
theorem kRow200_apply (v : FVec Ideal S200 .f32) (u : Fin 1) (j : Fin 256) :
    kRow200 v (ix2 u j) = if h : j.val < 200 then v (ix1 ⟨j.val, h⟩) else 0 :=
  padRow_apply _ _ _ _ v u j

/-- The first kernel's result in the narrow format is itself. -/
theorem kMid_apply (y : FVec Ideal S512x768 .f32) (i : S512x768.Idx) : kMid y i = y i := rfl

/-- The final cut at (p, q) is the second kernel's result at (p, q). -/
theorem kOut_apply (y : FVec Ideal S512x256 .f32) (p : Fin 512) (q : Fin 200) :
    kOut y (ix2 p q) = y (ix2 p ⟨q.val, Nat.lt_of_lt_of_le q.isLt (by decide)⟩) := by
  unfold kOut
  exact slice2_axis1_apply 0 y _ p q _ (Nat.zero_add _).symm

end

end Cert.KernelGlue

end
-- ==== Proof.KV.Padding.lean ====
/-
  Padding does not change the true columns.

  The kernel stores every weight matrix padded with zero rows and columns and carries padded activations from layer to
  layer. A linear layer whose padded weight matrix agrees with the true one on the true block and is zero on every
  padded input row gives, at a true output column, the true layer's value, whatever the padded input columns hold: each
  padded term of the contraction is a product with zero, and c * 0 = 0 on all extended reals. Normalisation and the
  activation act column by column, so they commute with restriction to the true columns. Hence the five-layer chain on
  padded arrays, read at the true output columns, is the network on the unpadded ones. Also: a sum over n * B
  coordinates is the sum over n tiles of the sums over the B coordinates of each tile.
-/
import proofs.«146654_j5488968204426_2_alg».proof.Proof.Spec

noncomputable section

namespace Cert.KernelValue

open Cert

/-! ## Sums -/

/-- A sum over I' coordinates whose terms vanish from I on is the sum over the first I coordinates. -/
theorem sum_castLE {M : Type*} [AddCommMonoid M] {I I' : Nat} (h : I ≤ I') (f : Fin I' → M)
    (hz : ∀ k : Fin I', I ≤ k.val → f k = 0) : ∑ k : Fin I', f k = ∑ k : Fin I, f (Fin.castLE h k) := by
  obtain ⟨d, rfl⟩ := Nat.exists_eq_add_of_le h
  rw [Fin.sum_univ_add, Finset.sum_eq_zero (fun j _ => hz (Fin.natAdd I j) (Nat.le_add_right I j.val)), add_zero]
  rfl

/-- A sum over N = n * B coordinates is the sum over the n tiles of the sums over each tile's B coordinates; tile t holds
    the coordinates t * B + j. -/
theorem sum_tiles {M : Type*} [AddCommMonoid M] (n B N : Nat) (hN : N = n * B) (f : Fin N → M) :
    ∑ k : Fin N, f k = ∑ t : Fin n, ∑ j : Fin B, f ⟨t.val * B + j.val, by
      subst hN
      exact Nat.lt_of_lt_of_le (Nat.add_lt_add_left j.isLt _)
        (by rw [← Nat.succ_mul]; exact Nat.mul_le_mul_right _ t.isLt)⟩ := by
  subst hN
  rw [← Equiv.sum_comp finProdFinEquiv f, Fintype.sum_prod_type]
  refine Finset.sum_congr rfl fun t _ => Finset.sum_congr rfl fun j _ => congrArg f (Fin.ext ?_)
  show j.val + B * t.val = t.val * B + j.val
  rw [Nat.mul_comm, Nat.add_comm]

/-! ## One layer -/

section Layer
variable {B I I' O O' : Nat}

/-- A linear layer on padded arrays, at a true output column: the padded weight matrix agrees with the true one on the
    true block and is zero on every padded input row; the padded input agrees with the true one on the true columns
    (its padded columns are arbitrary); the padded bias agrees with the true one at the true columns. -/
theorem lin_pad (hI : I ≤ I') (hO : O ≤ O')
    (x : Fin B → Fin I → EReal) (x' : Fin B → Fin I' → EReal)
    (W : Fin O → Fin I → EReal) (W' : Fin O' → Fin I' → EReal) (b : Fin O → EReal) (b' : Fin O' → EReal)
    (hx : ∀ p k, x' p (Fin.castLE hI k) = x p k)
    (hW : ∀ q k, W' (Fin.castLE hO q) (Fin.castLE hI k) = W q k)
    (hW0 : ∀ (q : Fin O') (k : Fin I'), I ≤ k.val → W' q k = 0)
    (hb : ∀ q, b' (Fin.castLE hO q) = b q) (p : Fin B) (q : Fin O) :
    Spec.lin x' W' b' p (Fin.castLE hO q) = Spec.lin x W b p q := by
  unfold Spec.lin
  rw [sum_castLE hI _ (fun k hk => by rw [hW0 _ k hk, mul_zero]), hb]
  exact congrArg (· + b q) (Finset.sum_congr rfl fun k _ => by rw [hx, hW])

/-- Normalisation acts column by column: if column q' of y' is column q of y, and the scale and the shift agree there,
    column q' of the normalised y' is column q of the normalised y. -/
theorem bn_col (y : Fin B → Fin O → EReal) (y' : Fin B → Fin O' → EReal) (g be : Fin O → EReal) (g' be' : Fin O' → EReal)
    (q : Fin O) (q' : Fin O') (hy : ∀ p, y' p q' = y p q) (hg : g' q' = g q) (hbe : be' q' = be q) (p : Fin B) :
    Spec.bn y' g' be' p q' = Spec.bn y g be p q := by
  unfold Spec.bn Spec.colVar Spec.colMean
  simp only [hy, hg, hbe]

/-- A layer with normalisation and activation on padded arrays, at a true output column. -/
theorem layerBn_pad (hI : I ≤ I') (hO : O ≤ O')
    (x : Fin B → Fin I → EReal) (x' : Fin B → Fin I' → EReal)
    (W : Fin O → Fin I → EReal) (W' : Fin O' → Fin I' → EReal) (b g be : Fin O → EReal) (b' g' be' : Fin O' → EReal)
    (hx : ∀ p k, x' p (Fin.castLE hI k) = x p k)
    (hW : ∀ q k, W' (Fin.castLE hO q) (Fin.castLE hI k) = W q k)
    (hW0 : ∀ (q : Fin O') (k : Fin I'), I ≤ k.val → W' q k = 0)
    (hb : ∀ q, b' (Fin.castLE hO q) = b q) (hg : ∀ q, g' (Fin.castLE hO q) = g q)
    (hbe : ∀ q, be' (Fin.castLE hO q) = be q) (p : Fin B) (q : Fin O) :
    Spec.layerBn x' W' b' g' be' p (Fin.castLE hO q) = Spec.layerBn x W b g be p q := by
  unfold Spec.layerBn
  exact congrArg Spec.silu (bn_col _ _ g be g' be' q (Fin.castLE hO q)
    (fun p => lin_pad hI hO x x' W W' b b' hx hW hW0 hb p q) (hg q) (hbe q) p)

/-- A layer with activation only on padded arrays, at a true output column. -/
theorem layerAct_pad (hI : I ≤ I') (hO : O ≤ O')
    (x : Fin B → Fin I → EReal) (x' : Fin B → Fin I' → EReal)
    (W : Fin O → Fin I → EReal) (W' : Fin O' → Fin I' → EReal) (b : Fin O → EReal) (b' : Fin O' → EReal)
    (hx : ∀ p k, x' p (Fin.castLE hI k) = x p k)
    (hW : ∀ q k, W' (Fin.castLE hO q) (Fin.castLE hI k) = W q k)
    (hW0 : ∀ (q : Fin O') (k : Fin I'), I ≤ k.val → W' q k = 0)
    (hb : ∀ q, b' (Fin.castLE hO q) = b q) (p : Fin B) (q : Fin O) :
    Spec.layerAct x' W' b' p (Fin.castLE hO q) = Spec.layerAct x W b p q := by
  unfold Spec.layerAct
  exact congrArg Spec.silu (lin_pad hI hO x x' W W' b b' hx hW hW0 hb p q)

end Layer

/-! ## The five layers -/

/-- The true extents are within the padded ones. -/
theorem le_in : 120000 ≤ 122880 := by omega
theorem le_600 : 600 ≤ 768 := by omega
theorem le_300 : 300 ≤ 384 := by omega
theorem le_200 : 200 ≤ 256 := by omega

/-- The five-layer chain on padded arrays (inputs 122880, widths 768, 768, 384, 256, 256), read at a true output column,
    is the network on the unpadded ones (inputs 120000, widths 600, 600, 300, 200, 200): every padded weight matrix
    agrees with the true one on the true block and is zero on its padded input rows, and the padded biases, scales and
    shifts agree with the true ones at the true columns. -/
theorem net_pad
    (x : Fin 512 → Fin 120000 → EReal) (x' : Fin 512 → Fin 122880 → EReal)
    (W1 : Fin 600 → Fin 120000 → EReal) (W1' : Fin 768 → Fin 122880 → EReal) (b1 : Fin 600 → EReal) (b1' : Fin 768 → EReal)
    (W2 : Fin 600 → Fin 600 → EReal) (W2' : Fin 768 → Fin 768 → EReal) (b2 : Fin 600 → EReal) (b2' : Fin 768 → EReal)
    (W3 : Fin 300 → Fin 600 → EReal) (W3' : Fin 384 → Fin 768 → EReal) (b3 : Fin 300 → EReal) (b3' : Fin 384 → EReal)
    (W4 : Fin 200 → Fin 300 → EReal) (W4' : Fin 256 → Fin 384 → EReal) (b4 : Fin 200 → EReal) (b4' : Fin 256 → EReal)
    (W5 : Fin 200 → Fin 200 → EReal) (W5' : Fin 256 → Fin 256 → EReal) (b5 : Fin 200 → EReal) (b5' : Fin 256 → EReal)
    (g1 be1 : Fin 600 → EReal) (g1' be1' : Fin 768 → EReal)
    (g2 be2 : Fin 300 → EReal) (g2' be2' : Fin 384 → EReal)
    (g3 be3 : Fin 200 → EReal) (g3' be3' : Fin 256 → EReal)
    (hx : ∀ p k, x' p (Fin.castLE le_in k) = x p k)
    (hW1 : ∀ q k, W1' (Fin.castLE le_600 q) (Fin.castLE le_in k) = W1 q k)
    (hW1z : ∀ (q : Fin 768) (k : Fin 122880), 120000 ≤ k.val → W1' q k = 0)
    (hb1 : ∀ q, b1' (Fin.castLE le_600 q) = b1 q)
    (hg1 : ∀ q, g1' (Fin.castLE le_600 q) = g1 q)
    (hbe1 : ∀ q, be1' (Fin.castLE le_600 q) = be1 q)
    (hW2 : ∀ q k, W2' (Fin.castLE le_600 q) (Fin.castLE le_600 k) = W2 q k)
    (hW2z : ∀ (q : Fin 768) (k : Fin 768), 600 ≤ k.val → W2' q k = 0)
    (hb2 : ∀ q, b2' (Fin.castLE le_600 q) = b2 q)
    (hW3 : ∀ q k, W3' (Fin.castLE le_300 q) (Fin.castLE le_600 k) = W3 q k)
    (hW3z : ∀ (q : Fin 384) (k : Fin 768), 600 ≤ k.val → W3' q k = 0)
    (hb3 : ∀ q, b3' (Fin.castLE le_300 q) = b3 q)
    (hg2 : ∀ q, g2' (Fin.castLE le_300 q) = g2 q)
    (hbe2 : ∀ q, be2' (Fin.castLE le_300 q) = be2 q)
    (hW4 : ∀ q k, W4' (Fin.castLE le_200 q) (Fin.castLE le_300 k) = W4 q k)
    (hW4z : ∀ (q : Fin 256) (k : Fin 384), 300 ≤ k.val → W4' q k = 0)
    (hb4 : ∀ q, b4' (Fin.castLE le_200 q) = b4 q)
    (hg3 : ∀ q, g3' (Fin.castLE le_200 q) = g3 q)
    (hbe3 : ∀ q, be3' (Fin.castLE le_200 q) = be3 q)
    (hW5 : ∀ q k, W5' (Fin.castLE le_200 q) (Fin.castLE le_200 k) = W5 q k)
    (hW5z : ∀ (q : Fin 256) (k : Fin 256), 200 ≤ k.val → W5' q k = 0)
    (hb5 : ∀ q, b5' (Fin.castLE le_200 q) = b5 q)
    (p : Fin 512) (q : Fin 200) :
    Spec.lin (Spec.layerBn (Spec.layerBn (Spec.layerAct (Spec.layerBn x' W1' b1' g1' be1') W2' b2') W3' b3' g2' be2')
        W4' b4' g3' be3') W5' b5' p (Fin.castLE le_200 q)
      = Spec.net x W1 b1 W2 b2 W3 b3 W4 b4 W5 b5 g1 be1 g2 be2 g3 be3 p q := by
  unfold Spec.net
  refine lin_pad _ _ _ _ W5 W5' b5 b5' (fun p k => ?_) hW5 hW5z hb5 p q
  refine layerBn_pad _ _ _ _ W4 W4' b4 g3 be3 b4' g3' be3' (fun p k => ?_) hW4 hW4z hb4 hg3 hbe3 p k
  refine layerBn_pad _ _ _ _ W3 W3' b3 g2 be2 b3' g2' be2' (fun p k => ?_) hW3 hW3z hb3 hg2 hbe2 p k
  refine layerAct_pad _ _ _ _ W2 W2' b2 b2' (fun p k => ?_) hW2 hW2z hb2 p k
  exact layerBn_pad _ _ x x' W1 W1' b1 g1 be1 b1' g1' be1' hx hW1 hW1z hb1 hg1 hbe1 p k

end Cert.KernelValue

end
-- ==== Proof.SpecArr.lean ====
/-
  The specification as one function of the twenty-two argument ARRAYS (in the programs' argument order): the arrays
  read at indices, the index arrays' two rows read as signed integers, fed to the network of Spec.lean; the result an
  array [512, 200].
-/
import proofs.«146654_j5488968204426_2_alg».proof.Proof.Spec

noncomputable section

namespace Cert.Spec

open Idealize.ShloMosaic Idealize.ShloMosaic.ValueIdx

/-- The network's result array from the argument arrays. -/
def netArr
    (x : FVec Ideal ⟨2, ![512, 120000]⟩ .f32)
    (idx1 : IVec ⟨2, ![2, 7200000]⟩ 32)
    (val1 : FVec Ideal ⟨1, ![7200000]⟩ .f32)
    (b1 : FVec Ideal ⟨1, ![600]⟩ .f32)
    (idx2 : IVec ⟨2, ![2, 36000]⟩ 32)
    (val2 : FVec Ideal ⟨1, ![36000]⟩ .f32)
    (b2 : FVec Ideal ⟨1, ![600]⟩ .f32)
    (idx3 : IVec ⟨2, ![2, 18000]⟩ 32)
    (val3 : FVec Ideal ⟨1, ![18000]⟩ .f32)
    (b3 : FVec Ideal ⟨1, ![300]⟩ .f32)
    (idx4 : IVec ⟨2, ![2, 6000]⟩ 32)
    (val4 : FVec Ideal ⟨1, ![6000]⟩ .f32)
    (b4 : FVec Ideal ⟨1, ![200]⟩ .f32)
    (idx5 : IVec ⟨2, ![2, 4000]⟩ 32)
    (val5 : FVec Ideal ⟨1, ![4000]⟩ .f32)
    (b5 : FVec Ideal ⟨1, ![200]⟩ .f32)
    (g1 : FVec Ideal ⟨1, ![600]⟩ .f32)
    (be1 : FVec Ideal ⟨1, ![600]⟩ .f32)
    (g2 : FVec Ideal ⟨1, ![300]⟩ .f32)
    (be2 : FVec Ideal ⟨1, ![300]⟩ .f32)
    (g3 : FVec Ideal ⟨1, ![200]⟩ .f32)
    (be3 : FVec Ideal ⟨1, ![200]⟩ .f32) :
    FVec Ideal ⟨2, ![512, 200]⟩ .f32 :=
  fun i => net (fun p k => x (ix2 p k))
    (weight (fun e => (idx1 (ix2 0 e)).toInt) (fun e => (idx1 (ix2 1 e)).toInt) (fun e => val1 (ix1 e)) 600 120000) (fun q => b1 (ix1 q))
    (weight (fun e => (idx2 (ix2 0 e)).toInt) (fun e => (idx2 (ix2 1 e)).toInt) (fun e => val2 (ix1 e)) 600 600) (fun q => b2 (ix1 q))
    (weight (fun e => (idx3 (ix2 0 e)).toInt) (fun e => (idx3 (ix2 1 e)).toInt) (fun e => val3 (ix1 e)) 300 600) (fun q => b3 (ix1 q))
    (weight (fun e => (idx4 (ix2 0 e)).toInt) (fun e => (idx4 (ix2 1 e)).toInt) (fun e => val4 (ix1 e)) 200 300) (fun q => b4 (ix1 q))
    (weight (fun e => (idx5 (ix2 0 e)).toInt) (fun e => (idx5 (ix2 1 e)).toInt) (fun e => val5 (ix1 e)) 200 200) (fun q => b5 (ix1 q))
    (fun q => g1 (ix1 q)) (fun q => be1 (ix1 q)) (fun q => g2 (ix1 q)) (fun q => be2 (ix1 q)) (fun q => g3 (ix1 q)) (fun q => be3 (ix1 q))
    (i 0) (i 1)

/-- The same at coordinates. -/
theorem netArr_apply
    (x : FVec Ideal ⟨2, ![512, 120000]⟩ .f32)
    (idx1 : IVec ⟨2, ![2, 7200000]⟩ 32)
    (val1 : FVec Ideal ⟨1, ![7200000]⟩ .f32)
    (b1 : FVec Ideal ⟨1, ![600]⟩ .f32)
    (idx2 : IVec ⟨2, ![2, 36000]⟩ 32)
    (val2 : FVec Ideal ⟨1, ![36000]⟩ .f32)
    (b2 : FVec Ideal ⟨1, ![600]⟩ .f32)
    (idx3 : IVec ⟨2, ![2, 18000]⟩ 32)
    (val3 : FVec Ideal ⟨1, ![18000]⟩ .f32)
    (b3 : FVec Ideal ⟨1, ![300]⟩ .f32)
    (idx4 : IVec ⟨2, ![2, 6000]⟩ 32)
    (val4 : FVec Ideal ⟨1, ![6000]⟩ .f32)
    (b4 : FVec Ideal ⟨1, ![200]⟩ .f32)
    (idx5 : IVec ⟨2, ![2, 4000]⟩ 32)
    (val5 : FVec Ideal ⟨1, ![4000]⟩ .f32)
    (b5 : FVec Ideal ⟨1, ![200]⟩ .f32)
    (g1 : FVec Ideal ⟨1, ![600]⟩ .f32)
    (be1 : FVec Ideal ⟨1, ![600]⟩ .f32)
    (g2 : FVec Ideal ⟨1, ![300]⟩ .f32)
    (be2 : FVec Ideal ⟨1, ![300]⟩ .f32)
    (g3 : FVec Ideal ⟨1, ![200]⟩ .f32)
    (be3 : FVec Ideal ⟨1, ![200]⟩ .f32)
    (p : Fin 512) (q : Fin 200) :
    netArr x idx1 val1 b1 idx2 val2 b2 idx3 val3 b3 idx4 val4 b4 idx5 val5 b5 g1 be1 g2 be2 g3 be3 (ix2 p q)
      = net (fun p k => x (ix2 p k))
    (weight (fun e => (idx1 (ix2 0 e)).toInt) (fun e => (idx1 (ix2 1 e)).toInt) (fun e => val1 (ix1 e)) 600 120000) (fun q => b1 (ix1 q))
    (weight (fun e => (idx2 (ix2 0 e)).toInt) (fun e => (idx2 (ix2 1 e)).toInt) (fun e => val2 (ix1 e)) 600 600) (fun q => b2 (ix1 q))
    (weight (fun e => (idx3 (ix2 0 e)).toInt) (fun e => (idx3 (ix2 1 e)).toInt) (fun e => val3 (ix1 e)) 300 600) (fun q => b3 (ix1 q))
    (weight (fun e => (idx4 (ix2 0 e)).toInt) (fun e => (idx4 (ix2 1 e)).toInt) (fun e => val4 (ix1 e)) 200 300) (fun q => b4 (ix1 q))
    (weight (fun e => (idx5 (ix2 0 e)).toInt) (fun e => (idx5 (ix2 1 e)).toInt) (fun e => val5 (ix1 e)) 200 200) (fun q => b5 (ix1 q))
    (fun q => g1 (ix1 q)) (fun q => be1 (ix1 q)) (fun q => g2 (ix1 q)) (fun q => be2 (ix1 q)) (fun q => g3 (ix1 q)) (fun q => be3 (ix1 q))
    p q := rfl

end Cert.Spec

end
-- ==== Proof.KI.Bridge.lean ====
/-
  The kernel program's result is the specification's array.

  The program's result is a composition: the host operations that pad the input, scatter each layer's triples into a
  padded transposed weight matrix and pad the bias, scale and shift rows; the first kernel (layer 1 over the padded
  extents); the second kernel (layers 2 to 5 over the padded extents); and the cut back to the first 200 columns. Read at
  an entry (p, q) with q < 200, the two kernels compute the five-layer chain on the padded arrays; the padded arrays
  agree with the true ones on the true extents and every padded weight matrix is zero on its padded input rows (no
  (row, column) pair of a layer's list reaches the padding, the pairs being in range); so the chain on the padded arrays,
  at a true output column, is the network on the true arrays.
-/
import proofs.«146654_j5488968204426_2_alg».proof.Proof.KG.Reads
import proofs.«146654_j5488968204426_2_alg».proof.Proof.KV.Padding
import proofs.«146654_j5488968204426_2_alg».proof.Proof.SpecArr
import proofs.«146654_j5488968204426_2_alg».proof.Proof.Gen.KernelIdeal.Skeleton

noncomputable section

namespace Cert.KernelBridge

open Idealize.ShloMosaic Idealize.ShloMosaic.ValueIdx
open Cert Cert.KernelIdeal Cert.KernelIdeal.Gen Cert.KernelGlue Cert.KernelValue

/-! ## A padded array agrees with the true one on the true extents -/

/-- A padded vector, read at a true position, is the true vector there. -/
theorem row_true {n m : Nat} (hle : n ≤ m) (r : Fin m → EReal) (v : Fin n → EReal)
    (hr : ∀ j : Fin m, r j = if h : j.val < n then v ⟨j.val, h⟩ else 0) (q : Fin n) : r (Fin.castLE hle q) = v q := by
  rw [hr, dif_pos (show (Fin.castLE hle q).val < n from q.isLt)]
  rfl

/-- A padded matrix (rows the outputs, columns the inputs), read at a true entry, is the true matrix there. -/
theorem mat_true {O I O' I' : Nat} (hO : O ≤ O') (hI : I ≤ I') (Wp : Fin O' → Fin I' → EReal) (W : Fin O → Fin I → EReal)
    (hW : ∀ (j : Fin O') (k : Fin I'), Wp j k = if h : k.val < I ∧ j.val < O then W ⟨j.val, h.2⟩ ⟨k.val, h.1⟩ else 0)
    (q : Fin O) (k : Fin I) : Wp (Fin.castLE hO q) (Fin.castLE hI k) = W q k := by
  rw [hW, dif_pos (show (Fin.castLE hI k).val < I ∧ (Fin.castLE hO q).val < O from ⟨k.isLt, q.isLt⟩)]
  rfl

/-- A padded matrix is zero on its padded input columns. -/
theorem mat_zero {O I O' I' : Nat} (Wp : Fin O' → Fin I' → EReal) (W : Fin O → Fin I → EReal)
    (hW : ∀ (j : Fin O') (k : Fin I'), Wp j k = if h : k.val < I ∧ j.val < O then W ⟨j.val, h.2⟩ ⟨k.val, h.1⟩ else 0)
    (q : Fin O') (k : Fin I') (hk : I ≤ k.val) : Wp q k = 0 := by
  rw [hW, dif_neg (fun h => absurd h.1 (by omega))]

/-! ## The composition -/

/-- THE KERNEL PROGRAM'S RESULT IS THE SPECIFICATION'S ARRAY, given what the two kernels compute: L1 is the array the
    first kernel leaves (layer 1, with normalisation and activation, on the padded arrays: hC) and the second kernel's
    stored value is layers 2 to 5 on the padded arrays (hB). -/
theorem kernel_eq_netArr_of
    (L1 : Vec Ideal S512x122880 .bf16 → Vec Ideal S122880x768 .bf16 → Vec Ideal S1x768 .f32 → Vec Ideal S1x768 .f32 →
      Vec Ideal S1x768 .f32 → Vec Ideal S512x768 .f32)
    (hC : ∀ (X : Vec Ideal S512x122880 .bf16) (W : Vec Ideal S122880x768 .bf16) (b g be : Vec Ideal S1x768 .f32)
      (p : Fin 512) (j : Fin 768),
      L1 X W b g be (ix2 p j)
        = Spec.layerBn (fun (p : Fin 512) (k : Fin 122880) => X (ix2 p k)) (fun (j : Fin 768) (k : Fin 122880) => W (ix2 k j))
            (fun (j : Fin 768) => b (ix2 (0 : Fin 1) j)) (fun (j : Fin 768) => g (ix2 (0 : Fin 1) j))
            (fun (j : Fin 768) => be (ix2 (0 : Fin 1) j)) p j)
    (hB : ∀ (h : Vec Ideal S512x768 .bf16) (w2 : Vec Ideal S768x768 .bf16) (b2 : Vec Ideal S1x768 .f32)
      (w3 : Vec Ideal S768x384 .bf16) (b3 g2 be2 : Vec Ideal S1x384 .f32) (w4 : Vec Ideal S384x256 .bf16)
      (b4 g3 be3 : Vec Ideal S1x256 .f32) (w5 : Vec Ideal S256x256 .bf16) (b5 : Vec Ideal S1x256 .f32)
      (p : Fin 512) (q : Fin 256),
      k1_pay1 (F := Ideal) (k1_pay3 (k1_pay2 h w2 b2 w3 b3 g2) be2 w4 b4 g3 be3) (k1_pay4 w5) b5 (ix2 p q)
        = Spec.lin (Spec.layerBn (Spec.layerBn (Spec.layerAct (fun (p : Fin 512) (k : Fin 768) => h (ix2 p k))
              (fun (q : Fin 768) (k : Fin 768) => w2 (ix2 k q)) (fun (q : Fin 768) => b2 (ix2 (0 : Fin 1) q)))
              (fun (q : Fin 384) (k : Fin 768) => w3 (ix2 k q)) (fun (q : Fin 384) => b3 (ix2 (0 : Fin 1) q))
              (fun (q : Fin 384) => g2 (ix2 (0 : Fin 1) q)) (fun (q : Fin 384) => be2 (ix2 (0 : Fin 1) q)))
              (fun (q : Fin 256) (k : Fin 384) => w4 (ix2 k q)) (fun (q : Fin 256) => b4 (ix2 (0 : Fin 1) q))
              (fun (q : Fin 256) => g3 (ix2 (0 : Fin 1) q)) (fun (q : Fin 256) => be3 (ix2 (0 : Fin 1) q)))
              (fun (q : Fin 256) (k : Fin 256) => w5 (ix2 k q)) (fun (q : Fin 256) => b5 (ix2 (0 : Fin 1) q)) p q)
    (x : FVec Ideal S512x120000 .f32)
    (idx1 : IVec S2x7200000 32) (val1 : FVec Ideal S7200000 .f32) (b1 : FVec Ideal S600 .f32)
    (idx2 : IVec S2x36000 32) (val2 : FVec Ideal S36000 .f32) (b2 : FVec Ideal S600 .f32)
    (idx3 : IVec S2x18000 32) (val3 : FVec Ideal S18000 .f32) (b3 : FVec Ideal S300 .f32)
    (idx4 : IVec S2x6000 32) (val4 : FVec Ideal S6000 .f32) (b4 : FVec Ideal S200 .f32)
    (idx5 : IVec S2x4000 32) (val5 : FVec Ideal S4000 .f32) (b5 : FVec Ideal S200 .f32)
    (g1 be1 : FVec Ideal S600 .f32) (g2 be2 : FVec Ideal S300 .f32) (g3 be3 : FVec Ideal S200 .f32)
    (h1 : ∀ e : Fin 7200000, 0 ≤ (idx1 (ix2 (0 : Fin 2) e)).toInt ∧ (idx1 (ix2 (0 : Fin 2) e)).toInt < 600
      ∧ 0 ≤ (idx1 (ix2 (1 : Fin 2) e)).toInt ∧ (idx1 (ix2 (1 : Fin 2) e)).toInt < 120000)
    (h2 : ∀ e : Fin 36000, 0 ≤ (idx2 (ix2 (0 : Fin 2) e)).toInt ∧ (idx2 (ix2 (0 : Fin 2) e)).toInt < 600
      ∧ 0 ≤ (idx2 (ix2 (1 : Fin 2) e)).toInt ∧ (idx2 (ix2 (1 : Fin 2) e)).toInt < 600)
    (h3 : ∀ e : Fin 18000, 0 ≤ (idx3 (ix2 (0 : Fin 2) e)).toInt ∧ (idx3 (ix2 (0 : Fin 2) e)).toInt < 300
      ∧ 0 ≤ (idx3 (ix2 (1 : Fin 2) e)).toInt ∧ (idx3 (ix2 (1 : Fin 2) e)).toInt < 600)
    (h4 : ∀ e : Fin 6000, 0 ≤ (idx4 (ix2 (0 : Fin 2) e)).toInt ∧ (idx4 (ix2 (0 : Fin 2) e)).toInt < 200
      ∧ 0 ≤ (idx4 (ix2 (1 : Fin 2) e)).toInt ∧ (idx4 (ix2 (1 : Fin 2) e)).toInt < 300)
    (h5 : ∀ e : Fin 4000, 0 ≤ (idx5 (ix2 (0 : Fin 2) e)).toInt ∧ (idx5 (ix2 (0 : Fin 2) e)).toInt < 200
      ∧ 0 ≤ (idx5 (ix2 (1 : Fin 2) e)).toInt ∧ (idx5 (ix2 (1 : Fin 2) e)).toInt < 200) :
    kOut (k1_pay1 (F := Ideal) (k1_pay3 (k1_pay2 (kMid (L1 (kX x) (kWeightT1 idx1 val1) (kRow600 b1) (kRow600 g1) (kRow600 be1)))
        (kWeightT2 idx2 val2) (kRow600 b2) (kWeightT3 idx3 val3) (kRow300 b3) (kRow300 g2)) (kRow300 be2)
        (kWeightT4 idx4 val4) (kRow200 b4) (kRow200 g3) (kRow200 be3)) (k1_pay4 (kWeightT5 idx5 val5)) (kRow200 b5))
      = Spec.netArr x idx1 val1 b1 idx2 val2 b2 idx3 val3 b3 idx4 val4 b4 idx5 val5 b5 g1 be1 g2 be2 g3 be3 := by
  funext i
  obtain ⟨p, q, rfl⟩ : ∃ (p : Fin 512) (q : Fin 200), i = ix2 p q := ⟨i 0, i 1, eq_ix2 i⟩
  refine (kOut_apply _ p q).trans ?_
  refine (hB _ _ _ _ _ _ _ _ _ _ _ _ _ p _).trans ?_
  -- the first kernel's array, in the narrow format, is layer 1 on the padded arrays
  have hH : (fun (p : Fin 512) (k : Fin 768) =>
        kMid (L1 (kX x) (kWeightT1 idx1 val1) (kRow600 b1) (kRow600 g1) (kRow600 be1)) (ix2 p k))
      = Spec.layerBn (fun (p : Fin 512) (k : Fin 122880) => kX x (ix2 p k)) (fun (j : Fin 768) (k : Fin 122880) => kWeightT1 idx1 val1 (ix2 k j))
          (fun (j : Fin 768) => kRow600 b1 (ix2 (0 : Fin 1) j)) (fun (j : Fin 768) => kRow600 g1 (ix2 (0 : Fin 1) j)) (fun (j : Fin 768) => kRow600 be1 (ix2 (0 : Fin 1) j)) :=
    funext fun p => funext fun k => hC _ _ _ _ _ p k
  rw [hH, Spec.netArr_apply]
  -- the padded weight matrices, entry by entry
  have hw1 : ∀ (j : Fin 768) (k : Fin 122880), (fun (j : Fin 768) (k : Fin 122880) => kWeightT1 idx1 val1 (ix2 k j)) j k
      = if h : k.val < 120000 ∧ j.val < 600 then (Spec.weight (fun e => (idx1 (ix2 0 e)).toInt) (fun e => (idx1 (ix2 1 e)).toInt) (fun e => val1 (ix1 e)) 600 120000) ⟨j.val, h.2⟩ ⟨k.val, h.1⟩ else 0 :=
    fun j k => kWeightT1_apply idx1 val1 h1 k j
  have hw2 : ∀ (j : Fin 768) (k : Fin 768), (fun (j : Fin 768) (k : Fin 768) => kWeightT2 idx2 val2 (ix2 k j)) j k
      = if h : k.val < 600 ∧ j.val < 600 then (Spec.weight (fun e => (idx2 (ix2 0 e)).toInt) (fun e => (idx2 (ix2 1 e)).toInt) (fun e => val2 (ix1 e)) 600 600) ⟨j.val, h.2⟩ ⟨k.val, h.1⟩ else 0 :=
    fun j k => kWeightT2_apply idx2 val2 h2 k j
  have hw3 : ∀ (j : Fin 384) (k : Fin 768), (fun (j : Fin 384) (k : Fin 768) => kWeightT3 idx3 val3 (ix2 k j)) j k
      = if h : k.val < 600 ∧ j.val < 300 then (Spec.weight (fun e => (idx3 (ix2 0 e)).toInt) (fun e => (idx3 (ix2 1 e)).toInt) (fun e => val3 (ix1 e)) 300 600) ⟨j.val, h.2⟩ ⟨k.val, h.1⟩ else 0 :=
    fun j k => kWeightT3_apply idx3 val3 h3 k j
  have hw4 : ∀ (j : Fin 256) (k : Fin 384), (fun (j : Fin 256) (k : Fin 384) => kWeightT4 idx4 val4 (ix2 k j)) j k
      = if h : k.val < 300 ∧ j.val < 200 then (Spec.weight (fun e => (idx4 (ix2 0 e)).toInt) (fun e => (idx4 (ix2 1 e)).toInt) (fun e => val4 (ix1 e)) 200 300) ⟨j.val, h.2⟩ ⟨k.val, h.1⟩ else 0 :=
    fun j k => kWeightT4_apply idx4 val4 h4 k j
  have hw5 : ∀ (j : Fin 256) (k : Fin 256), (fun (j : Fin 256) (k : Fin 256) => kWeightT5 idx5 val5 (ix2 k j)) j k
      = if h : k.val < 200 ∧ j.val < 200 then (Spec.weight (fun e => (idx5 (ix2 0 e)).toInt) (fun e => (idx5 (ix2 1 e)).toInt) (fun e => val5 (ix1 e)) 200 200) ⟨j.val, h.2⟩ ⟨k.val, h.1⟩ else 0 :=
    fun j k => kWeightT5_apply idx5 val5 h5 k j
  exact net_pad (fun (p : Fin 512) (k : Fin 120000) => x (ix2 p k)) (fun (p : Fin 512) (k : Fin 122880) => kX x (ix2 p k))
    (Spec.weight (fun e => (idx1 (ix2 0 e)).toInt) (fun e => (idx1 (ix2 1 e)).toInt) (fun e => val1 (ix1 e)) 600 120000) (fun (j : Fin 768) (k : Fin 122880) => kWeightT1 idx1 val1 (ix2 k j)) (fun (q : Fin 600) => b1 (ix1 q)) (fun (j : Fin 768) => kRow600 b1 (ix2 (0 : Fin 1) j))
    (Spec.weight (fun e => (idx2 (ix2 0 e)).toInt) (fun e => (idx2 (ix2 1 e)).toInt) (fun e => val2 (ix1 e)) 600 600) (fun (j : Fin 768) (k : Fin 768) => kWeightT2 idx2 val2 (ix2 k j)) (fun (q : Fin 600) => b2 (ix1 q)) (fun (j : Fin 768) => kRow600 b2 (ix2 (0 : Fin 1) j))
    (Spec.weight (fun e => (idx3 (ix2 0 e)).toInt) (fun e => (idx3 (ix2 1 e)).toInt) (fun e => val3 (ix1 e)) 300 600) (fun (j : Fin 384) (k : Fin 768) => kWeightT3 idx3 val3 (ix2 k j)) (fun (q : Fin 300) => b3 (ix1 q)) (fun (j : Fin 384) => kRow300 b3 (ix2 (0 : Fin 1) j))
    (Spec.weight (fun e => (idx4 (ix2 0 e)).toInt) (fun e => (idx4 (ix2 1 e)).toInt) (fun e => val4 (ix1 e)) 200 300) (fun (j : Fin 256) (k : Fin 384) => kWeightT4 idx4 val4 (ix2 k j)) (fun (q : Fin 200) => b4 (ix1 q)) (fun (j : Fin 256) => kRow200 b4 (ix2 (0 : Fin 1) j))
    (Spec.weight (fun e => (idx5 (ix2 0 e)).toInt) (fun e => (idx5 (ix2 1 e)).toInt) (fun e => val5 (ix1 e)) 200 200) (fun (j : Fin 256) (k : Fin 256) => kWeightT5 idx5 val5 (ix2 k j)) (fun (q : Fin 200) => b5 (ix1 q)) (fun (j : Fin 256) => kRow200 b5 (ix2 (0 : Fin 1) j))
    (fun (q : Fin 600) => g1 (ix1 q)) (fun (q : Fin 600) => be1 (ix1 q)) (fun (j : Fin 768) => kRow600 g1 (ix2 (0 : Fin 1) j)) (fun (j : Fin 768) => kRow600 be1 (ix2 (0 : Fin 1) j))
    (fun (q : Fin 300) => g2 (ix1 q)) (fun (q : Fin 300) => be2 (ix1 q)) (fun (j : Fin 384) => kRow300 g2 (ix2 (0 : Fin 1) j)) (fun (j : Fin 384) => kRow300 be2 (ix2 (0 : Fin 1) j))
    (fun (q : Fin 200) => g3 (ix1 q)) (fun (q : Fin 200) => be3 (ix1 q)) (fun (j : Fin 256) => kRow200 g3 (ix2 (0 : Fin 1) j)) (fun (j : Fin 256) => kRow200 be3 (ix2 (0 : Fin 1) j))
    (fun p k => by
      rw [kX_apply, dif_pos (show (Fin.castLE le_in k).val < 120000 from k.isLt)]
      rfl)
    (mat_true le_600 le_in (fun (j : Fin 768) (k : Fin 122880) => kWeightT1 idx1 val1 (ix2 k j)) (Spec.weight (fun e => (idx1 (ix2 0 e)).toInt) (fun e => (idx1 (ix2 1 e)).toInt) (fun e => val1 (ix1 e)) 600 120000) hw1) (mat_zero (fun (j : Fin 768) (k : Fin 122880) => kWeightT1 idx1 val1 (ix2 k j)) (Spec.weight (fun e => (idx1 (ix2 0 e)).toInt) (fun e => (idx1 (ix2 1 e)).toInt) (fun e => val1 (ix1 e)) 600 120000) hw1)
    (row_true le_600 (fun (j : Fin 768) => kRow600 b1 (ix2 (0 : Fin 1) j)) (fun (q : Fin 600) => b1 (ix1 q)) (kRow600_apply b1 0)) (row_true le_600 (fun (j : Fin 768) => kRow600 g1 (ix2 (0 : Fin 1) j)) (fun (q : Fin 600) => g1 (ix1 q)) (kRow600_apply g1 0)) (row_true le_600 (fun (j : Fin 768) => kRow600 be1 (ix2 (0 : Fin 1) j)) (fun (q : Fin 600) => be1 (ix1 q)) (kRow600_apply be1 0))
    (mat_true le_600 le_600 (fun (j : Fin 768) (k : Fin 768) => kWeightT2 idx2 val2 (ix2 k j)) (Spec.weight (fun e => (idx2 (ix2 0 e)).toInt) (fun e => (idx2 (ix2 1 e)).toInt) (fun e => val2 (ix1 e)) 600 600) hw2) (mat_zero (fun (j : Fin 768) (k : Fin 768) => kWeightT2 idx2 val2 (ix2 k j)) (Spec.weight (fun e => (idx2 (ix2 0 e)).toInt) (fun e => (idx2 (ix2 1 e)).toInt) (fun e => val2 (ix1 e)) 600 600) hw2) (row_true le_600 (fun (j : Fin 768) => kRow600 b2 (ix2 (0 : Fin 1) j)) (fun (q : Fin 600) => b2 (ix1 q)) (kRow600_apply b2 0))
    (mat_true le_300 le_600 (fun (j : Fin 384) (k : Fin 768) => kWeightT3 idx3 val3 (ix2 k j)) (Spec.weight (fun e => (idx3 (ix2 0 e)).toInt) (fun e => (idx3 (ix2 1 e)).toInt) (fun e => val3 (ix1 e)) 300 600) hw3) (mat_zero (fun (j : Fin 384) (k : Fin 768) => kWeightT3 idx3 val3 (ix2 k j)) (Spec.weight (fun e => (idx3 (ix2 0 e)).toInt) (fun e => (idx3 (ix2 1 e)).toInt) (fun e => val3 (ix1 e)) 300 600) hw3)
    (row_true le_300 (fun (j : Fin 384) => kRow300 b3 (ix2 (0 : Fin 1) j)) (fun (q : Fin 300) => b3 (ix1 q)) (kRow300_apply b3 0)) (row_true le_300 (fun (j : Fin 384) => kRow300 g2 (ix2 (0 : Fin 1) j)) (fun (q : Fin 300) => g2 (ix1 q)) (kRow300_apply g2 0)) (row_true le_300 (fun (j : Fin 384) => kRow300 be2 (ix2 (0 : Fin 1) j)) (fun (q : Fin 300) => be2 (ix1 q)) (kRow300_apply be2 0))
    (mat_true le_200 le_300 (fun (j : Fin 256) (k : Fin 384) => kWeightT4 idx4 val4 (ix2 k j)) (Spec.weight (fun e => (idx4 (ix2 0 e)).toInt) (fun e => (idx4 (ix2 1 e)).toInt) (fun e => val4 (ix1 e)) 200 300) hw4) (mat_zero (fun (j : Fin 256) (k : Fin 384) => kWeightT4 idx4 val4 (ix2 k j)) (Spec.weight (fun e => (idx4 (ix2 0 e)).toInt) (fun e => (idx4 (ix2 1 e)).toInt) (fun e => val4 (ix1 e)) 200 300) hw4)
    (row_true le_200 (fun (j : Fin 256) => kRow200 b4 (ix2 (0 : Fin 1) j)) (fun (q : Fin 200) => b4 (ix1 q)) (kRow200_apply b4 0)) (row_true le_200 (fun (j : Fin 256) => kRow200 g3 (ix2 (0 : Fin 1) j)) (fun (q : Fin 200) => g3 (ix1 q)) (kRow200_apply g3 0)) (row_true le_200 (fun (j : Fin 256) => kRow200 be3 (ix2 (0 : Fin 1) j)) (fun (q : Fin 200) => be3 (ix1 q)) (kRow200_apply be3 0))
    (mat_true le_200 le_200 (fun (j : Fin 256) (k : Fin 256) => kWeightT5 idx5 val5 (ix2 k j)) (Spec.weight (fun e => (idx5 (ix2 0 e)).toInt) (fun e => (idx5 (ix2 1 e)).toInt) (fun e => val5 (ix1 e)) 200 200) hw5) (mat_zero (fun (j : Fin 256) (k : Fin 256) => kWeightT5 idx5 val5 (ix2 k j)) (Spec.weight (fun e => (idx5 (ix2 0 e)).toInt) (fun e => (idx5 (ix2 1 e)).toInt) (fun e => val5 (ix1 e)) 200 200) hw5) (row_true le_200 (fun (j : Fin 256) => kRow200 b5 (ix2 (0 : Fin 1) j)) (fun (q : Fin 200) => b5 (ix1 q)) (kRow200_apply b5 0))
    p q

end Cert.KernelBridge

end
-- ==== Proof.KV.Ops.lean ====
/-
  Vector operations read at one entry of a matrix, on the extended reals.

  A product of an m×k by a k×n matrix into a zero accumulator is, at entry (a, b), the sum over the contracted
  coordinate of the products of the entries; a sum over the rows of an m×n matrix is, at column q, the sum of that
  column; one row broadcast over m rows reads that row; the reciprocal square root and the logistic function act
  entry by entry. The product and the column sum are also named as functions (mm, colsum), so that a value built
  from them can be read at an entry under a sum.
-/
import Idealize.ShloMosaic.PureOps.Ideal.Laws
import Idealize.ShloMosaic.Lib.ValueLayout

noncomputable section

namespace Cert.KernelValue

open Idealize.ShloMosaic Idealize.ShloMosaic.ValueIdx

/-- The reciprocal square root acts entry by entry. -/
theorem rsqrt_apply {s : Shape} {φ : FTy} (a : FVec Ideal s φ) (i : s.Idx) : rsqrt a i = Ideal.rsqrt (a i) := rfl

/-- The logistic function acts entry by entry. -/
theorem logistic_apply {s : Shape} {φ : FTy} (a : FVec Ideal s φ) (i : s.Idx) : logistic a i = Ideal.logistic (a i) := rfl

/-- A splat of one scalar word reads the extended real the word encodes. -/
theorem scalar_ofBits (φ : FTy) (b : BitVec φ.bits) : Scalar.ofBits (F := Ideal) φ b = Ideal.ofBits φ b := rfl

/-- The product of an m×k by a k×n matrix into the zero accumulator, at entry (a, b): the sum over the contracted
    coordinate c of A (a, c) · B (c, b). -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The sum over the rows of an m×n matrix, at column q: the sum of the column's entries. -/
theorem colsum_apply {m n : Nat} (src : FVec Ideal ⟨2, ![m, n]⟩ .f32)
    (h : Shape.Reduces ⟨2, ![m, n]⟩ [0] ⟨1, ![n]⟩) (hφ : FKind.Formats .f32)
    (hacc : (0x00000000#32 : BitVec 32) = 0x00000000#32) (q : Fin n) :
    multiReduction .add [0] ⟨1, ![n]⟩ src 0x00000000#32 h hφ hacc (ix1 q) = ∑ p : Fin m, src (ix2 p q) := by
  refine (Ideal.multiReduction_add_single src 0x00000000#32 h hφ hacc (ix1 q)).trans ?_
  show ∑ p : Fin m, src (h.lift (ix1 q) p) = _
  refine Finset.sum_congr rfl fun p _ => congrArg src ?_
  funext ax; apply Fin.ext
  match ax with
  | ⟨0, _⟩ => rfl
  | ⟨1, _⟩ => rfl

/-! ## The two non-pointwise operations as functions -/

/-- The matrix whose entry (a, b) is the sum over c of A (a, c) · B (c, b). -/
def mm {m k n : Nat} {φ₁ φ₂ : FTy} (A : FVec Ideal ⟨2, ![m, k]⟩ φ₁) (B : FVec Ideal ⟨2, ![k, n]⟩ φ₂) :
    FVec Ideal ⟨2, ![m, n]⟩ .f32 :=
  fun i => ∑ c : Fin k, A (ix2 (n0 := m) ⟨(i 0).val, idx2_lt0 i⟩ c) * B (ix2 (n1 := n) c ⟨(i 1).val, idx2_lt1 i⟩)

theorem mm_apply {m k n : Nat} {φ₁ φ₂ : FTy} (A : FVec Ideal ⟨2, ![m, k]⟩ φ₁) (B : FVec Ideal ⟨2, ![k, n]⟩ φ₂)
    (a : Fin m) (b : Fin n) : mm A B (ix2 a b) = ∑ c : Fin k, A (ix2 a c) * B (ix2 c b) := rfl

/-- A product into the zero accumulator is that matrix. -/
theorem matmul_zero_eq {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) = mm A B := by
  funext i
  obtain ⟨a, b, rfl⟩ : ∃ (a : Fin m) (b : Fin n), i = ix2 a b := ⟨i 0, i 1, eq_ix2 i⟩
  exact matmul_zero_apply w prec A B a b

/-- The row of column sums of an m×n matrix. -/
def colsum {m n : Nat} (src : FVec Ideal ⟨2, ![m, n]⟩ .f32) : FVec Ideal ⟨1, ![n]⟩ .f32 :=
  fun i => ∑ p : Fin m, src (ix2 (n1 := n) p ⟨(i 0).val, (i 0).isLt⟩)

theorem colsum_at {m n : Nat} (src : FVec Ideal ⟨2, ![m, n]⟩ .f32) (q : Fin n) :
    colsum src (ix1 q) = ∑ p : Fin m, src (ix2 p q) := rfl

/-- A sum over the rows is that row. -/
theorem colsum_eq {m n : Nat} (src : FVec Ideal ⟨2, ![m, n]⟩ .f32)
    (h : Shape.Reduces ⟨2, ![m, n]⟩ [0] ⟨1, ![n]⟩) (hφ : FKind.Formats .f32)
    (hacc : (0x00000000#32 : BitVec 32) = 0x00000000#32) :
    multiReduction .add [0] ⟨1, ![n]⟩ src 0x00000000#32 h hφ hacc = colsum src := by
  funext i
  obtain ⟨q, rfl⟩ : ∃ q : Fin n, i = ix1 q := ⟨i 0, eq_ix1 i⟩
  exact colsum_apply src h hφ hacc q

end Cert.KernelValue

end
-- ==== Proof.KV.Payload0.lean ====
/-
  The first kernel's stored values at an entry, on the extended reals.

  The accumulator starts at zero; each of the 15 steps adds the product of a 512×8192 block of the input by a 8192×384
  block of the (transposed) weight matrix; the epilogue adds the bias row, normalises each of the 384 columns over the
  512 rows, scales, shifts and applies v * logistic v: the specification's normalisation and activation of the
  accumulated columns.
-/
import proofs.«146654_j5488968204426_2_alg».proof.Proof.Gen.KernelIdeal.Skeleton
import proofs.«146654_j5488968204426_2_alg».proof.Proof.Spec
import proofs.«146654_j5488968204426_2_alg».proof.Proof.KV.Ops

noncomputable section

namespace Cert.KernelValue

open Idealize.ShloMosaic Idealize.ShloMosaic.ValueIdx Cert.KernelIdeal

/-- The accumulator's first value is zero everywhere. -/
theorem k0_pay1_apply (p : Fin 512) (q : Fin 384) : Gen.k0_pay1 (F := Ideal) (ix2 p q) = 0 := by
  unfold Gen.k0_pay1
  simp only [shapeCast_self, broadcast_apply, scalar_ofBits, Ideal.ofBits_zero_f32]

/-- One accumulation step at entry (p, q): the accumulator plus the sum over the block's 8192 coordinates of
    x (p, k) · w (k, q). -/
theorem k0_pay2_apply (a : FVec Ideal S512x384 .f32) (x : FVec Ideal S512x8192 .bf16) (w : FVec Ideal S8192x384 .bf16)
    (p : Fin 512) (q : Fin 384) :
    Gen.k0_pay2 (F := Ideal) a x w (ix2 p q) = a (ix2 p q) + ∑ k : Fin 8192, x (ix2 p k) * w (ix2 k q) := by
  unfold Gen.k0_pay2
  simp only [dot_S512x8192_S8192x384_S512x384_1_0_0_1_n_n]
  rw [matmul_zero_eq]
  simp only [shapeCast_self, addf_apply, mm_apply]

/-- The epilogue at entry (p, q): the accumulated columns plus the bias row, normalised over the 512 rows, scaled,
    shifted and activated. -/
theorem k0_pay3_apply (a : FVec Ideal S512x384 .f32) (b g be : FVec Ideal S1x384 .f32) (p : Fin 512) (q : Fin 384) :
    Gen.k0_pay3 (F := Ideal) a b g be (ix2 p q)
      = Spec.silu (Spec.bn (fun p q => a (ix2 p q) + b (ix2 0 q)) (fun q => g (ix2 0 q)) (fun q => be (ix2 0 q)) p q) := by
  unfold Gen.k0_pay3
  rw [colsum_eq, colsum_eq]
  simp only [shapeCast_self, mulf_apply, addf_apply, subf_apply, divf_apply, logistic_apply, rsqrt_apply, truncf_apply,
    broadcast_apply, broadcastTo_1b_ab_apply, shapeCast_a_1a_apply, colsum_at, mm_apply, scalar_ofBits,
    Spec.silu, Spec.bn, Spec.colVar, Spec.colMean]

end Cert.KernelValue

end
-- ==== Proof.KV.Layer1.lean ====
/-
  The first kernel's output array is layer 1 of the specification on the padded arrays.

  Column block n of the [512, 768] output is the epilogue of the accumulator after the 15 tiles of the contraction axis.
  By induction on the tile the accumulator at entry (p, q) is the sum over the tiles t ≤ k of the sums over the tile's
  8192 coordinates kk of X (p, 8192·t + kk) · W (8192·t + kk, 384·n + q); after the last tile the 15 tile sums are the
  one sum over the 122880 contracted coordinates, which with the bias is the linear layer at column j = 384·n + q.
  Normalisation acts column by column, so column q of the block's normalisation is column j of the array's.
-/
import proofs.«146654_j5488968204426_2_alg».proof.Proof.KI.R0Value
import proofs.«146654_j5488968204426_2_alg».proof.Proof.KV.Payload0
import proofs.«146654_j5488968204426_2_alg».proof.Proof.KV.Padding

noncomputable section

namespace Cert.KernelValue

open Idealize.ShloMosaic Idealize.ShloMosaic.ValueIdx Cert.KernelIdeal Cert.KernelIdeal.Hand

/-- The contribution of tile t of the contraction to entry (p, 384·n + q) of the product: the sum over the tile's 8192
    coordinates kk of X (p, 8192·t + kk) · W (8192·t + kk, 384·n + q). -/
def tileSum (X : FVec Ideal S512x122880 .bf16) (W : FVec Ideal S122880x768 .bf16) (n : Fin 2) (p : Fin 512)
    (q : Fin 384) (t : ℕ) (ht : t < 15) : EReal :=
  ∑ kk : Fin 8192, X (ix2 p (⟨8192 * t + kk.val, by have := kk.isLt; omega⟩ : Fin 122880))
    * W (ix2 (⟨8192 * t + kk.val, by have := kk.isLt; omega⟩ : Fin 122880)
        (⟨384 * n.val + q.val, by have := n.isLt; have := q.isLt; omega⟩ : Fin 768))

/-- One accumulation step on tile t adds that tile's contribution. -/
theorem tile_step (a : FVec Ideal S512x384 .f32) (X : FVec Ideal S512x122880 .bf16) (W : FVec Ideal S122880x768 .bf16)
    (n : Fin 2) (t : ℕ) (ht : t < 15) (p : Fin 512) (q : Fin 384) :
    Gen.k0_pay2 (F := Ideal) a (xTile X ⟨t, ht⟩) (wTile W ⟨t, ht⟩ n) (ix2 p q) = a (ix2 p q) + tileSum X W n p q t ht := by
  rw [k0_pay2_apply]
  exact congrArg (a (ix2 p q) + ·) (Finset.sum_congr rfl fun kk _ => rfl)

/-- The accumulator after tile k is the sum of the contributions of tiles 0 … k. -/
theorem accOf_apply (X : FVec Ideal S512x122880 .bf16) (W : FVec Ideal S122880x768 .bf16) (n : Fin 2) (p : Fin 512)
    (q : Fin 384) : ∀ (k : ℕ) (hk : k < 15),
    accOf (F := Ideal) X W n k hk (ix2 p q) = ∑ t : Fin (k + 1), tileSum X W n p q t.val (by have := t.isLt; omega)
  | 0, hk => by
    show Gen.k0_pay2 (F := Ideal) (Gen.k0_pay1 (F := Ideal)) (xTile X ⟨0, hk⟩) (wTile W ⟨0, hk⟩ n) (ix2 p q) = _
    rw [tile_step, k0_pay1_apply, zero_add, Fin.sum_univ_one]
    rfl
  | k + 1, hk => by
    show Gen.k0_pay2 (F := Ideal) (accOf (F := Ideal) X W n k (Nat.lt_of_succ_lt hk)) (xTile X ⟨k + 1, hk⟩)
      (wTile W ⟨k + 1, hk⟩ n) (ix2 p q) = _
    rw [tile_step, accOf_apply X W n p q k (Nat.lt_of_succ_lt hk)]
    exact (Fin.sum_univ_castSucc (fun t : Fin (k + 1 + 1) => tileSum X W n p q t.val (by have := t.isLt; omega))).symm

/-- Block n of a one-row parameter, at column q of the block, is the row at column 384·n + q. -/
theorem rowTile_apply (r : FVec Ideal S1x768 .f32) (n : Fin 2) (q : Fin 384) (j : Fin 768)
    (hj : j.val = 384 * n.val + q.val) : rowTile (F := Ideal) r n (ix2 0 q) = r (ix2 0 j) := by
  refine congrArg r ?_
  funext a
  apply Fin.ext
  match a with
  | ⟨0, _⟩ => rfl
  | ⟨1, _⟩ => exact hj.symm

/-- THE FIRST KERNEL'S OUTPUT ARRAY at entry (p, j) of its 768 padded columns: layer 1 of the specification on the padded
    arrays, the weight matrix read transposed and the one-row parameters at their row. -/
theorem layer1Arr_spec (X : FVec Ideal S512x122880 .bf16) (W : FVec Ideal S122880x768 .bf16)
    (b g be : FVec Ideal S1x768 .f32) (p : Fin 512) (j : Fin 768) :
    layer1Arr (F := Ideal) X W b g be (ix2 p j)
      = Spec.layerBn (fun p k => X (ix2 p k)) (fun j k => W (ix2 k j)) (fun j => b (ix2 0 j)) (fun j => g (ix2 0 j))
          (fun j => be (ix2 0 j)) p j := by
  obtain ⟨n, q, hj⟩ : ∃ (n : Fin 2) (q : Fin 384), j.val = 384 * n.val + q.val :=
    ⟨⟨j.val / 384, by have := j.isLt; omega⟩, ⟨j.val % 384, by omega⟩, by show j.val = 384 * (j.val / 384) + j.val % 384; omega⟩
  rw [layer1Arr_apply (F := Ideal) X W b g be (ix2 p j) n (ix2 p q) rfl hj]
  unfold layer1Blk Spec.layerBn
  rw [k0_pay3_apply]
  refine congrArg Spec.silu (bn_col _ _ _ _ _ _ j q (fun p' => ?_) (rowTile_apply g n q j hj) (rowTile_apply be n q j hj) p)
  show accOf (F := Ideal) X W n 14 _ (ix2 p' q) + rowTile (F := Ideal) b n (ix2 0 q) = _
  rw [accOf_apply X W n p' q 14, rowTile_apply b n q j hj]
  unfold Spec.lin
  rw [sum_tiles 15 8192 122880 (by norm_num) (fun k : Fin 122880 => X (ix2 p' k) * W (ix2 k j))]
  refine congrArg (· + b (ix2 0 j)) (Finset.sum_congr rfl fun t _ => Finset.sum_congr rfl fun kk _ => ?_)
  have e1 : (⟨8192 * t.val + kk.val, by have := t.isLt; have := kk.isLt; omega⟩ : Fin 122880)
      = ⟨t.val * 8192 + kk.val, by have := t.isLt; have := kk.isLt; omega⟩ := Fin.ext (by show 8192 * t.val + kk.val = t.val * 8192 + kk.val; omega)
  have e2 : (⟨384 * n.val + q.val, by have := n.isLt; have := q.isLt; omega⟩ : Fin 768) = j := Fin.ext hj.symm
  show X (ix2 p' ⟨8192 * t.val + kk.val, _⟩) * W (ix2 ⟨8192 * t.val + kk.val, _⟩ ⟨384 * n.val + q.val, _⟩) = _
  rw [e1, e2]

end Cert.KernelValue

end
-- ==== Proof.KV.Payload1.lean ====
/-
  The second kernel's values at an entry, on the extended reals: layers 2 to 5 on the padded arrays.

  Its matrices are stored transposed ([in, out]), so entry (q, k) of a layer's weight matrix is entry (k, q) of the stored
  one, and every bias, scale and shift is a one-row matrix. The body computes layer 2 (linear, activation), layer 3
  up to the scale of its normalisation, then layer 3's shift and activation and layer 4 whole, then layer 5 (linear).
  A change of float format is the identity on the extended reals.
-/
import proofs.«146654_j5488968204426_2_alg».proof.Proof.Gen.KernelIdeal.Skeleton
import proofs.«146654_j5488968204426_2_alg».proof.Proof.Spec
import proofs.«146654_j5488968204426_2_alg».proof.Proof.KV.Ops

noncomputable section

namespace Cert.KernelValue

open Idealize.ShloMosaic Idealize.ShloMosaic.ValueIdx Cert.KernelIdeal

/-- The normalisation of a column without its shift: (y - mean) / sqrt (var + eps) * scale. -/
def bnScaled {B O : Nat} (y : Fin B → Fin O → EReal) (g : Fin O → EReal) (p : Fin B) (q : Fin O) : EReal :=
  (y p q - Spec.colMean y q) * Ideal.rsqrt (Spec.colVar y q + Spec.eps) * g q

/-- The normalisation is the scaled column plus the shift. -/
theorem bn_eq_bnScaled {B O : Nat} (y : Fin B → Fin O → EReal) (g be : Fin O → EReal) (p : Fin B) (q : Fin O) :
    Spec.bn y g be p q = bnScaled y g p q + be q := rfl

/-- Layer 2 whole and layer 3 up to the scale, at entry (p, q) of the 384 padded columns. -/
theorem k1_pay2_apply (h : FVec Ideal S512x768 .bf16) (w2 : FVec Ideal S768x768 .bf16) (b2 : FVec Ideal S1x768 .f32)
    (w3 : FVec Ideal S768x384 .bf16) (b3 g2 : FVec Ideal S1x384 .f32) (p : Fin 512) (q : Fin 384) :
    Gen.k1_pay2 (F := Ideal) h w2 b2 w3 b3 g2 (ix2 p q)
      = bnScaled (Spec.lin (Spec.layerAct (fun p k => h (ix2 p k)) (fun q k => w2 (ix2 k q)) (fun q => b2 (ix2 0 q)))
          (fun q k => w3 (ix2 k q)) (fun q => b3 (ix2 0 q))) (fun q => g2 (ix2 0 q)) p q := by
  unfold Gen.k1_pay2
  simp only [dot_S512x768_S768x768_S512x768_1_0_0_1_n_n, dot_S512x768_S768x384_S512x384_1_0_0_1_n_n]
  rw [matmul_zero_eq, matmul_zero_eq, colsum_eq, colsum_eq]
  simp only [shapeCast_self, mulf_apply, addf_apply, subf_apply, divf_apply, logistic_apply, rsqrt_apply, truncf_apply,
    broadcast_apply, broadcastTo_1b_ab_apply, shapeCast_a_1a_apply, colsum_at, mm_apply, scalar_ofBits,
    bnScaled, Spec.lin, Spec.layerAct, Spec.silu, Spec.colVar, Spec.colMean]

/-- Layer 3's shift and activation and layer 4 whole, at entry (p, q) of the 256 padded columns. -/
theorem k1_pay3_apply (x : FVec Ideal S512x384 .f32) (be2 : FVec Ideal S1x384 .f32) (w4 : FVec Ideal S384x256 .bf16)
    (b4 g3 be3 : FVec Ideal S1x256 .f32) (p : Fin 512) (q : Fin 256) :
    Gen.k1_pay3 (F := Ideal) x be2 w4 b4 g3 be3 (ix2 p q)
      = Spec.layerBn (fun p k => Spec.silu (x (ix2 p k) + be2 (ix2 0 k))) (fun q k => w4 (ix2 k q))
          (fun q => b4 (ix2 0 q)) (fun q => g3 (ix2 0 q)) (fun q => be3 (ix2 0 q)) p q := by
  unfold Gen.k1_pay3
  simp only [dot_S512x384_S384x256_S512x256_1_0_0_1_n_n]
  rw [matmul_zero_eq, colsum_eq, colsum_eq]
  simp only [shapeCast_self, mulf_apply, addf_apply, subf_apply, divf_apply, logistic_apply, rsqrt_apply, truncf_apply,
    broadcast_apply, broadcastTo_1b_ab_apply, shapeCast_a_1a_apply, colsum_at, mm_apply, scalar_ofBits,
    Spec.layerBn, Spec.bn, Spec.lin, Spec.silu, Spec.colVar, Spec.colMean]

/-- The last layer's weights pass through a cast to their own shape. -/
theorem k1_pay4_eq (w5 : FVec Ideal S256x256 .bf16) : Gen.k1_pay4 (F := Ideal) w5 = w5 := by
  unfold Gen.k1_pay4
  exact shapeCast_self _ _

/-- Layer 5 at entry (p, q) of the 256 padded columns. -/
theorem k1_pay1_apply (x : FVec Ideal S512x256 .bf16) (w5 : FVec Ideal S256x256 .bf16) (b5 : FVec Ideal S1x256 .f32)
    (p : Fin 512) (q : Fin 256) :
    Gen.k1_pay1 (F := Ideal) x w5 b5 (ix2 p q)
      = Spec.lin (fun p k => x (ix2 p k)) (fun q k => w5 (ix2 k q)) (fun q => b5 (ix2 0 q)) p q := by
  unfold Gen.k1_pay1
  simp only [dot_S512x256_S256x256_S512x256_1_0_0_1_n_n]
  rw [matmul_zero_eq]
  simp only [shapeCast_self, addf_apply, broadcastTo_1b_ab_apply, mm_apply, Spec.lin]

/-- THE SECOND KERNEL'S STORED VALUE at entry (p, q): layers 2 to 5 of the specification on the padded arrays, the weight
    matrices read transposed and the one-row parameters at their row. -/
theorem k1_tail_apply (h : FVec Ideal S512x768 .bf16) (w2 : FVec Ideal S768x768 .bf16) (b2 : FVec Ideal S1x768 .f32)
    (w3 : FVec Ideal S768x384 .bf16) (b3 g2 be2 : FVec Ideal S1x384 .f32) (w4 : FVec Ideal S384x256 .bf16)
    (b4 g3 be3 : FVec Ideal S1x256 .f32) (w5 : FVec Ideal S256x256 .bf16) (b5 : FVec Ideal S1x256 .f32)
    (p : Fin 512) (q : Fin 256) :
    Gen.k1_pay1 (F := Ideal) (Gen.k1_pay3 (Gen.k1_pay2 h w2 b2 w3 b3 g2) be2 w4 b4 g3 be3) (Gen.k1_pay4 w5) b5 (ix2 p q)
      = Spec.lin (Spec.layerBn (Spec.layerBn (Spec.layerAct (fun p k => h (ix2 p k)) (fun q k => w2 (ix2 k q))
              (fun q => b2 (ix2 0 q)))
            (fun q k => w3 (ix2 k q)) (fun q => b3 (ix2 0 q)) (fun q => g2 (ix2 0 q)) (fun q => be2 (ix2 0 q)))
          (fun q k => w4 (ix2 k q)) (fun q => b4 (ix2 0 q)) (fun q => g3 (ix2 0 q)) (fun q => be3 (ix2 0 q)))
        (fun q k => w5 (ix2 k q)) (fun q => b5 (ix2 0 q)) p q := by
  rw [k1_pay1_apply, k1_pay4_eq]
  simp only [k1_pay3_apply, k1_pay2_apply]
  rfl

end Cert.KernelValue

end
-- ==== Proof.KV.Payload.lean ====
/-
  The kernel bodies' stored values at an entry, on the extended reals: the first kernel's accumulator steps and epilogue,
  and the second kernel's layers 2 to 5.
-/
import proofs.«146654_j5488968204426_2_alg».proof.Proof.KV.Payload0
import proofs.«146654_j5488968204426_2_alg».proof.Proof.KV.Payload1
-- ==== Proof.KI.BridgeFinal.lean ====
/-
  The kernel program's result is the specification's array: the composition of the host operations and the two kernels,
  with the first kernel's array and the second kernel's stored value read as layers of the specification.
-/
import proofs.«146654_j5488968204426_2_alg».proof.Proof.KI.Bridge
import proofs.«146654_j5488968204426_2_alg».proof.Proof.KI.R0Value
import proofs.«146654_j5488968204426_2_alg».proof.Proof.KV.Layer1
import proofs.«146654_j5488968204426_2_alg».proof.Proof.KV.Payload

noncomputable section

namespace Cert.KernelBridge

open Idealize.ShloMosaic Idealize.ShloMosaic.ValueIdx
open Cert Cert.KernelIdeal Cert.KernelIdeal.Gen Cert.KernelGlue Cert.KernelValue Cert.KernelIdeal.Hand

/-- THE KERNEL PROGRAM'S RESULT IS THE SPECIFICATION'S ARRAY, when the five arrays of index pairs are in range. -/
theorem kernel_eq_netArr
    (x : FVec Ideal S512x120000 .f32)
    (idx1 : IVec S2x7200000 32) (val1 : FVec Ideal S7200000 .f32) (b1 : FVec Ideal S600 .f32)
    (idx2 : IVec S2x36000 32) (val2 : FVec Ideal S36000 .f32) (b2 : FVec Ideal S600 .f32)
    (idx3 : IVec S2x18000 32) (val3 : FVec Ideal S18000 .f32) (b3 : FVec Ideal S300 .f32)
    (idx4 : IVec S2x6000 32) (val4 : FVec Ideal S6000 .f32) (b4 : FVec Ideal S200 .f32)
    (idx5 : IVec S2x4000 32) (val5 : FVec Ideal S4000 .f32) (b5 : FVec Ideal S200 .f32)
    (g1 be1 : FVec Ideal S600 .f32) (g2 be2 : FVec Ideal S300 .f32) (g3 be3 : FVec Ideal S200 .f32)
    (h1 : ∀ e : Fin 7200000, 0 ≤ (idx1 (ix2 (0 : Fin 2) e)).toInt ∧ (idx1 (ix2 (0 : Fin 2) e)).toInt < 600
      ∧ 0 ≤ (idx1 (ix2 (1 : Fin 2) e)).toInt ∧ (idx1 (ix2 (1 : Fin 2) e)).toInt < 120000)
    (h2 : ∀ e : Fin 36000, 0 ≤ (idx2 (ix2 (0 : Fin 2) e)).toInt ∧ (idx2 (ix2 (0 : Fin 2) e)).toInt < 600
      ∧ 0 ≤ (idx2 (ix2 (1 : Fin 2) e)).toInt ∧ (idx2 (ix2 (1 : Fin 2) e)).toInt < 600)
    (h3 : ∀ e : Fin 18000, 0 ≤ (idx3 (ix2 (0 : Fin 2) e)).toInt ∧ (idx3 (ix2 (0 : Fin 2) e)).toInt < 300
      ∧ 0 ≤ (idx3 (ix2 (1 : Fin 2) e)).toInt ∧ (idx3 (ix2 (1 : Fin 2) e)).toInt < 600)
    (h4 : ∀ e : Fin 6000, 0 ≤ (idx4 (ix2 (0 : Fin 2) e)).toInt ∧ (idx4 (ix2 (0 : Fin 2) e)).toInt < 200
      ∧ 0 ≤ (idx4 (ix2 (1 : Fin 2) e)).toInt ∧ (idx4 (ix2 (1 : Fin 2) e)).toInt < 300)
    (h5 : ∀ e : Fin 4000, 0 ≤ (idx5 (ix2 (0 : Fin 2) e)).toInt ∧ (idx5 (ix2 (0 : Fin 2) e)).toInt < 200
      ∧ 0 ≤ (idx5 (ix2 (1 : Fin 2) e)).toInt ∧ (idx5 (ix2 (1 : Fin 2) e)).toInt < 200) :
    kOut (k1_pay1 (F := Ideal) (k1_pay3 (k1_pay2 (kMid (layer1Arr (F := Ideal) (kX x) (kWeightT1 idx1 val1) (kRow600 b1) (kRow600 g1) (kRow600 be1)))
        (kWeightT2 idx2 val2) (kRow600 b2) (kWeightT3 idx3 val3) (kRow300 b3) (kRow300 g2)) (kRow300 be2)
        (kWeightT4 idx4 val4) (kRow200 b4) (kRow200 g3) (kRow200 be3)) (k1_pay4 (kWeightT5 idx5 val5)) (kRow200 b5))
      = Spec.netArr x idx1 val1 b1 idx2 val2 b2 idx3 val3 b3 idx4 val4 b4 idx5 val5 b5 g1 be1 g2 be2 g3 be3 :=
  kernel_eq_netArr_of (layer1Arr (F := Ideal)) layer1Arr_spec k1_tail_apply
    x idx1 val1 b1 idx2 val2 b2 idx3 val3 b3 idx4 val4 b4 idx5 val5 b5 g1 be1 g2 be2 g3 be3 h1 h2 h3 h4 h5

end Cert.KernelBridge

end
-- ==== Proof.Ref.Ops0.lean ====
/-
  The reference program's statements 1 … 60 as lists of operations: a called function's operations stand at
  its call, over the buffers the call's record names, so that the window is one straight line. The lists are cut where a
  layer's linear part, its normalisation or its activation ends. For each list: every buffer it touches is a TensorCore
  reference, the buffers it writes, and that a buffer it does not write keeps its contents; for the window: it is the
  straight line of its lists, one after the other.
-/
import proofs.«146654_j5488968204426_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations ops0_0: 29 of them, from `main_cst` to `main_v23`. -/
abbrev ops0_0 : List (HloOp τ sig (Elt F)) :=
  [ nullary main_cst (constant S_ .f32 0x00000000#32),
    unary main_cst main_v0 (broadcastInDim S600x120000 ![] bcast_S_S600x120000 : (⟨S_, .f32⟩ : BufTy).Contents (Elt F) → (⟨S600x120000, .f32⟩ : BufTy).Contents (Elt F)),
    unary main_arg1 main_v1 ((extractStridedSlice S1x7200000 ![0, 0] · slices_S2x7200000_S1x7200000_0_0) : (⟨S2x7200000, .i32⟩ : BufTy).Contents (Elt F) → (⟨S1x7200000, .i32⟩ : BufTy).Contents (Elt F)),
    reshape main_v1 main_v2 rfl shapeCasts_S1x7200000_S7200000,
    unary main_arg1 main_v3 ((extractStridedSlice S1x7200000 ![1, 0] · slices_S2x7200000_S1x7200000_1_0) : (⟨S2x7200000, .i32⟩ : BufTy).Contents (Elt F) → (⟨S1x7200000, .i32⟩ : BufTy).Contents (Elt F)),
    reshape main_v3 main_v4 rfl shapeCasts_S1x7200000_S7200000,
    nullary main_c (constantI S_ 32 0#32),
    unary main_c main_v5 (broadcastInDim S7200000 ![] bcast_S_S7200000 : (⟨S_, .i32⟩ : BufTy).Contents (Elt F) → (⟨S7200000, .i32⟩ : BufTy).Contents (Elt F)),
    binary main_v2 main_v5 main_v6 (cmpi .slt : (⟨S7200000, .i32⟩ : BufTy).Contents (Elt F) → (⟨S7200000, .i32⟩ : BufTy).Contents (Elt F) → (⟨S7200000, .i1⟩ : BufTy).Contents (Elt F)),
    nullary main_c_0 (constantI S_ 32 600#32),
    unary main_c_0 main_v7 (broadcastInDim S7200000 ![] bcast_S_S7200000 : (⟨S_, .i32⟩ : BufTy).Contents (Elt F) → (⟨S7200000, .i32⟩ : BufTy).Contents (Elt F)),
    binary main_v2 main_v7 main_v8 (addi : (⟨S7200000, .i32⟩ : BufTy).Contents (Elt F) → (⟨S7200000, .i32⟩ : BufTy).Contents (Elt F) → (⟨S7200000, .i32⟩ : BufTy).Contents (Elt F)),
    ternary main_v6 main_v8 main_v2 main_v9 (select : (⟨S7200000, .i1⟩ : BufTy).Contents (Elt F) → (⟨S7200000, .i32⟩ : BufTy).Contents (Elt F) → (⟨S7200000, .i32⟩ : BufTy).Contents (Elt F) → (⟨S7200000, .i32⟩ : BufTy).Contents (Elt F)),
    nullary main_c_1 (constantI S_ 32 0#32),
    unary main_c_1 main_v10 (broadcastInDim S7200000 ![] bcast_S_S7200000 : (⟨S_, .i32⟩ : BufTy).Contents (Elt F) → (⟨S7200000, .i32⟩ : BufTy).Contents (Elt F)),
    binary main_v4 main_v10 main_v11 (cmpi .slt : (⟨S7200000, .i32⟩ : BufTy).Contents (Elt F) → (⟨S7200000, .i32⟩ : BufTy).Contents (Elt F) → (⟨S7200000, .i1⟩ : BufTy).Contents (Elt F)),
    nullary main_c_2 (constantI S_ 32 120000#32),
    unary main_c_2 main_v12 (broadcastInDim S7200000 ![] bcast_S_S7200000 : (⟨S_, .i32⟩ : BufTy).Contents (Elt F) → (⟨S7200000, .i32⟩ : BufTy).Contents (Elt F)),
    binary main_v4 main_v12 main_v13 (addi : (⟨S7200000, .i32⟩ : BufTy).Contents (Elt F) → (⟨S7200000, .i32⟩ : BufTy).Contents (Elt F) → (⟨S7200000, .i32⟩ : BufTy).Contents (Elt F)),
    ternary main_v11 main_v13 main_v4 main_v14 (select : (⟨S7200000, .i1⟩ : BufTy).Contents (Elt F) → (⟨S7200000, .i32⟩ : BufTy).Contents (Elt F) → (⟨S7200000, .i32⟩ : BufTy).Contents (Elt F) → (⟨S7200000, .i32⟩ : BufTy).Contents (Elt F)),
    unary main_v9 main_v15 (broadcastInDim S7200000x1 ![0] bcast_S7200000_S7200000x1_0 : (⟨S7200000, .i32⟩ : BufTy).Contents (Elt F) → (⟨S7200000x1, .i32⟩ : BufTy).Contents (Elt F)),
    unary main_v14 main_v16 (broadcastInDim S7200000x1 ![0] bcast_S7200000_S7200000x1_0 : (⟨S7200000, .i32⟩ : BufTy).Contents (Elt F) → (⟨S7200000x1, .i32⟩ : BufTy).Contents (Elt F)),
    binary main_v15 main_v16 main_v17 ((fun a b => concatenate S7200000x2 1 [⟨S7200000x1, a⟩, ⟨S7200000x1, b⟩] concatenates_S7200000x1_S7200000x1_S7200000x2_d1) : (⟨S7200000x1, .i32⟩ : BufTy).Contents (Elt F) → (⟨S7200000x1, .i32⟩ : BufTy).Contents (Elt F) → (⟨S7200000x2, .i32⟩ : BufTy).Contents (Elt F)),
    ternary main_v0 main_v17 main_arg2 main_v18 ((fun x i u => Host.scatterAdd scatter_S600x120000_S7200000x2_S7200000_n_01_01_1 x i u) : (⟨S600x120000, .f32⟩ : BufTy).Contents (Elt F) → (⟨S7200000x2, .i32⟩ : BufTy).Contents (Elt F) → (⟨S7200000, .f32⟩ : BufTy).Contents (Elt F) → (⟨S600x120000, .f32⟩ : BufTy).Contents (Elt F)),
    unary main_v18 main_v19 ((transpose S120000x600 [1, 0] · transposes_S600x120000_S120000x600_1_0) : (⟨S600x120000, .f32⟩ : BufTy).Contents (Elt F) → (⟨S120000x600, .f32⟩ : BufTy).Contents (Elt F)),
    binary main_arg0 main_v19 main_v20 ((fun l r => Host.dotGeneral dot_S512x120000_S120000x600_S512x600_1_0_0_1_n_n none l r) : (⟨S512x120000, .f32⟩ : BufTy).Contents (Elt F) → (⟨S120000x600, .f32⟩ : BufTy).Contents (Elt F) → (⟨S512x600, .f32⟩ : BufTy).Contents (Elt F)),
    unary main_arg3 main_v21 (broadcastInDim S1x600 ![1] bcast_S600_S1x600_1 : (⟨S600, .f32⟩ : BufTy).Contents (Elt F) → (⟨S1x600, .f32⟩ : BufTy).Contents (Elt F)),
    unary main_v21 main_v22 (broadcastInDim S512x600 ![0, 1] bcast_S1x600_S512x600_0_1 : (⟨S1x600, .f32⟩ : BufTy).Contents (Elt F) → (⟨S512x600, .f32⟩ : BufTy).Contents (Elt F)),
    binary main_v20 main_v22 main_v23 (addf : (⟨S512x600, .f32⟩ : BufTy).Contents (Elt F) → (⟨S512x600, .f32⟩ : BufTy).Contents (Elt F) → (⟨S512x600, .f32⟩ : BufTy).Contents (Elt F)) ]

set_option maxRecDepth 8192 in
theorem ops0_0_sub : (ops0_0 : List (HloOp τ sig (Elt F))).Forall fun op => op.bufs ⊆ tcRefs τ sig :=
  ⟨nullary_bufs_sub .., unary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., unary_bufs_sub .., binary_bufs_sub .., unary_bufs_sub .., unary_bufs_sub .., binary_bufs_sub ..⟩

set_option maxRecDepth 8192 in
/-- Every operation of ops0_0 determines what it writes. -/
theorem ops0_0_fresh : (ops0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers ops0_0 writes. -/
abbrev ops0_0_W : List (Ref sig .tc) := [main_cst, main_v0, main_v1, main_v2, main_v3, main_v4, main_c, main_v5, main_v6, main_c_0, main_v7, main_v8, main_v9, main_c_1, main_v10, main_v11, main_c_2, main_v12, main_v13, main_v14, main_v15, main_v16, main_v17, main_v18, main_v19, main_v20, main_v21, main_v22, main_v23]
set_option maxRecDepth 8192 in
theorem ops0_0_writes : (ops0_0 : List (HloOp τ sig (Elt F))).Forall fun op => op.writes ⊆ (ops0_0_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer ops0_0 does not write keeps its contents through it. -/
theorem ops0_0_keep (V : Valuation τ sig (Elt F)) (r : Ref sig .tc) (h : r ∉ ops0_0_W) :
    after ops0_0 V (Proc.devRef .tc r) = V (Proc.devRef .tc r) :=
  after_of_writes_sub ops0_0 V ops0_0_writes h

/-- Operations ops0_1: 44 of them, from `main_cst_3` to `main_v42`. -/
abbrev ops0_1 : List (HloOp τ sig (Elt F)) :=
  [ nullary main_cst_3 (constant S_ .f32 0x00000000#32),
    binary main_v23 main_cst_3 main_v24 ((fun x v => Host.reduceAdd x v reducesTo_S512x600_S600_d0 h_S_) : (⟨S512x600, .f32⟩ : BufTy).Contents (Elt F) → (⟨S_, .f32⟩ : BufTy).Contents (Elt F) → (⟨S600, .f32⟩ : BufTy).Contents (Elt F)),
    nullary main_cst_4 (constant S_ .f32 0x44000000#32),
    unary main_cst_4 main_v25 (broadcastInDim S600 ![] bcast_S_S600 : (⟨S_, .f32⟩ : BufTy).Contents (Elt F) → (⟨S600, .f32⟩ : BufTy).Contents (Elt F)),
    binary main_v24 main_v25 main_v26 (Host.divf : (⟨S600, .f32⟩ : BufTy).Contents (Elt F) → (⟨S600, .f32⟩ : BufTy).Contents (Elt F) → (⟨S600, .f32⟩ : BufTy).Contents (Elt F)),
    nullary main_c_5 (constantI S_ 32 0#32),
    TRef.nullary main_call0.cst (constant S_ .f32 0x00000000#32),
    TRef.binary (.of main_v23) main_call0.cst main_call0.v0 (fun x v => Host.reduceAdd x v reducesTo_S512x600_S600_d0 h_S_),
    TRef.unary main_call0.v0 main_call0.v1 (broadcastInDim S1x600 ![1] bcast_S600_S1x600_1),
    TRef.nullary main_call0.cst_0 (constant S_ .f32 0x44000000#32),
    TRef.unary main_call0.cst_0 main_call0.v2 (broadcastInDim S1x600 ![] bcast_S_S1x600),
    TRef.binary main_call0.v1 main_call0.v2 main_call0.v3 Host.divf,
    TRef.unary main_call0.v3 main_call0.v4 (broadcastInDim S512x600 ![0, 1] bcast_S1x600_S512x600_0_1),
    TRef.binary (.of main_v23) main_call0.v4 main_call0.v5 subf,
    TRef.binary main_call0.v5 main_call0.v5 main_call0.v6 mulf,
    TRef.unary (.of main_c_5) main_call0.v7 (sitofp .f32),
    TRef.nullary main_call0.cst_1 (constant S_ .f32 0x44000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S512x600_S600_d0 h_S_),
    TRef.unary main_call0.v8 main_call0.v10 (broadcastInDim S600 ![] bcast_S_S600),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S600 ![] bcast_S_S600),
    TRef.ternary main_call0.v12 main_call0.v11 main_call0.call0.v1 main_call0.call0.v2 (fun p a b => select (broadcastInDim S600 ![] bcast_S_S600 p) a b),
    unary main_v26 main_v28 (broadcastInDim S1x600 ![1] bcast_S600_S1x600_1 : (⟨S600, .f32⟩ : BufTy).Contents (Elt F) → (⟨S1x600, .f32⟩ : BufTy).Contents (Elt F)),
    unary main_v28 main_v29 (broadcastInDim S512x600 ![0, 1] bcast_S1x600_S512x600_0_1 : (⟨S1x600, .f32⟩ : BufTy).Contents (Elt F) → (⟨S512x600, .f32⟩ : BufTy).Contents (Elt F)),
    binary main_v23 main_v29 main_v30 (subf : (⟨S512x600, .f32⟩ : BufTy).Contents (Elt F) → (⟨S512x600, .f32⟩ : BufTy).Contents (Elt F) → (⟨S512x600, .f32⟩ : BufTy).Contents (Elt F)),
    nullary main_cst_6 (constant S_ .f32 0x3727C5AC#32),
    unary main_cst_6 main_v31 (broadcastInDim S600 ![] bcast_S_S600 : (⟨S_, .f32⟩ : BufTy).Contents (Elt F) → (⟨S600, .f32⟩ : BufTy).Contents (Elt F)),
    binary main_v27 main_v31 main_v32 (addf : (⟨S600, .f32⟩ : BufTy).Contents (Elt F) → (⟨S600, .f32⟩ : BufTy).Contents (Elt F) → (⟨S600, .f32⟩ : BufTy).Contents (Elt F)),
    unary main_v32 main_v33 (Host.rsqrt : (⟨S600, .f32⟩ : BufTy).Contents (Elt F) → (⟨S600, .f32⟩ : BufTy).Contents (Elt F)),
    unary main_v33 main_v34 (broadcastInDim S1x600 ![1] bcast_S600_S1x600_1 : (⟨S600, .f32⟩ : BufTy).Contents (Elt F) → (⟨S1x600, .f32⟩ : BufTy).Contents (Elt F)),
    unary main_v34 main_v35 (broadcastInDim S512x600 ![0, 1] bcast_S1x600_S512x600_0_1 : (⟨S1x600, .f32⟩ : BufTy).Contents (Elt F) → (⟨S512x600, .f32⟩ : BufTy).Contents (Elt F)),
    binary main_v30 main_v35 main_v36 (mulf : (⟨S512x600, .f32⟩ : BufTy).Contents (Elt F) → (⟨S512x600, .f32⟩ : BufTy).Contents (Elt F) → (⟨S512x600, .f32⟩ : BufTy).Contents (Elt F)),
    unary main_arg16 main_v37 (broadcastInDim S1x600 ![1] bcast_S600_S1x600_1 : (⟨S600, .f32⟩ : BufTy).Contents (Elt F) → (⟨S1x600, .f32⟩ : BufTy).Contents (Elt F)),
    unary main_v37 main_v38 (broadcastInDim S512x600 ![0, 1] bcast_S1x600_S512x600_0_1 : (⟨S1x600, .f32⟩ : BufTy).Contents (Elt F) → (⟨S512x600, .f32⟩ : BufTy).Contents (Elt F)),
    binary main_v36 main_v38 main_v39 (mulf : (⟨S512x600, .f32⟩ : BufTy).Contents (Elt F) → (⟨S512x600, .f32⟩ : BufTy).Contents (Elt F) → (⟨S512x600, .f32⟩ : BufTy).Contents (Elt F)),
    unary main_arg17 main_v40 (broadcastInDim S1x600 ![1] bcast_S600_S1x600_1 : (⟨S600, .f32⟩ : BufTy).Contents (Elt F) → (⟨S1x600, .f32⟩ : BufTy).Contents (Elt F)),
    unary main_v40 main_v41 (broadcastInDim S512x600 ![0, 1] bcast_S1x600_S512x600_0_1 : (⟨S1x600, .f32⟩ : BufTy).Contents (Elt F) → (⟨S512x600, .f32⟩ : BufTy).Contents (Elt F)),
    binary main_v39 main_v41 main_v42 (addf : (⟨S512x600, .f32⟩ : BufTy).Contents (Elt F) → (⟨S512x600, .f32⟩ : BufTy).Contents (Elt F) → (⟨S512x600, .f32⟩ : BufTy).Contents (Elt F)) ]

set_option maxRecDepth 8192 in
theorem ops0_1_sub : (ops0_1 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

set_option maxRecDepth 8192 in
/-- Every operation of ops0_1 determines what it writes. -/
theorem ops0_1_fresh : (ops0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers ops0_1 writes. -/
abbrev ops0_1_W : List (Ref sig .tc) := [main_cst_3, main_v24, main_cst_4, main_v25, main_v26, main_c_5, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v27, main_v28, main_v29, main_v30, main_cst_6, main_v31, main_v32, main_v33, main_v34, main_v35, main_v36, main_v37, main_v38, main_v39, main_v40, main_v41, main_v42]
set_option maxRecDepth 8192 in
theorem ops0_1_writes : (ops0_1 : List (HloOp τ sig (Elt F))).Forall fun op => op.writes ⊆ (ops0_1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer ops0_1 does not write keeps its contents through it. -/
theorem ops0_1_keep (V : Valuation τ sig (Elt F)) (r : Ref sig .tc) (h : r ∉ ops0_1_W) :
    after ops0_1 V (Proc.devRef .tc r) = V (Proc.devRef .tc r) :=
  after_of_writes_sub ops0_1 V ops0_1_writes h

/-- Operations ops0_2: 9 of them, from `main_call1_v0` to `main_v43`. -/
abbrev ops0_2 : List (HloOp τ sig (Elt F)) :=
  [ TRef.unary (.of main_v42) main_call1.v0 Host.negf,
    TRef.unary main_call1.v0 main_call1.v1 Host.exp,
    TRef.nullary main_call1.cst (constant S_ .f32 0x3F800000#32),
    TRef.unary main_call1.cst main_call1.v2 (broadcastInDim S512x600 ![] bcast_S_S512x600),
    TRef.binary main_call1.v2 main_call1.v1 main_call1.v3 addf,
    TRef.nullary main_call1.cst_0 (constant S_ .f32 0x3F800000#32),
    TRef.unary main_call1.cst_0 main_call1.v4 (broadcastInDim S512x600 ![] bcast_S_S512x600),
    TRef.binary main_call1.v4 main_call1.v3 main_call1.v5 Host.divf,
    TRef.binary (.of main_v42) main_call1.v5 main_call1.v6 mulf ]

set_option maxRecDepth 8192 in
theorem ops0_2_sub : (ops0_2 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub ..⟩

set_option maxRecDepth 8192 in
/-- Every operation of ops0_2 determines what it writes. -/
theorem ops0_2_fresh : (ops0_2 : List (HloOp τ sig (Elt F))).Forall fun op => op.fresh = ∅ :=
  ⟨rfl, rfl, rfl, rfl, rfl, rfl, rfl, rfl, rfl⟩

/-- The buffers ops0_2 writes. -/
abbrev ops0_2_W : List (Ref sig .tc) := [main_call1_v0, main_call1_v1, main_call1_cst, main_call1_v2, main_call1_v3, main_call1_cst_0, main_call1_v4, main_call1_v5, main_v43]
set_option maxRecDepth 8192 in
theorem ops0_2_writes : (ops0_2 : List (HloOp τ sig (Elt F))).Forall fun op => op.writes ⊆ (ops0_2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer ops0_2 does not write keeps its contents through it. -/
theorem ops0_2_keep (V : Valuation τ sig (Elt F)) (r : Ref sig .tc) (h : r ∉ ops0_2_W) :
    after ops0_2 V (Proc.devRef .tc r) = V (Proc.devRef .tc r) :=
  after_of_writes_sub ops0_2 V ops0_2_writes h

/-- Operations ops0_3: 7 of them, from `main_cst_7` to `main_c_8`. -/
abbrev ops0_3 : List (HloOp τ sig (Elt F)) :=
  [ nullary main_cst_7 (constant S_ .f32 0x00000000#32),
    unary main_cst_7 main_v44 (broadcastInDim S600x600 ![] bcast_S_S600x600 : (⟨S_, .f32⟩ : BufTy).Contents (Elt F) → (⟨S600x600, .f32⟩ : BufTy).Contents (Elt F)),
    unary main_arg4 main_v45 ((extractStridedSlice S1x36000 ![0, 0] · slices_S2x36000_S1x36000_0_0) : (⟨S2x36000, .i32⟩ : BufTy).Contents (Elt F) → (⟨S1x36000, .i32⟩ : BufTy).Contents (Elt F)),
    reshape main_v45 main_v46 rfl shapeCasts_S1x36000_S36000,
    unary main_arg4 main_v47 ((extractStridedSlice S1x36000 ![1, 0] · slices_S2x36000_S1x36000_1_0) : (⟨S2x36000, .i32⟩ : BufTy).Contents (Elt F) → (⟨S1x36000, .i32⟩ : BufTy).Contents (Elt F)),
    reshape main_v47 main_v48 rfl shapeCasts_S1x36000_S36000,
    nullary main_c_8 (constantI S_ 32 0#32) ]

set_option maxRecDepth 8192 in
theorem ops0_3_sub : (ops0_3 : List (HloOp τ sig (Elt F))).Forall fun op => op.bufs ⊆ tcRefs τ sig :=
  ⟨nullary_bufs_sub .., unary_bufs_sub .., unary_bufs_sub .., reshape_bufs_sub .., unary_bufs_sub .., reshape_bufs_sub .., nullary_bufs_sub ..⟩

set_option maxRecDepth 8192 in
/-- Every operation of ops0_3 determines what it writes. -/
theorem ops0_3_fresh : (ops0_3 : List (HloOp τ sig (Elt F))).Forall fun op => op.fresh = ∅ :=
  ⟨rfl, rfl, rfl, rfl, rfl, rfl, rfl⟩

/-- The buffers ops0_3 writes. -/
abbrev ops0_3_W : List (Ref sig .tc) := [main_cst_7, main_v44, main_v45, main_v46, main_v47, main_v48, main_c_8]
set_option maxRecDepth 8192 in
theorem ops0_3_writes : (ops0_3 : List (HloOp τ sig (Elt F))).Forall fun op => op.writes ⊆ (ops0_3_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer ops0_3 does not write keeps its contents through it. -/
theorem ops0_3_keep (V : Valuation τ sig (Elt F)) (r : Ref sig .tc) (h : r ∉ ops0_3_W) :
    after ops0_3 V (Proc.devRef .tc r) = V (Proc.devRef .tc r) :=
  after_of_writes_sub ops0_3 V ops0_3_writes h

set_option maxRecDepth 8192 in
set_option maxHeartbeats 4000000 in
/-- The window is the straight line of its lists: the called functions' definitions unfolded at their calls, both sides
    are one chain of `hlo` steps once sequencing is reassociated. -/
theorem main_part0_eq (c : Dev nD) : main_part0 (F := F) c = seq (ops0_0 ++ ops0_1 ++ ops0_2 ++ ops0_3) := by
  simp only [main_part0, fn_var.body, fn_where.body, fn_silu.body, List.cons_append, List.nil_append, seq, bind_assoc, pure_bind]
  first | done | rfl

end Cert.ReferenceIdeal.Hand

end
-- ==== Proof.Ref.Ops1.lean ====
/-
  The reference program's statements 61 … 120 as lists of operations: a called function's operations stand at
  its call, over the buffers the call's record names, so that the window is one straight line. The lists are cut where a
  layer's linear part, its normalisation or its activation ends. For each list: every buffer it touches is a TensorCore
  reference, the buffers it writes, and that a buffer it does not write keeps its contents; for the window: it is the
  straight line of its lists, one after the other.
-/
import proofs.«146654_j5488968204426_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations ops1_0: 22 of them, from `main_v49` to `main_v67`. -/
abbrev ops1_0 : List (HloOp τ sig (Elt F)) :=
  [ unary main_c_8 main_v49 (broadcastInDim S36000 ![] bcast_S_S36000 : (⟨S_, .i32⟩ : BufTy).Contents (Elt F) → (⟨S36000, .i32⟩ : BufTy).Contents (Elt F)),
    binary main_v46 main_v49 main_v50 (cmpi .slt : (⟨S36000, .i32⟩ : BufTy).Contents (Elt F) → (⟨S36000, .i32⟩ : BufTy).Contents (Elt F) → (⟨S36000, .i1⟩ : BufTy).Contents (Elt F)),
    nullary main_c_9 (constantI S_ 32 600#32),
    unary main_c_9 main_v51 (broadcastInDim S36000 ![] bcast_S_S36000 : (⟨S_, .i32⟩ : BufTy).Contents (Elt F) → (⟨S36000, .i32⟩ : BufTy).Contents (Elt F)),
    binary main_v46 main_v51 main_v52 (addi : (⟨S36000, .i32⟩ : BufTy).Contents (Elt F) → (⟨S36000, .i32⟩ : BufTy).Contents (Elt F) → (⟨S36000, .i32⟩ : BufTy).Contents (Elt F)),
    ternary main_v50 main_v52 main_v46 main_v53 (select : (⟨S36000, .i1⟩ : BufTy).Contents (Elt F) → (⟨S36000, .i32⟩ : BufTy).Contents (Elt F) → (⟨S36000, .i32⟩ : BufTy).Contents (Elt F) → (⟨S36000, .i32⟩ : BufTy).Contents (Elt F)),
    nullary main_c_10 (constantI S_ 32 0#32),
    unary main_c_10 main_v54 (broadcastInDim S36000 ![] bcast_S_S36000 : (⟨S_, .i32⟩ : BufTy).Contents (Elt F) → (⟨S36000, .i32⟩ : BufTy).Contents (Elt F)),
    binary main_v48 main_v54 main_v55 (cmpi .slt : (⟨S36000, .i32⟩ : BufTy).Contents (Elt F) → (⟨S36000, .i32⟩ : BufTy).Contents (Elt F) → (⟨S36000, .i1⟩ : BufTy).Contents (Elt F)),
    nullary main_c_11 (constantI S_ 32 600#32),
    unary main_c_11 main_v56 (broadcastInDim S36000 ![] bcast_S_S36000 : (⟨S_, .i32⟩ : BufTy).Contents (Elt F) → (⟨S36000, .i32⟩ : BufTy).Contents (Elt F)),
    binary main_v48 main_v56 main_v57 (addi : (⟨S36000, .i32⟩ : BufTy).Contents (Elt F) → (⟨S36000, .i32⟩ : BufTy).Contents (Elt F) → (⟨S36000, .i32⟩ : BufTy).Contents (Elt F)),
    ternary main_v55 main_v57 main_v48 main_v58 (select : (⟨S36000, .i1⟩ : BufTy).Contents (Elt F) → (⟨S36000, .i32⟩ : BufTy).Contents (Elt F) → (⟨S36000, .i32⟩ : BufTy).Contents (Elt F) → (⟨S36000, .i32⟩ : BufTy).Contents (Elt F)),
    unary main_v53 main_v59 (broadcastInDim S36000x1 ![0] bcast_S36000_S36000x1_0 : (⟨S36000, .i32⟩ : BufTy).Contents (Elt F) → (⟨S36000x1, .i32⟩ : BufTy).Contents (Elt F)),
    unary main_v58 main_v60 (broadcastInDim S36000x1 ![0] bcast_S36000_S36000x1_0 : (⟨S36000, .i32⟩ : BufTy).Contents (Elt F) → (⟨S36000x1, .i32⟩ : BufTy).Contents (Elt F)),
    binary main_v59 main_v60 main_v61 ((fun a b => concatenate S36000x2 1 [⟨S36000x1, a⟩, ⟨S36000x1, b⟩] concatenates_S36000x1_S36000x1_S36000x2_d1) : (⟨S36000x1, .i32⟩ : BufTy).Contents (Elt F) → (⟨S36000x1, .i32⟩ : BufTy).Contents (Elt F) → (⟨S36000x2, .i32⟩ : BufTy).Contents (Elt F)),
    ternary main_v44 main_v61 main_arg5 main_v62 ((fun x i u => Host.scatterAdd scatter_S600x600_S36000x2_S36000_n_01_01_1 x i u) : (⟨S600x600, .f32⟩ : BufTy).Contents (Elt F) → (⟨S36000x2, .i32⟩ : BufTy).Contents (Elt F) → (⟨S36000, .f32⟩ : BufTy).Contents (Elt F) → (⟨S600x600, .f32⟩ : BufTy).Contents (Elt F)),
    unary main_v62 main_v63 ((transpose S600x600 [1, 0] · transposes_S600x600_S600x600_1_0) : (⟨S600x600, .f32⟩ : BufTy).Contents (Elt F) → (⟨S600x600, .f32⟩ : BufTy).Contents (Elt F)),
    binary main_v43 main_v63 main_v64 ((fun l r => Host.dotGeneral dot_S512x600_S600x600_S512x600_1_0_0_1_n_n none l r) : (⟨S512x600, .f32⟩ : BufTy).Contents (Elt F) → (⟨S600x600, .f32⟩ : BufTy).Contents (Elt F) → (⟨S512x600, .f32⟩ : BufTy).Contents (Elt F)),
    unary main_arg6 main_v65 (broadcastInDim S1x600 ![1] bcast_S600_S1x600_1 : (⟨S600, .f32⟩ : BufTy).Contents (Elt F) → (⟨S1x600, .f32⟩ : BufTy).Contents (Elt F)),
    unary main_v65 main_v66 (broadcastInDim S512x600 ![0, 1] bcast_S1x600_S512x600_0_1 : (⟨S1x600, .f32⟩ : BufTy).Contents (Elt F) → (⟨S512x600, .f32⟩ : BufTy).Contents (Elt F)),
    binary main_v64 main_v66 main_v67 (addf : (⟨S512x600, .f32⟩ : BufTy).Contents (Elt F) → (⟨S512x600, .f32⟩ : BufTy).Contents (Elt F) → (⟨S512x600, .f32⟩ : BufTy).Contents (Elt F)) ]

set_option maxRecDepth 8192 in
theorem ops1_0_sub : (ops1_0 : List (HloOp τ sig (Elt F))).Forall fun op => op.bufs ⊆ tcRefs τ sig :=
  ⟨unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., unary_bufs_sub .., binary_bufs_sub .., unary_bufs_sub .., unary_bufs_sub .., binary_bufs_sub ..⟩

set_option maxRecDepth 8192 in
/-- Every operation of ops1_0 determines what it writes. -/
theorem ops1_0_fresh : (ops1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

/-- The buffers ops1_0 writes. -/
abbrev ops1_0_W : List (Ref sig .tc) := [main_v49, main_v50, main_c_9, main_v51, main_v52, main_v53, main_c_10, main_v54, main_v55, main_c_11, main_v56, main_v57, main_v58, main_v59, main_v60, main_v61, main_v62, main_v63, main_v64, main_v65, main_v66, main_v67]
set_option maxRecDepth 8192 in
theorem ops1_0_writes : (ops1_0 : List (HloOp τ sig (Elt F))).Forall fun op => op.writes ⊆ (ops1_0_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer ops1_0 does not write keeps its contents through it. -/
theorem ops1_0_keep (V : Valuation τ sig (Elt F)) (r : Ref sig .tc) (h : r ∉ ops1_0_W) :
    after ops1_0 V (Proc.devRef .tc r) = V (Proc.devRef .tc r) :=
  after_of_writes_sub ops1_0 V ops1_0_writes h

/-- Operations ops1_1: 9 of them, from `main_call2_v0` to `main_v68`. -/
abbrev ops1_1 : List (HloOp τ sig (Elt F)) :=
  [ TRef.unary (.of main_v67) main_call2.v0 Host.negf,
    TRef.unary main_call2.v0 main_call2.v1 Host.exp,
    TRef.nullary main_call2.cst (constant S_ .f32 0x3F800000#32),
    TRef.unary main_call2.cst main_call2.v2 (broadcastInDim S512x600 ![] bcast_S_S512x600),
    TRef.binary main_call2.v2 main_call2.v1 main_call2.v3 addf,
    TRef.nullary main_call2.cst_0 (constant S_ .f32 0x3F800000#32),
    TRef.unary main_call2.cst_0 main_call2.v4 (broadcastInDim S512x600 ![] bcast_S_S512x600),
    TRef.binary main_call2.v4 main_call2.v3 main_call2.v5 Host.divf,
    TRef.binary (.of main_v67) main_call2.v5 main_call2.v6 mulf ]

set_option maxRecDepth 8192 in
theorem ops1_1_sub : (ops1_1 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub ..⟩

set_option maxRecDepth 8192 in
/-- Every operation of ops1_1 determines what it writes. -/
theorem ops1_1_fresh : (ops1_1 : List (HloOp τ sig (Elt F))).Forall fun op => op.fresh = ∅ :=
  ⟨rfl, rfl, rfl, rfl, rfl, rfl, rfl, rfl, rfl⟩

/-- The buffers ops1_1 writes. -/
abbrev ops1_1_W : List (Ref sig .tc) := [main_call2_v0, main_call2_v1, main_call2_cst, main_call2_v2, main_call2_v3, main_call2_cst_0, main_call2_v4, main_call2_v5, main_v68]
set_option maxRecDepth 8192 in
theorem ops1_1_writes : (ops1_1 : List (HloOp τ sig (Elt F))).Forall fun op => op.writes ⊆ (ops1_1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer ops1_1 does not write keeps its contents through it. -/
theorem ops1_1_keep (V : Valuation τ sig (Elt F)) (r : Ref sig .tc) (h : r ∉ ops1_1_W) :
    after ops1_1 V (Proc.devRef .tc r) = V (Proc.devRef .tc r) :=
  after_of_writes_sub ops1_1 V ops1_1_writes h

/-- Operations ops1_2: 29 of them, from `main_cst_12` to `main_v92`. -/
abbrev ops1_2 : List (HloOp τ sig (Elt F)) :=
  [ nullary main_cst_12 (constant S_ .f32 0x00000000#32),
    unary main_cst_12 main_v69 (broadcastInDim S300x600 ![] bcast_S_S300x600 : (⟨S_, .f32⟩ : BufTy).Contents (Elt F) → (⟨S300x600, .f32⟩ : BufTy).Contents (Elt F)),
    unary main_arg7 main_v70 ((extractStridedSlice S1x18000 ![0, 0] · slices_S2x18000_S1x18000_0_0) : (⟨S2x18000, .i32⟩ : BufTy).Contents (Elt F) → (⟨S1x18000, .i32⟩ : BufTy).Contents (Elt F)),
    reshape main_v70 main_v71 rfl shapeCasts_S1x18000_S18000,
    unary main_arg7 main_v72 ((extractStridedSlice S1x18000 ![1, 0] · slices_S2x18000_S1x18000_1_0) : (⟨S2x18000, .i32⟩ : BufTy).Contents (Elt F) → (⟨S1x18000, .i32⟩ : BufTy).Contents (Elt F)),
    reshape main_v72 main_v73 rfl shapeCasts_S1x18000_S18000,
    nullary main_c_13 (constantI S_ 32 0#32),
    unary main_c_13 main_v74 (broadcastInDim S18000 ![] bcast_S_S18000 : (⟨S_, .i32⟩ : BufTy).Contents (Elt F) → (⟨S18000, .i32⟩ : BufTy).Contents (Elt F)),
    binary main_v71 main_v74 main_v75 (cmpi .slt : (⟨S18000, .i32⟩ : BufTy).Contents (Elt F) → (⟨S18000, .i32⟩ : BufTy).Contents (Elt F) → (⟨S18000, .i1⟩ : BufTy).Contents (Elt F)),
    nullary main_c_14 (constantI S_ 32 300#32),
    unary main_c_14 main_v76 (broadcastInDim S18000 ![] bcast_S_S18000 : (⟨S_, .i32⟩ : BufTy).Contents (Elt F) → (⟨S18000, .i32⟩ : BufTy).Contents (Elt F)),
    binary main_v71 main_v76 main_v77 (addi : (⟨S18000, .i32⟩ : BufTy).Contents (Elt F) → (⟨S18000, .i32⟩ : BufTy).Contents (Elt F) → (⟨S18000, .i32⟩ : BufTy).Contents (Elt F)),
    ternary main_v75 main_v77 main_v71 main_v78 (select : (⟨S18000, .i1⟩ : BufTy).Contents (Elt F) → (⟨S18000, .i32⟩ : BufTy).Contents (Elt F) → (⟨S18000, .i32⟩ : BufTy).Contents (Elt F) → (⟨S18000, .i32⟩ : BufTy).Contents (Elt F)),
    nullary main_c_15 (constantI S_ 32 0#32),
    unary main_c_15 main_v79 (broadcastInDim S18000 ![] bcast_S_S18000 : (⟨S_, .i32⟩ : BufTy).Contents (Elt F) → (⟨S18000, .i32⟩ : BufTy).Contents (Elt F)),
    binary main_v73 main_v79 main_v80 (cmpi .slt : (⟨S18000, .i32⟩ : BufTy).Contents (Elt F) → (⟨S18000, .i32⟩ : BufTy).Contents (Elt F) → (⟨S18000, .i1⟩ : BufTy).Contents (Elt F)),
    nullary main_c_16 (constantI S_ 32 600#32),
    unary main_c_16 main_v81 (broadcastInDim S18000 ![] bcast_S_S18000 : (⟨S_, .i32⟩ : BufTy).Contents (Elt F) → (⟨S18000, .i32⟩ : BufTy).Contents (Elt F)),
    binary main_v73 main_v81 main_v82 (addi : (⟨S18000, .i32⟩ : BufTy).Contents (Elt F) → (⟨S18000, .i32⟩ : BufTy).Contents (Elt F) → (⟨S18000, .i32⟩ : BufTy).Contents (Elt F)),
    ternary main_v80 main_v82 main_v73 main_v83 (select : (⟨S18000, .i1⟩ : BufTy).Contents (Elt F) → (⟨S18000, .i32⟩ : BufTy).Contents (Elt F) → (⟨S18000, .i32⟩ : BufTy).Contents (Elt F) → (⟨S18000, .i32⟩ : BufTy).Contents (Elt F)),
    unary main_v78 main_v84 (broadcastInDim S18000x1 ![0] bcast_S18000_S18000x1_0 : (⟨S18000, .i32⟩ : BufTy).Contents (Elt F) → (⟨S18000x1, .i32⟩ : BufTy).Contents (Elt F)),
    unary main_v83 main_v85 (broadcastInDim S18000x1 ![0] bcast_S18000_S18000x1_0 : (⟨S18000, .i32⟩ : BufTy).Contents (Elt F) → (⟨S18000x1, .i32⟩ : BufTy).Contents (Elt F)),
    binary main_v84 main_v85 main_v86 ((fun a b => concatenate S18000x2 1 [⟨S18000x1, a⟩, ⟨S18000x1, b⟩] concatenates_S18000x1_S18000x1_S18000x2_d1) : (⟨S18000x1, .i32⟩ : BufTy).Contents (Elt F) → (⟨S18000x1, .i32⟩ : BufTy).Contents (Elt F) → (⟨S18000x2, .i32⟩ : BufTy).Contents (Elt F)),
    ternary main_v69 main_v86 main_arg8 main_v87 ((fun x i u => Host.scatterAdd scatter_S300x600_S18000x2_S18000_n_01_01_1 x i u) : (⟨S300x600, .f32⟩ : BufTy).Contents (Elt F) → (⟨S18000x2, .i32⟩ : BufTy).Contents (Elt F) → (⟨S18000, .f32⟩ : BufTy).Contents (Elt F) → (⟨S300x600, .f32⟩ : BufTy).Contents (Elt F)),
    unary main_v87 main_v88 ((transpose S600x300 [1, 0] · transposes_S300x600_S600x300_1_0) : (⟨S300x600, .f32⟩ : BufTy).Contents (Elt F) → (⟨S600x300, .f32⟩ : BufTy).Contents (Elt F)),
    binary main_v68 main_v88 main_v89 ((fun l r => Host.dotGeneral dot_S512x600_S600x300_S512x300_1_0_0_1_n_n none l r) : (⟨S512x600, .f32⟩ : BufTy).Contents (Elt F) → (⟨S600x300, .f32⟩ : BufTy).Contents (Elt F) → (⟨S512x300, .f32⟩ : BufTy).Contents (Elt F)),
    unary main_arg9 main_v90 (broadcastInDim S1x300 ![1] bcast_S300_S1x300_1 : (⟨S300, .f32⟩ : BufTy).Contents (Elt F) → (⟨S1x300, .f32⟩ : BufTy).Contents (Elt F)),
    unary main_v90 main_v91 (broadcastInDim S512x300 ![0, 1] bcast_S1x300_S512x300_0_1 : (⟨S1x300, .f32⟩ : BufTy).Contents (Elt F) → (⟨S512x300, .f32⟩ : BufTy).Contents (Elt F)),
    binary main_v89 main_v91 main_v92 (addf : (⟨S512x300, .f32⟩ : BufTy).Contents (Elt F) → (⟨S512x300, .f32⟩ : BufTy).Contents (Elt F) → (⟨S512x300, .f32⟩ : BufTy).Contents (Elt F)) ]

set_option maxRecDepth 8192 in
theorem ops1_2_sub : (ops1_2 : List (HloOp τ sig (Elt F))).Forall fun op => op.bufs ⊆ tcRefs τ sig :=
  ⟨nullary_bufs_sub .., unary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., unary_bufs_sub .., binary_bufs_sub .., unary_bufs_sub .., unary_bufs_sub .., binary_bufs_sub ..⟩

set_option maxRecDepth 8192 in
/-- Every operation of ops1_2 determines what it writes. -/
theorem ops1_2_fresh : (ops1_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers ops1_2 writes. -/
abbrev ops1_2_W : List (Ref sig .tc) := [main_cst_12, main_v69, main_v70, main_v71, main_v72, main_v73, main_c_13, main_v74, main_v75, main_c_14, main_v76, main_v77, main_v78, main_c_15, main_v79, main_v80, main_c_16, main_v81, main_v82, main_v83, main_v84, main_v85, main_v86, main_v87, main_v88, main_v89, main_v90, main_v91, main_v92]
set_option maxRecDepth 8192 in
theorem ops1_2_writes : (ops1_2 : List (HloOp τ sig (Elt F))).Forall fun op => op.writes ⊆ (ops1_2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer ops1_2 does not write keeps its contents through it. -/
theorem ops1_2_keep (V : Valuation τ sig (Elt F)) (r : Ref sig .tc) (h : r ∉ ops1_2_W) :
    after ops1_2 V (Proc.devRef .tc r) = V (Proc.devRef .tc r) :=
  after_of_writes_sub ops1_2 V ops1_2_writes h

/-- Operations ops1_3: 29 of them, from `main_cst_17` to `main_v97`. -/
abbrev ops1_3 : List (HloOp τ sig (Elt F)) :=
  [ nullary main_cst_17 (constant S_ .f32 0x00000000#32),
    binary main_v92 main_cst_17 main_v93 ((fun x v => Host.reduceAdd x v reducesTo_S512x300_S300_d0 h_S_) : (⟨S512x300, .f32⟩ : BufTy).Contents (Elt F) → (⟨S_, .f32⟩ : BufTy).Contents (Elt F) → (⟨S300, .f32⟩ : BufTy).Contents (Elt F)),
    nullary main_cst_18 (constant S_ .f32 0x44000000#32),
    unary main_cst_18 main_v94 (broadcastInDim S300 ![] bcast_S_S300 : (⟨S_, .f32⟩ : BufTy).Contents (Elt F) → (⟨S300, .f32⟩ : BufTy).Contents (Elt F)),
    binary main_v93 main_v94 main_v95 (Host.divf : (⟨S300, .f32⟩ : BufTy).Contents (Elt F) → (⟨S300, .f32⟩ : BufTy).Contents (Elt F) → (⟨S300, .f32⟩ : BufTy).Contents (Elt F)),
    nullary main_c_19 (constantI S_ 32 0#32),
    TRef.nullary main_call3.cst (constant S_ .f32 0x00000000#32),
    TRef.binary (.of main_v92) main_call3.cst main_call3.v0 (fun x v => Host.reduceAdd x v reducesTo_S512x300_S300_d0 h_S_),
    TRef.unary main_call3.v0 main_call3.v1 (broadcastInDim S1x300 ![1] bcast_S300_S1x300_1),
    TRef.nullary main_call3.cst_0 (constant S_ .f32 0x44000000#32),
    TRef.unary main_call3.cst_0 main_call3.v2 (broadcastInDim S1x300 ![] bcast_S_S1x300),
    TRef.binary main_call3.v1 main_call3.v2 main_call3.v3 Host.divf,
    TRef.unary main_call3.v3 main_call3.v4 (broadcastInDim S512x300 ![0, 1] bcast_S1x300_S512x300_0_1),
    TRef.binary (.of main_v92) main_call3.v4 main_call3.v5 subf,
    TRef.binary main_call3.v5 main_call3.v5 main_call3.v6 mulf,
    TRef.unary (.of main_c_19) main_call3.v7 (sitofp .f32),
    TRef.nullary main_call3.cst_1 (constant S_ .f32 0x44000000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S512x300_S300_d0 h_S_),
    TRef.unary main_call3.v8 main_call3.v10 (broadcastInDim S300 ![] bcast_S_S300),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S300 ![] bcast_S_S300),
    TRef.ternary main_call3.v12 main_call3.v11 main_call3.call0.v1 main_call3.call0.v2 (fun p a b => select (broadcastInDim S300 ![] bcast_S_S300 p) a b),
    unary main_v95 main_v97 (broadcastInDim S1x300 ![1] bcast_S300_S1x300_1 : (⟨S300, .f32⟩ : BufTy).Contents (Elt F) → (⟨S1x300, .f32⟩ : BufTy).Contents (Elt F)) ]

set_option maxRecDepth 8192 in
theorem ops1_3_sub : (ops1_3 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub ..⟩

set_option maxRecDepth 8192 in
/-- Every operation of ops1_3 determines what it writes. -/
theorem ops1_3_fresh : (ops1_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers ops1_3 writes. -/
abbrev ops1_3_W : List (Ref sig .tc) := [main_cst_17, main_v93, main_cst_18, main_v94, main_v95, main_c_19, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_cst_3, main_call3_v12, main_call3_cst_4, main_call3_call0_v0, main_call3_call0_v1, main_v96, main_v97]
set_option maxRecDepth 8192 in
theorem ops1_3_writes : (ops1_3 : List (HloOp τ sig (Elt F))).Forall fun op => op.writes ⊆ (ops1_3_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer ops1_3 does not write keeps its contents through it. -/
theorem ops1_3_keep (V : Valuation τ sig (Elt F)) (r : Ref sig .tc) (h : r ∉ ops1_3_W) :
    after ops1_3 V (Proc.devRef .tc r) = V (Proc.devRef .tc r) :=
  after_of_writes_sub ops1_3 V ops1_3_writes h

set_option maxRecDepth 8192 in
set_option maxHeartbeats 4000000 in
/-- The window is the straight line of its lists: the called functions' definitions unfolded at their calls, both sides
    are one chain of `hlo` steps once sequencing is reassociated. -/
theorem main_part1_eq (c : Dev nD) : main_part1 (F := F) c = seq (ops1_0 ++ ops1_1 ++ ops1_2 ++ ops1_3) := by
  simp only [main_part1, fn_silu.body, fn_var_0.body, fn_where_1.body, List.cons_append, List.nil_append, seq, bind_assoc, pure_bind]
  first | done | rfl

end Cert.ReferenceIdeal.Hand

end
-- ==== Proof.Ref.Ops2.lean ====
/-
  The reference program's statements 121 … 180 as lists of operations: a called function's operations stand at
  its call, over the buffers the call's record names, so that the window is one straight line. The lists are cut where a
  layer's linear part, its normalisation or its activation ends. For each list: every buffer it touches is a TensorCore
  reference, the buffers it writes, and that a buffer it does not write keeps its contents; for the window: it is the
  straight line of its lists, one after the other.
-/
import proofs.«146654_j5488968204426_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations ops2_0: 15 of them, from `main_v98` to `main_v111`. -/
abbrev ops2_0 : List (HloOp τ sig (Elt F)) :=
  [ unary main_v97 main_v98 (broadcastInDim S512x300 ![0, 1] bcast_S1x300_S512x300_0_1 : (⟨S1x300, .f32⟩ : BufTy).Contents (Elt F) → (⟨S512x300, .f32⟩ : BufTy).Contents (Elt F)),
    binary main_v92 main_v98 main_v99 (subf : (⟨S512x300, .f32⟩ : BufTy).Contents (Elt F) → (⟨S512x300, .f32⟩ : BufTy).Contents (Elt F) → (⟨S512x300, .f32⟩ : BufTy).Contents (Elt F)),
    nullary main_cst_20 (constant S_ .f32 0x3727C5AC#32),
    unary main_cst_20 main_v100 (broadcastInDim S300 ![] bcast_S_S300 : (⟨S_, .f32⟩ : BufTy).Contents (Elt F) → (⟨S300, .f32⟩ : BufTy).Contents (Elt F)),
    binary main_v96 main_v100 main_v101 (addf : (⟨S300, .f32⟩ : BufTy).Contents (Elt F) → (⟨S300, .f32⟩ : BufTy).Contents (Elt F) → (⟨S300, .f32⟩ : BufTy).Contents (Elt F)),
    unary main_v101 main_v102 (Host.rsqrt : (⟨S300, .f32⟩ : BufTy).Contents (Elt F) → (⟨S300, .f32⟩ : BufTy).Contents (Elt F)),
    unary main_v102 main_v103 (broadcastInDim S1x300 ![1] bcast_S300_S1x300_1 : (⟨S300, .f32⟩ : BufTy).Contents (Elt F) → (⟨S1x300, .f32⟩ : BufTy).Contents (Elt F)),
    unary main_v103 main_v104 (broadcastInDim S512x300 ![0, 1] bcast_S1x300_S512x300_0_1 : (⟨S1x300, .f32⟩ : BufTy).Contents (Elt F) → (⟨S512x300, .f32⟩ : BufTy).Contents (Elt F)),
    binary main_v99 main_v104 main_v105 (mulf : (⟨S512x300, .f32⟩ : BufTy).Contents (Elt F) → (⟨S512x300, .f32⟩ : BufTy).Contents (Elt F) → (⟨S512x300, .f32⟩ : BufTy).Contents (Elt F)),
    unary main_arg18 main_v106 (broadcastInDim S1x300 ![1] bcast_S300_S1x300_1 : (⟨S300, .f32⟩ : BufTy).Contents (Elt F) → (⟨S1x300, .f32⟩ : BufTy).Contents (Elt F)),
    unary main_v106 main_v107 (broadcastInDim S512x300 ![0, 1] bcast_S1x300_S512x300_0_1 : (⟨S1x300, .f32⟩ : BufTy).Contents (Elt F) → (⟨S512x300, .f32⟩ : BufTy).Contents (Elt F)),
    binary main_v105 main_v107 main_v108 (mulf : (⟨S512x300, .f32⟩ : BufTy).Contents (Elt F) → (⟨S512x300, .f32⟩ : BufTy).Contents (Elt F) → (⟨S512x300, .f32⟩ : BufTy).Contents (Elt F)),
    unary main_arg19 main_v109 (broadcastInDim S1x300 ![1] bcast_S300_S1x300_1 : (⟨S300, .f32⟩ : BufTy).Contents (Elt F) → (⟨S1x300, .f32⟩ : BufTy).Contents (Elt F)),
    unary main_v109 main_v110 (broadcastInDim S512x300 ![0, 1] bcast_S1x300_S512x300_0_1 : (⟨S1x300, .f32⟩ : BufTy).Contents (Elt F) → (⟨S512x300, .f32⟩ : BufTy).Contents (Elt F)),
    binary main_v108 main_v110 main_v111 (addf : (⟨S512x300, .f32⟩ : BufTy).Contents (Elt F) → (⟨S512x300, .f32⟩ : BufTy).Contents (Elt F) → (⟨S512x300, .f32⟩ : BufTy).Contents (Elt F)) ]

set_option maxRecDepth 8192 in
theorem ops2_0_sub : (ops2_0 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

set_option maxRecDepth 8192 in
/-- Every operation of ops2_0 determines what it writes. -/
theorem ops2_0_fresh : (ops2_0 : List (HloOp τ sig (Elt F))).Forall fun op => op.fresh = ∅ :=
  ⟨rfl, rfl, rfl, rfl, rfl, rfl, rfl, rfl, rfl, rfl, rfl, rfl, rfl, rfl, rfl⟩

/-- The buffers ops2_0 writes. -/
abbrev ops2_0_W : List (Ref sig .tc) := [main_v98, main_v99, main_cst_20, main_v100, main_v101, main_v102, main_v103, main_v104, main_v105, main_v106, main_v107, main_v108, main_v109, main_v110, main_v111]
set_option maxRecDepth 8192 in
theorem ops2_0_writes : (ops2_0 : List (HloOp τ sig (Elt F))).Forall fun op => op.writes ⊆ (ops2_0_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer ops2_0 does not write keeps its contents through it. -/
theorem ops2_0_keep (V : Valuation τ sig (Elt F)) (r : Ref sig .tc) (h : r ∉ ops2_0_W) :
    after ops2_0 V (Proc.devRef .tc r) = V (Proc.devRef .tc r) :=
  after_of_writes_sub ops2_0 V ops2_0_writes h

/-- Operations ops2_1: 9 of them, from `main_call4_v0` to `main_v112`. -/
abbrev ops2_1 : List (HloOp τ sig (Elt F)) :=
  [ TRef.unary (.of main_v111) main_call4.v0 Host.negf,
    TRef.unary main_call4.v0 main_call4.v1 Host.exp,
    TRef.nullary main_call4.cst (constant S_ .f32 0x3F800000#32),
    TRef.unary main_call4.cst main_call4.v2 (broadcastInDim S512x300 ![] bcast_S_S512x300),
    TRef.binary main_call4.v2 main_call4.v1 main_call4.v3 addf,
    TRef.nullary main_call4.cst_0 (constant S_ .f32 0x3F800000#32),
    TRef.unary main_call4.cst_0 main_call4.v4 (broadcastInDim S512x300 ![] bcast_S_S512x300),
    TRef.binary main_call4.v4 main_call4.v3 main_call4.v5 Host.divf,
    TRef.binary (.of main_v111) main_call4.v5 main_call4.v6 mulf ]

set_option maxRecDepth 8192 in
theorem ops2_1_sub : (ops2_1 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub ..⟩

set_option maxRecDepth 8192 in
/-- Every operation of ops2_1 determines what it writes. -/
theorem ops2_1_fresh : (ops2_1 : List (HloOp τ sig (Elt F))).Forall fun op => op.fresh = ∅ :=
  ⟨rfl, rfl, rfl, rfl, rfl, rfl, rfl, rfl, rfl⟩

/-- The buffers ops2_1 writes. -/
abbrev ops2_1_W : List (Ref sig .tc) := [main_call4_v0, main_call4_v1, main_call4_cst, main_call4_v2, main_call4_v3, main_call4_cst_0, main_call4_v4, main_call4_v5, main_v112]
set_option maxRecDepth 8192 in
theorem ops2_1_writes : (ops2_1 : List (HloOp τ sig (Elt F))).Forall fun op => op.writes ⊆ (ops2_1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer ops2_1 does not write keeps its contents through it. -/
theorem ops2_1_keep (V : Valuation τ sig (Elt F)) (r : Ref sig .tc) (h : r ∉ ops2_1_W) :
    after ops2_1 V (Proc.devRef .tc r) = V (Proc.devRef .tc r) :=
  after_of_writes_sub ops2_1 V ops2_1_writes h

/-- Operations ops2_2: 29 of them, from `main_cst_21` to `main_v136`. -/
abbrev ops2_2 : List (HloOp τ sig (Elt F)) :=
  [ nullary main_cst_21 (constant S_ .f32 0x00000000#32),
    unary main_cst_21 main_v113 (broadcastInDim S200x300 ![] bcast_S_S200x300 : (⟨S_, .f32⟩ : BufTy).Contents (Elt F) → (⟨S200x300, .f32⟩ : BufTy).Contents (Elt F)),
    unary main_arg10 main_v114 ((extractStridedSlice S1x6000 ![0, 0] · slices_S2x6000_S1x6000_0_0) : (⟨S2x6000, .i32⟩ : BufTy).Contents (Elt F) → (⟨S1x6000, .i32⟩ : BufTy).Contents (Elt F)),
    reshape main_v114 main_v115 rfl shapeCasts_S1x6000_S6000,
    unary main_arg10 main_v116 ((extractStridedSlice S1x6000 ![1, 0] · slices_S2x6000_S1x6000_1_0) : (⟨S2x6000, .i32⟩ : BufTy).Contents (Elt F) → (⟨S1x6000, .i32⟩ : BufTy).Contents (Elt F)),
    reshape main_v116 main_v117 rfl shapeCasts_S1x6000_S6000,
    nullary main_c_22 (constantI S_ 32 0#32),
    unary main_c_22 main_v118 (broadcastInDim S6000 ![] bcast_S_S6000 : (⟨S_, .i32⟩ : BufTy).Contents (Elt F) → (⟨S6000, .i32⟩ : BufTy).Contents (Elt F)),
    binary main_v115 main_v118 main_v119 (cmpi .slt : (⟨S6000, .i32⟩ : BufTy).Contents (Elt F) → (⟨S6000, .i32⟩ : BufTy).Contents (Elt F) → (⟨S6000, .i1⟩ : BufTy).Contents (Elt F)),
    nullary main_c_23 (constantI S_ 32 200#32),
    unary main_c_23 main_v120 (broadcastInDim S6000 ![] bcast_S_S6000 : (⟨S_, .i32⟩ : BufTy).Contents (Elt F) → (⟨S6000, .i32⟩ : BufTy).Contents (Elt F)),
    binary main_v115 main_v120 main_v121 (addi : (⟨S6000, .i32⟩ : BufTy).Contents (Elt F) → (⟨S6000, .i32⟩ : BufTy).Contents (Elt F) → (⟨S6000, .i32⟩ : BufTy).Contents (Elt F)),
    ternary main_v119 main_v121 main_v115 main_v122 (select : (⟨S6000, .i1⟩ : BufTy).Contents (Elt F) → (⟨S6000, .i32⟩ : BufTy).Contents (Elt F) → (⟨S6000, .i32⟩ : BufTy).Contents (Elt F) → (⟨S6000, .i32⟩ : BufTy).Contents (Elt F)),
    nullary main_c_24 (constantI S_ 32 0#32),
    unary main_c_24 main_v123 (broadcastInDim S6000 ![] bcast_S_S6000 : (⟨S_, .i32⟩ : BufTy).Contents (Elt F) → (⟨S6000, .i32⟩ : BufTy).Contents (Elt F)),
    binary main_v117 main_v123 main_v124 (cmpi .slt : (⟨S6000, .i32⟩ : BufTy).Contents (Elt F) → (⟨S6000, .i32⟩ : BufTy).Contents (Elt F) → (⟨S6000, .i1⟩ : BufTy).Contents (Elt F)),
    nullary main_c_25 (constantI S_ 32 300#32),
    unary main_c_25 main_v125 (broadcastInDim S6000 ![] bcast_S_S6000 : (⟨S_, .i32⟩ : BufTy).Contents (Elt F) → (⟨S6000, .i32⟩ : BufTy).Contents (Elt F)),
    binary main_v117 main_v125 main_v126 (addi : (⟨S6000, .i32⟩ : BufTy).Contents (Elt F) → (⟨S6000, .i32⟩ : BufTy).Contents (Elt F) → (⟨S6000, .i32⟩ : BufTy).Contents (Elt F)),
    ternary main_v124 main_v126 main_v117 main_v127 (select : (⟨S6000, .i1⟩ : BufTy).Contents (Elt F) → (⟨S6000, .i32⟩ : BufTy).Contents (Elt F) → (⟨S6000, .i32⟩ : BufTy).Contents (Elt F) → (⟨S6000, .i32⟩ : BufTy).Contents (Elt F)),
    unary main_v122 main_v128 (broadcastInDim S6000x1 ![0] bcast_S6000_S6000x1_0 : (⟨S6000, .i32⟩ : BufTy).Contents (Elt F) → (⟨S6000x1, .i32⟩ : BufTy).Contents (Elt F)),
    unary main_v127 main_v129 (broadcastInDim S6000x1 ![0] bcast_S6000_S6000x1_0 : (⟨S6000, .i32⟩ : BufTy).Contents (Elt F) → (⟨S6000x1, .i32⟩ : BufTy).Contents (Elt F)),
    binary main_v128 main_v129 main_v130 ((fun a b => concatenate S6000x2 1 [⟨S6000x1, a⟩, ⟨S6000x1, b⟩] concatenates_S6000x1_S6000x1_S6000x2_d1) : (⟨S6000x1, .i32⟩ : BufTy).Contents (Elt F) → (⟨S6000x1, .i32⟩ : BufTy).Contents (Elt F) → (⟨S6000x2, .i32⟩ : BufTy).Contents (Elt F)),
    ternary main_v113 main_v130 main_arg11 main_v131 ((fun x i u => Host.scatterAdd scatter_S200x300_S6000x2_S6000_n_01_01_1 x i u) : (⟨S200x300, .f32⟩ : BufTy).Contents (Elt F) → (⟨S6000x2, .i32⟩ : BufTy).Contents (Elt F) → (⟨S6000, .f32⟩ : BufTy).Contents (Elt F) → (⟨S200x300, .f32⟩ : BufTy).Contents (Elt F)),
    unary main_v131 main_v132 ((transpose S300x200 [1, 0] · transposes_S200x300_S300x200_1_0) : (⟨S200x300, .f32⟩ : BufTy).Contents (Elt F) → (⟨S300x200, .f32⟩ : BufTy).Contents (Elt F)),
    binary main_v112 main_v132 main_v133 ((fun l r => Host.dotGeneral dot_S512x300_S300x200_S512x200_1_0_0_1_n_n none l r) : (⟨S512x300, .f32⟩ : BufTy).Contents (Elt F) → (⟨S300x200, .f32⟩ : BufTy).Contents (Elt F) → (⟨S512x200, .f32⟩ : BufTy).Contents (Elt F)),
    unary main_arg12 main_v134 (broadcastInDim S1x200 ![1] bcast_S200_S1x200_1 : (⟨S200, .f32⟩ : BufTy).Contents (Elt F) → (⟨S1x200, .f32⟩ : BufTy).Contents (Elt F)),
    unary main_v134 main_v135 (broadcastInDim S512x200 ![0, 1] bcast_S1x200_S512x200_0_1 : (⟨S1x200, .f32⟩ : BufTy).Contents (Elt F) → (⟨S512x200, .f32⟩ : BufTy).Contents (Elt F)),
    binary main_v133 main_v135 main_v136 (addf : (⟨S512x200, .f32⟩ : BufTy).Contents (Elt F) → (⟨S512x200, .f32⟩ : BufTy).Contents (Elt F) → (⟨S512x200, .f32⟩ : BufTy).Contents (Elt F)) ]

set_option maxRecDepth 8192 in
theorem ops2_2_sub : (ops2_2 : List (HloOp τ sig (Elt F))).Forall fun op => op.bufs ⊆ tcRefs τ sig :=
  ⟨nullary_bufs_sub .., unary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., unary_bufs_sub .., binary_bufs_sub .., unary_bufs_sub .., unary_bufs_sub .., binary_bufs_sub ..⟩

set_option maxRecDepth 8192 in
/-- Every operation of ops2_2 determines what it writes. -/
theorem ops2_2_fresh : (ops2_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers ops2_2 writes. -/
abbrev ops2_2_W : List (Ref sig .tc) := [main_cst_21, main_v113, main_v114, main_v115, main_v116, main_v117, main_c_22, main_v118, main_v119, main_c_23, main_v120, main_v121, main_v122, main_c_24, main_v123, main_v124, main_c_25, main_v125, main_v126, main_v127, main_v128, main_v129, main_v130, main_v131, main_v132, main_v133, main_v134, main_v135, main_v136]
set_option maxRecDepth 8192 in
theorem ops2_2_writes : (ops2_2 : List (HloOp τ sig (Elt F))).Forall fun op => op.writes ⊆ (ops2_2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer ops2_2 does not write keeps its contents through it. -/
theorem ops2_2_keep (V : Valuation τ sig (Elt F)) (r : Ref sig .tc) (h : r ∉ ops2_2_W) :
    after ops2_2 V (Proc.devRef .tc r) = V (Proc.devRef .tc r) :=
  after_of_writes_sub ops2_2 V ops2_2_writes h

/-- Operations ops2_3: 36 of them, from `main_cst_26` to `main_v147`. -/
abbrev ops2_3 : List (HloOp τ sig (Elt F)) :=
  [ nullary main_cst_26 (constant S_ .f32 0x00000000#32),
    binary main_v136 main_cst_26 main_v137 ((fun x v => Host.reduceAdd x v reducesTo_S512x200_S200_d0 h_S_) : (⟨S512x200, .f32⟩ : BufTy).Contents (Elt F) → (⟨S_, .f32⟩ : BufTy).Contents (Elt F) → (⟨S200, .f32⟩ : BufTy).Contents (Elt F)),
    nullary main_cst_27 (constant S_ .f32 0x44000000#32),
    unary main_cst_27 main_v138 (broadcastInDim S200 ![] bcast_S_S200 : (⟨S_, .f32⟩ : BufTy).Contents (Elt F) → (⟨S200, .f32⟩ : BufTy).Contents (Elt F)),
    binary main_v137 main_v138 main_v139 (Host.divf : (⟨S200, .f32⟩ : BufTy).Contents (Elt F) → (⟨S200, .f32⟩ : BufTy).Contents (Elt F) → (⟨S200, .f32⟩ : BufTy).Contents (Elt F)),
    nullary main_c_28 (constantI S_ 32 0#32),
    TRef.nullary main_call5.cst (constant S_ .f32 0x00000000#32),
    TRef.binary (.of main_v136) main_call5.cst main_call5.v0 (fun x v => Host.reduceAdd x v reducesTo_S512x200_S200_d0 h_S_),
    TRef.unary main_call5.v0 main_call5.v1 (broadcastInDim S1x200 ![1] bcast_S200_S1x200_1),
    TRef.nullary main_call5.cst_0 (constant S_ .f32 0x44000000#32),
    TRef.unary main_call5.cst_0 main_call5.v2 (broadcastInDim S1x200 ![] bcast_S_S1x200),
    TRef.binary main_call5.v1 main_call5.v2 main_call5.v3 Host.divf,
    TRef.unary main_call5.v3 main_call5.v4 (broadcastInDim S512x200 ![0, 1] bcast_S1x200_S512x200_0_1),
    TRef.binary (.of main_v136) main_call5.v4 main_call5.v5 subf,
    TRef.binary main_call5.v5 main_call5.v5 main_call5.v6 mulf,
    TRef.unary (.of main_c_28) main_call5.v7 (sitofp .f32),
    TRef.nullary main_call5.cst_1 (constant S_ .f32 0x44000000#32),
    TRef.binary main_call5.cst_1 main_call5.v7 main_call5.v8 subf,
    TRef.nullary main_call5.cst_2 (constant S_ .f32 0x00000000#32),
    TRef.binary main_call5.v6 main_call5.cst_2 main_call5.v9 (fun x v => Host.reduceAdd x v reducesTo_S512x200_S200_d0 h_S_),
    TRef.unary main_call5.v8 main_call5.v10 (broadcastInDim S200 ![] bcast_S_S200),
    TRef.binary main_call5.v9 main_call5.v10 main_call5.v11 Host.divf,
    TRef.nullary main_call5.cst_3 (constant S_ .f32 0x00000000#32),
    TRef.binary main_call5.v8 main_call5.cst_3 main_call5.v12 (cmpf .ogt),
    TRef.nullary main_call5.cst_4 (constant S_ .f32 0x7FC00000#32),
    TRef.unary main_call5.cst_4 main_call5.call0.v0 id,
    TRef.unary main_call5.call0.v0 main_call5.call0.v1 (broadcastInDim S200 ![] bcast_S_S200),
    TRef.ternary main_call5.v12 main_call5.v11 main_call5.call0.v1 main_call5.call0.v2 (fun p a b => select (broadcastInDim S200 ![] bcast_S_S200 p) a b),
    unary main_v139 main_v141 (broadcastInDim S1x200 ![1] bcast_S200_S1x200_1 : (⟨S200, .f32⟩ : BufTy).Contents (Elt F) → (⟨S1x200, .f32⟩ : BufTy).Contents (Elt F)),
    unary main_v141 main_v142 (broadcastInDim S512x200 ![0, 1] bcast_S1x200_S512x200_0_1 : (⟨S1x200, .f32⟩ : BufTy).Contents (Elt F) → (⟨S512x200, .f32⟩ : BufTy).Contents (Elt F)),
    binary main_v136 main_v142 main_v143 (subf : (⟨S512x200, .f32⟩ : BufTy).Contents (Elt F) → (⟨S512x200, .f32⟩ : BufTy).Contents (Elt F) → (⟨S512x200, .f32⟩ : BufTy).Contents (Elt F)),
    nullary main_cst_29 (constant S_ .f32 0x3727C5AC#32),
    unary main_cst_29 main_v144 (broadcastInDim S200 ![] bcast_S_S200 : (⟨S_, .f32⟩ : BufTy).Contents (Elt F) → (⟨S200, .f32⟩ : BufTy).Contents (Elt F)),
    binary main_v140 main_v144 main_v145 (addf : (⟨S200, .f32⟩ : BufTy).Contents (Elt F) → (⟨S200, .f32⟩ : BufTy).Contents (Elt F) → (⟨S200, .f32⟩ : BufTy).Contents (Elt F)),
    unary main_v145 main_v146 (Host.rsqrt : (⟨S200, .f32⟩ : BufTy).Contents (Elt F) → (⟨S200, .f32⟩ : BufTy).Contents (Elt F)),
    unary main_v146 main_v147 (broadcastInDim S1x200 ![1] bcast_S200_S1x200_1 : (⟨S200, .f32⟩ : BufTy).Contents (Elt F) → (⟨S1x200, .f32⟩ : BufTy).Contents (Elt F)) ]

set_option maxRecDepth 8192 in
theorem ops2_3_sub : (ops2_3 : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub ..⟩

set_option maxRecDepth 8192 in
/-- Every operation of ops2_3 determines what it writes. -/
theorem ops2_3_fresh : (ops2_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers ops2_3 writes. -/
abbrev ops2_3_W : List (Ref sig .tc) := [main_cst_26, main_v137, main_cst_27, main_v138, main_v139, main_c_28, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v140, main_v141, main_v142, main_v143, main_cst_29, main_v144, main_v145, main_v146, main_v147]
set_option maxRecDepth 8192 in
theorem ops2_3_writes : (ops2_3 : List (HloOp τ sig (Elt F))).Forall fun op => op.writes ⊆ (ops2_3_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer ops2_3 does not write keeps its contents through it. -/
theorem ops2_3_keep (V : Valuation τ sig (Elt F)) (r : Ref sig .tc) (h : r ∉ ops2_3_W) :
    after ops2_3 V (Proc.devRef .tc r) = V (Proc.devRef .tc r) :=
  after_of_writes_sub ops2_3 V ops2_3_writes h

set_option maxRecDepth 8192 in
set_option maxHeartbeats 4000000 in
/-- The window is the straight line of its lists: the called functions' definitions unfolded at their calls, both sides
    are one chain of `hlo` steps once sequencing is reassociated. -/
theorem main_part2_eq (c : Dev nD) : main_part2 (F := F) c = seq (ops2_0 ++ ops2_1 ++ ops2_2 ++ ops2_3) := by
  simp only [main_part2, fn_silu_2.body, fn_var_3.body, fn_where_4.body, List.cons_append, List.nil_append, seq, bind_assoc, pure_bind]
  first | done | rfl

end Cert.ReferenceIdeal.Hand

end
-- ==== Proof.Ref.Ops3.lean ====
/-
  The reference program's statements 181 … 219 as lists of operations: a called function's operations stand at
  its call, over the buffers the call's record names, so that the window is one straight line. The lists are cut where a
  layer's linear part, its normalisation or its activation ends. For each list: every buffer it touches is a TensorCore
  reference, the buffers it writes, and that a buffer it does not write keeps its contents; for the window: it is the
  straight line of its lists, one after the other.
-/
import proofs.«146654_j5488968204426_2_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Operations ops3_0: 8 of them, from `main_v148` to `main_v155`. -/
abbrev ops3_0 : List (HloOp τ sig (Elt F)) :=
  [ unary main_v147 main_v148 (broadcastInDim S512x200 ![0, 1] bcast_S1x200_S512x200_0_1 : (⟨S1x200, .f32⟩ : BufTy).Contents (Elt F) → (⟨S512x200, .f32⟩ : BufTy).Contents (Elt F)),
    binary main_v143 main_v148 main_v149 (mulf : (⟨S512x200, .f32⟩ : BufTy).Contents (Elt F) → (⟨S512x200, .f32⟩ : BufTy).Contents (Elt F) → (⟨S512x200, .f32⟩ : BufTy).Contents (Elt F)),
    unary main_arg20 main_v150 (broadcastInDim S1x200 ![1] bcast_S200_S1x200_1 : (⟨S200, .f32⟩ : BufTy).Contents (Elt F) → (⟨S1x200, .f32⟩ : BufTy).Contents (Elt F)),
    unary main_v150 main_v151 (broadcastInDim S512x200 ![0, 1] bcast_S1x200_S512x200_0_1 : (⟨S1x200, .f32⟩ : BufTy).Contents (Elt F) → (⟨S512x200, .f32⟩ : BufTy).Contents (Elt F)),
    binary main_v149 main_v151 main_v152 (mulf : (⟨S512x200, .f32⟩ : BufTy).Contents (Elt F) → (⟨S512x200, .f32⟩ : BufTy).Contents (Elt F) → (⟨S512x200, .f32⟩ : BufTy).Contents (Elt F)),
    unary main_arg21 main_v153 (broadcastInDim S1x200 ![1] bcast_S200_S1x200_1 : (⟨S200, .f32⟩ : BufTy).Contents (Elt F) → (⟨S1x200, .f32⟩ : BufTy).Contents (Elt F)),
    unary main_v153 main_v154 (broadcastInDim S512x200 ![0, 1] bcast_S1x200_S512x200_0_1 : (⟨S1x200, .f32⟩ : BufTy).Contents (Elt F) → (⟨S512x200, .f32⟩ : BufTy).Contents (Elt F)),
    binary main_v152 main_v154 main_v155 (addf : (⟨S512x200, .f32⟩ : BufTy).Contents (Elt F) → (⟨S512x200, .f32⟩ : BufTy).Contents (Elt F) → (⟨S512x200, .f32⟩ : BufTy).Contents (Elt F)) ]

set_option maxRecDepth 8192 in
theorem ops3_0_sub : (ops3_0 : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., binary_bufs_sub ..⟩

set_option maxRecDepth 8192 in
/-- Every operation of ops3_0 determines what it writes. -/
theorem ops3_0_fresh : (ops3_0 : List (HloOp τ sig (Elt F))).Forall fun op => op.fresh = ∅ :=
  ⟨rfl, rfl, rfl, rfl, rfl, rfl, rfl, rfl⟩

/-- The buffers ops3_0 writes. -/
abbrev ops3_0_W : List (Ref sig .tc) := [main_v148, main_v149, main_v150, main_v151, main_v152, main_v153, main_v154, main_v155]
set_option maxRecDepth 8192 in
theorem ops3_0_writes : (ops3_0 : List (HloOp τ sig (Elt F))).Forall fun op => op.writes ⊆ (ops3_0_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer ops3_0 does not write keeps its contents through it. -/
theorem ops3_0_keep (V : Valuation τ sig (Elt F)) (r : Ref sig .tc) (h : r ∉ ops3_0_W) :
    after ops3_0 V (Proc.devRef .tc r) = V (Proc.devRef .tc r) :=
  after_of_writes_sub ops3_0 V ops3_0_writes h

/-- Operations ops3_1: 9 of them, from `main_call6_v0` to `main_v156`. -/
abbrev ops3_1 : List (HloOp τ sig (Elt F)) :=
  [ TRef.unary (.of main_v155) main_call6.v0 Host.negf,
    TRef.unary main_call6.v0 main_call6.v1 Host.exp,
    TRef.nullary main_call6.cst (constant S_ .f32 0x3F800000#32),
    TRef.unary main_call6.cst main_call6.v2 (broadcastInDim S512x200 ![] bcast_S_S512x200),
    TRef.binary main_call6.v2 main_call6.v1 main_call6.v3 addf,
    TRef.nullary main_call6.cst_0 (constant S_ .f32 0x3F800000#32),
    TRef.unary main_call6.cst_0 main_call6.v4 (broadcastInDim S512x200 ![] bcast_S_S512x200),
    TRef.binary main_call6.v4 main_call6.v3 main_call6.v5 Host.divf,
    TRef.binary (.of main_v155) main_call6.v5 main_call6.v6 mulf ]

set_option maxRecDepth 8192 in
theorem ops3_1_sub : (ops3_1 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub ..⟩

set_option maxRecDepth 8192 in
/-- Every operation of ops3_1 determines what it writes. -/
theorem ops3_1_fresh : (ops3_1 : List (HloOp τ sig (Elt F))).Forall fun op => op.fresh = ∅ :=
  ⟨rfl, rfl, rfl, rfl, rfl, rfl, rfl, rfl, rfl⟩

/-- The buffers ops3_1 writes. -/
abbrev ops3_1_W : List (Ref sig .tc) := [main_call6_v0, main_call6_v1, main_call6_cst, main_call6_v2, main_call6_v3, main_call6_cst_0, main_call6_v4, main_call6_v5, main_v156]
set_option maxRecDepth 8192 in
theorem ops3_1_writes : (ops3_1 : List (HloOp τ sig (Elt F))).Forall fun op => op.writes ⊆ (ops3_1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer ops3_1 does not write keeps its contents through it. -/
theorem ops3_1_keep (V : Valuation τ sig (Elt F)) (r : Ref sig .tc) (h : r ∉ ops3_1_W) :
    after ops3_1 V (Proc.devRef .tc r) = V (Proc.devRef .tc r) :=
  after_of_writes_sub ops3_1 V ops3_1_writes h

/-- Operations ops3_2: 29 of them, from `main_cst_30` to `main_v180`. -/
abbrev ops3_2 : List (HloOp τ sig (Elt F)) :=
  [ nullary main_cst_30 (constant S_ .f32 0x00000000#32),
    unary main_cst_30 main_v157 (broadcastInDim S200x200 ![] bcast_S_S200x200 : (⟨S_, .f32⟩ : BufTy).Contents (Elt F) → (⟨S200x200, .f32⟩ : BufTy).Contents (Elt F)),
    unary main_arg13 main_v158 ((extractStridedSlice S1x4000 ![0, 0] · slices_S2x4000_S1x4000_0_0) : (⟨S2x4000, .i32⟩ : BufTy).Contents (Elt F) → (⟨S1x4000, .i32⟩ : BufTy).Contents (Elt F)),
    reshape main_v158 main_v159 rfl shapeCasts_S1x4000_S4000,
    unary main_arg13 main_v160 ((extractStridedSlice S1x4000 ![1, 0] · slices_S2x4000_S1x4000_1_0) : (⟨S2x4000, .i32⟩ : BufTy).Contents (Elt F) → (⟨S1x4000, .i32⟩ : BufTy).Contents (Elt F)),
    reshape main_v160 main_v161 rfl shapeCasts_S1x4000_S4000,
    nullary main_c_31 (constantI S_ 32 0#32),
    unary main_c_31 main_v162 (broadcastInDim S4000 ![] bcast_S_S4000 : (⟨S_, .i32⟩ : BufTy).Contents (Elt F) → (⟨S4000, .i32⟩ : BufTy).Contents (Elt F)),
    binary main_v159 main_v162 main_v163 (cmpi .slt : (⟨S4000, .i32⟩ : BufTy).Contents (Elt F) → (⟨S4000, .i32⟩ : BufTy).Contents (Elt F) → (⟨S4000, .i1⟩ : BufTy).Contents (Elt F)),
    nullary main_c_32 (constantI S_ 32 200#32),
    unary main_c_32 main_v164 (broadcastInDim S4000 ![] bcast_S_S4000 : (⟨S_, .i32⟩ : BufTy).Contents (Elt F) → (⟨S4000, .i32⟩ : BufTy).Contents (Elt F)),
    binary main_v159 main_v164 main_v165 (addi : (⟨S4000, .i32⟩ : BufTy).Contents (Elt F) → (⟨S4000, .i32⟩ : BufTy).Contents (Elt F) → (⟨S4000, .i32⟩ : BufTy).Contents (Elt F)),
    ternary main_v163 main_v165 main_v159 main_v166 (select : (⟨S4000, .i1⟩ : BufTy).Contents (Elt F) → (⟨S4000, .i32⟩ : BufTy).Contents (Elt F) → (⟨S4000, .i32⟩ : BufTy).Contents (Elt F) → (⟨S4000, .i32⟩ : BufTy).Contents (Elt F)),
    nullary main_c_33 (constantI S_ 32 0#32),
    unary main_c_33 main_v167 (broadcastInDim S4000 ![] bcast_S_S4000 : (⟨S_, .i32⟩ : BufTy).Contents (Elt F) → (⟨S4000, .i32⟩ : BufTy).Contents (Elt F)),
    binary main_v161 main_v167 main_v168 (cmpi .slt : (⟨S4000, .i32⟩ : BufTy).Contents (Elt F) → (⟨S4000, .i32⟩ : BufTy).Contents (Elt F) → (⟨S4000, .i1⟩ : BufTy).Contents (Elt F)),
    nullary main_c_34 (constantI S_ 32 200#32),
    unary main_c_34 main_v169 (broadcastInDim S4000 ![] bcast_S_S4000 : (⟨S_, .i32⟩ : BufTy).Contents (Elt F) → (⟨S4000, .i32⟩ : BufTy).Contents (Elt F)),
    binary main_v161 main_v169 main_v170 (addi : (⟨S4000, .i32⟩ : BufTy).Contents (Elt F) → (⟨S4000, .i32⟩ : BufTy).Contents (Elt F) → (⟨S4000, .i32⟩ : BufTy).Contents (Elt F)),
    ternary main_v168 main_v170 main_v161 main_v171 (select : (⟨S4000, .i1⟩ : BufTy).Contents (Elt F) → (⟨S4000, .i32⟩ : BufTy).Contents (Elt F) → (⟨S4000, .i32⟩ : BufTy).Contents (Elt F) → (⟨S4000, .i32⟩ : BufTy).Contents (Elt F)),
    unary main_v166 main_v172 (broadcastInDim S4000x1 ![0] bcast_S4000_S4000x1_0 : (⟨S4000, .i32⟩ : BufTy).Contents (Elt F) → (⟨S4000x1, .i32⟩ : BufTy).Contents (Elt F)),
    unary main_v171 main_v173 (broadcastInDim S4000x1 ![0] bcast_S4000_S4000x1_0 : (⟨S4000, .i32⟩ : BufTy).Contents (Elt F) → (⟨S4000x1, .i32⟩ : BufTy).Contents (Elt F)),
    binary main_v172 main_v173 main_v174 ((fun a b => concatenate S4000x2 1 [⟨S4000x1, a⟩, ⟨S4000x1, b⟩] concatenates_S4000x1_S4000x1_S4000x2_d1) : (⟨S4000x1, .i32⟩ : BufTy).Contents (Elt F) → (⟨S4000x1, .i32⟩ : BufTy).Contents (Elt F) → (⟨S4000x2, .i32⟩ : BufTy).Contents (Elt F)),
    ternary main_v157 main_v174 main_arg14 main_v175 ((fun x i u => Host.scatterAdd scatter_S200x200_S4000x2_S4000_n_01_01_1 x i u) : (⟨S200x200, .f32⟩ : BufTy).Contents (Elt F) → (⟨S4000x2, .i32⟩ : BufTy).Contents (Elt F) → (⟨S4000, .f32⟩ : BufTy).Contents (Elt F) → (⟨S200x200, .f32⟩ : BufTy).Contents (Elt F)),
    unary main_v175 main_v176 ((transpose S200x200 [1, 0] · transposes_S200x200_S200x200_1_0) : (⟨S200x200, .f32⟩ : BufTy).Contents (Elt F) → (⟨S200x200, .f32⟩ : BufTy).Contents (Elt F)),
    binary main_v156 main_v176 main_v177 ((fun l r => Host.dotGeneral dot_S512x200_S200x200_S512x200_1_0_0_1_n_n none l r) : (⟨S512x200, .f32⟩ : BufTy).Contents (Elt F) → (⟨S200x200, .f32⟩ : BufTy).Contents (Elt F) → (⟨S512x200, .f32⟩ : BufTy).Contents (Elt F)),
    unary main_arg15 main_v178 (broadcastInDim S1x200 ![1] bcast_S200_S1x200_1 : (⟨S200, .f32⟩ : BufTy).Contents (Elt F) → (⟨S1x200, .f32⟩ : BufTy).Contents (Elt F)),
    unary main_v178 main_v179 (broadcastInDim S512x200 ![0, 1] bcast_S1x200_S512x200_0_1 : (⟨S1x200, .f32⟩ : BufTy).Contents (Elt F) → (⟨S512x200, .f32⟩ : BufTy).Contents (Elt F)),
    binary main_v177 main_v179 main_v180 (addf : (⟨S512x200, .f32⟩ : BufTy).Contents (Elt F) → (⟨S512x200, .f32⟩ : BufTy).Contents (Elt F) → (⟨S512x200, .f32⟩ : BufTy).Contents (Elt F)) ]

set_option maxRecDepth 8192 in
theorem ops3_2_sub : (ops3_2 : List (HloOp τ sig (Elt F))).Forall fun op => op.bufs ⊆ tcRefs τ sig :=
  ⟨nullary_bufs_sub .., unary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., unary_bufs_sub .., binary_bufs_sub .., unary_bufs_sub .., unary_bufs_sub .., binary_bufs_sub ..⟩

set_option maxRecDepth 8192 in
/-- Every operation of ops3_2 determines what it writes. -/
theorem ops3_2_fresh : (ops3_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

/-- The buffers ops3_2 writes. -/
abbrev ops3_2_W : List (Ref sig .tc) := [main_cst_30, main_v157, main_v158, main_v159, main_v160, main_v161, main_c_31, main_v162, main_v163, main_c_32, main_v164, main_v165, main_v166, main_c_33, main_v167, main_v168, main_c_34, main_v169, main_v170, main_v171, main_v172, main_v173, main_v174, main_v175, main_v176, main_v177, main_v178, main_v179, main_v180]
set_option maxRecDepth 8192 in
theorem ops3_2_writes : (ops3_2 : List (HloOp τ sig (Elt F))).Forall fun op => op.writes ⊆ (ops3_2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer ops3_2 does not write keeps its contents through it. -/
theorem ops3_2_keep (V : Valuation τ sig (Elt F)) (r : Ref sig .tc) (h : r ∉ ops3_2_W) :
    after ops3_2 V (Proc.devRef .tc r) = V (Proc.devRef .tc r) :=
  after_of_writes_sub ops3_2 V ops3_2_writes h

set_option maxRecDepth 8192 in
set_option maxHeartbeats 4000000 in
/-- The window is the straight line of its lists: the called functions' definitions unfolded at their calls, both sides
    are one chain of `hlo` steps once sequencing is reassociated. -/
theorem main_part3_eq (c : Dev nD) : main_part3 (F := F) c = seq (ops3_0 ++ ops3_1 ++ ops3_2) := by
  simp only [main_part3, fn_silu_5.body, List.cons_append, List.nil_append, seq, bind_assoc, pure_bind]
  first | done | rfl

end Cert.ReferenceIdeal.Hand

end
-- ==== Proof.Ref.Run.lean ====
/-
  The reference program's run. Its @main is a straight line: four windows, each the straight line of its operation
  lists (the called functions' operations standing at their calls), so the whole is the straight line of all the lists in
  order. From any memory with zero counters every weakly fair execution of it terminates without a fault, and at the end
  the result buffer holds what the operations, folded in order over the launch contents, leave there, while every argument
  buffer — written by no operation — holds what it held at launch.
-/
import proofs.«146654_j5488968204426_2_alg».proof.Proof.Ref.Ops0
import proofs.«146654_j5488968204426_2_alg».proof.Proof.Ref.Ops1
import proofs.«146654_j5488968204426_2_alg».proof.Proof.Ref.Ops2
import proofs.«146654_j5488968204426_2_alg».proof.Proof.Ref.Ops3

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Two lines run one after the other leave what the second leaves of what the first left. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The operations of window 0. -/
def part0 : List (HloOp τ sig (Elt F)) := ops0_0 ++ ops0_1 ++ ops0_2 ++ ops0_3
theorem part0_eq (c : Dev nD) : main_part0 (F := F) c = seq part0 := main_part0_eq c
theorem part0_sub : (part0 : List (HloOp τ sig (Elt F))).Forall fun op => op.bufs ⊆ tcRefs τ sig :=
  (List.forall_append.mpr ⟨(List.forall_append.mpr ⟨(List.forall_append.mpr ⟨ops0_0_sub, ops0_1_sub⟩), ops0_2_sub⟩), ops0_3_sub⟩)
theorem part0_fresh : (part0 : List (HloOp τ sig (Elt F))).Forall fun op => op.fresh = ∅ :=
  (List.forall_append.mpr ⟨(List.forall_append.mpr ⟨(List.forall_append.mpr ⟨ops0_0_fresh, ops0_1_fresh⟩), ops0_2_fresh⟩), ops0_3_fresh⟩)

/-- The operations of window 1. -/
def part1 : List (HloOp τ sig (Elt F)) := ops1_0 ++ ops1_1 ++ ops1_2 ++ ops1_3
theorem part1_eq (c : Dev nD) : main_part1 (F := F) c = seq part1 := main_part1_eq c
theorem part1_sub : (part1 : List (HloOp τ sig (Elt F))).Forall fun op => op.bufs ⊆ tcRefs τ sig :=
  (List.forall_append.mpr ⟨(List.forall_append.mpr ⟨(List.forall_append.mpr ⟨ops1_0_sub, ops1_1_sub⟩), ops1_2_sub⟩), ops1_3_sub⟩)
theorem part1_fresh : (part1 : List (HloOp τ sig (Elt F))).Forall fun op => op.fresh = ∅ :=
  (List.forall_append.mpr ⟨(List.forall_append.mpr ⟨(List.forall_append.mpr ⟨ops1_0_fresh, ops1_1_fresh⟩), ops1_2_fresh⟩), ops1_3_fresh⟩)

/-- The operations of window 2. -/
def part2 : List (HloOp τ sig (Elt F)) := ops2_0 ++ ops2_1 ++ ops2_2 ++ ops2_3
theorem part2_eq (c : Dev nD) : main_part2 (F := F) c = seq part2 := main_part2_eq c
theorem part2_sub : (part2 : List (HloOp τ sig (Elt F))).Forall fun op => op.bufs ⊆ tcRefs τ sig :=
  (List.forall_append.mpr ⟨(List.forall_append.mpr ⟨(List.forall_append.mpr ⟨ops2_0_sub, ops2_1_sub⟩), ops2_2_sub⟩), ops2_3_sub⟩)
theorem part2_fresh : (part2 : List (HloOp τ sig (Elt F))).Forall fun op => op.fresh = ∅ :=
  (List.forall_append.mpr ⟨(List.forall_append.mpr ⟨(List.forall_append.mpr ⟨ops2_0_fresh, ops2_1_fresh⟩), ops2_2_fresh⟩), ops2_3_fresh⟩)

/-- The operations of window 3. -/
def part3 : List (HloOp τ sig (Elt F)) := ops3_0 ++ ops3_1 ++ ops3_2
theorem part3_eq (c : Dev nD) : main_part3 (F := F) c = seq part3 := main_part3_eq c
theorem part3_sub : (part3 : List (HloOp τ sig (Elt F))).Forall fun op => op.bufs ⊆ tcRefs τ sig :=
  (List.forall_append.mpr ⟨(List.forall_append.mpr ⟨ops3_0_sub, ops3_1_sub⟩), ops3_2_sub⟩)
theorem part3_fresh : (part3 : List (HloOp τ sig (Elt F))).Forall fun op => op.fresh = ∅ :=
  (List.forall_append.mpr ⟨(List.forall_append.mpr ⟨ops3_0_fresh, ops3_1_fresh⟩), ops3_2_fresh⟩)

/-- @main's operations, in order. -/
abbrev ops : List (HloOp τ sig (Elt F)) := part0 ++ (part1 ++ (part2 ++ part3))

/-- @main runs its four windows in order, and each window is the straight line of its operations. -/
theorem main_eq (c : Dev nD) : main (F := F) c = seq ops := by
  show main (F := F) c = seq (part0 ++ (part1 ++ (part2 ++ part3)))
  rw [seq_append, seq_append, seq_append, ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.mpr ⟨part0_sub, List.forall_append.mpr ⟨part1_sub, List.forall_append.mpr ⟨part2_sub, part3_sub⟩⟩⟩
theorem ops_fresh : ∀ op ∈ (ops : List (HloOp τ sig (Elt F))), op.fresh = ∅ :=
  List.forall_iff_forall_mem.mp
    (List.forall_append.mpr ⟨part0_fresh, List.forall_append.mpr ⟨part1_fresh, List.forall_append.mpr ⟨part2_fresh, part3_fresh⟩⟩⟩)

/-- Every buffer some operation writes. -/
abbrev ops_W : List (Ref sig .tc) := ops0_0_W ++ ops0_1_W ++ ops0_2_W ++ ops0_3_W ++ ops1_0_W ++ ops1_1_W ++ ops1_2_W ++ ops1_3_W ++ ops2_0_W ++ ops2_1_W ++ ops2_2_W ++ ops2_3_W ++ ops3_0_W ++ ops3_1_W ++ ops3_2_W

/-- The fold over all the operations, list by list. -/
theorem after_ops (V : Valuation τ sig (Elt F)) :
    after ops V = after ops3_2 (after ops3_1 (after ops3_0 (after ops2_3 (after ops2_2 (after ops2_1 (after ops2_0 (after ops1_3 (after ops1_2 (after ops1_1 (after ops1_0 (after ops0_3 (after ops0_2 (after ops0_1 (after ops0_0 (V))))))))))))))) := by
  simp only [ops, part0, part1, part2, part3, after_app]

/-- A buffer no operation writes holds at the end what it held at launch. -/
theorem ops_keep (V : Valuation τ sig (Elt F)) (r : Ref sig .tc) (h : r ∉ ops_W) :
    after ops V (Proc.devRef .tc r) = V (Proc.devRef .tc r) := by
  simp only [ops_W, List.mem_append, not_or, and_assoc] at h
  obtain ⟨h0, h1, h2, h3, h4, h5, h6, h7, h8, h9, h10, h11, h12, h13, h14⟩ := h
  rw [after_ops]
  exact (ops3_2_keep _ r h14).trans ((ops3_1_keep _ r h13).trans ((ops3_0_keep _ r h12).trans ((ops2_3_keep _ r h11).trans ((ops2_2_keep _ r h10).trans ((ops2_1_keep _ r h9).trans ((ops2_0_keep _ r h8).trans ((ops1_3_keep _ r h7).trans ((ops1_2_keep _ r h6).trans ((ops1_1_keep _ r h5).trans ((ops1_0_keep _ r h4).trans ((ops0_3_keep _ r h3).trans ((ops0_2_keep _ r h2).trans ((ops0_1_keep _ r h1).trans ((ops0_0_keep _ r h0)))))))))))))))

/-- On every device, for any float values, from any memory with zero counters: every weakly fair execution of @main
    terminates with the result buffer at the operations' fold over the launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v180) = after ops (launchContents m c) (Proc.devRef .tc main_v180)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => ⟨h c main_v180,
      (h c main_arg0).trans (ops_keep (launchContents m c) main_arg0 (by decide)),
      (h c main_arg1).trans (ops_keep (launchContents m c) main_arg1 (by decide)),
      (h c main_arg2).trans (ops_keep (launchContents m c) main_arg2 (by decide)),
      (h c main_arg3).trans (ops_keep (launchContents m c) main_arg3 (by decide)),
      (h c main_arg4).trans (ops_keep (launchContents m c) main_arg4 (by decide)),
      (h c main_arg5).trans (ops_keep (launchContents m c) main_arg5 (by decide)),
      (h c main_arg6).trans (ops_keep (launchContents m c) main_arg6 (by decide)),
      (h c main_arg7).trans (ops_keep (launchContents m c) main_arg7 (by decide)),
      (h c main_arg8).trans (ops_keep (launchContents m c) main_arg8 (by decide)),
      (h c main_arg9).trans (ops_keep (launchContents m c) main_arg9 (by decide)),
      (h c main_arg10).trans (ops_keep (launchContents m c) main_arg10 (by decide)),
      (h c main_arg11).trans (ops_keep (launchContents m c) main_arg11 (by decide)),
      (h c main_arg12).trans (ops_keep (launchContents m c) main_arg12 (by decide)),
      (h c main_arg13).trans (ops_keep (launchContents m c) main_arg13 (by decide)),
      (h c main_arg14).trans (ops_keep (launchContents m c) main_arg14 (by decide)),
      (h c main_arg15).trans (ops_keep (launchContents m c) main_arg15 (by decide)),
      (h c main_arg16).trans (ops_keep (launchContents m c) main_arg16 (by decide)),
      (h c main_arg17).trans (ops_keep (launchContents m c) main_arg17 (by decide)),
      (h c main_arg18).trans (ops_keep (launchContents m c) main_arg18 (by decide)),
      (h c main_arg19).trans (ops_keep (launchContents m c) main_arg19 (by decide)),
      (h c main_arg20).trans (ops_keep (launchContents m c) main_arg20 (by decide)),
      (h c main_arg21).trans (ops_keep (launchContents m c) main_arg21 (by decide))⟩)
    (run_seq scopedRefs_eq scopedSems_eq defs main (fun _ => ops) main_eq (fun _ => ops_sub) m ρ (fun _ => ops_fresh))

/-- The run with the result dropped: the program terminates without a fault and its arguments end unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => (h c).2) (run m ρ)

end Cert.ReferenceIdeal.Hand

end
-- ==== Proof.Ref.Layers.lean ====
/-
  The reference program, stage by stage, as functions of its argument arrays at the ideal instance.

  Each definition below is one stage of the plain-jnp network, its operations in the program's own order:
  * the dense TRANSPOSED weight matrix of a layer, from the [2, E] array of (row, column) index pairs and the [E]
    values: the two rows of the index array, each made nonnegative by adding the axis extent to a negative entry,
    paired up as an [E, 2] array, an accumulating scatter of the values into the zero matrix, and the transpose;
  * the linear layer x · Wᵀ + b (a contraction over the shared axis, the bias broadcast over the rows);
  * the batch variance of each column (the column's mean, the squared deviations, their sum divided by 512 − 0);
  * the normalisation of each column over the rows, with scale and shift;
  * the sigmoid-weighted unit v · (1 / (1 + exp (−v)));
  and the whole network as the composition of these stages at the program's shapes.
-/
import proofs.«146654_j5488968204426_2_alg».proof.ReferenceIdeal
import Idealize.ShloMosaic.PureOps.Ideal

noncomputable section

namespace Cert.RefValue

open Idealize.ShloMosaic

/-- The rank-zero shape of a scalar constant. -/
abbrev S0 : Shape := ⟨0, ![]⟩

/-- Row k of a [2, E] index array, as a vector [E]: the slice [k : k + 1, 0 : E] and the reshape. -/
def refRow {E : Nat} (k : Nat)
    (hs : (⟨2, ![2, E]⟩ : Shape).Slices ![k, 0] ⟨2, ![1, E]⟩)
    (hc : (⟨2, ![1, E]⟩ : Shape).ShapeCasts ⟨1, ![E]⟩)
    (idx : IVec ⟨2, ![2, E]⟩ 32) : IVec ⟨1, ![E]⟩ 32 :=
  shapeCast ⟨1, ![E]⟩ (extractStridedSlice ⟨2, ![1, E]⟩ ![k, 0] idx hs) hc

/-- jnp's index normalisation: an entry below zero has the axis extent n added to it. -/
def refNorm {E : Nat}
    (hb : S0.BroadcastsInDim ⟨1, ![E]⟩ (![] : Fin 0 → Fin (⟨1, ![E]⟩ : Shape).rank))
    (n : BitVec 32) (v : IVec ⟨1, ![E]⟩ 32) : IVec ⟨1, ![E]⟩ 32 :=
  select (cmpi .slt v (broadcastInDim ⟨1, ![E]⟩ ![] hb (constantI S0 32 0#32)))
    (addi v (broadcastInDim ⟨1, ![E]⟩ ![] hb (constantI S0 32 n))) v

/-- Two index vectors [E] side by side as an [E, 2] array of pairs. -/
def refPairs {E : Nat}
    (hcol : (⟨1, ![E]⟩ : Shape).BroadcastsInDim ⟨2, ![E, 1]⟩ (![0] : Fin 1 → Fin (⟨2, ![E, 1]⟩ : Shape).rank))
    (hcat : Shape.Concatenates [⟨2, ![E, 1]⟩, ⟨2, ![E, 1]⟩] ⟨2, ![E, 2]⟩ 1)
    (r c : IVec ⟨1, ![E]⟩ 32) : IVec ⟨2, ![E, 2]⟩ 32 :=
  concatenate ⟨2, ![E, 2]⟩ 1
    [⟨⟨2, ![E, 1]⟩, broadcastInDim ⟨2, ![E, 1]⟩ ![0] hcol r⟩, ⟨⟨2, ![E, 1]⟩, broadcastInDim ⟨2, ![E, 1]⟩ ![0] hcol c⟩] hcat

/-- The dense transposed weight matrix [I, O] of a layer: zeros[O, I].at[rows, cols].add(val), transposed. -/
def refWeightT {O I E : Nat}
    (hz : S0.BroadcastsInDim ⟨2, ![O, I]⟩ (![] : Fin 0 → Fin (⟨2, ![O, I]⟩ : Shape).rank))
    (hs0 : (⟨2, ![2, E]⟩ : Shape).Slices ![0, 0] ⟨2, ![1, E]⟩)
    (hs1 : (⟨2, ![2, E]⟩ : Shape).Slices ![1, 0] ⟨2, ![1, E]⟩)
    (hc : (⟨2, ![1, E]⟩ : Shape).ShapeCasts ⟨1, ![E]⟩)
    (hb : S0.BroadcastsInDim ⟨1, ![E]⟩ (![] : Fin 0 → Fin (⟨1, ![E]⟩ : Shape).rank))
    (hcol : (⟨1, ![E]⟩ : Shape).BroadcastsInDim ⟨2, ![E, 1]⟩ (![0] : Fin 1 → Fin (⟨2, ![E, 1]⟩ : Shape).rank))
    (hcat : Shape.Concatenates [⟨2, ![E, 1]⟩, ⟨2, ![E, 1]⟩] ⟨2, ![E, 2]⟩ 1)
    (d : ScatterDims ⟨2, ![O, I]⟩ ⟨2, ![E, 2]⟩ ⟨1, ![E]⟩)
    (ht : (⟨2, ![O, I]⟩ : Shape).Transposes [1, 0] ⟨2, ![I, O]⟩)
    (nO nI : BitVec 32)
    (idx : IVec ⟨2, ![2, E]⟩ 32) (val : FVec Ideal ⟨1, ![E]⟩ .f32) : FVec Ideal ⟨2, ![I, O]⟩ .f32 :=
  transpose ⟨2, ![I, O]⟩ [1, 0]
    (Host.scatterAdd (F := Ideal) d
      (broadcastInDim ⟨2, ![O, I]⟩ ![] hz (constant (F := Ideal) S0 .f32 0x00000000#32))
      (refPairs hcol hcat (refNorm hb nO (refRow 0 hs0 hc idx)) (refNorm hb nI (refRow 1 hs1 hc idx)))
      val) ht

/-- A linear layer on the rows of x: the contraction of x with the transposed weights, plus the bias on every row. -/
def refLin {B I O : Nat}
    (d : DotDims ⟨2, ![B, I]⟩ ⟨2, ![I, O]⟩ ⟨2, ![B, O]⟩)
    (h1 : (⟨1, ![O]⟩ : Shape).BroadcastsInDim ⟨2, ![1, O]⟩ (![1] : Fin 1 → Fin (⟨2, ![1, O]⟩ : Shape).rank))
    (h2 : (⟨2, ![1, O]⟩ : Shape).BroadcastsInDim ⟨2, ![B, O]⟩ (![0, 1] : Fin 2 → Fin (⟨2, ![B, O]⟩ : Shape).rank))
    (x : FVec Ideal ⟨2, ![B, I]⟩ .f32) (wT : FVec Ideal ⟨2, ![I, O]⟩ .f32) (b : FVec Ideal ⟨1, ![O]⟩ .f32) :
    FVec Ideal ⟨2, ![B, O]⟩ .f32 :=
  addf (Host.dotGeneral (F := Ideal) d none x wT)
    (broadcastInDim ⟨2, ![B, O]⟩ ![0, 1] h2 (broadcastInDim ⟨2, ![1, O]⟩ ![1] h1 b))

/-- jnp.var over axis 0 with ddof 0, as the program spells it out: the column means (kept as a [1, O] row), the
    squared deviations, their column sums divided by 512 − 0, and the guard that answers a NaN word where
    512 − 0 is not positive. -/
def refVar {B O : Nat}
    (hr : (⟨2, ![B, O]⟩ : Shape).ReducesTo [0] ⟨1, ![O]⟩) (h0 : 0 < S0.numel)
    (h1 : (⟨1, ![O]⟩ : Shape).BroadcastsInDim ⟨2, ![1, O]⟩ (![1] : Fin 1 → Fin (⟨2, ![1, O]⟩ : Shape).rank))
    (h2 : (⟨2, ![1, O]⟩ : Shape).BroadcastsInDim ⟨2, ![B, O]⟩ (![0, 1] : Fin 2 → Fin (⟨2, ![B, O]⟩ : Shape).rank))
    (hrow : S0.BroadcastsInDim ⟨2, ![1, O]⟩ (![] : Fin 0 → Fin (⟨2, ![1, O]⟩ : Shape).rank))
    (hvec : S0.BroadcastsInDim ⟨1, ![O]⟩ (![] : Fin 0 → Fin (⟨1, ![O]⟩ : Shape).rank))
    (y : FVec Ideal ⟨2, ![B, O]⟩ .f32) : FVec Ideal ⟨1, ![O]⟩ .f32 :=
  select
    (broadcastInDim ⟨1, ![O]⟩ ![] hvec
      (cmpf (F := Ideal) .ogt
        (subf (F := Ideal) (constant (F := Ideal) S0 .f32 0x44000000#32) (sitofp (F := Ideal) .f32 (constantI S0 32 0#32)))
        (constant (F := Ideal) S0 .f32 0x00000000#32)))
    (Host.divf (F := Ideal)
      (Host.reduceAdd (F := Ideal)
        (mulf (F := Ideal)
          (subf (F := Ideal) y
            (broadcastInDim ⟨2, ![B, O]⟩ ![0, 1] h2
              (Host.divf (F := Ideal)
                (broadcastInDim ⟨2, ![1, O]⟩ ![1] h1
                  (Host.reduceAdd (F := Ideal) y (constant (F := Ideal) S0 .f32 0x00000000#32) hr h0))
                (broadcastInDim ⟨2, ![1, O]⟩ ![] hrow (constant (F := Ideal) S0 .f32 0x44000000#32)))))
          (subf (F := Ideal) y
            (broadcastInDim ⟨2, ![B, O]⟩ ![0, 1] h2
              (Host.divf (F := Ideal)
                (broadcastInDim ⟨2, ![1, O]⟩ ![1] h1
                  (Host.reduceAdd (F := Ideal) y (constant (F := Ideal) S0 .f32 0x00000000#32) hr h0))
                (broadcastInDim ⟨2, ![1, O]⟩ ![] hrow (constant (F := Ideal) S0 .f32 0x44000000#32))))))
        (constant (F := Ideal) S0 .f32 0x00000000#32) hr h0)
      (broadcastInDim ⟨1, ![O]⟩ ![] hvec
        (subf (F := Ideal) (constant (F := Ideal) S0 .f32 0x44000000#32) (sitofp (F := Ideal) .f32 (constantI S0 32 0#32)))))
    (broadcastInDim ⟨1, ![O]⟩ ![] hvec (id (constant (F := Ideal) S0 .f32 0x7FC00000#32)))

/-- Batch normalisation of each column over the rows: (y − mean) · rsqrt (var + 1e-5) · g + be. -/
def refBn {B O : Nat}
    (hr : (⟨2, ![B, O]⟩ : Shape).ReducesTo [0] ⟨1, ![O]⟩) (h0 : 0 < S0.numel)
    (h1 : (⟨1, ![O]⟩ : Shape).BroadcastsInDim ⟨2, ![1, O]⟩ (![1] : Fin 1 → Fin (⟨2, ![1, O]⟩ : Shape).rank))
    (h2 : (⟨2, ![1, O]⟩ : Shape).BroadcastsInDim ⟨2, ![B, O]⟩ (![0, 1] : Fin 2 → Fin (⟨2, ![B, O]⟩ : Shape).rank))
    (hrow : S0.BroadcastsInDim ⟨2, ![1, O]⟩ (![] : Fin 0 → Fin (⟨2, ![1, O]⟩ : Shape).rank))
    (hvec : S0.BroadcastsInDim ⟨1, ![O]⟩ (![] : Fin 0 → Fin (⟨1, ![O]⟩ : Shape).rank))
    (y : FVec Ideal ⟨2, ![B, O]⟩ .f32) (g be : FVec Ideal ⟨1, ![O]⟩ .f32) : FVec Ideal ⟨2, ![B, O]⟩ .f32 :=
  addf (F := Ideal)
    (mulf (F := Ideal)
      (mulf (F := Ideal)
        (subf (F := Ideal) y
          (broadcastInDim ⟨2, ![B, O]⟩ ![0, 1] h2
            (broadcastInDim ⟨2, ![1, O]⟩ ![1] h1
              (Host.divf (F := Ideal)
                (Host.reduceAdd (F := Ideal) y (constant (F := Ideal) S0 .f32 0x00000000#32) hr h0)
                (broadcastInDim ⟨1, ![O]⟩ ![] hvec (constant (F := Ideal) S0 .f32 0x44000000#32))))))
        (broadcastInDim ⟨2, ![B, O]⟩ ![0, 1] h2
          (broadcastInDim ⟨2, ![1, O]⟩ ![1] h1
            (Host.rsqrt (F := Ideal)
              (addf (F := Ideal) (refVar hr h0 h1 h2 hrow hvec y)
                (broadcastInDim ⟨1, ![O]⟩ ![] hvec (constant (F := Ideal) S0 .f32 0x3727C5AC#32)))))))
      (broadcastInDim ⟨2, ![B, O]⟩ ![0, 1] h2 (broadcastInDim ⟨2, ![1, O]⟩ ![1] h1 g)))
    (broadcastInDim ⟨2, ![B, O]⟩ ![0, 1] h2 (broadcastInDim ⟨2, ![1, O]⟩ ![1] h1 be))

/-- The sigmoid-weighted unit, with the sigmoid spelled out: v · (1 / (1 + exp (−v))). -/
def refSilu {B O : Nat}
    (hall : S0.BroadcastsInDim ⟨2, ![B, O]⟩ (![] : Fin 0 → Fin (⟨2, ![B, O]⟩ : Shape).rank))
    (v : FVec Ideal ⟨2, ![B, O]⟩ .f32) : FVec Ideal ⟨2, ![B, O]⟩ .f32 :=
  mulf (F := Ideal) v
    (Host.divf (F := Ideal)
      (broadcastInDim ⟨2, ![B, O]⟩ ![] hall (constant (F := Ideal) S0 .f32 0x3F800000#32))
      (addf (F := Ideal)
        (broadcastInDim ⟨2, ![B, O]⟩ ![] hall (constant (F := Ideal) S0 .f32 0x3F800000#32))
        (Host.exp (F := Ideal) (Host.negf (F := Ideal) v))))

open Cert.ReferenceIdeal Cert.ReferenceIdeal.Facts₀ Cert.ReferenceIdeal.Facts

variable [Cert.ReferenceIdeal.Facts]

/-- The transposed weights of the five layers at the program's shapes. -/
def refWeightT1 (idx : IVec S2x7200000 32) (val : FVec Ideal S7200000 .f32) : FVec Ideal S120000x600 .f32 :=
  refWeightT bcast_S_S600x120000 slices_S2x7200000_S1x7200000_0_0 slices_S2x7200000_S1x7200000_1_0
    shapeCasts_S1x7200000_S7200000 bcast_S_S7200000 bcast_S7200000_S7200000x1_0
    concatenates_S7200000x1_S7200000x1_S7200000x2_d1 scatter_S600x120000_S7200000x2_S7200000_n_01_01_1
    transposes_S600x120000_S120000x600_1_0 600#32 120000#32 idx val

def refWeightT2 (idx : IVec S2x36000 32) (val : FVec Ideal S36000 .f32) : FVec Ideal S600x600 .f32 :=
  refWeightT bcast_S_S600x600 slices_S2x36000_S1x36000_0_0 slices_S2x36000_S1x36000_1_0
    shapeCasts_S1x36000_S36000 bcast_S_S36000 bcast_S36000_S36000x1_0
    concatenates_S36000x1_S36000x1_S36000x2_d1 scatter_S600x600_S36000x2_S36000_n_01_01_1
    transposes_S600x600_S600x600_1_0 600#32 600#32 idx val

def refWeightT3 (idx : IVec S2x18000 32) (val : FVec Ideal S18000 .f32) : FVec Ideal S600x300 .f32 :=
  refWeightT bcast_S_S300x600 slices_S2x18000_S1x18000_0_0 slices_S2x18000_S1x18000_1_0
    shapeCasts_S1x18000_S18000 bcast_S_S18000 bcast_S18000_S18000x1_0
    concatenates_S18000x1_S18000x1_S18000x2_d1 scatter_S300x600_S18000x2_S18000_n_01_01_1
    transposes_S300x600_S600x300_1_0 300#32 600#32 idx val

def refWeightT4 (idx : IVec S2x6000 32) (val : FVec Ideal S6000 .f32) : FVec Ideal S300x200 .f32 :=
  refWeightT bcast_S_S200x300 slices_S2x6000_S1x6000_0_0 slices_S2x6000_S1x6000_1_0
    shapeCasts_S1x6000_S6000 bcast_S_S6000 bcast_S6000_S6000x1_0
    concatenates_S6000x1_S6000x1_S6000x2_d1 scatter_S200x300_S6000x2_S6000_n_01_01_1
    transposes_S200x300_S300x200_1_0 200#32 300#32 idx val

def refWeightT5 (idx : IVec S2x4000 32) (val : FVec Ideal S4000 .f32) : FVec Ideal S200x200 .f32 :=
  refWeightT bcast_S_S200x200 slices_S2x4000_S1x4000_0_0 slices_S2x4000_S1x4000_1_0
    shapeCasts_S1x4000_S4000 bcast_S_S4000 bcast_S4000_S4000x1_0
    concatenates_S4000x1_S4000x1_S4000x2_d1 scatter_S200x200_S4000x2_S4000_n_01_01_1
    transposes_S200x200_S200x200_1_0 200#32 200#32 idx val

/-- Layer 1: linear, normalisation, activation; [512, 120000] to [512, 600]. -/
def refLayer1 (x : FVec Ideal S512x120000 .f32) (idx : IVec S2x7200000 32) (val : FVec Ideal S7200000 .f32)
    (b g be : FVec Ideal S600 .f32) : FVec Ideal S512x600 .f32 :=
  refSilu bcast_S_S512x600
    (refBn reducesTo_S512x600_S600_d0 h_S_ bcast_S600_S1x600_1 bcast_S1x600_S512x600_0_1 bcast_S_S1x600 bcast_S_S600
      (refLin dot_S512x120000_S120000x600_S512x600_1_0_0_1_n_n bcast_S600_S1x600_1 bcast_S1x600_S512x600_0_1
        x (refWeightT1 idx val) b) g be)

/-- Layer 2: linear, activation; [512, 600] to [512, 600]. -/
def refLayer2 (h : FVec Ideal S512x600 .f32) (idx : IVec S2x36000 32) (val : FVec Ideal S36000 .f32)
    (b : FVec Ideal S600 .f32) : FVec Ideal S512x600 .f32 :=
  refSilu bcast_S_S512x600
    (refLin dot_S512x600_S600x600_S512x600_1_0_0_1_n_n bcast_S600_S1x600_1 bcast_S1x600_S512x600_0_1
      h (refWeightT2 idx val) b)

/-- Layer 3: linear, normalisation, activation; [512, 600] to [512, 300]. -/
def refLayer3 (h : FVec Ideal S512x600 .f32) (idx : IVec S2x18000 32) (val : FVec Ideal S18000 .f32)
    (b g be : FVec Ideal S300 .f32) : FVec Ideal S512x300 .f32 :=
  refSilu bcast_S_S512x300
    (refBn reducesTo_S512x300_S300_d0 h_S_ bcast_S300_S1x300_1 bcast_S1x300_S512x300_0_1 bcast_S_S1x300 bcast_S_S300
      (refLin dot_S512x600_S600x300_S512x300_1_0_0_1_n_n bcast_S300_S1x300_1 bcast_S1x300_S512x300_0_1
        h (refWeightT3 idx val) b) g be)

/-- Layer 4: linear, normalisation, activation; [512, 300] to [512, 200]. -/
def refLayer4 (h : FVec Ideal S512x300 .f32) (idx : IVec S2x6000 32) (val : FVec Ideal S6000 .f32)
    (b g be : FVec Ideal S200 .f32) : FVec Ideal S512x200 .f32 :=
  refSilu bcast_S_S512x200
    (refBn reducesTo_S512x200_S200_d0 h_S_ bcast_S200_S1x200_1 bcast_S1x200_S512x200_0_1 bcast_S_S1x200 bcast_S_S200
      (refLin dot_S512x300_S300x200_S512x200_1_0_0_1_n_n bcast_S200_S1x200_1 bcast_S1x200_S512x200_0_1
        h (refWeightT4 idx val) b) g be)

/-- Layer 5: linear only; [512, 200] to [512, 200]. -/
def refLayer5 (h : FVec Ideal S512x200 .f32) (idx : IVec S2x4000 32) (val : FVec Ideal S4000 .f32)
    (b : FVec Ideal S200 .f32) : FVec Ideal S512x200 .f32 :=
  refLin dot_S512x200_S200x200_S512x200_1_0_0_1_n_n bcast_S200_S1x200_1 bcast_S1x200_S512x200_0_1
    h (refWeightT5 idx val) b

/-- The whole reference program: its result array as a function of its twenty-two argument arrays, in order. -/
def refOut (x : FVec Ideal S512x120000 .f32)
    (idx1 : IVec S2x7200000 32) (val1 : FVec Ideal S7200000 .f32) (b1 : FVec Ideal S600 .f32)
    (idx2 : IVec S2x36000 32) (val2 : FVec Ideal S36000 .f32) (b2 : FVec Ideal S600 .f32)
    (idx3 : IVec S2x18000 32) (val3 : FVec Ideal S18000 .f32) (b3 : FVec Ideal S300 .f32)
    (idx4 : IVec S2x6000 32) (val4 : FVec Ideal S6000 .f32) (b4 : FVec Ideal S200 .f32)
    (idx5 : IVec S2x4000 32) (val5 : FVec Ideal S4000 .f32) (b5 : FVec Ideal S200 .f32)
    (g1 be1 : FVec Ideal S600 .f32) (g2 be2 : FVec Ideal S300 .f32) (g3 be3 : FVec Ideal S200 .f32) :
    FVec Ideal S512x200 .f32 :=
  refLayer5
    (refLayer4
      (refLayer3
        (refLayer2 (refLayer1 x idx1 val1 b1 g1 be1) idx2 val2 b2)
        idx3 val3 b3 g2 be2)
      idx4 val4 b4 g3 be3)
    idx5 val5 b5

end Cert.RefValue

end
-- ==== Proof.Ref.Stage0.lean ====
/-
  What the reference's operation lists leave in a stage's result buffer, as that stage's function of the contents the
  list starts from: layer 1's linear part, its normalisation and its activation. Each is read off the list by folding it — every operation's result
  at its own buffer is its function of its operands' contents, and at any other buffer what was there.
-/
import proofs.«146654_j5488968204426_2_alg».proof.Proof.Ref.Ops0
import proofs.«146654_j5488968204426_2_alg».proof.Proof.Ref.Layers

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.RefValue

set_option maxRecDepth 8192 in
theorem lin1_at (V : Valuation τ sig (Elt Ideal)) :
    after ops0_0 V (Proc.devRef .tc main_v23)
      = refLin dot_S512x120000_S120000x600_S512x600_1_0_0_1_n_n bcast_S600_S1x600_1 bcast_S1x600_S512x600_0_1
          (V (Proc.devRef .tc main_arg0)) (refWeightT1 (V (Proc.devRef .tc main_arg1)) (V (Proc.devRef .tc main_arg2))) (V (Proc.devRef .tc main_arg3)) := by
  simp only [ops0_0]
  after_results_simp
  rfl

set_option maxRecDepth 8192 in
theorem bn1_at (V : Valuation τ sig (Elt Ideal)) :
    after ops0_1 V (Proc.devRef .tc main_v42)
      = refBn reducesTo_S512x600_S600_d0 h_S_ bcast_S600_S1x600_1 bcast_S1x600_S512x600_0_1 bcast_S_S1x600 bcast_S_S600
          (V (Proc.devRef .tc main_v23)) (V (Proc.devRef .tc main_arg16)) (V (Proc.devRef .tc main_arg17)) := by
  simp only [ops0_1]
  after_results_simp
  rfl

set_option maxRecDepth 8192 in
theorem silu1_at (V : Valuation τ sig (Elt Ideal)) :
    after ops0_2 V (Proc.devRef .tc main_v43) = refSilu bcast_S_S512x600 (V (Proc.devRef .tc main_v42)) := by
  simp only [ops0_2]
  after_results_simp
  rfl

end Cert.ReferenceIdeal.Hand

end
-- ==== Proof.Ref.Stage1.lean ====
/-
  What the reference's operation lists leave in a stage's result buffer, as that stage's function of the contents the
  list starts from: layer 2's linear part (its index preparation begins in the window before) and its activation, and layer 3's linear part. Each is read off the list by folding it — every operation's result
  at its own buffer is its function of its operands' contents, and at any other buffer what was there.
-/
import proofs.«146654_j5488968204426_2_alg».proof.Proof.Ref.Ops0
import proofs.«146654_j5488968204426_2_alg».proof.Proof.Ref.Ops1
import proofs.«146654_j5488968204426_2_alg».proof.Proof.Ref.Layers

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.RefValue

set_option maxRecDepth 8192 in
theorem lin2_at (V : Valuation τ sig (Elt Ideal)) :
    after ops1_0 (after ops0_3 V) (Proc.devRef .tc main_v67)
      = refLin dot_S512x600_S600x600_S512x600_1_0_0_1_n_n bcast_S600_S1x600_1 bcast_S1x600_S512x600_0_1
          (V (Proc.devRef .tc main_v43)) (refWeightT2 (V (Proc.devRef .tc main_arg4)) (V (Proc.devRef .tc main_arg5))) (V (Proc.devRef .tc main_arg6)) := by
  simp only [ops0_3, ops1_0]
  after_results_simp
  rfl

set_option maxRecDepth 8192 in
theorem silu2_at (V : Valuation τ sig (Elt Ideal)) :
    after ops1_1 V (Proc.devRef .tc main_v68) = refSilu bcast_S_S512x600 (V (Proc.devRef .tc main_v67)) := by
  simp only [ops1_1]
  after_results_simp
  rfl

set_option maxRecDepth 8192 in
theorem lin3_at (V : Valuation τ sig (Elt Ideal)) :
    after ops1_2 V (Proc.devRef .tc main_v92)
      = refLin dot_S512x600_S600x300_S512x300_1_0_0_1_n_n bcast_S300_S1x300_1 bcast_S1x300_S512x300_0_1
          (V (Proc.devRef .tc main_v68)) (refWeightT3 (V (Proc.devRef .tc main_arg7)) (V (Proc.devRef .tc main_arg8))) (V (Proc.devRef .tc main_arg9)) := by
  simp only [ops1_2]
  after_results_simp
  rfl

end Cert.ReferenceIdeal.Hand

end
-- ==== Proof.Ref.Stage2.lean ====
/-
  What the reference's operation lists leave in a stage's result buffer, as that stage's function of the contents the
  list starts from: layer 3's normalisation (across two windows) and activation, and layer 4's linear part. Each is read off the list by folding it — every operation's result
  at its own buffer is its function of its operands' contents, and at any other buffer what was there.
-/
import proofs.«146654_j5488968204426_2_alg».proof.Proof.Ref.Ops1
import proofs.«146654_j5488968204426_2_alg».proof.Proof.Ref.Ops2
import proofs.«146654_j5488968204426_2_alg».proof.Proof.Ref.Layers

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.RefValue

set_option maxRecDepth 8192 in
theorem bn3_at (V : Valuation τ sig (Elt Ideal)) :
    after ops2_0 (after ops1_3 V) (Proc.devRef .tc main_v111)
      = refBn reducesTo_S512x300_S300_d0 h_S_ bcast_S300_S1x300_1 bcast_S1x300_S512x300_0_1 bcast_S_S1x300 bcast_S_S300
          (V (Proc.devRef .tc main_v92)) (V (Proc.devRef .tc main_arg18)) (V (Proc.devRef .tc main_arg19)) := by
  simp only [ops1_3, ops2_0]
  after_results_simp
  rfl

set_option maxRecDepth 8192 in
theorem silu3_at (V : Valuation τ sig (Elt Ideal)) :
    after ops2_1 V (Proc.devRef .tc main_v112) = refSilu bcast_S_S512x300 (V (Proc.devRef .tc main_v111)) := by
  simp only [ops2_1]
  after_results_simp
  rfl

set_option maxRecDepth 8192 in
theorem lin4_at (V : Valuation τ sig (Elt Ideal)) :
    after ops2_2 V (Proc.devRef .tc main_v136)
      = refLin dot_S512x300_S300x200_S512x200_1_0_0_1_n_n bcast_S200_S1x200_1 bcast_S1x200_S512x200_0_1
          (V (Proc.devRef .tc main_v112)) (refWeightT4 (V (Proc.devRef .tc main_arg10)) (V (Proc.devRef .tc main_arg11))) (V (Proc.devRef .tc main_arg12)) := by
  simp only [ops2_2]
  after_results_simp
  rfl

end Cert.ReferenceIdeal.Hand

end
-- ==== Proof.Ref.Stage3.lean ====
/-
  What the reference's operation lists leave in a stage's result buffer, as that stage's function of the contents the
  list starts from: layer 4's normalisation (across two windows) and activation, and layer 5, which is linear only. Each is read off the list by folding it — every operation's result
  at its own buffer is its function of its operands' contents, and at any other buffer what was there.
-/
import proofs.«146654_j5488968204426_2_alg».proof.Proof.Ref.Ops2
import proofs.«146654_j5488968204426_2_alg».proof.Proof.Ref.Ops3
import proofs.«146654_j5488968204426_2_alg».proof.Proof.Ref.Layers

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.RefValue

set_option maxRecDepth 8192 in
theorem bn4_at (V : Valuation τ sig (Elt Ideal)) :
    after ops3_0 (after ops2_3 V) (Proc.devRef .tc main_v155)
      = refBn reducesTo_S512x200_S200_d0 h_S_ bcast_S200_S1x200_1 bcast_S1x200_S512x200_0_1 bcast_S_S1x200 bcast_S_S200
          (V (Proc.devRef .tc main_v136)) (V (Proc.devRef .tc main_arg20)) (V (Proc.devRef .tc main_arg21)) := by
  simp only [ops2_3, ops3_0]
  after_results_simp
  rfl

set_option maxRecDepth 8192 in
theorem silu4_at (V : Valuation τ sig (Elt Ideal)) :
    after ops3_1 V (Proc.devRef .tc main_v156) = refSilu bcast_S_S512x200 (V (Proc.devRef .tc main_v155)) := by
  simp only [ops3_1]
  after_results_simp
  rfl

set_option maxRecDepth 8192 in
theorem lin5_at (V : Valuation τ sig (Elt Ideal)) :
    after ops3_2 V (Proc.devRef .tc main_v180)
      = refLin dot_S512x200_S200x200_S512x200_1_0_0_1_n_n bcast_S200_S1x200_1 bcast_S1x200_S512x200_0_1
          (V (Proc.devRef .tc main_v156)) (refWeightT5 (V (Proc.devRef .tc main_arg13)) (V (Proc.devRef .tc main_arg14))) (V (Proc.devRef .tc main_arg15)) := by
  simp only [ops3_2]
  after_results_simp
  rfl

end Cert.ReferenceIdeal.Hand

end
-- ==== Proof.Ref.Value.lean ====
/-
  The reference program's result as one function of its arguments. The operations run list by list; each stage's list
  leaves that stage's function of what the previous stage left and of some argument arrays, and an argument array —
  written by no operation — is still the launch contents wherever a stage reads it. Chaining the twelve stages gives the
  composition of the five layers.
-/
import proofs.«146654_j5488968204426_2_alg».proof.Proof.Ref.Run
import proofs.«146654_j5488968204426_2_alg».proof.Proof.Ref.Stage0
import proofs.«146654_j5488968204426_2_alg».proof.Proof.Ref.Stage1
import proofs.«146654_j5488968204426_2_alg».proof.Proof.Ref.Stage2
import proofs.«146654_j5488968204426_2_alg».proof.Proof.Ref.Stage3

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.RefValue

/-- The buffers no operation writes are as at the start. -/
def Kept (V0 V : Valuation τ sig (Elt Ideal)) : Prop :=
  ∀ r : Ref sig .tc, r ∉ ops_W → V (Proc.devRef .tc r) = V0 (Proc.devRef .tc r)

/-- Running one more list keeps them so: the list writes only buffers among the written ones. -/
theorem Kept.step {V0 V : Valuation τ sig (Elt Ideal)} (h : Kept V0 V) (l : List (HloOp τ sig (Elt Ideal)))
    (W : List (Ref sig .tc))
    (hkeep : ∀ (V : Valuation τ sig (Elt Ideal)) (r : Ref sig .tc), r ∉ W → after l V (Proc.devRef .tc r) = V (Proc.devRef .tc r))
    (hW : ∀ r, r ∈ W → r ∈ ops_W) : Kept V0 (after l V) :=
  fun r hr => (hkeep V r fun hm => hr (hW r hm)).trans (h r hr)

theorem ops0_0_W_sub : ∀ r, r ∈ ops0_0_W → r ∈ ops_W := fun r h => by
  simp only [ops_W, List.mem_append, h, true_or, or_true]
theorem ops0_1_W_sub : ∀ r, r ∈ ops0_1_W → r ∈ ops_W := fun r h => by
  simp only [ops_W, List.mem_append, h, true_or, or_true]
theorem ops0_2_W_sub : ∀ r, r ∈ ops0_2_W → r ∈ ops_W := fun r h => by
  simp only [ops_W, List.mem_append, h, true_or, or_true]
theorem ops0_3_W_sub : ∀ r, r ∈ ops0_3_W → r ∈ ops_W := fun r h => by
  simp only [ops_W, List.mem_append, h, true_or, or_true]
theorem ops1_0_W_sub : ∀ r, r ∈ ops1_0_W → r ∈ ops_W := fun r h => by
  simp only [ops_W, List.mem_append, h, true_or, or_true]
theorem ops1_1_W_sub : ∀ r, r ∈ ops1_1_W → r ∈ ops_W := fun r h => by
  simp only [ops_W, List.mem_append, h, true_or, or_true]
theorem ops1_2_W_sub : ∀ r, r ∈ ops1_2_W → r ∈ ops_W := fun r h => by
  simp only [ops_W, List.mem_append, h, true_or, or_true]
theorem ops1_3_W_sub : ∀ r, r ∈ ops1_3_W → r ∈ ops_W := fun r h => by
  simp only [ops_W, List.mem_append, h, true_or, or_true]
theorem ops2_0_W_sub : ∀ r, r ∈ ops2_0_W → r ∈ ops_W := fun r h => by
  simp only [ops_W, List.mem_append, h, true_or, or_true]
theorem ops2_1_W_sub : ∀ r, r ∈ ops2_1_W → r ∈ ops_W := fun r h => by
  simp only [ops_W, List.mem_append, h, true_or, or_true]
theorem ops2_2_W_sub : ∀ r, r ∈ ops2_2_W → r ∈ ops_W := fun r h => by
  simp only [ops_W, List.mem_append, h, true_or, or_true]
theorem ops2_3_W_sub : ∀ r, r ∈ ops2_3_W → r ∈ ops_W := fun r h => by
  simp only [ops_W, List.mem_append, h, true_or, or_true]
theorem ops3_0_W_sub : ∀ r, r ∈ ops3_0_W → r ∈ ops_W := fun r h => by
  simp only [ops_W, List.mem_append, h, true_or, or_true]
theorem ops3_1_W_sub : ∀ r, r ∈ ops3_1_W → r ∈ ops_W := fun r h => by
  simp only [ops_W, List.mem_append, h, true_or, or_true]
theorem ops3_2_W_sub : ∀ r, r ∈ ops3_2_W → r ∈ ops_W := fun r h => by
  simp only [ops_W, List.mem_append, h, true_or, or_true]

/-- The result buffer after all the operations holds the five layers' composition of the argument arrays. -/
theorem out_eq (V : Valuation τ sig (Elt Ideal)) :
    after ops V (Proc.devRef .tc main_v180)
      = refOut (V (Proc.devRef .tc main_arg0))
          (V (Proc.devRef .tc main_arg1))
          (V (Proc.devRef .tc main_arg2))
          (V (Proc.devRef .tc main_arg3))
          (V (Proc.devRef .tc main_arg4))
          (V (Proc.devRef .tc main_arg5))
          (V (Proc.devRef .tc main_arg6))
          (V (Proc.devRef .tc main_arg7))
          (V (Proc.devRef .tc main_arg8))
          (V (Proc.devRef .tc main_arg9))
          (V (Proc.devRef .tc main_arg10))
          (V (Proc.devRef .tc main_arg11))
          (V (Proc.devRef .tc main_arg12))
          (V (Proc.devRef .tc main_arg13))
          (V (Proc.devRef .tc main_arg14))
          (V (Proc.devRef .tc main_arg15))
          (V (Proc.devRef .tc main_arg16))
          (V (Proc.devRef .tc main_arg17))
          (V (Proc.devRef .tc main_arg18))
          (V (Proc.devRef .tc main_arg19))
          (V (Proc.devRef .tc main_arg20))
          (V (Proc.devRef .tc main_arg21)) := by
  have K0 : Kept V V := fun _ _ => rfl
  have K1 := K0.step ops0_0 ops0_0_W ops0_0_keep ops0_0_W_sub
  have K2 := K1.step ops0_1 ops0_1_W ops0_1_keep ops0_1_W_sub
  have K3 := K2.step ops0_2 ops0_2_W ops0_2_keep ops0_2_W_sub
  have K4 := K3.step ops0_3 ops0_3_W ops0_3_keep ops0_3_W_sub
  have K5 := K4.step ops1_0 ops1_0_W ops1_0_keep ops1_0_W_sub
  have K6 := K5.step ops1_1 ops1_1_W ops1_1_keep ops1_1_W_sub
  have K7 := K6.step ops1_2 ops1_2_W ops1_2_keep ops1_2_W_sub
  have K8 := K7.step ops1_3 ops1_3_W ops1_3_keep ops1_3_W_sub
  have K9 := K8.step ops2_0 ops2_0_W ops2_0_keep ops2_0_W_sub
  have K10 := K9.step ops2_1 ops2_1_W ops2_1_keep ops2_1_W_sub
  have K11 := K10.step ops2_2 ops2_2_W ops2_2_keep ops2_2_W_sub
  have K12 := K11.step ops2_3 ops2_3_W ops2_3_keep ops2_3_W_sub
  have K13 := K12.step ops3_0 ops3_0_W ops3_0_keep ops3_0_W_sub
  have K14 := K13.step ops3_1 ops3_1_W ops3_1_keep ops3_1_W_sub
  rw [after_ops, lin5_at, silu4_at, bn4_at, lin4_at, silu3_at, bn3_at, lin3_at, silu2_at, lin2_at, silu1_at, bn1_at, lin1_at]
  rw [K14 main_arg13 (by decide), K14 main_arg14 (by decide), K14 main_arg15 (by decide),
    K11 main_arg20 (by decide), K11 main_arg21 (by decide),
    K10 main_arg10 (by decide), K10 main_arg11 (by decide), K10 main_arg12 (by decide),
    K7 main_arg18 (by decide), K7 main_arg19 (by decide),
    K6 main_arg7 (by decide), K6 main_arg8 (by decide), K6 main_arg9 (by decide),
    K3 main_arg4 (by decide), K3 main_arg5 (by decide), K3 main_arg6 (by decide),
    K1 main_arg16 (by decide), K1 main_arg17 (by decide)]
  rfl

end Cert.ReferenceIdeal.Hand

end
-- ==== Proof.Ref.LayerLemmasIdx.lean ====
/-
  The dense transposed weight matrix of a layer, read at an entry.

  For an index array whose pairs are all nonnegative, jnp's index normalisation changes nothing, the [E, 2] array of
  pairs holds (rows e, cols e) at row e, and the accumulating scatter into the zero matrix followed by the transpose
  gives, at entry (k, q), the sum of the values of the triples whose (row, column) is (q, k).
-/
import proofs.«146654_j5488968204426_2_alg».proof.Proof.Ref.Layers
import proofs.«146654_j5488968204426_2_alg».proof.Proof.LibScatterPairs
import Idealize.ShloMosaic.Lib.ValueLayout

noncomputable section

namespace Cert.RefValue

open Idealize.ShloMosaic Idealize.ShloMosaic.ValueIdx

/-- Row 0 of the index array at position e. -/
theorem refRow_zero_apply {E : Nat}
    (hs : (⟨2, ![2, E]⟩ : Shape).Slices ![0, 0] ⟨2, ![1, E]⟩)
    (hc : (⟨2, ![1, E]⟩ : Shape).ShapeCasts ⟨1, ![E]⟩)
    (idx : IVec ⟨2, ![2, E]⟩ 32) (e : Fin E) :
    refRow 0 hs hc idx (ix1 e) = idx (ix2 (0 : Fin 2) e) := by
  unfold refRow
  rw [shapeCast_1a_a_apply]
  exact slice2_axis0_apply 0 idx hs (0 : Fin 1) e (0 : Fin 2) rfl

/-- Row 1 of the index array at position e. -/
theorem refRow_one_apply {E : Nat}
    (hs : (⟨2, ![2, E]⟩ : Shape).Slices ![1, 0] ⟨2, ![1, E]⟩)
    (hc : (⟨2, ![1, E]⟩ : Shape).ShapeCasts ⟨1, ![E]⟩)
    (idx : IVec ⟨2, ![2, E]⟩ 32) (e : Fin E) :
    refRow 1 hs hc idx (ix1 e) = idx (ix2 (1 : Fin 2) e) := by
  unfold refRow
  rw [shapeCast_1a_a_apply]
  exact slice2_axis0_apply 1 idx hs (0 : Fin 1) e (1 : Fin 2) rfl

/-- The normalisation is the identity on an entry whose signed value is nonnegative. -/
theorem refNorm_apply_of_nonneg {E : Nat}
    (hb : S0.BroadcastsInDim ⟨1, ![E]⟩ (![] : Fin 0 → Fin (⟨1, ![E]⟩ : Shape).rank))
    (n : BitVec 32) (v : IVec ⟨1, ![E]⟩ 32) (i : (⟨1, ![E]⟩ : Shape).Idx) (h : 0 ≤ (v i).toInt) :
    refNorm hb n v i = v i := by
  unfold refNorm
  rw [select_apply]
  have hlt : (v i).slt 0#32 = false := by
    simp only [BitVec.slt]
    exact decide_eq_false (by rw [BitVec.toInt_zero]; omega)
  have hc : cmpi .slt v (broadcastInDim ⟨1, ![E]⟩ ![] hb (constantI S0 32 0#32)) i = 0#1 := by
    show BitVec.ofBool ((v i).slt 0#32) = 0#1
    rw [hlt]; rfl
  rw [hc, select_zero]

/-- The first component of pair e is the first vector's entry e. -/
theorem refPairs_apply_zero {E : Nat}
    (hcol : (⟨1, ![E]⟩ : Shape).BroadcastsInDim ⟨2, ![E, 1]⟩ (![0] : Fin 1 → Fin (⟨2, ![E, 1]⟩ : Shape).rank))
    (hcat : Shape.Concatenates [⟨2, ![E, 1]⟩, ⟨2, ![E, 1]⟩] ⟨2, ![E, 2]⟩ 1)
    (r c : IVec ⟨1, ![E]⟩ 32) (e : Fin E) :
    refPairs hcol hcat r c (ix2 e (0 : Fin 2)) = r (ix1 e) := by
  unfold refPairs
  refine (concatenate_pair_apply_left (1 : Fin (⟨2, ![E, 2]⟩ : Shape).rank) _ _ hcat (ix2 e (0 : Fin 2)) rfl
    (ix2 e (0 : Fin 1)) (fun b => by match b with | ⟨0, _⟩ => rfl | ⟨1, _⟩ => rfl)).trans ?_
  refine broadcastInDim_apply _ hcol r _ (ix1 e) (fun a => ?_)
  match a with
  | ⟨0, _⟩ =>
    show e.val = if E = 1 then 0 else e.val
    split
    · have := e.isLt; omega
    · rfl

/-- The second component of pair e is the second vector's entry e. -/
theorem refPairs_apply_one {E : Nat}
    (hcol : (⟨1, ![E]⟩ : Shape).BroadcastsInDim ⟨2, ![E, 1]⟩ (![0] : Fin 1 → Fin (⟨2, ![E, 1]⟩ : Shape).rank))
    (hcat : Shape.Concatenates [⟨2, ![E, 1]⟩, ⟨2, ![E, 1]⟩] ⟨2, ![E, 2]⟩ 1)
    (r c : IVec ⟨1, ![E]⟩ 32) (e : Fin E) :
    refPairs hcol hcat r c (ix2 e (1 : Fin 2)) = c (ix1 e) := by
  unfold refPairs
  refine (concatenate_pair_apply_right (1 : Fin (⟨2, ![E, 2]⟩ : Shape).rank) _ _ hcat (ix2 e (1 : Fin 2)) rfl rfl
    (ix2 e (0 : Fin 1)) (fun b hb => by
      match b with
      | ⟨0, _⟩ => rfl
      | ⟨1, _⟩ => exact absurd rfl hb) rfl).trans ?_
  refine broadcastInDim_apply _ hcol c _ (ix1 e) (fun a => ?_)
  match a with
  | ⟨0, _⟩ =>
    show e.val = if E = 1 then 0 else e.val
    split
    · have := e.isLt; omega
    · rfl

/-- The transposed weight matrix at entry (k, q), for index pairs that are all nonnegative: the sum of the values of
    the triples whose (row, column), read signed, is (q, k). -/
theorem refWeightT_apply {O I E : Nat}
    (hz : S0.BroadcastsInDim ⟨2, ![O, I]⟩ (![] : Fin 0 → Fin (⟨2, ![O, I]⟩ : Shape).rank))
    (hs0 : (⟨2, ![2, E]⟩ : Shape).Slices ![0, 0] ⟨2, ![1, E]⟩)
    (hs1 : (⟨2, ![2, E]⟩ : Shape).Slices ![1, 0] ⟨2, ![1, E]⟩)
    (hc : (⟨2, ![1, E]⟩ : Shape).ShapeCasts ⟨1, ![E]⟩)
    (hb : S0.BroadcastsInDim ⟨1, ![E]⟩ (![] : Fin 0 → Fin (⟨1, ![E]⟩ : Shape).rank))
    (hcol : (⟨1, ![E]⟩ : Shape).BroadcastsInDim ⟨2, ![E, 1]⟩ (![0] : Fin 1 → Fin (⟨2, ![E, 1]⟩ : Shape).rank))
    (hcat : Shape.Concatenates [⟨2, ![E, 1]⟩, ⟨2, ![E, 1]⟩] ⟨2, ![E, 2]⟩ 1)
    (d : ScatterDims ⟨2, ![O, I]⟩ ⟨2, ![E, 2]⟩ ⟨1, ![E]⟩)
    (wf : ScatterDims.WF ⟨2, ![O, I]⟩ ⟨2, ![E, 2]⟩ ⟨1, ![E]⟩ [] [0, 1] [0, 1] 1)
    (hd : d = ScatterPairs.pairScatterDims O I E wf)
    (ht : (⟨2, ![O, I]⟩ : Shape).Transposes [1, 0] ⟨2, ![I, O]⟩)
    (nO nI : BitVec 32)
    (idx : IVec ⟨2, ![2, E]⟩ 32) (val : FVec Ideal ⟨1, ![E]⟩ .f32)
    (hnn : ∀ e : Fin E, 0 ≤ (idx (ix2 (0 : Fin 2) e)).toInt ∧ 0 ≤ (idx (ix2 (1 : Fin 2) e)).toInt)
    (k : Fin I) (q : Fin O) :
    refWeightT hz hs0 hs1 hc hb hcol hcat d ht nO nI idx val (ix2 k q)
      = ∑ e : Fin E, if (idx (ix2 (0 : Fin 2) e)).toInt = (q.val : Int) ∧ (idx (ix2 (1 : Fin 2) e)).toInt = (k.val : Int)
          then val (ix1 e) else 0 := by
  subst hd
  unfold refWeightT
  rw [transpose_ix2_apply, ScatterPairs.scatterAdd_pairs_apply]
  have hzero : broadcastInDim ⟨2, ![O, I]⟩ ![] hz (constant (F := Ideal) S0 .f32 0x00000000#32) (ix2 q k) = 0 := by
    show Ideal.ofBits .f32 0x00000000#32 = 0
    exact Ideal.ofBits_zero_f32
  rw [hzero, zero_add]
  refine Finset.sum_congr rfl (fun e _ => ?_)
  rw [refPairs_apply_zero, refPairs_apply_one,
    refNorm_apply_of_nonneg hb nO _ _ (by rw [refRow_zero_apply]; exact (hnn e).1),
    refNorm_apply_of_nonneg hb nI _ _ (by rw [refRow_one_apply]; exact (hnn e).2),
    refRow_zero_apply, refRow_one_apply]

end Cert.RefValue

end
-- ==== Proof.Ref.LayerLemmasVal.lean ====
/-
  The float stages of the reference network, read at an entry, are the specification's.

  At the ideal instance a host contraction over one axis is the sum over that axis of the products, a host sum over the
  rows is the sum over the row coordinate (from the zero word), a broadcast of a vector over the rows reads the vector at
  the column, and the spelled-out sigmoid 1 / (1 + exp (−v)) with the f32 word of 1 is the logistic function. The
  variance's guard takes its first branch because 512 − 0 is positive, and dividing by 512 − 0 is dividing by 512.
-/
import proofs.«146654_j5488968204426_2_alg».proof.Proof.Ref.Layers
import proofs.«146654_j5488968204426_2_alg».proof.Proof.Spec
import Idealize.ShloMosaic.Lib.ValueLayout
import Idealize.ShloMosaic.PureOps.Ideal.Laws

set_option pp.maxSteps 5000
set_option pp.deepTerms false

noncomputable section

namespace Cert.RefValue

open Idealize.ShloMosaic Idealize.ShloMosaic.ValueIdx

/-! ## The words -/

/-- The f32 word 0x3F800000 is 1. -/
theorem one_word : Ideal.ofBits .f32 0x3F800000#32 = 1 := IdealRules.sign_bit.ideal_onePat .f32

/-- The f32 word 0x44000000 is 512. -/
theorem c512_val : Ideal.ofBits .f32 0x44000000#32 = ((512 : ℝ) : EReal) := by
  simp [Ideal.ofBits, Ideal.ieee, -EReal.coe_mul]
  norm_num

theorem c512_pos : (0 : EReal) < Ideal.ofBits .f32 0x44000000#32 := by
  rw [c512_val]; exact EReal.coe_pos.mpr (by norm_num)

/-- 512 − (the integer word 0, converted) is 512. -/
theorem ddof_sub :
    Ideal.ofBits .f32 0x44000000#32 - (((0#32 : BitVec 32).toInt : ℝ) : EReal) = Ideal.ofBits .f32 0x44000000#32 := by
  simp

/-! ## Host operations at an index (definitional) -/

section Defs
variable {s : Shape} {φ : FTy}

theorem hostDivf_apply (a b : FVec Ideal s φ) (i : s.Idx) : Host.divf a b i = Ideal.div (a i) (b i) := rfl
theorem hostRsqrt_apply (a : FVec Ideal s φ) (i : s.Idx) : Host.rsqrt a i = Ideal.rsqrt (a i) := rfl
theorem hostExp_apply (a : FVec Ideal s φ) (i : s.Idx) : Host.exp a i = Ideal.exp (a i) := rfl
theorem hostNegf_apply (a : FVec Ideal s φ) (i : s.Idx) : Host.negf a i = -(a i) := rfl

end Defs

/-! ## Broadcasts -/

/-- A vector [O] viewed as one row [1, O]. -/
theorem bcastRow1_apply {α : Type} {O : Nat}
    (h1 : (⟨1, ![O]⟩ : Shape).BroadcastsInDim ⟨2, ![1, O]⟩ (![1] : Fin 1 → Fin (⟨2, ![1, O]⟩ : Shape).rank))
    (b : (⟨1, ![O]⟩ : Shape).Idx → α) (u : Fin 1) (q : Fin O) :
    broadcastInDim ⟨2, ![1, O]⟩ ![1] h1 b (ix2 u q) = b (ix1 q) := by
  refine broadcastInDim_apply _ h1 b (ix2 u q) (ix1 q) (fun a => ?_)
  match a with
  | ⟨0, _⟩ =>
    show q.val = if O = 1 then 0 else q.val
    split
    · have := q.isLt; omega
    · rfl

/-- One row [1, O] repeated over B rows. -/
theorem bcastRow2_apply {α : Type} {B O : Nat}
    (h2 : (⟨2, ![1, O]⟩ : Shape).BroadcastsInDim ⟨2, ![B, O]⟩ (![0, 1] : Fin 2 → Fin (⟨2, ![B, O]⟩ : Shape).rank))
    (v : (⟨2, ![1, O]⟩ : Shape).Idx → α) (p : Fin B) (q : Fin O) :
    broadcastInDim ⟨2, ![B, O]⟩ ![0, 1] h2 v (ix2 p q) = v (ix2 (0 : Fin 1) q) := by
  refine broadcastInDim_apply _ h2 v (ix2 p q) (ix2 (0 : Fin 1) q) (fun a => ?_)
  match a with
  | ⟨0, _⟩ => rfl
  | ⟨1, _⟩ =>
    show q.val = if O = 1 then 0 else q.val
    split
    · have := q.isLt; omega
    · rfl

/-- A vector [O] repeated over B rows: entry (p, q) is the vector's entry q. -/
theorem bcastRows_apply {α : Type} {B O : Nat}
    (h1 : (⟨1, ![O]⟩ : Shape).BroadcastsInDim ⟨2, ![1, O]⟩ (![1] : Fin 1 → Fin (⟨2, ![1, O]⟩ : Shape).rank))
    (h2 : (⟨2, ![1, O]⟩ : Shape).BroadcastsInDim ⟨2, ![B, O]⟩ (![0, 1] : Fin 2 → Fin (⟨2, ![B, O]⟩ : Shape).rank))
    (b : (⟨1, ![O]⟩ : Shape).Idx → α) (p : Fin B) (q : Fin O) :
    broadcastInDim ⟨2, ![B, O]⟩ ![0, 1] h2 (broadcastInDim ⟨2, ![1, O]⟩ ![1] h1 b) (ix2 p q) = b (ix1 q) :=
  (bcastRow2_apply h2 _ p q).trans (bcastRow1_apply h1 b 0 q)

/-! ## The linear layer -/

/-- In a plain M×K by K×N contraction the left operand's row coordinate is the result's. -/
theorem plain_lhs0 {B I O : Nat} (i : (⟨2, ![B, O]⟩ : Shape).Idx) (kk : (DotDims.plain B I O).contr.Idx) :
    ((DotDims.plain B I O).lhsIdx i kk (0 : Fin (⟨2, ![B, I]⟩ : Shape).rank)).val = (i 0).val := by
  unfold DotDims.lhsIdx
  rw [dif_neg (show ¬(0 : Fin (⟨2, ![B, I]⟩ : Shape).rank) ∈ (DotDims.plain B I O).lhsBatch from List.not_mem_nil),
    dif_pos (show (0 : Fin (⟨2, ![B, I]⟩ : Shape).rank) ∈ (DotDims.plain B I O).lhsNonContracting from
      List.mem_singleton.mpr rfl)]
  rfl

/-- … and the right operand's column coordinate is the result's. -/
theorem plain_rhs1 {B I O : Nat} (i : (⟨2, ![B, O]⟩ : Shape).Idx) (kk : (DotDims.plain B I O).contr.Idx) :
    ((DotDims.plain B I O).rhsIdx i kk (1 : Fin (⟨2, ![I, O]⟩ : Shape).rank)).val = (i 1).val := by
  unfold DotDims.rhsIdx
  rw [dif_neg (show ¬(1 : Fin (⟨2, ![I, O]⟩ : Shape).rank) ∈ (DotDims.plain B I O).rhsBatch from List.not_mem_nil),
    dif_pos (show (1 : Fin (⟨2, ![I, O]⟩ : Shape).rank) ∈ (DotDims.plain B I O).rhsNonContracting from
      List.mem_singleton.mpr rfl)]
  rfl

/-- The contraction x · wT plus the bias, at entry (p, q). -/
theorem refLin_apply {B I O : Nat}
    (d : DotDims ⟨2, ![B, I]⟩ ⟨2, ![I, O]⟩ ⟨2, ![B, O]⟩) (hd : d = DotDims.plain B I O)
    (h1 : (⟨1, ![O]⟩ : Shape).BroadcastsInDim ⟨2, ![1, O]⟩ (![1] : Fin 1 → Fin (⟨2, ![1, O]⟩ : Shape).rank))
    (h2 : (⟨2, ![1, O]⟩ : Shape).BroadcastsInDim ⟨2, ![B, O]⟩ (![0, 1] : Fin 2 → Fin (⟨2, ![B, O]⟩ : Shape).rank))
    (x : FVec Ideal ⟨2, ![B, I]⟩ .f32) (wT : FVec Ideal ⟨2, ![I, O]⟩ .f32) (b : FVec Ideal ⟨1, ![O]⟩ .f32)
    (p : Fin B) (q : Fin O) :
    refLin d h1 h2 x wT b (ix2 p q) = (∑ k : Fin I, x (ix2 p k) * wT (ix2 k q)) + b (ix1 q) := by
  subst hd
  unfold refLin
  rw [addf_apply, bcastRows_apply]
  congr 1
  simp only [Host.dotGeneral]
  rw [Ideal.dotGeneral_apply, ← Equiv.sum_comp (contrEquiv1 (DotDims.plain B I O) I rfl rfl).symm]
  refine Finset.sum_congr rfl fun k _ => ?_
  have hk := contrEquiv1_symm_val (DotDims.plain B I O) I rfl rfl k
  have el : (DotDims.plain B I O).lhsIdx (ix2 p q) ((contrEquiv1 (DotDims.plain B I O) I rfl rfl).symm k) = ix2 p k :=
    funext fun a => Fin.ext (by
      match a with
      | ⟨0, _⟩ => exact plain_lhs0 (ix2 p q) _
      | ⟨1, _⟩ => exact ((DotDims.plain B I O).lhsIdx_val_of_single rfl _ _).trans hk)
  have er : (DotDims.plain B I O).rhsIdx (ix2 p q) ((contrEquiv1 (DotDims.plain B I O) I rfl rfl).symm k) = ix2 k q :=
    funext fun a => Fin.ext (by
      match a with
      | ⟨0, _⟩ => exact ((DotDims.plain B I O).rhsIdx_val_of_single rfl _ _).trans hk
      | ⟨1, _⟩ => exact plain_rhs1 (ix2 p q) _)
  rw [el, er]

/-! ## Sums over the rows -/

/-- The host's sum over axis 0 from the zero word, at column q: the sum over the rows. -/
theorem hostSum_apply {B O : Nat}
    (hr : (⟨2, ![B, O]⟩ : Shape).ReducesTo [0] ⟨1, ![O]⟩) (h0 : 0 < S0.numel)
    (y : FVec Ideal ⟨2, ![B, O]⟩ .f32) (q : Fin O) :
    Host.reduceAdd (F := Ideal) y (constant (F := Ideal) S0 .f32 0x00000000#32) hr h0 (ix1 q) = ∑ p : Fin B, y (ix2 p q) := by
  have hR : (⟨2, ![B, O]⟩ : Shape).Reduces [0] ⟨1, ![O]⟩ := ⟨hr.1, Nat.one_pos, hr.2⟩
  show Ideal.hostReduceAdd hr y (Ideal.ofBits .f32 0x00000000#32) (ix1 q) = _
  rw [Ideal.hostReduceAdd_single hr hR, Ideal.ofBits_zero_f32, zero_add]
  show ∑ p : Fin B, y (hR.lift (ix1 q) p) = _
  refine Finset.sum_congr rfl (fun p _ => congrArg y ?_)
  funext c
  refine Fin.ext ?_
  match c with
  | ⟨0, _⟩ => rfl
  | ⟨1, _⟩ => rfl

/-- The column mean as the program computes it in the normalisation: (sum over the rows) / 512. -/
theorem refMean_apply {B O : Nat}
    (hr : (⟨2, ![B, O]⟩ : Shape).ReducesTo [0] ⟨1, ![O]⟩) (h0 : 0 < S0.numel)
    (hvec : S0.BroadcastsInDim ⟨1, ![O]⟩ (![] : Fin 0 → Fin (⟨1, ![O]⟩ : Shape).rank))
    (y : FVec Ideal ⟨2, ![B, O]⟩ .f32) (q : Fin O) :
    Host.divf (F := Ideal)
        (Host.reduceAdd (F := Ideal) y (constant (F := Ideal) S0 .f32 0x00000000#32) hr h0)
        (broadcastInDim ⟨1, ![O]⟩ ![] hvec (constant (F := Ideal) S0 .f32 0x44000000#32)) (ix1 q)
      = Cert.Spec.colMean (fun p q => y (ix2 p q)) q := by
  rw [hostDivf_apply, hostSum_apply]
  rfl

/-- The column mean as the variance computes it (through a [1, O] row): the same. -/
theorem refMeanRow_apply {B O : Nat}
    (hr : (⟨2, ![B, O]⟩ : Shape).ReducesTo [0] ⟨1, ![O]⟩) (h0 : 0 < S0.numel)
    (h1 : (⟨1, ![O]⟩ : Shape).BroadcastsInDim ⟨2, ![1, O]⟩ (![1] : Fin 1 → Fin (⟨2, ![1, O]⟩ : Shape).rank))
    (hrow : S0.BroadcastsInDim ⟨2, ![1, O]⟩ (![] : Fin 0 → Fin (⟨2, ![1, O]⟩ : Shape).rank))
    (y : FVec Ideal ⟨2, ![B, O]⟩ .f32) (u : Fin 1) (q : Fin O) :
    Host.divf (F := Ideal)
        (broadcastInDim ⟨2, ![1, O]⟩ ![1] h1
          (Host.reduceAdd (F := Ideal) y (constant (F := Ideal) S0 .f32 0x00000000#32) hr h0))
        (broadcastInDim ⟨2, ![1, O]⟩ ![] hrow (constant (F := Ideal) S0 .f32 0x44000000#32)) (ix2 u q)
      = Cert.Spec.colMean (fun p q => y (ix2 p q)) q := by
  rw [hostDivf_apply, bcastRow1_apply, hostSum_apply]
  rfl

/-! ## The variance -/

theorem select_of_eq_one {α : Type} (c : BitVec 1) (a b : α) (h : c = 1#1) : Scalar.select c a b = a := by
  rw [h]; exact select_one a b

/-- jnp.var over the rows at column q is the mean squared deviation from the column mean. -/
theorem refVar_apply {B O : Nat}
    (hr : (⟨2, ![B, O]⟩ : Shape).ReducesTo [0] ⟨1, ![O]⟩) (h0 : 0 < S0.numel)
    (h1 : (⟨1, ![O]⟩ : Shape).BroadcastsInDim ⟨2, ![1, O]⟩ (![1] : Fin 1 → Fin (⟨2, ![1, O]⟩ : Shape).rank))
    (h2 : (⟨2, ![1, O]⟩ : Shape).BroadcastsInDim ⟨2, ![B, O]⟩ (![0, 1] : Fin 2 → Fin (⟨2, ![B, O]⟩ : Shape).rank))
    (hrow : S0.BroadcastsInDim ⟨2, ![1, O]⟩ (![] : Fin 0 → Fin (⟨2, ![1, O]⟩ : Shape).rank))
    (hvec : S0.BroadcastsInDim ⟨1, ![O]⟩ (![] : Fin 0 → Fin (⟨1, ![O]⟩ : Shape).rank))
    (y : FVec Ideal ⟨2, ![B, O]⟩ .f32) (q : Fin O) :
    refVar hr h0 h1 h2 hrow hvec y (ix1 q) = Cert.Spec.colVar (fun p q => y (ix2 p q)) q := by
  unfold refVar
  rw [select_apply]
  refine (select_of_eq_one _ _ _ ?_).trans ?_
  · show Ideal.cmp .ogt (Ideal.ofBits .f32 0x44000000#32 - (((0#32 : BitVec 32).toInt : ℝ) : EReal))
      (Ideal.ofBits .f32 0x00000000#32) = 1#1
    rw [ddof_sub, Ideal.ofBits_zero_f32]
    unfold Ideal.cmp
    simp [c512_pos]
  · rw [hostDivf_apply, hostSum_apply]
    unfold Cert.Spec.colVar
    refine congrArg₂ Ideal.div (Finset.sum_congr rfl fun p _ => ?_) ?_
    · rw [mulf_apply, subf_apply, bcastRow2_apply, refMeanRow_apply]
    · show Ideal.ofBits .f32 0x44000000#32 - (((0#32 : BitVec 32).toInt : ℝ) : EReal) = _
      exact ddof_sub

/-! ## The normalisation and the activation -/

/-- The normalisation at entry (p, q). -/
theorem refBn_apply {B O : Nat}
    (hr : (⟨2, ![B, O]⟩ : Shape).ReducesTo [0] ⟨1, ![O]⟩) (h0 : 0 < S0.numel)
    (h1 : (⟨1, ![O]⟩ : Shape).BroadcastsInDim ⟨2, ![1, O]⟩ (![1] : Fin 1 → Fin (⟨2, ![1, O]⟩ : Shape).rank))
    (h2 : (⟨2, ![1, O]⟩ : Shape).BroadcastsInDim ⟨2, ![B, O]⟩ (![0, 1] : Fin 2 → Fin (⟨2, ![B, O]⟩ : Shape).rank))
    (hrow : S0.BroadcastsInDim ⟨2, ![1, O]⟩ (![] : Fin 0 → Fin (⟨2, ![1, O]⟩ : Shape).rank))
    (hvec : S0.BroadcastsInDim ⟨1, ![O]⟩ (![] : Fin 0 → Fin (⟨1, ![O]⟩ : Shape).rank))
    (y : FVec Ideal ⟨2, ![B, O]⟩ .f32) (g be : FVec Ideal ⟨1, ![O]⟩ .f32) (p : Fin B) (q : Fin O) :
    refBn hr h0 h1 h2 hrow hvec y g be (ix2 p q)
      = Cert.Spec.bn (fun p q => y (ix2 p q)) (fun q => g (ix1 q)) (fun q => be (ix1 q)) p q := by
  unfold refBn
  rw [addf_apply, mulf_apply, mulf_apply, subf_apply, bcastRows_apply, bcastRows_apply, bcastRows_apply, bcastRows_apply,
    refMean_apply, hostRsqrt_apply, addf_apply, refVar_apply]
  rfl

/-- The activation at any entry. -/
theorem refSilu_apply {B O : Nat}
    (hall : S0.BroadcastsInDim ⟨2, ![B, O]⟩ (![] : Fin 0 → Fin (⟨2, ![B, O]⟩ : Shape).rank))
    (v : FVec Ideal ⟨2, ![B, O]⟩ .f32) (j : (⟨2, ![B, O]⟩ : Shape).Idx) :
    refSilu hall v j = Cert.Spec.silu (v j) := by
  unfold refSilu
  show v j * Ideal.div (Ideal.ofBits .f32 0x3F800000#32) (Ideal.ofBits .f32 0x3F800000#32 + Ideal.exp (-(v j))) = _
  rw [one_word]
  rfl

end Cert.RefValue

end
-- ==== Proof.Ref.LayerLemmas.lean ====
/-
  The reference network, read at an entry, is the specification's network of the argument arrays read at their entries.

  Layer by layer: the transposed weight matrix of a layer is the specification's matrix of its (row, column, value)
  triples with the two indices exchanged; the linear stage, the normalisation and the activation are the
  specification's; the five layers compose as the specification composes them. The index pairs are assumed to lie in
  their matrix's extents; only their nonnegativity is used (a nonnegative index is left alone by jnp's normalisation,
  and a pair past the extents lands on no entry in the program and in the specification alike).
-/
import proofs.«146654_j5488968204426_2_alg».proof.Proof.Ref.LayerLemmasIdx
import proofs.«146654_j5488968204426_2_alg».proof.Proof.Ref.LayerLemmasVal
import proofs.«146654_j5488968204426_2_alg».proof.Proof.SpecArr

set_option pp.maxSteps 5000
set_option pp.deepTerms false

noncomputable section

namespace Cert.RefValue

open Idealize.ShloMosaic Idealize.ShloMosaic.ValueIdx
open Cert.ReferenceIdeal Cert.ReferenceIdeal.Facts₀ Cert.ReferenceIdeal.Facts

/-- The linear stage as a function of (p, q) is the specification's linear layer of the operands read at their entries. -/
theorem refLin_eq {B I O : Nat}
    (d : DotDims ⟨2, ![B, I]⟩ ⟨2, ![I, O]⟩ ⟨2, ![B, O]⟩) (hd : d = DotDims.plain B I O)
    (h1 : (⟨1, ![O]⟩ : Shape).BroadcastsInDim ⟨2, ![1, O]⟩ (![1] : Fin 1 → Fin (⟨2, ![1, O]⟩ : Shape).rank))
    (h2 : (⟨2, ![1, O]⟩ : Shape).BroadcastsInDim ⟨2, ![B, O]⟩ (![0, 1] : Fin 2 → Fin (⟨2, ![B, O]⟩ : Shape).rank))
    (x : FVec Ideal ⟨2, ![B, I]⟩ .f32) (wT : FVec Ideal ⟨2, ![I, O]⟩ .f32) (b : FVec Ideal ⟨1, ![O]⟩ .f32) :
    (fun (p : Fin B) (q : Fin O) => refLin d h1 h2 x wT b (ix2 p q))
      = Cert.Spec.lin (fun p k => x (ix2 p k)) (fun q k => wT (ix2 k q)) (fun q => b (ix1 q)) :=
  funext fun p => funext fun q => refLin_apply d hd h1 h2 x wT b p q

variable [Cert.ReferenceIdeal.Facts]

/-- Layer 1's weights: the transposed matrix read at (k, q) is the specification's matrix at (q, k). -/
theorem refWeightT1_eq (idx : IVec S2x7200000 32) (val : FVec Ideal S7200000 .f32)
    (hnn : ∀ e : Fin 7200000, 0 ≤ (idx (ix2 (0 : Fin 2) e)).toInt ∧ 0 ≤ (idx (ix2 (1 : Fin 2) e)).toInt) :
    (fun (q : Fin 600) (k : Fin 120000) => refWeightT1 idx val (ix2 k q))
      = (Cert.Spec.weight (fun e : Fin 7200000 => (idx (ix2 (0 : Fin 2) e)).toInt) (fun e : Fin 7200000 => (idx (ix2 (1 : Fin 2) e)).toInt) (fun e : Fin 7200000 => val (ix1 e)) 600 120000) :=
  funext fun q => funext fun k => by
    unfold refWeightT1
    exact refWeightT_apply _ _ _ _ _ _ _ scatter_S600x120000_S7200000x2_S7200000_n_01_01_1 scatter_S600x120000_S7200000x2_S7200000_n_01_01_1_wf rfl _ _ _ idx val hnn k q

/-- Layer 2's weights: the transposed matrix read at (k, q) is the specification's matrix at (q, k). -/
theorem refWeightT2_eq (idx : IVec S2x36000 32) (val : FVec Ideal S36000 .f32)
    (hnn : ∀ e : Fin 36000, 0 ≤ (idx (ix2 (0 : Fin 2) e)).toInt ∧ 0 ≤ (idx (ix2 (1 : Fin 2) e)).toInt) :
    (fun (q : Fin 600) (k : Fin 600) => refWeightT2 idx val (ix2 k q))
      = (Cert.Spec.weight (fun e : Fin 36000 => (idx (ix2 (0 : Fin 2) e)).toInt) (fun e : Fin 36000 => (idx (ix2 (1 : Fin 2) e)).toInt) (fun e : Fin 36000 => val (ix1 e)) 600 600) :=
  funext fun q => funext fun k => by
    unfold refWeightT2
    exact refWeightT_apply _ _ _ _ _ _ _ scatter_S600x600_S36000x2_S36000_n_01_01_1 scatter_S600x600_S36000x2_S36000_n_01_01_1_wf rfl _ _ _ idx val hnn k q

/-- Layer 3's weights: the transposed matrix read at (k, q) is the specification's matrix at (q, k). -/
theorem refWeightT3_eq (idx : IVec S2x18000 32) (val : FVec Ideal S18000 .f32)
    (hnn : ∀ e : Fin 18000, 0 ≤ (idx (ix2 (0 : Fin 2) e)).toInt ∧ 0 ≤ (idx (ix2 (1 : Fin 2) e)).toInt) :
    (fun (q : Fin 300) (k : Fin 600) => refWeightT3 idx val (ix2 k q))
      = (Cert.Spec.weight (fun e : Fin 18000 => (idx (ix2 (0 : Fin 2) e)).toInt) (fun e : Fin 18000 => (idx (ix2 (1 : Fin 2) e)).toInt) (fun e : Fin 18000 => val (ix1 e)) 300 600) :=
  funext fun q => funext fun k => by
    unfold refWeightT3
    exact refWeightT_apply _ _ _ _ _ _ _ scatter_S300x600_S18000x2_S18000_n_01_01_1 scatter_S300x600_S18000x2_S18000_n_01_01_1_wf rfl _ _ _ idx val hnn k q

/-- Layer 4's weights: the transposed matrix read at (k, q) is the specification's matrix at (q, k). -/
theorem refWeightT4_eq (idx : IVec S2x6000 32) (val : FVec Ideal S6000 .f32)
    (hnn : ∀ e : Fin 6000, 0 ≤ (idx (ix2 (0 : Fin 2) e)).toInt ∧ 0 ≤ (idx (ix2 (1 : Fin 2) e)).toInt) :
    (fun (q : Fin 200) (k : Fin 300) => refWeightT4 idx val (ix2 k q))
      = (Cert.Spec.weight (fun e : Fin 6000 => (idx (ix2 (0 : Fin 2) e)).toInt) (fun e : Fin 6000 => (idx (ix2 (1 : Fin 2) e)).toInt) (fun e : Fin 6000 => val (ix1 e)) 200 300) :=
  funext fun q => funext fun k => by
    unfold refWeightT4
    exact refWeightT_apply _ _ _ _ _ _ _ scatter_S200x300_S6000x2_S6000_n_01_01_1 scatter_S200x300_S6000x2_S6000_n_01_01_1_wf rfl _ _ _ idx val hnn k q

/-- Layer 5's weights: the transposed matrix read at (k, q) is the specification's matrix at (q, k). -/
theorem refWeightT5_eq (idx : IVec S2x4000 32) (val : FVec Ideal S4000 .f32)
    (hnn : ∀ e : Fin 4000, 0 ≤ (idx (ix2 (0 : Fin 2) e)).toInt ∧ 0 ≤ (idx (ix2 (1 : Fin 2) e)).toInt) :
    (fun (q : Fin 200) (k : Fin 200) => refWeightT5 idx val (ix2 k q))
      = (Cert.Spec.weight (fun e : Fin 4000 => (idx (ix2 (0 : Fin 2) e)).toInt) (fun e : Fin 4000 => (idx (ix2 (1 : Fin 2) e)).toInt) (fun e : Fin 4000 => val (ix1 e)) 200 200) :=
  funext fun q => funext fun k => by
    unfold refWeightT5
    exact refWeightT_apply _ _ _ _ _ _ _ scatter_S200x200_S4000x2_S4000_n_01_01_1 scatter_S200x200_S4000x2_S4000_n_01_01_1_wf rfl _ _ _ idx val hnn k q

/-- Layer 1 as a function of (p, q). -/
theorem refLayer1_eq (x : FVec Ideal S512x120000 .f32) (idx : IVec S2x7200000 32) (val : FVec Ideal S7200000 .f32)
    (b g be : FVec Ideal S600 .f32)
    (hnn : ∀ e : Fin 7200000, 0 ≤ (idx (ix2 (0 : Fin 2) e)).toInt ∧ 0 ≤ (idx (ix2 (1 : Fin 2) e)).toInt) :
    (fun (p : Fin 512) (q : Fin 600) => refLayer1 x idx val b g be (ix2 p q))
      = Cert.Spec.layerBn (fun p k => x (ix2 p k)) (Cert.Spec.weight (fun e : Fin 7200000 => (idx (ix2 (0 : Fin 2) e)).toInt) (fun e : Fin 7200000 => (idx (ix2 (1 : Fin 2) e)).toInt) (fun e : Fin 7200000 => val (ix1 e)) 600 120000) (fun q => b (ix1 q)) (fun q => g (ix1 q)) (fun q => be (ix1 q)) := by
  funext p q
  unfold refLayer1
  rw [refSilu_apply, refBn_apply, refLin_eq dot_S512x120000_S120000x600_S512x600_1_0_0_1_n_n rfl, refWeightT1_eq idx val hnn]
  rfl

/-- Layer 2 as a function of (p, q). -/
theorem refLayer2_eq (h : FVec Ideal S512x600 .f32) (idx : IVec S2x36000 32) (val : FVec Ideal S36000 .f32)
    (b : FVec Ideal S600 .f32)
    (hnn : ∀ e : Fin 36000, 0 ≤ (idx (ix2 (0 : Fin 2) e)).toInt ∧ 0 ≤ (idx (ix2 (1 : Fin 2) e)).toInt) :
    (fun (p : Fin 512) (q : Fin 600) => refLayer2 h idx val b (ix2 p q))
      = Cert.Spec.layerAct (fun p k => h (ix2 p k)) (Cert.Spec.weight (fun e : Fin 36000 => (idx (ix2 (0 : Fin 2) e)).toInt) (fun e : Fin 36000 => (idx (ix2 (1 : Fin 2) e)).toInt) (fun e : Fin 36000 => val (ix1 e)) 600 600) (fun q => b (ix1 q)) := by
  funext p q
  unfold refLayer2
  rw [refSilu_apply, refLin_apply dot_S512x600_S600x600_S512x600_1_0_0_1_n_n rfl, ← refWeightT2_eq idx val hnn]
  rfl

/-- Layer 3 as a function of (p, q). -/
theorem refLayer3_eq (h : FVec Ideal S512x600 .f32) (idx : IVec S2x18000 32) (val : FVec Ideal S18000 .f32)
    (b g be : FVec Ideal S300 .f32)
    (hnn : ∀ e : Fin 18000, 0 ≤ (idx (ix2 (0 : Fin 2) e)).toInt ∧ 0 ≤ (idx (ix2 (1 : Fin 2) e)).toInt) :
    (fun (p : Fin 512) (q : Fin 300) => refLayer3 h idx val b g be (ix2 p q))
      = Cert.Spec.layerBn (fun p k => h (ix2 p k)) (Cert.Spec.weight (fun e : Fin 18000 => (idx (ix2 (0 : Fin 2) e)).toInt) (fun e : Fin 18000 => (idx (ix2 (1 : Fin 2) e)).toInt) (fun e : Fin 18000 => val (ix1 e)) 300 600) (fun q => b (ix1 q)) (fun q => g (ix1 q)) (fun q => be (ix1 q)) := by
  funext p q
  unfold refLayer3
  rw [refSilu_apply, refBn_apply, refLin_eq dot_S512x600_S600x300_S512x300_1_0_0_1_n_n rfl, refWeightT3_eq idx val hnn]
  rfl

/-- Layer 4 as a function of (p, q). -/
theorem refLayer4_eq (h : FVec Ideal S512x300 .f32) (idx : IVec S2x6000 32) (val : FVec Ideal S6000 .f32)
    (b g be : FVec Ideal S200 .f32)
    (hnn : ∀ e : Fin 6000, 0 ≤ (idx (ix2 (0 : Fin 2) e)).toInt ∧ 0 ≤ (idx (ix2 (1 : Fin 2) e)).toInt) :
    (fun (p : Fin 512) (q : Fin 200) => refLayer4 h idx val b g be (ix2 p q))
      = Cert.Spec.layerBn (fun p k => h (ix2 p k)) (Cert.Spec.weight (fun e : Fin 6000 => (idx (ix2 (0 : Fin 2) e)).toInt) (fun e : Fin 6000 => (idx (ix2 (1 : Fin 2) e)).toInt) (fun e : Fin 6000 => val (ix1 e)) 200 300) (fun q => b (ix1 q)) (fun q => g (ix1 q)) (fun q => be (ix1 q)) := by
  funext p q
  unfold refLayer4
  rw [refSilu_apply, refBn_apply, refLin_eq dot_S512x300_S300x200_S512x200_1_0_0_1_n_n rfl, refWeightT4_eq idx val hnn]
  rfl

/-- Layer 5 as a function of (p, q). -/
theorem refLayer5_eq (h : FVec Ideal S512x200 .f32) (idx : IVec S2x4000 32) (val : FVec Ideal S4000 .f32)
    (b : FVec Ideal S200 .f32)
    (hnn : ∀ e : Fin 4000, 0 ≤ (idx (ix2 (0 : Fin 2) e)).toInt ∧ 0 ≤ (idx (ix2 (1 : Fin 2) e)).toInt) :
    (fun (p : Fin 512) (q : Fin 200) => refLayer5 h idx val b (ix2 p q))
      = Cert.Spec.lin (fun p k => h (ix2 p k)) (Cert.Spec.weight (fun e : Fin 4000 => (idx (ix2 (0 : Fin 2) e)).toInt) (fun e : Fin 4000 => (idx (ix2 (1 : Fin 2) e)).toInt) (fun e : Fin 4000 => val (ix1 e)) 200 200) (fun q => b (ix1 q)) := by
  funext p q
  unfold refLayer5
  rw [refLin_apply dot_S512x200_S200x200_S512x200_1_0_0_1_n_n rfl, ← refWeightT5_eq idx val hnn]
  rfl

/-- The reference program's result at entry (p, q), for index arrays in range, is the specification's network of the
    argument arrays read at their entries. -/
theorem refOut_apply (x : FVec Ideal S512x120000 .f32)
    (idx1 : IVec S2x7200000 32) (val1 : FVec Ideal S7200000 .f32) (b1 : FVec Ideal S600 .f32)
    (idx2 : IVec S2x36000 32) (val2 : FVec Ideal S36000 .f32) (b2 : FVec Ideal S600 .f32)
    (idx3 : IVec S2x18000 32) (val3 : FVec Ideal S18000 .f32) (b3 : FVec Ideal S300 .f32)
    (idx4 : IVec S2x6000 32) (val4 : FVec Ideal S6000 .f32) (b4 : FVec Ideal S200 .f32)
    (idx5 : IVec S2x4000 32) (val5 : FVec Ideal S4000 .f32) (b5 : FVec Ideal S200 .f32)
    (g1 be1 : FVec Ideal S600 .f32) (g2 be2 : FVec Ideal S300 .f32) (g3 be3 : FVec Ideal S200 .f32)
    (hin1 : ∀ e : Fin 7200000, 0 ≤ (idx1 (ix2 (0 : Fin 2) e)).toInt ∧ (idx1 (ix2 (0 : Fin 2) e)).toInt < 600
      ∧ 0 ≤ (idx1 (ix2 (1 : Fin 2) e)).toInt ∧ (idx1 (ix2 (1 : Fin 2) e)).toInt < 120000)
    (hin2 : ∀ e : Fin 36000, 0 ≤ (idx2 (ix2 (0 : Fin 2) e)).toInt ∧ (idx2 (ix2 (0 : Fin 2) e)).toInt < 600
      ∧ 0 ≤ (idx2 (ix2 (1 : Fin 2) e)).toInt ∧ (idx2 (ix2 (1 : Fin 2) e)).toInt < 600)
    (hin3 : ∀ e : Fin 18000, 0 ≤ (idx3 (ix2 (0 : Fin 2) e)).toInt ∧ (idx3 (ix2 (0 : Fin 2) e)).toInt < 300
      ∧ 0 ≤ (idx3 (ix2 (1 : Fin 2) e)).toInt ∧ (idx3 (ix2 (1 : Fin 2) e)).toInt < 600)
    (hin4 : ∀ e : Fin 6000, 0 ≤ (idx4 (ix2 (0 : Fin 2) e)).toInt ∧ (idx4 (ix2 (0 : Fin 2) e)).toInt < 200
      ∧ 0 ≤ (idx4 (ix2 (1 : Fin 2) e)).toInt ∧ (idx4 (ix2 (1 : Fin 2) e)).toInt < 300)
    (hin5 : ∀ e : Fin 4000, 0 ≤ (idx5 (ix2 (0 : Fin 2) e)).toInt ∧ (idx5 (ix2 (0 : Fin 2) e)).toInt < 200
      ∧ 0 ≤ (idx5 (ix2 (1 : Fin 2) e)).toInt ∧ (idx5 (ix2 (1 : Fin 2) e)).toInt < 200)
    (p : Fin 512) (q : Fin 200) :
    refOut x idx1 val1 b1 idx2 val2 b2 idx3 val3 b3 idx4 val4 b4 idx5 val5 b5 g1 be1 g2 be2 g3 be3 (ix2 p q)
      = Cert.Spec.net (fun p k => x (ix2 p k))
          (Cert.Spec.weight (fun e : Fin 7200000 => (idx1 (ix2 (0 : Fin 2) e)).toInt) (fun e : Fin 7200000 => (idx1 (ix2 (1 : Fin 2) e)).toInt) (fun e : Fin 7200000 => val1 (ix1 e)) 600 120000) (fun q => b1 (ix1 q))
          (Cert.Spec.weight (fun e : Fin 36000 => (idx2 (ix2 (0 : Fin 2) e)).toInt) (fun e : Fin 36000 => (idx2 (ix2 (1 : Fin 2) e)).toInt) (fun e : Fin 36000 => val2 (ix1 e)) 600 600) (fun q => b2 (ix1 q))
          (Cert.Spec.weight (fun e : Fin 18000 => (idx3 (ix2 (0 : Fin 2) e)).toInt) (fun e : Fin 18000 => (idx3 (ix2 (1 : Fin 2) e)).toInt) (fun e : Fin 18000 => val3 (ix1 e)) 300 600) (fun q => b3 (ix1 q))
          (Cert.Spec.weight (fun e : Fin 6000 => (idx4 (ix2 (0 : Fin 2) e)).toInt) (fun e : Fin 6000 => (idx4 (ix2 (1 : Fin 2) e)).toInt) (fun e : Fin 6000 => val4 (ix1 e)) 200 300) (fun q => b4 (ix1 q))
          (Cert.Spec.weight (fun e : Fin 4000 => (idx5 (ix2 (0 : Fin 2) e)).toInt) (fun e : Fin 4000 => (idx5 (ix2 (1 : Fin 2) e)).toInt) (fun e : Fin 4000 => val5 (ix1 e)) 200 200) (fun q => b5 (ix1 q))
          (fun q => g1 (ix1 q)) (fun q => be1 (ix1 q)) (fun q => g2 (ix1 q)) (fun q => be2 (ix1 q))
          (fun q => g3 (ix1 q)) (fun q => be3 (ix1 q)) p q := by
  have e1 := refLayer1_eq x idx1 val1 b1 g1 be1 (fun e => ⟨(hin1 e).1, (hin1 e).2.2.1⟩)
  have e2 := refLayer2_eq (refLayer1 x idx1 val1 b1 g1 be1) idx2 val2 b2 (fun e => ⟨(hin2 e).1, (hin2 e).2.2.1⟩)
  have e3 := refLayer3_eq (refLayer2 (refLayer1 x idx1 val1 b1 g1 be1) idx2 val2 b2) idx3 val3 b3 g2 be2
    (fun e => ⟨(hin3 e).1, (hin3 e).2.2.1⟩)
  have e4 := refLayer4_eq (refLayer3 (refLayer2 (refLayer1 x idx1 val1 b1 g1 be1) idx2 val2 b2) idx3 val3 b3 g2 be2)
    idx4 val4 b4 g3 be3 (fun e => ⟨(hin4 e).1, (hin4 e).2.2.1⟩)
  have e5 := refLayer5_eq
    (refLayer4 (refLayer3 (refLayer2 (refLayer1 x idx1 val1 b1 g1 be1) idx2 val2 b2) idx3 val3 b3 g2 be2) idx4 val4 b4 g3 be3)
    idx5 val5 b5 (fun e => ⟨(hin5 e).1, (hin5 e).2.2.1⟩)
  rw [e1] at e2
  rw [e2] at e3
  rw [e3] at e4
  rw [e4] at e5
  exact congrFun (congrFun e5 p) q

/-- The reference program's result ARRAY, for index arrays in range, is the specification's array of the argument
    arrays. -/
theorem refOut_eq_netArr (x : FVec Ideal S512x120000 .f32)
    (idx1 : IVec S2x7200000 32) (val1 : FVec Ideal S7200000 .f32) (b1 : FVec Ideal S600 .f32)
    (idx2 : IVec S2x36000 32) (val2 : FVec Ideal S36000 .f32) (b2 : FVec Ideal S600 .f32)
    (idx3 : IVec S2x18000 32) (val3 : FVec Ideal S18000 .f32) (b3 : FVec Ideal S300 .f32)
    (idx4 : IVec S2x6000 32) (val4 : FVec Ideal S6000 .f32) (b4 : FVec Ideal S200 .f32)
    (idx5 : IVec S2x4000 32) (val5 : FVec Ideal S4000 .f32) (b5 : FVec Ideal S200 .f32)
    (g1 be1 : FVec Ideal S600 .f32) (g2 be2 : FVec Ideal S300 .f32) (g3 be3 : FVec Ideal S200 .f32)
    (hin1 : ∀ e : Fin 7200000, 0 ≤ (idx1 (ix2 (0 : Fin 2) e)).toInt ∧ (idx1 (ix2 (0 : Fin 2) e)).toInt < 600
      ∧ 0 ≤ (idx1 (ix2 (1 : Fin 2) e)).toInt ∧ (idx1 (ix2 (1 : Fin 2) e)).toInt < 120000)
    (hin2 : ∀ e : Fin 36000, 0 ≤ (idx2 (ix2 (0 : Fin 2) e)).toInt ∧ (idx2 (ix2 (0 : Fin 2) e)).toInt < 600
      ∧ 0 ≤ (idx2 (ix2 (1 : Fin 2) e)).toInt ∧ (idx2 (ix2 (1 : Fin 2) e)).toInt < 600)
    (hin3 : ∀ e : Fin 18000, 0 ≤ (idx3 (ix2 (0 : Fin 2) e)).toInt ∧ (idx3 (ix2 (0 : Fin 2) e)).toInt < 300
      ∧ 0 ≤ (idx3 (ix2 (1 : Fin 2) e)).toInt ∧ (idx3 (ix2 (1 : Fin 2) e)).toInt < 600)
    (hin4 : ∀ e : Fin 6000, 0 ≤ (idx4 (ix2 (0 : Fin 2) e)).toInt ∧ (idx4 (ix2 (0 : Fin 2) e)).toInt < 200
      ∧ 0 ≤ (idx4 (ix2 (1 : Fin 2) e)).toInt ∧ (idx4 (ix2 (1 : Fin 2) e)).toInt < 300)
    (hin5 : ∀ e : Fin 4000, 0 ≤ (idx5 (ix2 (0 : Fin 2) e)).toInt ∧ (idx5 (ix2 (0 : Fin 2) e)).toInt < 200
      ∧ 0 ≤ (idx5 (ix2 (1 : Fin 2) e)).toInt ∧ (idx5 (ix2 (1 : Fin 2) e)).toInt < 200) :
    refOut x idx1 val1 b1 idx2 val2 b2 idx3 val3 b3 idx4 val4 b4 idx5 val5 b5 g1 be1 g2 be2 g3 be3 = Cert.Spec.netArr x idx1 val1 b1 idx2 val2 b2 idx3 val3 b3 idx4 val4 b4 idx5 val5 b5 g1 be1 g2 be2 g3 be3 := by
  funext i
  obtain ⟨p, q, rfl⟩ : ∃ (p : Fin 512) (q : Fin 200), i = ix2 p q := ⟨i 0, i 1, eq_ix2 i⟩
  exact refOut_apply x idx1 val1 b1 idx2 val2 b2 idx3 val3 b3 idx4 val4 b4 idx5 val5 b5 g1 be1 g2 be2 g3 be3 hin1 hin2 hin3 hin4 hin5 p q

end Cert.RefValue

end
-- ==== Proof.PreFacts.lean ====
/-
  From the precondition to the index arrays' ranges.

  The precondition is one bit: the conjunction of one test per argument array. For each of the five arrays of (row, column)
  index pairs — a 2 × E array of 32-bit words, row 0 the row indices and row 1 the column indices — the test is
  "every row index e satisfies 0 ≤ e < O and every column index 0 ≤ e < I", all comparisons signed, reduced by "and"
  over the E pairs. Read back, the bit being 1 says that every word of row 0, read as a signed integer, lies in [0, O)
  and every word of row 1 in [0, I).
-/
import proofs.«146654_j5488968204426_2_alg».proof.Pre_finite_inputs
import proofs.«146654_j5488968204426_2_alg».proof.Proof.Gen.Pre_finite_inputs
import Idealize.ShloMosaic.Lib.ReduceAll
import Idealize.ShloMosaic.Lib.ValueIdx
import Idealize.ShloMosaic.Lib.ValueLayout
import Idealize.ShloMosaic.Lib.Pipeline.Value

namespace Cert.PreFacts

open Idealize.ShloMosaic Idealize.ShloMosaic.ValueIdx

/-- The scalar shape has one index. -/
instance subsingleton_scalar_idx : Subsingleton (⟨0, ![]⟩ : Shape).Idx := ⟨fun a b => funext fun d => d.elim0⟩

/-- A natural number below 2³¹, as a 32-bit word read signed, is itself. -/
theorem toInt_ofNat_small (n : Nat) (h : n < 2 ^ 31) : (BitVec.ofNat 32 n).toInt = (n : Int) := by
  have h1 : (BitVec.ofNat 32 n).toNat = n := by rw [BitVec.toNat_ofNat]; omega
  rw [BitVec.toInt_eq_toNat_of_lt (by rw [h1]; omega), h1]

/-- Row r of a 2 × E array (o is r as a natural number, the slice's offset), cut out as a 1 × E slice and flattened to E
    entries, read at e: the array at (r, e). -/
theorem row_apply {E : Nat} {α : Type} (x : (⟨2, ![2, E]⟩ : Shape).Idx → α) (o : Nat) (r : Fin 2) (hro : r.val = o)
    (hs : (⟨2, ![2, E]⟩ : Shape).Slices ![o, 0] ⟨2, ![1, E]⟩)
    (hc : (⟨2, ![1, E]⟩ : Shape).ShapeCasts ⟨1, ![E]⟩) (e : Fin E) :
    shapeCast ⟨1, ![E]⟩ (extractStridedSlice ⟨2, ![1, E]⟩ ![o, 0] x hs) hc (ix1 e) = x (ix2 r e) := by
  refine (shapeCast_apply _ hc (ix1 e) (ix2 (0 : Fin 1) e) ?_).trans ?_
  · rw [Shape.rowMajor_val_two, Shape.rowMajor_val_one]
    show (0 : Nat) * E + e.val = e.val
    omega
  · refine extractStridedSlice_apply _ x hs (ix2 (0 : Fin 1) e) (ix2 r e) fun a => ?_
    match a with
    | ⟨0, _⟩ => show r.val = o + 0; omega
    | ⟨1, _⟩ => show e.val = 0 + e.val; omega

/-- A broadcast scalar constant reads its word everywhere. -/
theorem splat_apply {T : Shape} {w : Nat} (b : BitVec w) (h : (⟨0, ![]⟩ : Shape).BroadcastsInDim T ![]) (j : T.Idx) :
    broadcastInDim T ![] h (constantI ⟨0, ![]⟩ w b) j = b := rfl

/-- ONE ARRAY OF INDEX PAIRS. If the reduction by "and", over the E pairs, of
    (row ≥ 0) ∧ (row < O) ∧ (column ≥ 0) ∧ (column < I) is the bit 1, then every pair is in range. -/
theorem pair_in_range {E : Nat} (O I : Nat) (hO : O < 2 ^ 31) (hI : I < 2 ^ 31)
    (x : IVec ⟨2, ![2, E]⟩ 32)
    (hs0 : (⟨2, ![2, E]⟩ : Shape).Slices ![0, 0] ⟨2, ![1, E]⟩)
    (hs1 : (⟨2, ![2, E]⟩ : Shape).Slices ![1, 0] ⟨2, ![1, E]⟩)
    (hc : (⟨2, ![1, E]⟩ : Shape).ShapeCasts ⟨1, ![E]⟩)
    (hb : (⟨0, ![]⟩ : Shape).BroadcastsInDim ⟨1, ![E]⟩ (![] : Fin 0 → Fin 1))
    (hr : (⟨1, ![E]⟩ : Shape).ReducesTo [0] ⟨0, ![]⟩) (hu : 0 < (⟨0, ![]⟩ : Shape).numel)
    (h : Host.reduce IntOp.andi
        (andi (andi (andi
          (cmpi .sge (shapeCast ⟨1, ![E]⟩ (extractStridedSlice ⟨2, ![1, E]⟩ ![0, 0] x hs0) hc)
            (broadcastInDim ⟨1, ![E]⟩ ![] hb (constantI ⟨0, ![]⟩ 32 (BitVec.ofNat 32 0))))
          (cmpi .slt (shapeCast ⟨1, ![E]⟩ (extractStridedSlice ⟨2, ![1, E]⟩ ![0, 0] x hs0) hc)
            (broadcastInDim ⟨1, ![E]⟩ ![] hb (constantI ⟨0, ![]⟩ 32 (BitVec.ofNat 32 O)))))
          (cmpi .sge (shapeCast ⟨1, ![E]⟩ (extractStridedSlice ⟨2, ![1, E]⟩ ![1, 0] x hs1) hc)
            (broadcastInDim ⟨1, ![E]⟩ ![] hb (constantI ⟨0, ![]⟩ 32 (BitVec.ofNat 32 0)))))
          (cmpi .slt (shapeCast ⟨1, ![E]⟩ (extractStridedSlice ⟨2, ![1, E]⟩ ![1, 0] x hs1) hc)
            (broadcastInDim ⟨1, ![E]⟩ ![] hb (constantI ⟨0, ![]⟩ 32 (BitVec.ofNat 32 I)))))
        (constantI ⟨0, ![]⟩ 1 1#1) hr hu ix0 = 1#1) :
    ∀ e : Fin E, 0 ≤ (x (ix2 (0 : Fin 2) e)).toInt ∧ (x (ix2 (0 : Fin 2) e)).toInt < (O : Int)
      ∧ 0 ≤ (x (ix2 (1 : Fin 2) e)).toInt ∧ (x (ix2 (1 : Fin 2) e)).toInt < (I : Int) := by
  intro e
  have he := Host.reduce_andi_all _ _ hr hu ix0 h (ix1 e)
  obtain ⟨h123, h4⟩ := IntOp.andi_eq_one.1 he
  obtain ⟨h12, h3⟩ := IntOp.andi_eq_one.1 h123
  obtain ⟨h1, h2⟩ := IntOp.andi_eq_one.1 h12
  have g1 := IntOp.cmpi_sge.1 h1
  have g2 := IntOp.cmpi_slt.1 h2
  have g3 := IntOp.cmpi_sge.1 h3
  have g4 := IntOp.cmpi_slt.1 h4
  rw [splat_apply, row_apply x 0 0 rfl hs0 hc e, toInt_ofNat_small 0 (by omega)] at g1
  rw [splat_apply, row_apply x 0 0 rfl hs0 hc e, toInt_ofNat_small O hO] at g2
  rw [splat_apply, row_apply x 1 1 rfl hs1 hc e, toInt_ofNat_small 0 (by omega)] at g3
  rw [splat_apply, row_apply x 1 1 rfl hs1 hc e, toInt_ofNat_small I hI] at g4
  exact ⟨by simpa using g1, g2, by simpa using g3, g4⟩

open Cert.Pre_finite_inputs

/-- THE FIVE INDEX ARRAYS ARE IN RANGE. The precondition's bit is a conjunction, nested to the left, of the seventeen
    finiteness tests of the float arrays and then the five index tests, in the order of the arguments; each index test is
    the reduction `pair_in_range` reads back, with the extents (O, I) of the layer's weight matrix as bounds. -/
theorem in_range
    (a0 : FVec Ideal S512x120000 .f32) (a1 : IVec S2x7200000 32) (a2 : FVec Ideal S7200000 .f32) (a3 : FVec Ideal S600 .f32)
    (a4 : IVec S2x36000 32) (a5 : FVec Ideal S36000 .f32) (a6 : FVec Ideal S600 .f32) (a7 : IVec S2x18000 32)
    (a8 : FVec Ideal S18000 .f32) (a9 : FVec Ideal S300 .f32) (a10 : IVec S2x6000 32) (a11 : FVec Ideal S6000 .f32)
    (a12 : FVec Ideal S200 .f32) (a13 : IVec S2x4000 32) (a14 : FVec Ideal S4000 .f32) (a15 : FVec Ideal S200 .f32)
    (a16 : FVec Ideal S600 .f32) (a17 : FVec Ideal S600 .f32) (a18 : FVec Ideal S300 .f32) (a19 : FVec Ideal S300 .f32)
    (a20 : FVec Ideal S200 .f32) (a21 : FVec Ideal S200 .f32)
    (h : Cert.Pre_finite_inputs.fn (F := Ideal) a0 a1 a2 a3 a4 a5 a6 a7 a8 a9 a10 a11 a12 a13 a14 a15 a16 a17 a18 a19 a20 a21 = (fun _ => 1#1)) :
    (∀ e : Fin 7200000, 0 ≤ (a1 (ix2 (0 : Fin 2) e)).toInt ∧ (a1 (ix2 (0 : Fin 2) e)).toInt < 600
        ∧ 0 ≤ (a1 (ix2 (1 : Fin 2) e)).toInt ∧ (a1 (ix2 (1 : Fin 2) e)).toInt < 120000)
    ∧ (∀ e : Fin 36000, 0 ≤ (a4 (ix2 (0 : Fin 2) e)).toInt ∧ (a4 (ix2 (0 : Fin 2) e)).toInt < 600
        ∧ 0 ≤ (a4 (ix2 (1 : Fin 2) e)).toInt ∧ (a4 (ix2 (1 : Fin 2) e)).toInt < 600)
    ∧ (∀ e : Fin 18000, 0 ≤ (a7 (ix2 (0 : Fin 2) e)).toInt ∧ (a7 (ix2 (0 : Fin 2) e)).toInt < 300
        ∧ 0 ≤ (a7 (ix2 (1 : Fin 2) e)).toInt ∧ (a7 (ix2 (1 : Fin 2) e)).toInt < 600)
    ∧ (∀ e : Fin 6000, 0 ≤ (a10 (ix2 (0 : Fin 2) e)).toInt ∧ (a10 (ix2 (0 : Fin 2) e)).toInt < 200
        ∧ 0 ≤ (a10 (ix2 (1 : Fin 2) e)).toInt ∧ (a10 (ix2 (1 : Fin 2) e)).toInt < 300)
    ∧ (∀ e : Fin 4000, 0 ≤ (a13 (ix2 (0 : Fin 2) e)).toInt ∧ (a13 (ix2 (0 : Fin 2) e)).toInt < 200
        ∧ 0 ≤ (a13 (ix2 (1 : Fin 2) e)).toInt ∧ (a13 (ix2 (1 : Fin 2) e)).toInt < 200) := by
  have h0 := congrFun h ix0
  dsimp only [Cert.Pre_finite_inputs.fn, fn_part1, fn_part2, fn_part3, fn_part4, fn_part5, fn_part6, fn_part7, fn_part8,
    fn_part9, fn_part10] at h0
  obtain ⟨hA, h13⟩ := IntOp.andi_eq_one.1 h0
  obtain ⟨hB, h10⟩ := IntOp.andi_eq_one.1 hA
  obtain ⟨hC, h7⟩ := IntOp.andi_eq_one.1 hB
  obtain ⟨hD, h4⟩ := IntOp.andi_eq_one.1 hC
  obtain ⟨-, h1⟩ := IntOp.andi_eq_one.1 hD
  exact ⟨pair_in_range 600 120000 (by omega) (by omega) a1 _ _ _ _ _ _ h1,
    pair_in_range 600 600 (by omega) (by omega) a4 _ _ _ _ _ _ h4,
    pair_in_range 300 600 (by omega) (by omega) a7 _ _ _ _ _ _ h7,
    pair_in_range 200 300 (by omega) (by omega) a10 _ _ _ _ _ _ h10,
    pair_in_range 200 200 (by omega) (by omega) a13 _ _ _ _ _ _ h13⟩

end Cert.PreFacts
-- ==== Proof.lean ====
/-
  The certificate of a five-layer network with sparse weights: the kernel program against its jnp reference.

  Both programs compute, on the extended reals, the function of Proof/Spec.lean: five linear layers whose weight
  matrices are lists of (row, column, value) triples, three of them followed by a normalisation of each output column
  over the 512 rows, every layer but the last by v * logistic v. The reference scatters each list into a matrix of the
  true extents and multiplies by its transpose. The kernel program scatters each list, transposed, into a matrix PADDED
  with zero rows and columns, pads the inputs and the per-column vectors with zeros, accumulates layer 1's product over
  15 column tiles in a scratch buffer it carries between grid points, runs layers 2-5 in one second kernel, and cuts the
  padding off at the end. Padding changes no true column: a zero row of a weight matrix annihilates whatever the padded
  activations hold (c * 0 = 0 on all extended reals), the normalisation is column by column, and a sum in 15 tiles is
  the sum. The index arrays are in range by the precondition: out of range the two scatters differ.
  The three frames are the runs of Proof/K/Run.lean, Proof/KI/Run.lean (two kernel regions among stretches of host
  operations) and Proof/Ref/Run.lean (a straight line of host operations).
-/
import proofs.«146654_j5488968204426_2_alg».proof.Defs
import proofs.«146654_j5488968204426_2_alg».proof.Proof.Gen.Kernel
import proofs.«146654_j5488968204426_2_alg».proof.Proof.Gen.KernelIdeal
import proofs.«146654_j5488968204426_2_alg».proof.Proof.Gen.ReferenceIdeal
import proofs.«146654_j5488968204426_2_alg».proof.Proof.Gen.Pre_finite_inputs
import proofs.«146654_j5488968204426_2_alg».proof.Proof.K.Run
import proofs.«146654_j5488968204426_2_alg».proof.Proof.KI.Run
import proofs.«146654_j5488968204426_2_alg».proof.Proof.KI.Value
import proofs.«146654_j5488968204426_2_alg».proof.Proof.KI.BridgeFinal
import proofs.«146654_j5488968204426_2_alg».proof.Proof.Ref.Value
import proofs.«146654_j5488968204426_2_alg».proof.Proof.Ref.LayerLemmas
import proofs.«146654_j5488968204426_2_alg».proof.Proof.PreFacts
import proofs.«146654_j5488968204426_2_alg».proof.Proof.SpecArr
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel := fun m ρ _ => Cert.Kernel.Hand.frame (F := Bits) m ρ
/-- So does the idealized kernel program. -/
theorem frame_ki : Cert.frame_KernelIdeal := fun m ρ _ => Cert.KernelIdeal.Hand.frame (F := Ideal) m ρ
/-- So does the idealized reference. -/
theorem frame_ri : Cert.frame_ReferenceIdeal := fun m ρ _ => Cert.ReferenceIdeal.Hand.frame (F := Ideal) m ρ
/-- The idealization rewrote nothing. -/
theorem preserves : Cert.preserves_Kernel_KernelIdeal := trivial

/-- At the ideal instance both programs end at the specification's array of the (shared) arguments: the kernel program's
    result read back through its run is the padded five-layer term, which is the specification because padding changes no
    true column; the reference's result is its operations' composed term, which is the specification layer by layer. The
    index arrays are in range by the precondition. -/
theorem algebraic : Cert.algebraic_KernelIdeal_ReferenceIdeal := by
  intro m ρ m' ρ' hpre hagree
  refine ⟨fun c => Cert.Spec.netArr
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15))
    (m ((c.tc : Thread Cert.KernelIdeal.nD Cert.KernelIdeal.τ).loc Cert.KernelIdeal.main_arg16))
    (m ((c.tc : Thread Cert.KernelIdeal.nD Cert.KernelIdeal.τ).loc Cert.KernelIdeal.main_arg17))
    (m ((c.tc : Thread Cert.KernelIdeal.nD Cert.KernelIdeal.τ).loc Cert.KernelIdeal.main_arg18))
    (m ((c.tc : Thread Cert.KernelIdeal.nD Cert.KernelIdeal.τ).loc Cert.KernelIdeal.main_arg19))
    (m ((c.tc : Thread Cert.KernelIdeal.nD Cert.KernelIdeal.τ).loc Cert.KernelIdeal.main_arg20))
    (m ((c.tc : Thread Cert.KernelIdeal.nD Cert.KernelIdeal.τ).loc Cert.KernelIdeal.main_arg21)), ?_, ?_⟩
  · refine (θ_run (Cert.KernelIdeal.defs (F := Ideal)) _ _).mono (fun r h c => ?_) (Cert.KernelIdeal.Hand.run_all (F := Ideal) m ρ)
    obtain ⟨h1, h2, h3, h4, h5⟩ := Cert.PreFacts.in_range _ _ _ _ _ _ _ _ _ _ _ _ _ _ _ _ _ _ _ _ _ _ (hpre c)
    refine ⟨?_, (h c Cert.KernelIdeal.main_arg0 (by decide)).trans (Cert.KernelIdeal.Hand.Wc1_arg m ρ c Cert.KernelIdeal.main_arg0 (by decide)),
      (h c Cert.KernelIdeal.main_arg1 (by decide)).trans (Cert.KernelIdeal.Hand.Wc1_arg m ρ c Cert.KernelIdeal.main_arg1 (by decide)),
      (h c Cert.KernelIdeal.main_arg2 (by decide)).trans (Cert.KernelIdeal.Hand.Wc1_arg m ρ c Cert.KernelIdeal.main_arg2 (by decide)),
      (h c Cert.KernelIdeal.main_arg3 (by decide)).trans (Cert.KernelIdeal.Hand.Wc1_arg m ρ c Cert.KernelIdeal.main_arg3 (by decide)),
      (h c Cert.KernelIdeal.main_arg4 (by decide)).trans (Cert.KernelIdeal.Hand.Wc1_arg m ρ c Cert.KernelIdeal.main_arg4 (by decide)),
      (h c Cert.KernelIdeal.main_arg5 (by decide)).trans (Cert.KernelIdeal.Hand.Wc1_arg m ρ c Cert.KernelIdeal.main_arg5 (by decide)),
      (h c Cert.KernelIdeal.main_arg6 (by decide)).trans (Cert.KernelIdeal.Hand.Wc1_arg m ρ c Cert.KernelIdeal.main_arg6 (by decide)),
      (h c Cert.KernelIdeal.main_arg7 (by decide)).trans (Cert.KernelIdeal.Hand.Wc1_arg m ρ c Cert.KernelIdeal.main_arg7 (by decide)),
      (h c Cert.KernelIdeal.main_arg8 (by decide)).trans (Cert.KernelIdeal.Hand.Wc1_arg m ρ c Cert.KernelIdeal.main_arg8 (by decide)),
      (h c Cert.KernelIdeal.main_arg9 (by decide)).trans (Cert.KernelIdeal.Hand.Wc1_arg m ρ c Cert.KernelIdeal.main_arg9 (by decide)),
      (h c Cert.KernelIdeal.main_arg10 (by decide)).trans (Cert.KernelIdeal.Hand.Wc1_arg m ρ c Cert.KernelIdeal.main_arg10 (by decide)),
      (h c Cert.KernelIdeal.main_arg11 (by decide)).trans (Cert.KernelIdeal.Hand.Wc1_arg m ρ c Cert.KernelIdeal.main_arg11 (by decide)),
      (h c Cert.KernelIdeal.main_arg12 (by decide)).trans (Cert.KernelIdeal.Hand.Wc1_arg m ρ c Cert.KernelIdeal.main_arg12 (by decide)),
      (h c Cert.KernelIdeal.main_arg13 (by decide)).trans (Cert.KernelIdeal.Hand.Wc1_arg m ρ c Cert.KernelIdeal.main_arg13 (by decide)),
      (h c Cert.KernelIdeal.main_arg14 (by decide)).trans (Cert.KernelIdeal.Hand.Wc1_arg m ρ c Cert.KernelIdeal.main_arg14 (by decide)),
      (h c Cert.KernelIdeal.main_arg15 (by decide)).trans (Cert.KernelIdeal.Hand.Wc1_arg m ρ c Cert.KernelIdeal.main_arg15 (by decide)),
      (h c Cert.KernelIdeal.main_arg16 (by decide)).trans (Cert.KernelIdeal.Hand.Wc1_arg m ρ c Cert.KernelIdeal.main_arg16 (by decide)),
      (h c Cert.KernelIdeal.main_arg17 (by decide)).trans (Cert.KernelIdeal.Hand.Wc1_arg m ρ c Cert.KernelIdeal.main_arg17 (by decide)),
      (h c Cert.KernelIdeal.main_arg18 (by decide)).trans (Cert.KernelIdeal.Hand.Wc1_arg m ρ c Cert.KernelIdeal.main_arg18 (by decide)),
      (h c Cert.KernelIdeal.main_arg19 (by decide)).trans (Cert.KernelIdeal.Hand.Wc1_arg m ρ c Cert.KernelIdeal.main_arg19 (by decide)),
      (h c Cert.KernelIdeal.main_arg20 (by decide)).trans (Cert.KernelIdeal.Hand.Wc1_arg m ρ c Cert.KernelIdeal.main_arg20 (by decide)),
      (h c Cert.KernelIdeal.main_arg21 (by decide)).trans (Cert.KernelIdeal.Hand.Wc1_arg m ρ c Cert.KernelIdeal.main_arg21 (by decide))⟩
    exact ((h c Cert.KernelIdeal.main_v127 (by decide)).trans (Cert.KernelIdeal.Hand.result_eq m ρ c)).trans
      (Cert.KernelBridge.kernel_eq_netArr _ _ _ _ _ _ _ _ _ _ _ _ _ _ _ _ _ _ _ _ _ _ h1 h2 h3 h4 h5)
  · refine (θ_run (Cert.ReferenceIdeal.defs (F := Ideal)) _ _).mono (fun r h c => ⟨?_, (h c).2⟩) (Cert.ReferenceIdeal.Hand.run (F := Ideal) m' ρ')
    obtain ⟨h1, h2, h3, h4, h5⟩ := Cert.PreFacts.in_range _ _ _ _ _ _ _ _ _ _ _ _ _ _ _ _ _ _ _ _ _ _ (hpre c)
    refine ((h c).1.trans (Cert.ReferenceIdeal.Hand.out_eq (StableHlo.launchContents m' c))).trans ?_
    show Cert.RefValue.refOut
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15))
      (m' ((c.tc : Thread Cert.ReferenceIdeal.nD Cert.ReferenceIdeal.τ).loc Cert.ReferenceIdeal.main_arg16))
      (m' ((c.tc : Thread Cert.ReferenceIdeal.nD Cert.ReferenceIdeal.τ).loc Cert.ReferenceIdeal.main_arg17))
      (m' ((c.tc : Thread Cert.ReferenceIdeal.nD Cert.ReferenceIdeal.τ).loc Cert.ReferenceIdeal.main_arg18))
      (m' ((c.tc : Thread Cert.ReferenceIdeal.nD Cert.ReferenceIdeal.τ).loc Cert.ReferenceIdeal.main_arg19))
      (m' ((c.tc : Thread Cert.ReferenceIdeal.nD Cert.ReferenceIdeal.τ).loc Cert.ReferenceIdeal.main_arg20))
      (m' ((c.tc : Thread Cert.ReferenceIdeal.nD Cert.ReferenceIdeal.τ).loc Cert.ReferenceIdeal.main_arg21)) = _
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2]
    exact Cert.RefValue.refOut_eq_netArr _ _ _ _ _ _ _ _ _ _ _ _ _ _ _ _ _ _ _ _ _ _ h1 h2 h3 h4 h5

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
